-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S16384x16384 : Shape := ⟨2, ![16384, 16384]⟩
abbrev S32x32 : Shape := ⟨2, ![32, 32]⟩
abbrev S32 : Shape := ⟨1, ![32]⟩
abbrev S96x32 : Shape := ⟨2, ![96, 32]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S96x32 : S_.BroadcastsInDim S96x32 (![] : Fin 0 → Fin S96x32.rank)
  reducesTo_S96x32_S_d0_1 : S96x32.ReducesTo [0, 1] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S32x32 .f32) (main_arg5 : FVec F S32 .f32) (main_arg6 : FVec F S96x32 .f32) (main_arg7 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S96x32 .f32 := Host.absf main_arg6
  let main_cst_10 : FVec F S_ .f32 := constant S_ .f32 0x7F800000#32
  let main_v30 : FVec F S96x32 .f32 := broadcastInDim S96x32 ![] bcast_S_S96x32 main_cst_10
  let main_v31 : IVec S96x32 1 := cmpf .olt main_v29 main_v30
  let main_c_11 : IVec S_ 1 := constantI S_ 1 1#1
  let main_v32 : IVec S_ 1 := (fun x v => Host.reduce IntOp.andi x v reducesTo_S96x32_S_d0_1 h_S_) main_v31 main_c_11
  let main_v33 : IVec S_ 1 := andi main_v28 main_v32
  fn_part2 (F := F) main_arg7 main_v33

def fn {F : FTy → Type} [FloatOps F] (main_arg0 : FVec F S16384x32 .f32) (main_arg1 : FVec F S16384x16384 .f32) (main_arg2 : FVec F S32x32 .f32) (main_arg3 : FVec F S32 .f32) (main_arg4 : FVec F S32x32 .f32) (main_arg5 : FVec F S32 .f32) (main_arg6 : FVec F S96x32 .f32) (main_arg7 : FVec F S32 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_v13 main_v16
-- ==== Kernel.lean ====
abbrev S16384x32 : Shape := ⟨2, ![16384, 32]⟩
abbrev S16384x16384 : Shape := ⟨2, ![16384, 16384]⟩
abbrev S32x32 : Shape := ⟨2, ![32, 32]⟩
abbrev S32 : Shape := ⟨1, ![32]⟩
abbrev S96x32 : Shape := ⟨2, ![96, 32]⟩
abbrev S1024x2048 : Shape := ⟨2, ![1024, 2048]⟩
abbrev S2048x32 : Shape := ⟨2, ![2048, 32]⟩
abbrev S1024x32 : Shape := ⟨2, ![1024, 32]⟩
abbrev S_ : Shape := ⟨0, ![]⟩
abbrev S512x16384 : Shape := ⟨2, ![512, 16384]⟩
abbrev S512x32 : Shape := ⟨2, ![512, 32]⟩
abbrev S1x32 : Shape := ⟨2, ![1, 32]⟩
abbrev S16384x96 : Shape := ⟨2, ![16384, 96]⟩

abbrev nBuf : Space → Nat
  | .hbm => 115
  | .vmem => 58
  | .smem => 0
  | _ => 0

abbrev bufTy : (tb : Table) → Fin (tcTables nBuf tb) → BufTy
  | .hbm, ⟨0, _⟩ => ⟨S16384x32, .f32⟩
  | .hbm, ⟨1, _⟩ => ⟨S16384x16384, .f32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S96x32, .f32⟩
  | .hbm, ⟨7, _⟩ => ⟨S32, .f32⟩
  | .hbm, ⟨8, _⟩ => ⟨S16384x32, .bf16⟩
  | .hbm, ⟨9, _⟩ => ⟨S16384x16384, .bf16⟩
  | .hbm, ⟨10, _⟩ => ⟨S16384x32, .f32⟩
  | .hbm, ⟨11, _⟩ => ⟨S_, .f32⟩
  | .hbm, ⟨12, _⟩ => ⟨S16384x32, .f32⟩
  | .hbm, ⟨13, _⟩ => ⟨S16384x32, .f32⟩
  | .hbm, ⟨14, _⟩ => ⟨S_, .f32⟩
  | .hbm, ⟨15, _⟩ => ⟨S16384x32, .f32⟩
  | .hbm, ⟨16, _⟩ => ⟨S16384x32, .f32⟩
  | .hbm, ⟨17, _⟩ => ⟨S16384x32, .f32⟩
  | .hbm, ⟨18, _⟩ => ⟨S_, .f32⟩
  | .hbm, ⟨19, _⟩ => ⟨S16384x32, .f32⟩
  | .hbm, ⟨20, _⟩ => ⟨S16384x32, .f32⟩
  | .hbm, ⟨21, _⟩ => ⟨S_, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S16384x32, .bf16⟩
  | .hbm, ⟨26, _⟩ => ⟨S16384x32, .f32⟩
  | .hbm, ⟨27, _⟩ => ⟨S_, .f32⟩
  | .hbm, ⟨28, _⟩ => ⟨S16384x32, .f32⟩
  | .hbm, ⟨29, _⟩ => ⟨S16384x32, .f32⟩
  | .hbm, ⟨30, _⟩ => ⟨S16384x32, .f32⟩
  | .hbm, ⟨31, _⟩ => ⟨S_, .f32⟩
  | .hbm, ⟨32, _⟩ => ⟨S16384x32, .f32⟩
  | .hbm, ⟨33, _⟩ => ⟨S16384x32, .f32⟩
  | .hbm, ⟨34, _⟩ => ⟨S16384x32, .f32⟩
  | .hbm, ⟨35, _⟩ => ⟨S16384x32, .bf16⟩
  | .hbm, ⟨36, _⟩ => ⟨S16384x32, .f32⟩
  | .hbm, ⟨37, _⟩ => ⟨S_, .f32⟩
  | .hbm, ⟨38, _⟩ => ⟨S16384x32, .f32⟩
  | .hbm, ⟨39, _⟩ => ⟨S16384x32, .f32⟩
  | .hbm, ⟨40, _⟩ => ⟨S16384x32, .f32⟩
  | .hbm, ⟨41, _⟩ => ⟨S_, .f32⟩
  | .hbm, ⟨42, _⟩ => ⟨S16384x32, .f32⟩
  | .hbm, ⟨43, _⟩ => ⟨S16384x32, .f32⟩
  | .hbm, ⟨44, _⟩ => ⟨S16384x32, .f32⟩
  | .hbm, ⟨45, _⟩ => ⟨S16384x32, .bf16⟩
  | .hbm, ⟨46, _⟩ => ⟨S16384x32, .f32⟩
  | .hbm, ⟨47, _⟩ => ⟨S_, .f32⟩
  | .hbm, ⟨48, _⟩ => ⟨S16384x32, .f32⟩
  | .hbm, ⟨49, _⟩ => ⟨S16384x32, .f32⟩
  | .hbm, ⟨50, _⟩ => ⟨S16384x32, .f32⟩
  | .hbm, ⟨51, _⟩ => ⟨S_, .f32⟩
  | .hbm, ⟨52, _⟩ => ⟨S16384x32, .f32⟩
  | .hbm, ⟨53, _⟩ => ⟨S16384x32, .f32⟩
  | .hbm, ⟨54, _⟩ => ⟨S16384x32, .f32⟩
  | .hbm, ⟨55, _⟩ => ⟨S16384x32, .bf16⟩
  | .hbm, ⟨56, _⟩ => ⟨S16384x32, .f32⟩
  | .hbm, ⟨57, _⟩ => ⟨S_, .f32⟩
  | .hbm, ⟨58, _⟩ => ⟨S16384x32, .f32⟩
  | .hbm, ⟨59, _⟩ => ⟨S16384x32, .f32⟩
  | .hbm, ⟨60, _⟩ => ⟨S16384x32, .f32⟩
  | .hbm, ⟨61, _⟩ => ⟨S_, .f32⟩
  | .hbm, ⟨62, _⟩ => ⟨S16384x32, .f32⟩
  | .hbm, ⟨63, _⟩ => ⟨S16384x32, .f32⟩
  | .hbm, ⟨64, _⟩ => ⟨S16384x32, .f32⟩
  | .hbm, ⟨65, _⟩ => ⟨S16384x32, .bf16⟩
  | .hbm, ⟨66, _⟩ => ⟨S16384x32, .f32⟩
  | .hbm, ⟨67, _⟩ => ⟨S_, .f32⟩
  | .hbm, ⟨68, _⟩ => ⟨S16384x32, .f32⟩
  | .hbm, ⟨69, _⟩ => ⟨S16384x32, .f32⟩
  | .hbm, ⟨70, _⟩ => ⟨S16384x32, .f32⟩
  | .hbm, ⟨71, _⟩ => ⟨S_, .f32⟩
  | .hbm, ⟨72, _⟩ => ⟨S16384x32, .f32⟩
  | .hbm, ⟨73, _⟩ => ⟨S16384x32, .f32⟩
  | .hbm, ⟨74, _⟩ => ⟨S16384x32, .f32⟩
  | .hbm, ⟨75, _⟩ => ⟨S16384x32, .bf16⟩
  | .hbm, ⟨76, _⟩ => ⟨S16384x32, .f32⟩
  | .hbm, ⟨77, _⟩ => ⟨S_, .f32⟩
  | .hbm, ⟨78, _⟩ => ⟨S16384x32, .f32⟩
  | .hbm, ⟨79, _⟩ => ⟨S16384x32, .f32⟩
  | .hbm, ⟨80, _⟩ => ⟨S16384x32, .f32⟩
  | .hbm, ⟨81, _⟩ => ⟨S_, .f32⟩
  | .hbm, ⟨82, _⟩ => ⟨S16384x32, .f32⟩
  | .hbm, ⟨83, _⟩ => ⟨S16384x32, .f32⟩
  | .hbm, ⟨84, _⟩ => ⟨S16384x32, .f32⟩
  | .hbm, ⟨85, _⟩ => ⟨S16384x32, .bf16⟩
  | .hbm, ⟨86, _⟩ => ⟨S16384x32, .f32⟩
  | .hbm, ⟨87, _⟩ => ⟨S_, .f32⟩
  | .hbm, ⟨88, _⟩ => ⟨S16384x32, .f32⟩
  | .hbm, ⟨89, _⟩ => ⟨S16384x32, .f32⟩
  | .hbm, ⟨90, _⟩ => ⟨S16384x32, .f32⟩
  | .hbm, ⟨91, _⟩ => ⟨S_, .f32⟩
  | .hbm, ⟨92, _⟩ => ⟨S16384x32, .f32⟩
  | .hbm, ⟨93, _⟩ => ⟨S16384x32, .f32⟩
  | .hbm, ⟨94, _⟩ => ⟨S16384x32, .f32⟩
  | .hbm, ⟨95, _⟩ => ⟨S16384x32, .f32⟩
  | .hbm, ⟨96, _⟩ => ⟨S16384x32, .f32⟩
  | .hbm, ⟨97, _⟩ => ⟨S1x32, .f32⟩
  | .hbm, ⟨98, _⟩ => ⟨S16384x32, .f32⟩
  | .hbm, ⟨99, _⟩ => ⟨S16384x32, .f32⟩
  | .hbm, ⟨100, _⟩ => ⟨S_, .f32⟩
  | .hbm, ⟨101, _⟩ => ⟨S16384x32, .f32⟩
  | .hbm, ⟨102, _⟩ => ⟨S16384x32, .f32⟩
  | .hbm, ⟨103, _⟩ => ⟨S16384x32, .f32⟩
  | .hbm, ⟨104, _⟩ => ⟨S1x32, .f32⟩
  | .hbm, ⟨105, _⟩ => ⟨S16384x32, .f32⟩
  | .hbm, ⟨106, _⟩ => ⟨S16384x32, .f32⟩
  | .hbm, ⟨107, _⟩ => ⟨S_, .f32⟩
  | .hbm, ⟨108, _⟩ => ⟨S16384x32, .f32⟩
  | .hbm, ⟨109, _⟩ => ⟨S16384x32, .f32⟩
  | .hbm, ⟨110, _⟩ => ⟨S16384x96, .f32⟩
  | .hbm, ⟨111, _⟩ => ⟨S16384x32, .f32⟩
  | .hbm, ⟨112, _⟩ => ⟨S1x32, .f32⟩
  | .hbm, ⟨113, _⟩ => ⟨S16384x32, .f32⟩
  | .hbm, ⟨114, _⟩ => ⟨S16384x32, .f32⟩
  | .local _ .vmem, ⟨0, _⟩ => ⟨S1024x2048, .f32⟩
  | .local _ .vmem, ⟨1, _⟩ => ⟨S1024x2048, .f32⟩
  | .local _ .vmem, ⟨2, _⟩ => ⟨S2048x32, .bf16⟩
  | .local _ .vmem, ⟨3, _⟩ => ⟨S2048x32, .bf16⟩
  | .local _ .vmem, ⟨4, _⟩ => ⟨S1024x2048, .bf16⟩
  | .local _ .vmem, ⟨5, _⟩ => ⟨S1024x2048, .bf16⟩
  | .local _ .vmem, ⟨6, _⟩ => ⟨S1024x32, .f32⟩
  | .local _ .vmem, ⟨7, _⟩ => ⟨S1024x32, .f32⟩
  | .local _ .vmem, ⟨8, _⟩ => ⟨S1024x32, .f32⟩
  | .local _ .vmem, ⟨9, _⟩ => ⟨S512x16384, .bf16⟩
  | .local _ .vmem, ⟨10, _⟩ => ⟨S512x16384, .bf16⟩
  | .local _ .vmem, ⟨11, _⟩ => ⟨S16384x32, .bf16⟩
  | .local _ .vmem, ⟨12, _⟩ => ⟨S512x32, .f32⟩
  | .local _ .vmem, ⟨13, _⟩ => ⟨S512x32, .f32⟩
  | .local _ .vmem, ⟨14, _⟩ => ⟨S512x32, .f32⟩
  | .local _ .vmem, ⟨15, _⟩ => ⟨S512x32, .f32⟩
  | .local _ .vmem, ⟨16, _⟩ => ⟨S512x16384, .bf16⟩
  | .local _ .vmem, ⟨17, _⟩ => ⟨S512x16384, .bf16⟩
  | .local _ .vmem, ⟨18, _⟩ => ⟨S16384x32, .bf16⟩
  | .local _ .vmem, ⟨19, _⟩ => ⟨S512x32, .f32⟩
  | .local _ .vmem, ⟨20, _⟩ => ⟨S512x32, .f32⟩
  | .local _ .vmem, ⟨21, _⟩ => ⟨S512x32, .f32⟩
  | .local _ .vmem, ⟨22, _⟩ => ⟨S512x32, .f32⟩
  | .local _ .vmem, ⟨23, _⟩ => ⟨S512x16384, .bf16⟩
  | .local _ .vmem, ⟨24, _⟩ => ⟨S512x16384, .bf16⟩
  | .local _ .vmem, ⟨25, _⟩ => ⟨S16384x32, .bf16⟩
  | .local _ .vmem, ⟨26, _⟩ => ⟨S512x32, .f32⟩
  | .local _ .vmem, ⟨27, _⟩ => ⟨S512x32, .f32⟩
  | .local _ .vmem, ⟨28, _⟩ => ⟨S512x32, .f32⟩
  | .local _ .vmem, ⟨29, _⟩ => ⟨S512x32, .f32⟩
  | .local _ .vmem, ⟨30, _⟩ => ⟨S512x16384, .bf16⟩
  | .local _ .vmem, ⟨31, _⟩ => ⟨S512x16384, .bf16⟩
  | .local _ .vmem, ⟨32, _⟩ => ⟨S16384x32, .bf16⟩
  | .local _ .vmem, ⟨33, _⟩ => ⟨S512x32, .f32⟩
  | .local _ .vmem, ⟨34, _⟩ => ⟨S512x32, .f32⟩
  | .local _ .vmem, ⟨35, _⟩ => ⟨S512x32, .f32⟩
  | .local _ .vmem, ⟨36, _⟩ => ⟨S512x32, .f32⟩
  | .local _ .vmem, ⟨37, _⟩ => ⟨S512x16384, .bf16⟩
  | .local _ .vmem, ⟨38, _⟩ => ⟨S512x16384, .bf16⟩
  | .local _ .vmem, ⟨39, _⟩ => ⟨S16384x32, .bf16⟩
  | .local _ .vmem, ⟨40, _⟩ => ⟨S512x32, .f32⟩
  | .local _ .vmem, ⟨41, _⟩ => ⟨S512x32, .f32⟩
  | .local _ .vmem, ⟨42, _⟩ => ⟨S512x32, .f32⟩
  | .local _ .vmem, ⟨43, _⟩ => ⟨S512x32, .f32⟩
  | .local _ .vmem, ⟨44, _⟩ => ⟨S512x16384, .bf16⟩
  | .local _ .vmem, ⟨45, _⟩ => ⟨S512x16384, .bf16⟩
  | .local _ .vmem, ⟨46, _⟩ => ⟨S16384x32, .bf16⟩
  | .local _ .vmem, ⟨47, _⟩ => ⟨S512x32, .f32⟩
  | .local _ .vmem, ⟨48, _⟩ => ⟨S512x32, .f32⟩
  | .local _ .vmem, ⟨49, _⟩ => ⟨S512x32, .f32⟩
  | .local _ .vmem, ⟨50, _⟩ => ⟨S512x32, .f32⟩
  | .local _ .vmem, ⟨51, _⟩ => ⟨S512x16384, .bf16⟩
  | .local _ .vmem, ⟨52, _⟩ => ⟨S512x16384, .bf16⟩
  | .local _ .vmem, ⟨53, _⟩ => ⟨S16384x32, .bf16⟩
  | .local _ .vmem, ⟨54, _⟩ => ⟨S512x32, .f32⟩
  | .local _ .vmem, ⟨55, _⟩ => ⟨S512x32, .f32⟩
  | .local _ .vmem, ⟨56, _⟩ => ⟨S512x32, .f32⟩
  | .local _ .vmem, ⟨57, _⟩ => ⟨S512x32, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_13 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_14 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_15 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_16 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_call0_cst : Ref sig .tc := ⟨.hbm, 100, rfl⟩
abbrev main_call0_v0 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_call1_cst : Ref sig .tc := ⟨.hbm, 107, rfl⟩
abbrev main_call1_v0 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg3_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg2_1 : Ref sig .tc := ⟨.vmem, 48, rfl⟩
abbrev cc6_stg3_0 : Ref sig .tc := ⟨.vmem, 49, rfl⟩
abbrev cc6_stg3_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg2_0 : Ref sig .tc := ⟨.vmem, 54, rfl⟩
abbrev cc7_stg2_1 : Ref sig .tc := ⟨.vmem, 55, rfl⟩
abbrev cc7_stg3_0 : Ref sig .tc := ⟨.vmem, 56, rfl⟩
abbrev cc7_stg3_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40
abbrev cc5_sem3_0 : DmaSem sig := 41
abbrev cc5_sem3_1 : DmaSem sig := 42
abbrev cc6_sem0_0 : DmaSem sig := 43
abbrev cc6_sem0_1 : DmaSem sig := 44
abbrev cc6_sem1_0 : DmaSem sig := 45
abbrev cc6_sem2_0 : DmaSem sig := 46
abbrev cc6_sem2_1 : DmaSem sig := 47
abbrev cc6_sem3_0 : DmaSem sig := 48
abbrev cc6_sem3_1 : DmaSem sig := 49
abbrev cc7_sem0_0 : DmaSem sig := 50
abbrev cc7_sem0_1 : DmaSem sig := 51
abbrev cc7_sem1_0 : DmaSem sig := 52
abbrev cc7_sem2_0 : DmaSem sig := 53
abbrev cc7_sem2_1 : DmaSem sig := 54
abbrev cc7_sem3_0 : DmaSem sig := 55
abbrev cc7_sem3_1 : DmaSem sig := 56

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x16384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x16384 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16384x32 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x16384 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16384x32 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x16384 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16384x32 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x16384 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S16384x32 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S512x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x16384 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S16384x32 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S512x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S512x32 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![32], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x16384 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S16384x32 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S512x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S512x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  bitsLt_bf16_f32 : FTy.bits .bf16 < FTy.bits .f32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x2048_S1024x2048_0_0 : ∀ a, (![0, 0] : Fin 2 → Nat) a + S1024x2048.size a ≤ S1024x2048.size a
  h_S1024x2048 : 0 < S1024x2048.numel
  packedbf16_S1024x2048_S1024x2048_0_0 : (Rect.unit (s := S1024x2048) ![0, 0] S1024x2048.size inb_S1024x2048_S1024x2048_0_0).PackedRows (EltTy.packing .bf16)
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  bcast_S_S16384x32 : S_.BroadcastsInDim S16384x32 (![] : Fin 0 → Fin S16384x32.rank)
  inb_S512x16384_S512x16384_0_0 : ∀ a, (![0, 0] : Fin 2 → Nat) a + S512x16384.size a ≤ S512x16384.size a
  h_S512x16384 : 0 < S512x16384.numel
  shapeCasts_S512x16384_S512x16384 : S512x16384.ShapeCasts S512x16384
  inb_S16384x32_S16384x32_0_0 : ∀ a, (![0, 0] : Fin 2 → Nat) a + S16384x32.size a ≤ S16384x32.size a
  h_S16384x32 : 0 < S16384x32.numel
  shapeCasts_S16384x32_S16384x32 : S16384x32.ShapeCasts S16384x32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  concatenates_S16384x32_S16384x32_S16384x32_S16384x96_d1 : Shape.Concatenates [S16384x32, S16384x32, S16384x32] S16384x96 1
  dot_S1024x2048_S2048x32_S1024x32_1_0_0_1_n_n_wf : DotDims.WF S1024x2048 S2048x32 S1024x32 [1] [0] [0] [1] [] []
  dot_S512x16384_S16384x32_S512x32_1_0_0_1_n_n_wf : DotDims.WF S512x16384 S16384x32 S512x32 [1] [0] [0] [1] [] []
  dot_S16384x32_S32x32_S16384x32_1_0_0_1_n_n_wf : DotDims.WF S16384x32 S32x32 S16384x32 [1] [0] [0] [1] [] []
  dot_S16384x96_S96x32_S16384x32_1_0_0_1_n_n_wf : DotDims.WF S16384x96 S96x32 S16384x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S16384x32.size a
  hwx0_1 : ∀ i : grid0.Coords, EltTy.bits .bf16 = 32 ∨ (Rect.block (s := S16384x32) S2048x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S16384x16384.size a
  hwx0_2 : ∀ i : grid0.Coords, EltTy.bits .bf16 = 32 ∨ (Rect.block (s := S16384x16384) S1024x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S16384x32.size a
  hwx0_3 : ∀ i : grid0.Coords, EltTy.bits .f32 = 32 ∨ (Rect.block (s := S16384x32) S1024x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x16384.size a ≤ S16384x16384.size a
  hwx1_0 : ∀ i : grid1.Coords, EltTy.bits .bf16 = 32 ∨ (Rect.block (s := S16384x16384) S512x16384.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x32.size a ≤ S16384x32.size a
  hwx1_1 : ∀ i : grid1.Coords, EltTy.bits .bf16 = 32 ∨ (Rect.block (s := S16384x32) S16384x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x32.size a ≤ S16384x32.size a
  hwx1_2 : ∀ i : grid1.Coords, EltTy.bits .f32 = 32 ∨ (Rect.block (s := S16384x32) S512x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x32.size a ≤ S16384x32.size a
  hwx1_3 : ∀ i : grid1.Coords, EltTy.bits .f32 = 32 ∨ (Rect.block (s := S16384x32) S512x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x16384.size a ≤ S16384x16384.size a
  hwx2_0 : ∀ i : grid2.Coords, EltTy.bits .bf16 = 32 ∨ (Rect.block (s := S16384x16384) S512x16384.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16384x32.size a ≤ S16384x32.size a
  hwx2_1 : ∀ i : grid2.Coords, EltTy.bits .bf16 = 32 ∨ (Rect.block (s := S16384x32) S16384x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x32.size a ≤ S16384x32.size a
  hwx2_2 : ∀ i : grid2.Coords, EltTy.bits .f32 = 32 ∨ (Rect.block (s := S16384x32) S512x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x32.size a ≤ S16384x32.size a
  hwx2_3 : ∀ i : grid2.Coords, EltTy.bits .f32 = 32 ∨ (Rect.block (s := S16384x32) S512x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x16384.size a ≤ S16384x16384.size a
  hwx3_0 : ∀ i : grid3.Coords, EltTy.bits .bf16 = 32 ∨ (Rect.block (s := S16384x16384) S512x16384.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16384x32.size a ≤ S16384x32.size a
  hwx3_1 : ∀ i : grid3.Coords, EltTy.bits .bf16 = 32 ∨ (Rect.block (s := S16384x32) S16384x32.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x32.size a ≤ S16384x32.size a
  hwx3_2 : ∀ i : grid3.Coords, EltTy.bits .f32 = 32 ∨ (Rect.block (s := S16384x32) S512x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x32.size a ≤ S16384x32.size a
  hwx3_3 : ∀ i : grid3.Coords, EltTy.bits .f32 = 32 ∨ (Rect.block (s := S16384x32) S512x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x16384.size a ≤ S16384x16384.size a
  hwx4_0 : ∀ i : grid4.Coords, EltTy.bits .bf16 = 32 ∨ (Rect.block (s := S16384x16384) S512x16384.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16384x32.size a ≤ S16384x32.size a
  hwx4_1 : ∀ i : grid4.Coords, EltTy.bits .bf16 = 32 ∨ (Rect.block (s := S16384x32) S16384x32.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x32.size a ≤ S16384x32.size a
  hwx4_2 : ∀ i : grid4.Coords, EltTy.bits .f32 = 32 ∨ (Rect.block (s := S16384x32) S512x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x32.size a ≤ S16384x32.size a
  hwx4_3 : ∀ i : grid4.Coords, EltTy.bits .f32 = 32 ∨ (Rect.block (s := S16384x32) S512x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x16384.size a ≤ S16384x16384.size a
  hwx5_0 : ∀ i : grid5.Coords, EltTy.bits .bf16 = 32 ∨ (Rect.block (s := S16384x16384) S512x16384.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S16384x32.size a ≤ S16384x32.size a
  hwx5_1 : ∀ i : grid5.Coords, EltTy.bits .bf16 = 32 ∨ (Rect.block (s := S16384x32) S16384x32.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x32.size a ≤ S16384x32.size a
  hwx5_2 : ∀ i : grid5.Coords, EltTy.bits .f32 = 32 ∨ (Rect.block (s := S16384x32) S512x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x32.size a ≤ S16384x32.size a
  hwx5_3 : ∀ i : grid5.Coords, EltTy.bits .f32 = 32 ∨ (Rect.block (s := S16384x32) S512x32.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x16384.size a ≤ S16384x16384.size a
  hwx6_0 : ∀ i : grid6.Coords, EltTy.bits .bf16 = 32 ∨ (Rect.block (s := S16384x16384) S512x16384.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S16384x32.size a ≤ S16384x32.size a
  hwx6_1 : ∀ i : grid6.Coords, EltTy.bits .bf16 = 32 ∨ (Rect.block (s := S16384x32) S16384x32.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S512x32.size a ≤ S16384x32.size a
  hwx6_2 : ∀ i : grid6.Coords, EltTy.bits .f32 = 32 ∨ (Rect.block (s := S16384x32) S512x32.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S512x32.size a ≤ S16384x32.size a
  hwx6_3 : ∀ i : grid6.Coords, EltTy.bits .f32 = 32 ∨ (Rect.block (s := S16384x32) S512x32.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x16384.size a ≤ S16384x16384.size a
  hwx7_0 : ∀ i : grid7.Coords, EltTy.bits .bf16 = 32 ∨ (Rect.block (s := S16384x16384) S512x16384.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S16384x32.size a ≤ S16384x32.size a
  hwx7_1 : ∀ i : grid7.Coords, EltTy.bits .bf16 = 32 ∨ (Rect.block (s := S16384x32) S16384x32.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S512x32.size a ≤ S16384x32.size a
  hwx7_2 : ∀ i : grid7.Coords, EltTy.bits .f32 = 32 ∨ (Rect.block (s := S16384x32) S512x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S512x32.size a ≤ S16384x32.size a
  hwx7_3 : ∀ i : grid7.Coords, EltTy.bits .f32 = 32 ∨ (Rect.block (s := S16384x32) S512x32.size (cc7_transform_3 i) (hinb7_3 i)).WholeWords (EltTy.packing .f32)

variable [Facts₀]

def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf
def dot_S512x16384_S16384x32_S512x32_1_0_0_1_n_n : DotDims S512x16384 S16384x32 S512x32 where
  lhsContracting := [1]
  rhsContracting := [0]
  lhsNonContracting := [0]
  rhsNonContracting := [1]
  lhsBatch := []
  rhsBatch := []
  wf := dot_S512x16384_S16384x32_S512x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S16384x96_S96x32_S16384x32_1_0_0_1_n_n : DotDims S16384x96 S96x32 S16384x32 where
  lhsContracting := [1]
  rhsContracting := [0]
  lhsNonContracting := [0]
  rhsNonContracting := [1]
  lhsBatch := []
  rhsBatch := []
  wf := dot_S16384x96_S96x32_S16384x32_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1024x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1024x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1_0) S512x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S16384x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S512x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S512x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1_0) S512x16384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S16384x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1_1) S512x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S512x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v1_0) S512x16384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S16384x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v13) S512x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v29) S512x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v1_0) S512x16384.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S16384x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v21) S512x32.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v37) S512x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v1_0) S512x16384.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v44) S16384x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v29) S512x32.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v45) S512x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v1_0) S512x16384.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v52) S16384x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v37) S512x32.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v53) S512x32.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v1_0) S512x16384.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v60) S16384x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v45) S512x32.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v61) S512x32.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S16384x32 : Shape := ⟨2, ![16384, 32]⟩
abbrev S16384x16384 : Shape := ⟨2, ![16384, 16384]⟩
abbrev S32x32 : Shape := ⟨2, ![32, 32]⟩
abbrev S32 : Shape := ⟨1, ![32]⟩
abbrev S96x32 : Shape := ⟨2, ![96, 32]⟩
abbrev S9 : Shape := ⟨1, ![9]⟩
abbrev S1 : Shape := ⟨1, ![1]⟩
abbrev S_ : Shape := ⟨0, ![]⟩
abbrev S1x32 : Shape := ⟨2, ![1, 32]⟩
abbrev S16384x96 : Shape := ⟨2, ![16384, 96]⟩

abbrev nBuf : Space → Nat
  | .hbm => 154
  | .vmem => 0
  | .smem => 0
  | _ => 0

abbrev hbmTy0_0 (i : Nat) : BufTy := match i % 128 with
  | 0 => ⟨S16384x32, .f32⟩
  | 1 => ⟨S16384x16384, .f32⟩
  | 2 => ⟨S32x32, .f32⟩
  | 3 => ⟨S32, .f32⟩
  | 4 => ⟨S32x32, .f32⟩
  | 5 => ⟨S32, .f32⟩
  | 6 => ⟨S96x32, .f32⟩
  | 7 => ⟨S32, .f32⟩
  | 8 => ⟨S9, .f32⟩
  | 9 => ⟨S9, .f32⟩
  | 10 => ⟨S16384x32, .f32⟩
  | 11 => ⟨S1, .f32⟩
  | 12 => ⟨S_, .f32⟩
  | 13 => ⟨S16384x32, .f32⟩
  | 14 => ⟨S16384x32, .f32⟩
  | 15 => ⟨S1, .f32⟩
  | 16 => ⟨S_, .f32⟩
  | 17 => ⟨S16384x32, .f32⟩
  | 18 => ⟨S16384x32, .f32⟩
  | 19 => ⟨S16384x32, .f32⟩
  | 20 => ⟨S1, .f32⟩
  | 21 => ⟨S_, .f32⟩
  | 22 => ⟨S16384x32, .f32⟩
  | 23 => ⟨S16384x32, .f32⟩
  | 24 => ⟨S1, .f32⟩
  | 25 => ⟨S_, .f32⟩
  | 26 => ⟨S16384x32, .f32⟩
  | 27 => ⟨S16384x32, .f32⟩
  | 28 => ⟨S16384x32, .f32⟩
  | 29 => ⟨S16384x32, .f32⟩
  | 30 => ⟨S_, .f32⟩
  | 31 => ⟨S16384x32, .f32⟩
  | 32 => ⟨S16384x32, .f32⟩
  | 33 => ⟨S16384x32, .f32⟩
  | 34 => ⟨S1, .f32⟩
  | 35 => ⟨S_, .f32⟩
  | 36 => ⟨S16384x32, .f32⟩
  | 37 => ⟨S16384x32, .f32⟩
  | 38 => ⟨S16384x32, .f32⟩
  | 39 => ⟨S1, .f32⟩
  | 40 => ⟨S_, .f32⟩
  | 41 => ⟨S16384x32, .f32⟩
  | 42 => ⟨S16384x32, .f32⟩
  | 43 => ⟨S16384x32, .f32⟩
  | 44 => ⟨S16384x32, .f32⟩
  | 45 => ⟨S_, .f32⟩
  | 46 => ⟨S16384x32, .f32⟩
  | 47 => ⟨S16384x32, .f32⟩
  | 48 => ⟨S16384x32, .f32⟩
  | 49 => ⟨S1, .f32⟩
  | 50 => ⟨S_, .f32⟩
  | 51 => ⟨S16384x32, .f32⟩
  | 52 => ⟨S16384x32, .f32⟩
  | 53 => ⟨S16384x32, .f32⟩
  | 54 => ⟨S1, .f32⟩
  | 55 => ⟨S_, .f32⟩
  | 56 => ⟨S16384x32, .f32⟩
  | 57 => ⟨S16384x32, .f32⟩
  | 58 => ⟨S16384x32, .f32⟩
  | 59 => ⟨S16384x32, .f32⟩
  | 60 => ⟨S_, .f32⟩
  | 61 => ⟨S16384x32, .f32⟩
  | 62 => ⟨S16384x32, .f32⟩
  | 63 => ⟨S16384x32, .f32⟩
  | 64 => ⟨S1, .f32⟩
  | 65 => ⟨S_, .f32⟩
  | 66 => ⟨S16384x32, .f32⟩
  | 67 => ⟨S16384x32, .f32⟩
  | 68 => ⟨S16384x32, .f32⟩
  | 69 => ⟨S1, .f32⟩
  | 70 => ⟨S_, .f32⟩
  | 71 => ⟨S16384x32, .f32⟩
  | 72 => ⟨S16384x32, .f32⟩
  | 73 => ⟨S16384x32, .f32⟩
  | 74 => ⟨S16384x32, .f32⟩
  | 75 => ⟨S_, .f32⟩
  | 76 => ⟨S16384x32, .f32⟩
  | 77 => ⟨S16384x32, .f32⟩
  | 78 => ⟨S16384x32, .f32⟩
  | 79 => ⟨S1, .f32⟩
  | 80 => ⟨S_, .f32⟩
  | 81 => ⟨S16384x32, .f32⟩
  | 82 => ⟨S16384x32, .f32⟩
  | 83 => ⟨S16384x32, .f32⟩
  | 84 => ⟨S1, .f32⟩
  | 85 => ⟨S_, .f32⟩
  | 86 => ⟨S16384x32, .f32⟩
  | 87 => ⟨S16384x32, .f32⟩
  | 88 => ⟨S16384x32, .f32⟩
  | 89 => ⟨S16384x32, .f32⟩
  | 90 => ⟨S_, .f32⟩
  | 91 => ⟨S16384x32, .f32⟩
  | 92 => ⟨S16384x32, .f32⟩
  | 93 => ⟨S16384x32, .f32⟩
  | 94 => ⟨S1, .f32⟩
  | 95 => ⟨S_, .f32⟩
  | 96 => ⟨S16384x32, .f32⟩
  | 97 => ⟨S16384x32, .f32⟩
  | 98 => ⟨S16384x32, .f32⟩
  | 99 => ⟨S1, .f32⟩
  | 100 => ⟨S_, .f32⟩
  | 101 => ⟨S16384x32, .f32⟩
  | 102 => ⟨S16384x32, .f32⟩
  | 103 => ⟨S16384x32, .f32⟩
  | 104 => ⟨S16384x32, .f32⟩
  | 105 => ⟨S_, .f32⟩
  | 106 => ⟨S16384x32, .f32⟩
  | 107 => ⟨S16384x32, .f32⟩
  | 108 => ⟨S16384x32, .f32⟩
  | 109 => ⟨S1, .f32⟩
  | 110 => ⟨S_, .f32⟩
  | 111 => ⟨S16384x32, .f32⟩
  | 112 => ⟨S16384x32, .f32⟩
  | 113 => ⟨S16384x32, .f32⟩
  | 114 => ⟨S1, .f32⟩
  | 115 => ⟨S_, .f32⟩
  | 116 => ⟨S16384x32, .f32⟩
  | 117 => ⟨S16384x32, .f32⟩
  | 118 => ⟨S16384x32, .f32⟩
  | 119 => ⟨S16384x32, .f32⟩
  | 120 => ⟨S_, .f32⟩
  | 121 => ⟨S16384x32, .f32⟩
  | 122 => ⟨S16384x32, .f32⟩
  | 123 => ⟨S16384x32, .f32⟩
  | 124 => ⟨S1, .f32⟩
  | 125 => ⟨S_, .f32⟩
  | 126 => ⟨S16384x32, .f32⟩
  | 127 => ⟨S16384x32, .f32⟩
  | _ => ⟨S16384x32, .f32⟩

abbrev hbmTy0_1 (i : Nat) : BufTy := match i % 128 with
  | 0 => ⟨S16384x32, .f32⟩
  | 1 => ⟨S1, .f32⟩
  | 2 => ⟨S_, .f32⟩
  | 3 => ⟨S16384x32, .f32⟩
  | 4 => ⟨S16384x32, .f32⟩
  | 5 => ⟨S16384x32, .f32⟩
  | 6 => ⟨S16384x32, .f32⟩
  | 7 => ⟨S16384x32, .f32⟩
  | 8 => ⟨S1x32, .f32⟩
  | 9 => ⟨S16384x32, .f32⟩
  | 10 => ⟨S16384x32, .f32⟩
  | 11 => ⟨S_, .f32⟩
  | 12 => ⟨S16384x32, .f32⟩
  | 13 => ⟨S16384x32, .f32⟩
  | 14 => ⟨S16384x32, .f32⟩
  | 15 => ⟨S1x32, .f32⟩
  | 16 => ⟨S16384x32, .f32⟩
  | 17 => ⟨S16384x32, .f32⟩
  | 18 => ⟨S_, .f32⟩
  | 19 => ⟨S16384x32, .f32⟩
  | 20 => ⟨S16384x32, .f32⟩
  | 21 => ⟨S16384x96, .f32⟩
  | 22 => ⟨S16384x32, .f32⟩
  | 23 => ⟨S1x32, .f32⟩
  | 24 => ⟨S16384x32, .f32⟩
  | 25 => ⟨S16384x32, .f32⟩
  | _ => ⟨S16384x32, .f32⟩

abbrev hbmTy (i : Nat) : BufTy := match i / 128 with
  | 0 => hbmTy0_0 i
  | 1 => hbmTy0_1 i
  | _ => ⟨S16384x32, .f32⟩

abbrev bufTy : (tb : Table) → Fin (tcTables nBuf tb) → BufTy
  | .hbm, ⟨i, _⟩ => hbmTy i
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_3 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_4 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_5 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_cst_6 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_cst_7 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_call0_cst : Ref sig .tc := ⟨.hbm, 139, rfl⟩
abbrev main_call0_v0 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_call1_cst : Ref sig .tc := ⟨.hbm, 146, rfl⟩
abbrev main_call1_v0 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩

abbrev nD : Nat := 1
abbrev τ : Topo := Topo.v7x

variable {F : FTy → Type} [FloatOps F]

class Facts₀ : Prop where
  slices_S9_S1_0 : S9.Slices ![0] S1
  shapeCasts_S1_S_ : S1.ShapeCasts S_
  bcast_S_S16384x32 : S_.BroadcastsInDim S16384x32 (![] : Fin 0 → Fin S16384x32.rank)
  slices_S9_S1_1 : S9.Slices ![1] S1
  slices_S9_S1_2 : S9.Slices ![2] S1
  slices_S9_S1_3 : S9.Slices ![3] S1
  slices_S9_S1_4 : S9.Slices ![4] S1
  slices_S9_S1_5 : S9.Slices ![5] S1
  slices_S9_S1_6 : S9.Slices ![6] S1
  slices_S9_S1_7 : S9.Slices ![7] S1
  slices_S9_S1_8 : S9.Slices ![8] S1
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  concatenates_S16384x32_S16384x32_S16384x32_S16384x96_d1 : Shape.Concatenates [S16384x32, S16384x32, S16384x32] S16384x96 1
  dot_S16384x16384_S16384x32_S16384x32_1_0_0_1_n_n_wf : DotDims.WF S16384x16384 S16384x32 S16384x32 [1] [0] [0] [1] [] []
  dot_S16384x32_S32x32_S16384x32_1_0_0_1_n_n_wf : DotDims.WF S16384x32 S32x32 S16384x32 [1] [0] [0] [1] [] []
  dot_S16384x96_S96x32_S16384x32_1_0_0_1_n_n_wf : DotDims.WF S16384x96 S96x32 S16384x32 [1] [0] [0] [1] [] []

variable [Facts₀]

def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S16384x96_S96x32_S16384x32_1_0_0_1_n_n : DotDims S16384x96 S96x32 S16384x32 where
  lhsContracting := [1]
  rhsContracting := [0]
  lhsNonContracting := [0]
  rhsNonContracting := [1]
  lhsBatch := []
  rhsBatch := []
  wf := dot_S16384x96_S96x32_S16384x32_1_0_0_1_n_n_wf

class Facts : Prop extends Facts₀ where

variable [Facts]
-- ==== Proof.Kernel.Region0.Base.lean ====
/- Region 0 (the cast and the first product): what its three control cases share — the windows' blocks
   at the entry contents, the two branch conditions in closed form over the grid, where the last output
   window is idle, and the region invariant with the accumulator opened. -/
import proofs.«117973_j38328288150260_2_alg».proof.Proof.Gen.Kernel.Launch
import proofs.«117973_j38328288150260_2_alg».proof.Proof.Gen.Kernel.Skeleton
import proofs.«117973_j38328288150260_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The body's branch conditions -/

/-- The condition of the body's first conditional (the column coordinate is 0), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second conditional (the column coordinate is 7). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last column the body stores nothing into window 3's buffer, -/
theorem idleAt0_3 : ∀ t : Fin cfg0.N, ¬cond0_1 (grid0.coords t) → cfg0.idle 3 (grid0.coords t) = true := by decide +kernel
/-- and the pipeline does not write its block back; -/
theorem noFlush0_3 : ∀ t : Fin cfg0.N, ¬cond0_1 (grid0.coords t) → (cfg0.win 3).flush t = false := by decide +kernel
/-- at the last column it does store. -/
theorem liveAt0_3 : ∀ t : Fin cfg0.N, cond0_1 (grid0.coords t) → cfg0.idle 3 (grid0.coords t) = false := by decide +kernel

/-! ## The staging memrefs and the accumulator -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x32 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x32 .f32 := win0_3.stage (cfg0.slots t 3)
abbrev hs0_3 (t : Fin cfg0.N) : (ms0_3 t).IsWhole := hstage0_3 ((cfg0.slots t 3).cast nbuf0_3)
/-- The accumulator: a whole scoped buffer of the body's own, passed beside the windows. -/
abbrev scM0_0 : Memref sig .tc .vmem S1024x32 .f32 := Memref.whole cc0_scratch0

/-- The region invariant with the accumulator as a memref owned at some contents, the other scoped buffers unopened. -/
theorem PhiA0_eq (c : Dev nD) :
    (Pipeline.ΦA spec0 c : sProp 𝕄)
      = iprop(iprop(iprop((∃ d, owns (c : Thread nD τ) scM0_0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.Kernel.Hand

end
-- ==== Proof.Kernel.Region0.Runs.lean ====
/- Region 0: the body run on whole staging memrefs in each of its three control cases (first column: the
   accumulator is zeroed, then accumulated; middle columns: accumulated; last column: accumulated, then copied
   to the last output window). Each run yields, as lists of written pieces, what it leaves in the buffers it stores into. -/
import proofs.«117973_j38328288150260_2_alg».proof.Proof.Kernel.Region0.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First column. The inputs' buffers at their blocks, window 2's at anything, window 3's (idle) at contents handed back
    untouched, the accumulator at anything: the body runs to the continuation with window 2's buffer and the
    accumulator at their pieces written. -/
noncomputable def bodyRun0_A (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : cond0_0 i) (hc1 : ¬cond0_1 i)
    (x0 : Vec F S1024x2048 .f32) (x1 : Vec F S2048x32 .bf16) :
    Σ' (L2 : List (View.Piece (Elt F) S1024x2048 .bf16)), { LS0 : List (View.Piece (Elt F) S1024x32 .f32) //
      ∀ (xi3 : Vec F S1024x32 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__cast_first_kernel i arg2 harg2 arg3 harg3 arg4 harg4 arg5 harg5 arg6 harg6) K } := by
  refine ⟨?_, ?_, fun xi3 E K => ?run⟩
  case run =>
    simp only [cc0__cast_first_kernel_eq_skeleton]; unfold cc0__cast_first_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

set_option maxHeartbeats 1000000 in
/-- Middle columns. As the first column's, the accumulator at what the point before left. -/
noncomputable def bodyRun0_B (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : ¬cond0_1 i)
    (x0 : Vec F S1024x2048 .f32) (x1 : Vec F S2048x32 .bf16) (xs0 : Vec F S1024x32 .f32) :
    Σ' (L2 : List (View.Piece (Elt F) S1024x2048 .bf16)), { LS0 : List (View.Piece (Elt F) S1024x32 .f32) //
      ∀ (xi3 : Vec F S1024x32 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__cast_first_kernel i arg2 harg2 arg3 harg3 arg4 harg4 arg5 harg5 arg6 harg6) K } := by
  refine ⟨?_, ?_, fun xi3 E K => ?run⟩
  case run =>
    simp only [cc0__cast_first_kernel_eq_skeleton]; unfold cc0__cast_first_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg2.eq_unread hf0; obtain rfl := harg3.eq_unread hf1; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

set_option maxHeartbeats 1000000 in
/-- Last column. Window 3's buffer at anything: the body also leaves it with its piece written. -/
noncomputable def bodyRun0_C (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : cond0_1 i)
    (x0 : Vec F S1024x2048 .f32) (x1 : Vec F S2048x32 .bf16) (xs0 : Vec F S1024x32 .f32) :
    Σ' (L2 : List (View.Piece (Elt F) S1024x2048 .bf16)) (L3 : List (View.Piece (Elt F) S1024x32 .f32)), { LS0 : List (View.Piece (Elt F) S1024x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__cast_first_kernel i arg2 harg2 arg3 harg3 arg4 harg4 arg5 harg5 arg6 harg6) K } := by
  refine ⟨?_, ?_, ?_, fun E K => ?run⟩
  case run =>
    simp only [cc0__cast_first_kernel_eq_skeleton]; unfold cc0__cast_first_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.Kernel.Hand

end
-- ==== Proof.Kernel.Region0.Data.lean ====
/- Region 0 (the cast and the first product) at the entry contents: what its output windows' staging buffers and the
   accumulator hold after each point, the region's proof data, and the body obligation. -/
import proofs.«117973_j38328288150260_2_alg».proof.Proof.Kernel.Region0.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of each output window and the accumulator, as views through which contents are stated
    (the choice does not matter where the pieces cover). -/
abbrev VO0_2 : View sig .tc .vmem S1024x2048 .bf16 := (Memref.whole cc0_stg2_0 : Memref sig .tc .vmem S1024x2048 .bf16).view
abbrev VO0_3 : View sig .tc .vmem S1024x32 .f32 := (Memref.whole cc0_stg3_0 : Memref sig .tc .vmem S1024x32 .f32).view
abbrev VS0_0 : View sig .tc .vmem S1024x32 .f32 := scM0_0.view

/-- Window 3's buffer where the body stores nothing into it: a placeholder nothing consults (at those points the
    window is neither written back nor read at the next point). -/
def idle0_3 : Vec F S1024x32 .f32 := VO0_3.read (Elt F) (VO0_3.writes (Elt F) VO0_3.junk [])

/-- Case A: the pieces stored into window 2's buffer tile it, so they cover it. -/
theorem cover0_A_2 (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : cond0_0 i) (hc1 : ¬cond0_1 i) (x0 : Vec F S1024x2048 .f32) (x1 : Vec F S2048x32 .bf16) (y : S1024x2048.Idx) :
    ∃ pc ∈ (bodyRun0_A c i arg2 harg2 arg3 harg3 arg4 harg4 arg5 harg5 arg6 harg6 hc0 hc1 x0 x1).1, y ∈ pc.1.set :=
  View.cover_of_tiledL (bodyRun0_A c i arg2 harg2 arg3 harg3 arg4 harg4 arg5 harg5 arg6 harg6 hc0 hc1 x0 x1).1 S1024x2048.size (by sl_kernel_rfl) y

/-- What case A leaves in window 2's staging buffer: its pieces read back. -/
def out0_A_2 (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : cond0_0 i) (hc1 : ¬cond0_1 i) (x0 : Vec F S1024x2048 .f32) (x1 : Vec F S2048x32 .bf16) : Vec F S1024x2048 .bf16 :=
  VO0_2.read (Elt F) (VO0_2.writes (Elt F) VO0_2.junk (bodyRun0_A c i arg2 harg2 arg3 harg3 arg4 harg4 arg5 harg5 arg6 harg6 hc0 hc1 x0 x1).1)

/-- Case A: the pieces stored into the accumulator cover it. -/
theorem scover0_A (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : cond0_0 i) (hc1 : ¬cond0_1 i) (x0 : Vec F S1024x2048 .f32) (x1 : Vec F S2048x32 .bf16) (y : S1024x32.Idx) :
    ∃ pc ∈ (bodyRun0_A c i arg2 harg2 arg3 harg3 arg4 harg4 arg5 harg5 arg6 harg6 hc0 hc1 x0 x1).2.1, y ∈ pc.1.set :=
  View.cover_of_tiledL (bodyRun0_A c i arg2 harg2 arg3 harg3 arg4 harg4 arg5 harg5 arg6 harg6 hc0 hc1 x0 x1).2.1 S1024x32.size (by sl_kernel_rfl) y

/-- What case A leaves in the accumulator: its pieces read back. -/
def sout0_A (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : cond0_0 i) (hc1 : ¬cond0_1 i) (x0 : Vec F S1024x2048 .f32) (x1 : Vec F S2048x32 .bf16) : Vec F S1024x32 .f32 :=
  VS0_0.read (Elt F) (VS0_0.writes (Elt F) VS0_0.junk (bodyRun0_A c i arg2 harg2 arg3 harg3 arg4 harg4 arg5 harg5 arg6 harg6 hc0 hc1 x0 x1).2.1)

/-- Case B: the pieces stored into window 2's buffer tile it, so they cover it. -/
theorem cover0_B_2 (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : ¬cond0_1 i) (x0 : Vec F S1024x2048 .f32) (x1 : Vec F S2048x32 .bf16) (xs0 : Vec F S1024x32 .f32) (y : S1024x2048.Idx) :
    ∃ pc ∈ (bodyRun0_B c i arg2 harg2 arg3 harg3 arg4 harg4 arg5 harg5 arg6 harg6 hc0 hc1 x0 x1 xs0).1, y ∈ pc.1.set :=
  View.cover_of_tiledL (bodyRun0_B c i arg2 harg2 arg3 harg3 arg4 harg4 arg5 harg5 arg6 harg6 hc0 hc1 x0 x1 xs0).1 S1024x2048.size (by sl_kernel_rfl) y

/-- What case B leaves in window 2's staging buffer: its pieces read back. -/
def out0_B_2 (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : ¬cond0_1 i) (x0 : Vec F S1024x2048 .f32) (x1 : Vec F S2048x32 .bf16) (xs0 : Vec F S1024x32 .f32) : Vec F S1024x2048 .bf16 :=
  VO0_2.read (Elt F) (VO0_2.writes (Elt F) VO0_2.junk (bodyRun0_B c i arg2 harg2 arg3 harg3 arg4 harg4 arg5 harg5 arg6 harg6 hc0 hc1 x0 x1 xs0).1)

/-- Case B: the pieces stored into the accumulator cover it. -/
theorem scover0_B (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : ¬cond0_1 i) (x0 : Vec F S1024x2048 .f32) (x1 : Vec F S2048x32 .bf16) (xs0 : Vec F S1024x32 .f32) (y : S1024x32.Idx) :
    ∃ pc ∈ (bodyRun0_B c i arg2 harg2 arg3 harg3 arg4 harg4 arg5 harg5 arg6 harg6 hc0 hc1 x0 x1 xs0).2.1, y ∈ pc.1.set :=
  View.cover_of_tiledL (bodyRun0_B c i arg2 harg2 arg3 harg3 arg4 harg4 arg5 harg5 arg6 harg6 hc0 hc1 x0 x1 xs0).2.1 S1024x32.size (by sl_kernel_rfl) y

/-- What case B leaves in the accumulator: its pieces read back. -/
def sout0_B (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : ¬cond0_1 i) (x0 : Vec F S1024x2048 .f32) (x1 : Vec F S2048x32 .bf16) (xs0 : Vec F S1024x32 .f32) : Vec F S1024x32 .f32 :=
  VS0_0.read (Elt F) (VS0_0.writes (Elt F) VS0_0.junk (bodyRun0_B c i arg2 harg2 arg3 harg3 arg4 harg4 arg5 harg5 arg6 harg6 hc0 hc1 x0 x1 xs0).2.1)

/-- Case C: the pieces stored into window 2's buffer tile it, so they cover it. -/
theorem cover0_C_2 (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : cond0_1 i) (x0 : Vec F S1024x2048 .f32) (x1 : Vec F S2048x32 .bf16) (xs0 : Vec F S1024x32 .f32) (y : S1024x2048.Idx) :
    ∃ pc ∈ (bodyRun0_C c i arg2 harg2 arg3 harg3 arg4 harg4 arg5 harg5 arg6 harg6 hc0 hc1 x0 x1 xs0).1, y ∈ pc.1.set :=
  View.cover_of_tiledL (bodyRun0_C c i arg2 harg2 arg3 harg3 arg4 harg4 arg5 harg5 arg6 harg6 hc0 hc1 x0 x1 xs0).1 S1024x2048.size (by sl_kernel_rfl) y

/-- What case C leaves in window 2's staging buffer: its pieces read back. -/
def out0_C_2 (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : cond0_1 i) (x0 : Vec F S1024x2048 .f32) (x1 : Vec F S2048x32 .bf16) (xs0 : Vec F S1024x32 .f32) : Vec F S1024x2048 .bf16 :=
  VO0_2.read (Elt F) (VO0_2.writes (Elt F) VO0_2.junk (bodyRun0_C c i arg2 harg2 arg3 harg3 arg4 harg4 arg5 harg5 arg6 harg6 hc0 hc1 x0 x1 xs0).1)

/-- Case C: the pieces stored into the accumulator cover it. -/
theorem scover0_C (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : cond0_1 i) (x0 : Vec F S1024x2048 .f32) (x1 : Vec F S2048x32 .bf16) (xs0 : Vec F S1024x32 .f32) (y : S1024x32.Idx) :
    ∃ pc ∈ (bodyRun0_C c i arg2 harg2 arg3 harg3 arg4 harg4 arg5 harg5 arg6 harg6 hc0 hc1 x0 x1 xs0).2.2.1, y ∈ pc.1.set :=
  View.cover_of_tiledL (bodyRun0_C c i arg2 harg2 arg3 harg3 arg4 harg4 arg5 harg5 arg6 harg6 hc0 hc1 x0 x1 xs0).2.2.1 S1024x32.size (by sl_kernel_rfl) y

/-- What case C leaves in the accumulator: its pieces read back. -/
def sout0_C (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : cond0_1 i) (x0 : Vec F S1024x2048 .f32) (x1 : Vec F S2048x32 .bf16) (xs0 : Vec F S1024x32 .f32) : Vec F S1024x32 .f32 :=
  VS0_0.read (Elt F) (VS0_0.writes (Elt F) VS0_0.junk (bodyRun0_C c i arg2 harg2 arg3 harg3 arg4 harg4 arg5 harg5 arg6 harg6 hc0 hc1 x0 x1 xs0).2.2.1)

/-- Case C: the piece stored into window 3's buffer covers it. -/
theorem cover0_C_3 (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : cond0_1 i) (x0 : Vec F S1024x2048 .f32) (x1 : Vec F S2048x32 .bf16) (xs0 : Vec F S1024x32 .f32) (y : S1024x32.Idx) :
    ∃ pc ∈ (bodyRun0_C c i arg2 harg2 arg3 harg3 arg4 harg4 arg5 harg5 arg6 harg6 hc0 hc1 x0 x1 xs0).2.1, y ∈ pc.1.set :=
  View.cover_of_tiledL (bodyRun0_C c i arg2 harg2 arg3 harg3 arg4 harg4 arg5 harg5 arg6 harg6 hc0 hc1 x0 x1 xs0).2.1 S1024x32.size (by sl_kernel_rfl) y

/-- What case C leaves in window 3's staging buffer: its piece read back. -/
def out0_C_3 (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : cond0_1 i) (x0 : Vec F S1024x2048 .f32) (x1 : Vec F S2048x32 .bf16) (xs0 : Vec F S1024x32 .f32) : Vec F S1024x32 .f32 :=
  VO0_3.read (Elt F) (VO0_3.writes (Elt F) VO0_3.junk (bodyRun0_C c i arg2 harg2 arg3 harg3 arg4 harg4 arg5 harg5 arg6 harg6 hc0 hc1 x0 x1 xs0).2.1)

section Region
variable (V : (c : Dev nD) → (b : Ref sig .tc) → Buf (Elt F) ((c : Thread nD τ).loc b))

/-! ## What the outputs and the accumulator hold after each point -/

/-- THE ACCUMULATION. What window 2's and window 3's staging buffers and the accumulator hold after the body at
    position `n`: the case the column selects, run at the point's memrefs and input blocks, the accumulator read
    at what position `n - 1` left in it (off the first column). -/
def outsAt0 (c : Dev nD) : (n : ℕ) → n < cfg0.N → Vec F S1024x2048 .bf16 × Vec F S1024x32 .f32 × Vec F S1024x32 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), idle0_3, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), idle0_3, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2, idle0_3, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2)

/-- `outsAt0` at a point of the first column. -/
theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t), idle0_3, sout0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of the middle columns, over what the point before left. -/
theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2, idle0_3, sout0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of the last column, over what the point before left. -/
theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, sout0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer at anything); afterwards the accumulator at what the point before left in it, the other such
    buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ Pipeline.scopedRestBut (Ix := Unit) (Name := ℕ) (U := UR sig nD τ) (Lvl := ℕ) (Val := Elt F) spec0 c [cc0_scratch0]) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of the region on core `c`: the arrays as the region finds them; after the body at point `t`
    each input's buffer at its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- Before the first point the invariant is the class's. -/
theorem Phi0_first (c : Dev nD) : (dat0 V c).Φ 0 = Pipeline.ΦA spec0 c := rfl

/-- After any point but the first the invariant gives the class's back: the accumulator's named contents are forgotten. -/
theorem Phi0_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem Phi0_last (c : Dev nD) : (dat0 V c).Φ (Fin.last cfg0.N) ⊢ Pipeline.ΦA spec0 c :=
  Phi0_out V c _ (by rw [Fin.val_last]; have : cfg0.N = 128 := N_0; omega)

end Region

end Cert.Kernel.Hand

end
-- ==== Proof.Kernel.Region0.Body.lean ====
/- Region 0: the body obligation at a generic point, by the column's case. -/
import proofs.«117973_j38328288150260_2_alg».proof.Proof.Kernel.Region0.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the column says which case the point is in; the
    invariant hands the body the accumulator at what the point before left (at anything before the first point, and
    the first column does not read it) and takes it back at this point's contents; window 3's buffer is handed back
    untouched off the last column; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 128 := lt_of_lt_of_eq t.isLt (show cfg0.N = 128 from N_0)
  by_cases h0 : t.val % 8 = 0
  · by_cases h1 : t.val % 8 = 7
    · exfalso; omega
    · rw [Dat.leavesExact_idle (dat0 V c) 3 t (idleAt0_3 t (fun h => h1 ((hcond0_1 t).mp h))) (noFlush0_3 t (fun h => h1 ((hcond0_1 t).mp h)))]
      rw [outsAt0_A V c t h0 h1]
      unfold out0_A_2 sout0_A; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩, ⟨%d3, H3⟩⟩
        iapply ((bodyRun0_A c (grid0.coords t) _ _ _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexists _; iexact H2
        isplitl [H3]; · iexact H3
        isplitl [HS0]; · iexact HS0
        iintro ⟨H0, H1, ⟨%e2, H2⟩, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _)
        iexists _; iexact H3
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((bodyRun0_A c (grid0.coords t) _ _ _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexists _; iexact H2
        isplitl [H3]; · iexact H3
        isplitl [HS0]; · iexists _; iexact HS0
        iintro ⟨H0, H1, ⟨%e2, H2⟩, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _)
        iexists _; iexact H3
  · have hz : t.val ≠ 0 := fun h => h0 (by rw [h])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_2 out0_C_3 sout0_C; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((bodyRun0_C c (grid0.coords t) _ _ _ _ _ _ _ _ _ _ (fun h => h0 ((hcond0_0 t).mp h)) ((hcond0_1 t).mpr h1) (iblk0 V c 0 t) (iblk0 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold out0_B_2 sout0_B; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((bodyRun0_B c (grid0.coords t) _ _ _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _)
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.Kernel.Region0.lean ====
/- Region 0 (the cast and the first product) at a parameter for the entry contents: the windows' blocks (iblk0),
   what the outputs and the accumulator hold after each point (outsAt0 and its case equations), the proof data
   (dat0, A_eq0), the invariant's ends (Phi0_first, Phi0_last) and the body obligation (body_obligation0).
   The parts are in Region0/: Base (what the cases share), Runs (the body in each case), Data, Body. -/
import proofs.«117973_j38328288150260_2_alg».proof.Proof.Kernel.Region0.Body
-- ==== Proof.Kernel.Region1.lean ====
/- The class-A half of region 1 (one matvec step on a 512-row block): each window's block at a grid point read off
   the arrays as the region finds them, the body's one store as a function of the three input blocks, the body's
   triple, the pipeline's proof data and its body obligation. Generic in the float model. -/
import proofs.«117973_j38328288150260_2_alg».proof.Proof.Gen.Kernel.Launch
import proofs.«117973_j38328288150260_2_alg».proof.Proof.Gen.Kernel.Skeleton
import proofs.«117973_j38328288150260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row block of the operator) holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the whole vector operand) is fetched at the first point only and its block index never moves, so
    its buffer holds its block at every point: unfetched, the index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the previous iterate's row block) holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x16384 := Rect.unit (s := S512x16384) ![0, 0] S512x16384.size inb_S512x16384_S512x16384_0_0
abbrev r1_1 : Rect S16384x32 := Rect.unit (s := S16384x32) ![0, 0] S16384x32.size inb_S16384x32_S16384x32_0_0
abbrev r1_2 : Rect S512x32 := Rect.unit (s := S512x32) ![0, 0] S512x32.size inb_S512x32_S512x32_0_0

/-! ## What the body leaves in the output window's buffer -/

/-- Window 3's staging buffer after the body, from the input windows' blocks: its one store, of twice the product of
    the operator's row block with the vector operand less the previous iterate's block. -/
def out1_3 (x0 : Vec F S512x16384 .bf16) (x1 : Vec F S16384x32 .bf16) (x2 : Vec F S512x32 .f32) : Vec F S512x32 .f32 :=
  View.canon [⟨r1_2, k1_pay1 (View.ld x0 r1_0) (View.ld x1 r1_1) (View.ld x2 r1_2)⟩]

/-- The one store is of the whole buffer, so it covers it. -/
theorem cover1_3 (p0 : Vec F S512x32 .f32) (y : S512x32.Idx) :
    ∃ pc ∈ ([⟨r1_2, p0⟩] : List (View.Piece (Elt F) S512x32 .f32)), y ∈ pc.1.set :=
  View.cover_of_tiled [⟨r1_2, p0⟩] S512x32.size (by rfl) y

/-! ## The body's triple -/

set_option maxHeartbeats 1000000 in
/-- The body on whole staging memrefs, the inputs' at read contents and the output's at anything, runs to the
    continuation holding the inputs' as they were and the output's at `out1_3` of the inputs'. The body also reads the
    output buffer and drops what it read. -/
theorem sound_kernel1 (c : Dev nD) (E : Set ℕ) (i : grid1.Coords) (arg1 : Memref sig .tc .vmem S512x16384 .bf16) (harg1 : arg1.IsWhole) (arg2 : Memref sig .tc .vmem S16384x32 .bf16) (harg2 : arg2.IsWhole) (arg3 : Memref sig .tc .vmem S512x32 .f32) (harg3 : arg3.IsWhole) (arg4 : Memref sig .tc .vmem S512x32 .f32) (harg4 : arg4.IsWhole)
    (x0 : Vec F S512x16384 .bf16) (x1 : Vec F S16384x32 .bf16) (x2 : Vec F S512x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__matvec_step_kernel i arg1 harg1 arg2 harg2 arg3 harg3 arg4 harg4) K := by
  simp only [cc1__matvec_step_kernel_eq_skeleton]; unfold cc1__matvec_step_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the pipeline on core `c`: the arrays as the region finds them (`V`); after the body at point `t`
    each input's buffer at its block and the output's at `out1_3` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.Kernel.Region2.lean ====
/- The class-A half of region 2 (one matvec step on a 512-row block): each window's block at a grid point read off
   the arrays as the region finds them, the body's one store as a function of the three input blocks, the body's
   triple, the pipeline's proof data and its body obligation. Generic in the float model. -/
import proofs.«117973_j38328288150260_2_alg».proof.Proof.Gen.Kernel.Launch
import proofs.«117973_j38328288150260_2_alg».proof.Proof.Gen.Kernel.Skeleton
import proofs.«117973_j38328288150260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the row block of the operator) holds its block at every point, for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole vector operand) is fetched at the first point only and its block index never moves, so
    its buffer holds its block at every point: unfetched, the index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the previous iterate's row block) holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S512x16384 := Rect.unit (s := S512x16384) ![0, 0] S512x16384.size inb_S512x16384_S512x16384_0_0
abbrev r2_1 : Rect S16384x32 := Rect.unit (s := S16384x32) ![0, 0] S16384x32.size inb_S16384x32_S16384x32_0_0
abbrev r2_2 : Rect S512x32 := Rect.unit (s := S512x32) ![0, 0] S512x32.size inb_S512x32_S512x32_0_0

/-! ## What the body leaves in the output window's buffer -/

/-- Window 3's staging buffer after the body, from the input windows' blocks: its one store, of twice the product of
    the operator's row block with the vector operand less the previous iterate's block. -/
def out2_3 (x0 : Vec F S512x16384 .bf16) (x1 : Vec F S16384x32 .bf16) (x2 : Vec F S512x32 .f32) : Vec F S512x32 .f32 :=
  View.canon [⟨r2_2, k2_pay1 (View.ld x0 r2_0) (View.ld x1 r2_1) (View.ld x2 r2_2)⟩]

/-- The one store is of the whole buffer, so it covers it. -/
theorem cover2_3 (p0 : Vec F S512x32 .f32) (y : S512x32.Idx) :
    ∃ pc ∈ ([⟨r2_2, p0⟩] : List (View.Piece (Elt F) S512x32 .f32)), y ∈ pc.1.set :=
  View.cover_of_tiled [⟨r2_2, p0⟩] S512x32.size (by rfl) y

/-! ## The body's triple -/

set_option maxHeartbeats 1000000 in
/-- The body on whole staging memrefs, the inputs' at read contents and the output's at anything, runs to the
    continuation holding the inputs' as they were and the output's at `out2_3` of the inputs'. The body also reads the
    output buffer and drops what it read. -/
theorem sound_kernel2 (c : Dev nD) (E : Set ℕ) (i : grid2.Coords) (arg1 : Memref sig .tc .vmem S512x16384 .bf16) (harg1 : arg1.IsWhole) (arg2 : Memref sig .tc .vmem S16384x32 .bf16) (harg2 : arg2.IsWhole) (arg3 : Memref sig .tc .vmem S512x32 .f32) (harg3 : arg3.IsWhole) (arg4 : Memref sig .tc .vmem S512x32 .f32) (harg4 : arg4.IsWhole)
    (x0 : Vec F S512x16384 .bf16) (x1 : Vec F S16384x32 .bf16) (x2 : Vec F S512x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__matvec_step_kernel i arg1 harg1 arg2 harg2 arg3 harg3 arg4 harg4) K := by
  simp only [cc2__matvec_step_kernel_eq_skeleton]; unfold cc2__matvec_step_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the pipeline on core `c`: the arrays as the region finds them (`V`); after the body at point `t`
    each input's buffer at its block and the output's at `out2_3` of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.Kernel.Region3.lean ====
/- The class-A half of region 3 (one matvec step on a 512-row block): each window's block at a grid point read off
   the arrays as the region finds them, the body's one store as a function of the three input blocks, the body's
   triple, the pipeline's proof data and its body obligation. Generic in the float model. -/
import proofs.«117973_j38328288150260_2_alg».proof.Proof.Gen.Kernel.Launch
import proofs.«117973_j38328288150260_2_alg».proof.Proof.Gen.Kernel.Skeleton
import proofs.«117973_j38328288150260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row block of the operator) holds its block at every point, for any proof data whose array is
    `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the whole vector operand) is fetched at the first point only and its block index never moves, so
    its buffer holds its block at every point: unfetched, the index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the previous iterate's row block) holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S512x16384 := Rect.unit (s := S512x16384) ![0, 0] S512x16384.size inb_S512x16384_S512x16384_0_0
abbrev r3_1 : Rect S16384x32 := Rect.unit (s := S16384x32) ![0, 0] S16384x32.size inb_S16384x32_S16384x32_0_0
abbrev r3_2 : Rect S512x32 := Rect.unit (s := S512x32) ![0, 0] S512x32.size inb_S512x32_S512x32_0_0

/-! ## What the body leaves in the output window's buffer -/

/-- Window 3's staging buffer after the body, from the input windows' blocks: its one store, of twice the product of
    the operator's row block with the vector operand less the previous iterate's block. -/
def out3_3 (x0 : Vec F S512x16384 .bf16) (x1 : Vec F S16384x32 .bf16) (x2 : Vec F S512x32 .f32) : Vec F S512x32 .f32 :=
  View.canon [⟨r3_2, k3_pay1 (View.ld x0 r3_0) (View.ld x1 r3_1) (View.ld x2 r3_2)⟩]

/-- The one store is of the whole buffer, so it covers it. -/
theorem cover3_3 (p0 : Vec F S512x32 .f32) (y : S512x32.Idx) :
    ∃ pc ∈ ([⟨r3_2, p0⟩] : List (View.Piece (Elt F) S512x32 .f32)), y ∈ pc.1.set :=
  View.cover_of_tiled [⟨r3_2, p0⟩] S512x32.size (by rfl) y

/-! ## The body's triple -/

set_option maxHeartbeats 1000000 in
/-- The body on whole staging memrefs, the inputs' at read contents and the output's at anything, runs to the
    continuation holding the inputs' as they were and the output's at `out3_3` of the inputs'. The body also reads the
    output buffer and drops what it read. -/
theorem sound_kernel3 (c : Dev nD) (E : Set ℕ) (i : grid3.Coords) (arg1 : Memref sig .tc .vmem S512x16384 .bf16) (harg1 : arg1.IsWhole) (arg2 : Memref sig .tc .vmem S16384x32 .bf16) (harg2 : arg2.IsWhole) (arg3 : Memref sig .tc .vmem S512x32 .f32) (harg3 : arg3.IsWhole) (arg4 : Memref sig .tc .vmem S512x32 .f32) (harg4 : arg4.IsWhole)
    (x0 : Vec F S512x16384 .bf16) (x1 : Vec F S16384x32 .bf16) (x2 : Vec F S512x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__matvec_step_kernel i arg1 harg1 arg2 harg2 arg3 harg3 arg4 harg4) K := by
  simp only [cc3__matvec_step_kernel_eq_skeleton]; unfold cc3__matvec_step_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of the pipeline on core `c`: the arrays as the region finds them (`V`); after the body at point `t`
    each input's buffer at its block and the output's at `out3_3` of the input blocks; the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and the
    core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.Kernel.Region4.lean ====
/- The class-A half of region 4 (one matvec step on a 512-row block): each window's block at a grid point read off
   the arrays as the region finds them, the body's one store as a function of the three input blocks, the body's
   triple, the pipeline's proof data and its body obligation. Generic in the float model. -/
import proofs.«117973_j38328288150260_2_alg».proof.Proof.Gen.Kernel.Launch
import proofs.«117973_j38328288150260_2_alg».proof.Proof.Gen.Kernel.Skeleton
import proofs.«117973_j38328288150260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the row block of the operator) holds its block at every point, for any proof data whose array is
    `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the whole vector operand) is fetched at the first point only and its block index never moves, so
    its buffer holds its block at every point: unfetched, the index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2 (the previous iterate's row block) holds its block at every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S512x16384 := Rect.unit (s := S512x16384) ![0, 0] S512x16384.size inb_S512x16384_S512x16384_0_0
abbrev r4_1 : Rect S16384x32 := Rect.unit (s := S16384x32) ![0, 0] S16384x32.size inb_S16384x32_S16384x32_0_0
abbrev r4_2 : Rect S512x32 := Rect.unit (s := S512x32) ![0, 0] S512x32.size inb_S512x32_S512x32_0_0

/-! ## What the body leaves in the output window's buffer -/

/-- Window 3's staging buffer after the body, from the input windows' blocks: its one store, of twice the product of
    the operator's row block with the vector operand less the previous iterate's block. -/
def out4_3 (x0 : Vec F S512x16384 .bf16) (x1 : Vec F S16384x32 .bf16) (x2 : Vec F S512x32 .f32) : Vec F S512x32 .f32 :=
  View.canon [⟨r4_2, k4_pay1 (View.ld x0 r4_0) (View.ld x1 r4_1) (View.ld x2 r4_2)⟩]

/-- The one store is of the whole buffer, so it covers it. -/
theorem cover4_3 (p0 : Vec F S512x32 .f32) (y : S512x32.Idx) :
    ∃ pc ∈ ([⟨r4_2, p0⟩] : List (View.Piece (Elt F) S512x32 .f32)), y ∈ pc.1.set :=
  View.cover_of_tiled [⟨r4_2, p0⟩] S512x32.size (by rfl) y

/-! ## The body's triple -/

set_option maxHeartbeats 1000000 in
/-- The body on whole staging memrefs, the inputs' at read contents and the output's at anything, runs to the
    continuation holding the inputs' as they were and the output's at `out4_3` of the inputs'. The body also reads the
    output buffer and drops what it read. -/
theorem sound_kernel4 (c : Dev nD) (E : Set ℕ) (i : grid4.Coords) (arg1 : Memref sig .tc .vmem S512x16384 .bf16) (harg1 : arg1.IsWhole) (arg2 : Memref sig .tc .vmem S16384x32 .bf16) (harg2 : arg2.IsWhole) (arg3 : Memref sig .tc .vmem S512x32 .f32) (harg3 : arg3.IsWhole) (arg4 : Memref sig .tc .vmem S512x32 .f32) (harg4 : arg4.IsWhole)
    (x0 : Vec F S512x16384 .bf16) (x1 : Vec F S16384x32 .bf16) (x2 : Vec F S512x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__matvec_step_kernel i arg1 harg1 arg2 harg2 arg3 harg3 arg4 harg4) K := by
  simp only [cc4__matvec_step_kernel_eq_skeleton]; unfold cc4__matvec_step_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of the pipeline on core `c`: the arrays as the region finds them (`V`); after the body at point `t`
    each input's buffer at its block and the output's at `out4_3` of the input blocks; the scoped rest and the generator
    register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so `sound_kernel4` applies; the invariant and the
    core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.Kernel.Region5.lean ====
/- The class-A half of region 5 (one matvec step on a 512-row block): each window's block at a grid point read off
   the arrays as the region finds them, the body's one store as a function of the three input blocks, the body's
   triple, the pipeline's proof data and its body obligation. Generic in the float model. -/
import proofs.«117973_j38328288150260_2_alg».proof.Proof.Gen.Kernel.Launch
import proofs.«117973_j38328288150260_2_alg».proof.Proof.Gen.Kernel.Skeleton
import proofs.«117973_j38328288150260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the row block of the operator) holds its block at every point, for any proof data whose array is
    `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the whole vector operand) is fetched at the first point only and its block index never moves, so
    its buffer holds its block at every point: unfetched, the index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2 (the previous iterate's row block) holds its block at every point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S512x16384 := Rect.unit (s := S512x16384) ![0, 0] S512x16384.size inb_S512x16384_S512x16384_0_0
abbrev r5_1 : Rect S16384x32 := Rect.unit (s := S16384x32) ![0, 0] S16384x32.size inb_S16384x32_S16384x32_0_0
abbrev r5_2 : Rect S512x32 := Rect.unit (s := S512x32) ![0, 0] S512x32.size inb_S512x32_S512x32_0_0

/-! ## What the body leaves in the output window's buffer -/

/-- Window 3's staging buffer after the body, from the input windows' blocks: its one store, of twice the product of
    the operator's row block with the vector operand less the previous iterate's block. -/
def out5_3 (x0 : Vec F S512x16384 .bf16) (x1 : Vec F S16384x32 .bf16) (x2 : Vec F S512x32 .f32) : Vec F S512x32 .f32 :=
  View.canon [⟨r5_2, k5_pay1 (View.ld x0 r5_0) (View.ld x1 r5_1) (View.ld x2 r5_2)⟩]

/-- The one store is of the whole buffer, so it covers it. -/
theorem cover5_3 (p0 : Vec F S512x32 .f32) (y : S512x32.Idx) :
    ∃ pc ∈ ([⟨r5_2, p0⟩] : List (View.Piece (Elt F) S512x32 .f32)), y ∈ pc.1.set :=
  View.cover_of_tiled [⟨r5_2, p0⟩] S512x32.size (by rfl) y

/-! ## The body's triple -/

set_option maxHeartbeats 1000000 in
/-- The body on whole staging memrefs, the inputs' at read contents and the output's at anything, runs to the
    continuation holding the inputs' as they were and the output's at `out5_3` of the inputs'. The body also reads the
    output buffer and drops what it read. -/
theorem sound_kernel5 (c : Dev nD) (E : Set ℕ) (i : grid5.Coords) (arg1 : Memref sig .tc .vmem S512x16384 .bf16) (harg1 : arg1.IsWhole) (arg2 : Memref sig .tc .vmem S16384x32 .bf16) (harg2 : arg2.IsWhole) (arg3 : Memref sig .tc .vmem S512x32 .f32) (harg3 : arg3.IsWhole) (arg4 : Memref sig .tc .vmem S512x32 .f32) (harg4 : arg4.IsWhole)
    (x0 : Vec F S512x16384 .bf16) (x1 : Vec F S16384x32 .bf16) (x2 : Vec F S512x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__matvec_step_kernel i arg1 harg1 arg2 harg2 arg3 harg3 arg4 harg4) K := by
  simp only [cc5__matvec_step_kernel_eq_skeleton]; unfold cc5__matvec_step_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of the pipeline on core `c`: the arrays as the region finds them (`V`); after the body at point `t`
    each input's buffer at its block and the output's at `out5_3` of the input blocks; the scoped rest and the generator
    register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so `sound_kernel5` applies; the invariant and the
    core's debt pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.Kernel.Region6.lean ====
/- The class-A half of region 6 (one matvec step on a 512-row block): each window's block at a grid point read off
   the arrays as the region finds them, the body's one store as a function of the three input blocks, the body's
   triple, the pipeline's proof data and its body obligation. Generic in the float model. -/
import proofs.«117973_j38328288150260_2_alg».proof.Proof.Gen.Kernel.Launch
import proofs.«117973_j38328288150260_2_alg».proof.Proof.Gen.Kernel.Skeleton
import proofs.«117973_j38328288150260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (the row block of the operator) holds its block at every point, for any proof data whose array is
    `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the whole vector operand) is fetched at the first point only and its block index never moves, so
    its buffer holds its block at every point: unfetched, the index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2 (the previous iterate's row block) holds its block at every point. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S512x16384 := Rect.unit (s := S512x16384) ![0, 0] S512x16384.size inb_S512x16384_S512x16384_0_0
abbrev r6_1 : Rect S16384x32 := Rect.unit (s := S16384x32) ![0, 0] S16384x32.size inb_S16384x32_S16384x32_0_0
abbrev r6_2 : Rect S512x32 := Rect.unit (s := S512x32) ![0, 0] S512x32.size inb_S512x32_S512x32_0_0

/-! ## What the body leaves in the output window's buffer -/

/-- Window 3's staging buffer after the body, from the input windows' blocks: its one store, of twice the product of
    the operator's row block with the vector operand less the previous iterate's block. -/
def out6_3 (x0 : Vec F S512x16384 .bf16) (x1 : Vec F S16384x32 .bf16) (x2 : Vec F S512x32 .f32) : Vec F S512x32 .f32 :=
  View.canon [⟨r6_2, k6_pay1 (View.ld x0 r6_0) (View.ld x1 r6_1) (View.ld x2 r6_2)⟩]

/-- The one store is of the whole buffer, so it covers it. -/
theorem cover6_3 (p0 : Vec F S512x32 .f32) (y : S512x32.Idx) :
    ∃ pc ∈ ([⟨r6_2, p0⟩] : List (View.Piece (Elt F) S512x32 .f32)), y ∈ pc.1.set :=
  View.cover_of_tiled [⟨r6_2, p0⟩] S512x32.size (by rfl) y

/-! ## The body's triple -/

set_option maxHeartbeats 1000000 in
/-- The body on whole staging memrefs, the inputs' at read contents and the output's at anything, runs to the
    continuation holding the inputs' as they were and the output's at `out6_3` of the inputs'. The body also reads the
    output buffer and drops what it read. -/
theorem sound_kernel6 (c : Dev nD) (E : Set ℕ) (i : grid6.Coords) (arg1 : Memref sig .tc .vmem S512x16384 .bf16) (harg1 : arg1.IsWhole) (arg2 : Memref sig .tc .vmem S16384x32 .bf16) (harg2 : arg2.IsWhole) (arg3 : Memref sig .tc .vmem S512x32 .f32) (harg3 : arg3.IsWhole) (arg4 : Memref sig .tc .vmem S512x32 .f32) (harg4 : arg4.IsWhole)
    (x0 : Vec F S512x16384 .bf16) (x1 : Vec F S16384x32 .bf16) (x2 : Vec F S512x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__matvec_step_kernel i arg1 harg1 arg2 harg2 arg3 harg3 arg4 harg4) K := by
  simp only [cc6__matvec_step_kernel_eq_skeleton]; unfold cc6__matvec_step_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of the pipeline on core `c`: the arrays as the region finds them (`V`); after the body at point `t`
    each input's buffer at its block and the output's at `out6_3` of the input blocks; the scoped rest and the generator
    register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so `sound_kernel6` applies; the invariant and the
    core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.Kernel.Region7.lean ====
/- The class-A half of region 7 (one matvec step on a 512-row block): each window's block at a grid point read off
   the arrays as the region finds them, the body's one store as a function of the three input blocks, the body's
   triple, the pipeline's proof data and its body obligation. Generic in the float model. -/
import proofs.«117973_j38328288150260_2_alg».proof.Proof.Gen.Kernel.Launch
import proofs.«117973_j38328288150260_2_alg».proof.Proof.Gen.Kernel.Skeleton
import proofs.«117973_j38328288150260_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0 (the row block of the operator) holds its block at every point, for any proof data whose array is
    `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1 (the whole vector operand) is fetched at the first point only and its block index never moves, so
    its buffer holds its block at every point: unfetched, the index has not moved. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2 (the previous iterate's row block) holds its block at every point. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S512x16384 := Rect.unit (s := S512x16384) ![0, 0] S512x16384.size inb_S512x16384_S512x16384_0_0
abbrev r7_1 : Rect S16384x32 := Rect.unit (s := S16384x32) ![0, 0] S16384x32.size inb_S16384x32_S16384x32_0_0
abbrev r7_2 : Rect S512x32 := Rect.unit (s := S512x32) ![0, 0] S512x32.size inb_S512x32_S512x32_0_0

/-! ## What the body leaves in the output window's buffer -/

/-- Window 3's staging buffer after the body, from the input windows' blocks: its one store, of twice the product of
    the operator's row block with the vector operand less the previous iterate's block. -/
def out7_3 (x0 : Vec F S512x16384 .bf16) (x1 : Vec F S16384x32 .bf16) (x2 : Vec F S512x32 .f32) : Vec F S512x32 .f32 :=
  View.canon [⟨r7_2, k7_pay1 (View.ld x0 r7_0) (View.ld x1 r7_1) (View.ld x2 r7_2)⟩]

/-- The one store is of the whole buffer, so it covers it. -/
theorem cover7_3 (p0 : Vec F S512x32 .f32) (y : S512x32.Idx) :
    ∃ pc ∈ ([⟨r7_2, p0⟩] : List (View.Piece (Elt F) S512x32 .f32)), y ∈ pc.1.set :=
  View.cover_of_tiled [⟨r7_2, p0⟩] S512x32.size (by rfl) y

/-! ## The body's triple -/

set_option maxHeartbeats 1000000 in
/-- The body on whole staging memrefs, the inputs' at read contents and the output's at anything, runs to the
    continuation holding the inputs' as they were and the output's at `out7_3` of the inputs'. The body also reads the
    output buffer and drops what it read. -/
theorem sound_kernel7 (c : Dev nD) (E : Set ℕ) (i : grid7.Coords) (arg1 : Memref sig .tc .vmem S512x16384 .bf16) (harg1 : arg1.IsWhole) (arg2 : Memref sig .tc .vmem S16384x32 .bf16) (harg2 : arg2.IsWhole) (arg3 : Memref sig .tc .vmem S512x32 .f32) (harg3 : arg3.IsWhole) (arg4 : Memref sig .tc .vmem S512x32 .f32) (harg4 : arg4.IsWhole)
    (x0 : Vec F S512x16384 .bf16) (x1 : Vec F S16384x32 .bf16) (x2 : Vec F S512x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__matvec_step_kernel i arg1 harg1 arg2 harg2 arg3 harg3 arg4 harg4) K := by
  simp only [cc7__matvec_step_kernel_eq_skeleton]; unfold cc7__matvec_step_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of the pipeline on core `c`: the arrays as the region finds them (`V`); after the body at point `t`
    each input's buffer at its block and the output's at `out7_3` of the input blocks; the scoped rest and the generator
    register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so `sound_kernel7` applies; the invariant and the
    core's debt pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand
-- ==== Proof.Kernel.Fold.lean ====
/- The contents of the TensorCore's unscoped buffers at every boundary between two items of the main program — a
   stretch of host operations, or one of the eight kernel regions — as a fold from the launch memory: a host stretch
   applies its operations; a region leaves each of its arrays at what its pipeline's write-backs fold to and every other
   buffer as it found it.  With it: every pipeline's proof data at its region's entry contents. -/
import proofs.«117973_j38328288150260_2_alg».proof.Proof.Gen.Kernel.Regions
import proofs.«117973_j38328288150260_2_alg».proof.Proof.Kernel.Region0
import proofs.«117973_j38328288150260_2_alg».proof.Proof.Kernel.Region1
import proofs.«117973_j38328288150260_2_alg».proof.Proof.Kernel.Region2
import proofs.«117973_j38328288150260_2_alg».proof.Proof.Kernel.Region3
import proofs.«117973_j38328288150260_2_alg».proof.Proof.Kernel.Region4
import proofs.«117973_j38328288150260_2_alg».proof.Proof.Kernel.Region5
import proofs.«117973_j38328288150260_2_alg».proof.Proof.Kernel.Region6
import proofs.«117973_j38328288150260_2_alg».proof.Proof.Kernel.Region7
import Idealize.ShloMosaic.Lib.Pipeline.FrameSuffix
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev atTc (W : Dev nD → Valuation τ sig (Elt F)) : (c : Dev nD) → (b : Ref sig .tc) → Buf (Elt F) ((c : Thread nD τ).loc b) := fun c b => W c b

/-! ## The fold -/

/-- Core `c`'s buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- After region 0: its arrays at what the pipeline leaves (an input as entered, an output at its write-backs folded), every
    other buffer as entered. -/
def W2 (c : Dev nD) : Valuation τ sig (Elt F) :=
  Pipeline.withArrays spec0 c (W1 m c) fun w => (dat0 (atTc (W1 m)) c).arrAt w cfg0.N
theorem W2_arr (c : Dev nD) (w : Fin cfg0.W) :
    W2 m c (Proc.devRef .tc (Pipeline.arrRef spec0 w)) = (dat0 (atTc (W1 m)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- At region 0's exit each of its arrays holds what the pipeline leaves, and every other buffer what it held at entry. -/
theorem hF0 (c : Dev nD) (w : Fin cfg0.W) : (dat0 (atTc (W1 m)) c).arrAt w cfg0.N = atTc (W2 m) c (Pipeline.arrRef spec0 w) :=
  (W2_arr m c w).symm
theorem hrest0 (c : Dev nD) : ∀ b, b ∉ Finset.univ.image (Pipeline.arrRef spec0) → atTc (W2 m) c b = atTc (W1 m) c b :=
  fun b hb => W2_of_ne m c b fun w e => hb (Finset.mem_image.mpr ⟨w, Finset.mem_univ _, e⟩)
/-- After the host stretch `hostOps1`. -/
abbrev W3 : Dev nD → Valuation τ sig (Elt F) := fun c => StableHlo.after hostOps1 (W2 m c)
/-- After region 1: its arrays at what the pipeline leaves (an input as entered, an output at its write-backs folded), every
    other buffer as entered. -/
def W4 (c : Dev nD) : Valuation τ sig (Elt F) :=
  Pipeline.withArrays spec1 c (W3 m c) fun w => (dat1 (atTc (W3 m)) c).arrAt w cfg1.N
theorem W4_arr (c : Dev nD) (w : Fin cfg1.W) :
    W4 m c (Proc.devRef .tc (Pipeline.arrRef spec1 w)) = (dat1 (atTc (W3 m)) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- At region 1's exit each of its arrays holds what the pipeline leaves, and every other buffer what it held at entry. -/
theorem hF1 (c : Dev nD) (w : Fin cfg1.W) : (dat1 (atTc (W3 m)) c).arrAt w cfg1.N = atTc (W4 m) c (Pipeline.arrRef spec1 w) :=
  (W4_arr m c w).symm
theorem hrest1 (c : Dev nD) : ∀ b, b ∉ Finset.univ.image (Pipeline.arrRef spec1) → atTc (W4 m) c b = atTc (W3 m) c b :=
  fun b hb => W4_of_ne m c b fun w e => hb (Finset.mem_image.mpr ⟨w, Finset.mem_univ _, e⟩)
/-- After the host stretch `hostOps2`. -/
abbrev W5 : Dev nD → Valuation τ sig (Elt F) := fun c => StableHlo.after hostOps2 (W4 m c)
/-- After region 2: its arrays at what the pipeline leaves (an input as entered, an output at its write-backs folded), every
    other buffer as entered. -/
def W6 (c : Dev nD) : Valuation τ sig (Elt F) :=
  Pipeline.withArrays spec2 c (W5 m c) fun w => (dat2 (atTc (W5 m)) c).arrAt w cfg2.N
theorem W6_arr (c : Dev nD) (w : Fin cfg2.W) :
    W6 m c (Proc.devRef .tc (Pipeline.arrRef spec2 w)) = (dat2 (atTc (W5 m)) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- At region 2's exit each of its arrays holds what the pipeline leaves, and every other buffer what it held at entry. -/
theorem hF2 (c : Dev nD) (w : Fin cfg2.W) : (dat2 (atTc (W5 m)) c).arrAt w cfg2.N = atTc (W6 m) c (Pipeline.arrRef spec2 w) :=
  (W6_arr m c w).symm
theorem hrest2 (c : Dev nD) : ∀ b, b ∉ Finset.univ.image (Pipeline.arrRef spec2) → atTc (W6 m) c b = atTc (W5 m) c b :=
  fun b hb => W6_of_ne m c b fun w e => hb (Finset.mem_image.mpr ⟨w, Finset.mem_univ _, e⟩)
/-- After the host stretch `hostOps3`. -/
abbrev W7 : Dev nD → Valuation τ sig (Elt F) := fun c => StableHlo.after hostOps3 (W6 m c)
/-- After region 3: its arrays at what the pipeline leaves (an input as entered, an output at its write-backs folded), every
    other buffer as entered. -/
def W8 (c : Dev nD) : Valuation τ sig (Elt F) :=
  Pipeline.withArrays spec3 c (W7 m c) fun w => (dat3 (atTc (W7 m)) c).arrAt w cfg3.N
theorem W8_arr (c : Dev nD) (w : Fin cfg3.W) :
    W8 m c (Proc.devRef .tc (Pipeline.arrRef spec3 w)) = (dat3 (atTc (W7 m)) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- At region 3's exit each of its arrays holds what the pipeline leaves, and every other buffer what it held at entry. -/
theorem hF3 (c : Dev nD) (w : Fin cfg3.W) : (dat3 (atTc (W7 m)) c).arrAt w cfg3.N = atTc (W8 m) c (Pipeline.arrRef spec3 w) :=
  (W8_arr m c w).symm
theorem hrest3 (c : Dev nD) : ∀ b, b ∉ Finset.univ.image (Pipeline.arrRef spec3) → atTc (W8 m) c b = atTc (W7 m) c b :=
  fun b hb => W8_of_ne m c b fun w e => hb (Finset.mem_image.mpr ⟨w, Finset.mem_univ _, e⟩)
/-- After the host stretch `hostOps4`. -/
abbrev W9 : Dev nD → Valuation τ sig (Elt F) := fun c => StableHlo.after hostOps4 (W8 m c)
/-- After region 4: its arrays at what the pipeline leaves (an input as entered, an output at its write-backs folded), every
    other buffer as entered. -/
def W10 (c : Dev nD) : Valuation τ sig (Elt F) :=
  Pipeline.withArrays spec4 c (W9 m c) fun w => (dat4 (atTc (W9 m)) c).arrAt w cfg4.N
theorem W10_arr (c : Dev nD) (w : Fin cfg4.W) :
    W10 m c (Proc.devRef .tc (Pipeline.arrRef spec4 w)) = (dat4 (atTc (W9 m)) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
/-- At region 4's exit each of its arrays holds what the pipeline leaves, and every other buffer what it held at entry. -/
theorem hF4 (c : Dev nD) (w : Fin cfg4.W) : (dat4 (atTc (W9 m)) c).arrAt w cfg4.N = atTc (W10 m) c (Pipeline.arrRef spec4 w) :=
  (W10_arr m c w).symm
theorem hrest4 (c : Dev nD) : ∀ b, b ∉ Finset.univ.image (Pipeline.arrRef spec4) → atTc (W10 m) c b = atTc (W9 m) c b :=
  fun b hb => W10_of_ne m c b fun w e => hb (Finset.mem_image.mpr ⟨w, Finset.mem_univ _, e⟩)
/-- After the host stretch `hostOps5`. -/
abbrev W11 : Dev nD → Valuation τ sig (Elt F) := fun c => StableHlo.after hostOps5 (W10 m c)
/-- After region 5: its arrays at what the pipeline leaves (an input as entered, an output at its write-backs folded), every
    other buffer as entered. -/
def W12 (c : Dev nD) : Valuation τ sig (Elt F) :=
  Pipeline.withArrays spec5 c (W11 m c) fun w => (dat5 (atTc (W11 m)) c).arrAt w cfg5.N
theorem W12_arr (c : Dev nD) (w : Fin cfg5.W) :
    W12 m c (Proc.devRef .tc (Pipeline.arrRef spec5 w)) = (dat5 (atTc (W11 m)) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
/-- At region 5's exit each of its arrays holds what the pipeline leaves, and every other buffer what it held at entry. -/
theorem hF5 (c : Dev nD) (w : Fin cfg5.W) : (dat5 (atTc (W11 m)) c).arrAt w cfg5.N = atTc (W12 m) c (Pipeline.arrRef spec5 w) :=
  (W12_arr m c w).symm
theorem hrest5 (c : Dev nD) : ∀ b, b ∉ Finset.univ.image (Pipeline.arrRef spec5) → atTc (W12 m) c b = atTc (W11 m) c b :=
  fun b hb => W12_of_ne m c b fun w e => hb (Finset.mem_image.mpr ⟨w, Finset.mem_univ _, e⟩)
/-- After the host stretch `hostOps6`. -/
abbrev W13 : Dev nD → Valuation τ sig (Elt F) := fun c => StableHlo.after hostOps6 (W12 m c)
/-- After region 6: its arrays at what the pipeline leaves (an input as entered, an output at its write-backs folded), every
    other buffer as entered. -/
def W14 (c : Dev nD) : Valuation τ sig (Elt F) :=
  Pipeline.withArrays spec6 c (W13 m c) fun w => (dat6 (atTc (W13 m)) c).arrAt w cfg6.N
theorem W14_arr (c : Dev nD) (w : Fin cfg6.W) :
    W14 m c (Proc.devRef .tc (Pipeline.arrRef spec6 w)) = (dat6 (atTc (W13 m)) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
/-- At region 6's exit each of its arrays holds what the pipeline leaves, and every other buffer what it held at entry. -/
theorem hF6 (c : Dev nD) (w : Fin cfg6.W) : (dat6 (atTc (W13 m)) c).arrAt w cfg6.N = atTc (W14 m) c (Pipeline.arrRef spec6 w) :=
  (W14_arr m c w).symm
theorem hrest6 (c : Dev nD) : ∀ b, b ∉ Finset.univ.image (Pipeline.arrRef spec6) → atTc (W14 m) c b = atTc (W13 m) c b :=
  fun b hb => W14_of_ne m c b fun w e => hb (Finset.mem_image.mpr ⟨w, Finset.mem_univ _, e⟩)
/-- After the host stretch `hostOps7`. -/
abbrev W15 : Dev nD → Valuation τ sig (Elt F) := fun c => StableHlo.after hostOps7 (W14 m c)
/-- After region 7: its arrays at what the pipeline leaves (an input as entered, an output at its write-backs folded), every
    other buffer as entered. -/
def W16 (c : Dev nD) : Valuation τ sig (Elt F) :=
  Pipeline.withArrays spec7 c (W15 m c) fun w => (dat7 (atTc (W15 m)) c).arrAt w cfg7.N
theorem W16_arr (c : Dev nD) (w : Fin cfg7.W) :
    W16 m c (Proc.devRef .tc (Pipeline.arrRef spec7 w)) = (dat7 (atTc (W15 m)) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb
/-- At region 7's exit each of its arrays holds what the pipeline leaves, and every other buffer what it held at entry. -/
theorem hF7 (c : Dev nD) (w : Fin cfg7.W) : (dat7 (atTc (W15 m)) c).arrAt w cfg7.N = atTc (W16 m) c (Pipeline.arrRef spec7 w) :=
  (W16_arr m c w).symm
theorem hrest7 (c : Dev nD) : ∀ b, b ∉ Finset.univ.image (Pipeline.arrRef spec7) → atTc (W16 m) c b = atTc (W15 m) c b :=
  fun b hb => W16_of_ne m c b fun w e => hb (Finset.mem_image.mpr ⟨w, Finset.mem_univ _, e⟩)
/-- After the host stretch `hostOps8`. -/
abbrev W17 : Dev nD → Valuation τ sig (Elt F) := fun c => StableHlo.after hostOps8 (W16 m c)
/-- After the host stretch `hostOps8_1`. -/
abbrev W18 : Dev nD → Valuation τ sig (Elt F) := fun c => StableHlo.after hostOps8_1 (W17 m c)
/-- After the host stretch `hostOps8_2`. -/
abbrev W19 : Dev nD → Valuation τ sig (Elt F) := fun c => StableHlo.after hostOps8_2 (W18 m c)
/-- After the host stretch `hostOps8_3`. -/
abbrev W20 : Dev nD → Valuation τ sig (Elt F) := fun c => StableHlo.after hostOps8_3 (W19 m c)
/-- After the host stretch `hostOps8_4`. -/
abbrev W21 : Dev nD → Valuation τ sig (Elt F) := fun c => StableHlo.after hostOps8_4 (W20 m c)

/-! ## The proof data family -/

/-- The prefetched tables' admissible contents: no pipeline has a table. -/
abbrev admz : (p : Fin 8) → (pcfgs (F := F) p).Adm := fun p => (cfgs p).toPCfg_adm
/-- Every pipeline's proof data, each at its region's entry contents: a literal match on the pipeline's index, so that
    the family at a numeral reduces to that region's data. -/
def pdats : (p : Fin 8) → (c : Dev nD) → Dat τ (Elt F) Unit ℕ (UR sig nD τ) ℕ (Pipeline.pin (pcfgs (F := F)) admz p) c
  | ⟨0, _⟩ => fun c => dat0 (atTc (W1 m)) c
  | ⟨1, _⟩ => fun c => dat1 (atTc (W3 m)) c
  | ⟨2, _⟩ => fun c => dat2 (atTc (W5 m)) c
  | ⟨3, _⟩ => fun c => dat3 (atTc (W7 m)) c
  | ⟨4, _⟩ => fun c => dat4 (atTc (W9 m)) c
  | ⟨5, _⟩ => fun c => dat5 (atTc (W11 m)) c
  | ⟨6, _⟩ => fun c => dat6 (atTc (W13 m)) c
  | ⟨7, _⟩ => fun c => dat7 (atTc (W15 m)) c
abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers between two items: the generator register at some state, nothing owed. -/
abbrev Rr (c : Dev nD) : sProp 𝕄 := iprop((∃ r, prngReg c r) ∗ ∃ W, owes (c : Thread nD τ) (0 : CellTallies nD τ sig Unit) W)

end Cert.Kernel.Hand
end
-- ==== Proof.Kernel.Records.lean ====
/- The eight kernel regions as segments of the main program: each one's layout as the launch decides it, its body
   obligation, and the four entailments that take the thread state before the region into the pipeline's invariant and
   its arrays, and give them back at the contents after it. -/
import proofs.«117973_j38328288150260_2_alg».proof.Proof.Kernel.Fold
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unification of a library lemma stated over the pinned configuration unfolds plain definitions in a metavariable's type
set_option backward.isDefEq.respectTransparency.types false in
/-- Region 0 over the thread state: entered from every unscoped buffer at the contents `W1`, left at `W2`. Its arrays
    are split out of the unscoped buffers and put back at the exit contents; the generator register goes into the
    pipeline's invariant and comes back; nothing is owed; the kernel has no semaphore of its own. -/
def reg0 : Pipeline.RegionSeg (pcfgs (F := F)) admz (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (atTc (W1 m)) c).loose
  hwaits := Pipeline.hwaits_of_owed_zero _ _ _ _ Lz lvz 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    have hsplit := Pipeline.arrays_of_unscopedBufs (p := 0) (pcfgs (F := F)) admz (pdats m) launch0.win launch0.arr_whole c
      ((pdats m 0 c).share_full fun _ => rfl) (atTc (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0_first (atTc (W1 m)) c]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi0_last (atTc (W1 m)) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admz (Ix := Unit) (Name := ℕ) (U := UR sig nD τ) (Lvl := ℕ)
      launch0.win launch0.arr_whole c (pdats m) ((pdats m 0 c).share_full fun _ => rfl)
      (atTc (W1 m) c) (atTc (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration unfolds plain definitions in a metavariable's type
set_option backward.isDefEq.respectTransparency.types false in
/-- Region 1 over the thread state: entered from every unscoped buffer at the contents `W3`, left at `W4`. Its arrays
    are split out of the unscoped buffers and put back at the exit contents; the generator register goes into the
    pipeline's invariant and comes back; nothing is owed; the kernel has no semaphore of its own. -/
def reg1 : Pipeline.RegionSeg (pcfgs (F := F)) admz (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (atTc (W3 m)) c).loose
  hwaits := Pipeline.hwaits_of_owed_zero _ _ _ _ Lz lvz 1 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec1 c (atTc (W3 m) c)
  hentry c := by
    rw [Pipeline.ownSems0_none]
    have hsplit := Pipeline.arrays_of_unscopedBufs (p := 1) (pcfgs (F := F)) admz (pdats m) launch1.win launch1.arr_whole c
      ((pdats m 1 c).share_full fun _ => rfl) (atTc (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admz (Ix := Unit) (Name := ℕ) (U := UR sig nD τ) (Lvl := ℕ)
      launch1.win launch1.arr_whole c (pdats m) ((pdats m 1 c).share_full fun _ => rfl)
      (atTc (W3 m) c) (atTc (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration unfolds plain definitions in a metavariable's type
set_option backward.isDefEq.respectTransparency.types false in
/-- Region 2 over the thread state: entered from every unscoped buffer at the contents `W5`, left at `W6`. Its arrays
    are split out of the unscoped buffers and put back at the exit contents; the generator register goes into the
    pipeline's invariant and comes back; nothing is owed; the kernel has no semaphore of its own. -/
def reg2 : Pipeline.RegionSeg (pcfgs (F := F)) admz (pdats m) () defs₀ 𝒱₀ Lz lvz 2 where
  win := launch2.win.to₀
  block_pos := launch2.block_pos
  stage_whole := launch2.stage_whole
  K := PEmpty
  osem k := k.elim
  ho := Pipeline.OwnSemFacts.none _
  hbody c := (body_obligation2 (atTc (W5 m)) c).loose
  hwaits := Pipeline.hwaits_of_owed_zero _ _ _ _ Lz lvz 2 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec2 c (atTc (W5 m) c)
  hentry c := by
    rw [Pipeline.ownSems0_none]
    have hsplit := Pipeline.arrays_of_unscopedBufs (p := 2) (pcfgs (F := F)) admz (pdats m) launch2.win launch2.arr_whole c
      ((pdats m 2 c).share_full fun _ => rfl) (atTc (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admz (Ix := Unit) (Name := ℕ) (U := UR sig nD τ) (Lvl := ℕ)
      launch2.win launch2.arr_whole c (pdats m) ((pdats m 2 c).share_full fun _ => rfl)
      (atTc (W5 m) c) (atTc (W6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration unfolds plain definitions in a metavariable's type
set_option backward.isDefEq.respectTransparency.types false in
/-- Region 3 over the thread state: entered from every unscoped buffer at the contents `W7`, left at `W8`. Its arrays
    are split out of the unscoped buffers and put back at the exit contents; the generator register goes into the
    pipeline's invariant and comes back; nothing is owed; the kernel has no semaphore of its own. -/
def reg3 : Pipeline.RegionSeg (pcfgs (F := F)) admz (pdats m) () defs₀ 𝒱₀ Lz lvz 3 where
  win := launch3.win.to₀
  block_pos := launch3.block_pos
  stage_whole := launch3.stage_whole
  K := PEmpty
  osem k := k.elim
  ho := Pipeline.OwnSemFacts.none _
  hbody c := (body_obligation3 (atTc (W7 m)) c).loose
  hwaits := Pipeline.hwaits_of_owed_zero _ _ _ _ Lz lvz 3 fun _ _ => rfl
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec3 c (atTc (W7 m) c)
  hentry c := by
    rw [Pipeline.ownSems0_none]
    have hsplit := Pipeline.arrays_of_unscopedBufs (p := 3) (pcfgs (F := F)) admz (pdats m) launch3.win launch3.arr_whole c
      ((pdats m 3 c).share_full fun _ => rfl) (atTc (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admz (Ix := Unit) (Name := ℕ) (U := UR sig nD τ) (Lvl := ℕ)
      launch3.win launch3.arr_whole c (pdats m) ((pdats m 3 c).share_full fun _ => rfl)
      (atTc (W7 m) c) (atTc (W8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration unfolds plain definitions in a metavariable's type
set_option backward.isDefEq.respectTransparency.types false in
/-- Region 4 over the thread state: entered from every unscoped buffer at the contents `W9`, left at `W10`. Its arrays
    are split out of the unscoped buffers and put back at the exit contents; the generator register goes into the
    pipeline's invariant and comes back; nothing is owed; the kernel has no semaphore of its own. -/
def reg4 : Pipeline.RegionSeg (pcfgs (F := F)) admz (pdats m) () defs₀ 𝒱₀ Lz lvz 4 where
  win := launch4.win.to₀
  block_pos := launch4.block_pos
  stage_whole := launch4.stage_whole
  K := PEmpty
  osem k := k.elim
  ho := Pipeline.OwnSemFacts.none _
  hbody c := (body_obligation4 (atTc (W9 m)) c).loose
  hwaits := Pipeline.hwaits_of_owed_zero _ _ _ _ Lz lvz 4 fun _ _ => rfl
  pre c := iprop(StableHlo.held (c : Thread nD τ) (Pipeline.ucRefs τ sig) (W9 m c) ∗ Rr c)
  post c := iprop(StableHlo.held (c : Thread nD τ) (Pipeline.ucRefs τ sig) (W10 m c) ∗ Rr c)
  X c := iprop(∃ r, prngReg c r)
  Y c := iprop(∃ r, prngReg c r)
  Z c := Pipeline.unscopedRest (Ix := Unit) (Name := ℕ) (U := UR sig nD τ) (Lvl := ℕ) spec4 c (atTc (W9 m) c)
  hentry c := by
    rw [Pipeline.ownSems0_none]
    have hsplit := Pipeline.arrays_of_unscopedBufs (p := 4) (pcfgs (F := F)) admz (pdats m) launch4.win launch4.arr_whole c
      ((pdats m 4 c).share_full fun _ => rfl) (atTc (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (show (pdats m 4 c).Φ (Fin.last _) ⊢ Pipeline.ΦA spec4 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admz (Ix := Unit) (Name := ℕ) (U := UR sig nD τ) (Lvl := ℕ)
      launch4.win launch4.arr_whole c (pdats m) ((pdats m 4 c).share_full fun _ => rfl)
      (atTc (W9 m) c) (atTc (W10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration unfolds plain definitions in a metavariable's type
set_option backward.isDefEq.respectTransparency.types false in
/-- Region 5 over the thread state: entered from every unscoped buffer at the contents `W11`, left at `W12`. Its arrays
    are split out of the unscoped buffers and put back at the exit contents; the generator register goes into the
    pipeline's invariant and comes back; nothing is owed; the kernel has no semaphore of its own. -/
def reg5 : Pipeline.RegionSeg (pcfgs (F := F)) admz (pdats m) () defs₀ 𝒱₀ Lz lvz 5 where
  win := launch5.win.to₀
  block_pos := launch5.block_pos
  stage_whole := launch5.stage_whole
  K := PEmpty
  osem k := k.elim
  ho := Pipeline.OwnSemFacts.none _
  hbody c := (body_obligation5 (atTc (W11 m)) c).loose
  hwaits := Pipeline.hwaits_of_owed_zero _ _ _ _ Lz lvz 5 fun _ _ => rfl
  pre c := iprop(StableHlo.held (c : Thread nD τ) (Pipeline.ucRefs τ sig) (W11 m c) ∗ Rr c)
  post c := iprop(StableHlo.held (c : Thread nD τ) (Pipeline.ucRefs τ sig) (W12 m c) ∗ Rr c)
  X c := iprop(∃ r, prngReg c r)
  Y c := iprop(∃ r, prngReg c r)
  Z c := Pipeline.unscopedRest (Ix := Unit) (Name := ℕ) (U := UR sig nD τ) (Lvl := ℕ) spec5 c (atTc (W11 m) c)
  hentry c := by
    rw [Pipeline.ownSems0_none]
    have hsplit := Pipeline.arrays_of_unscopedBufs (p := 5) (pcfgs (F := F)) admz (pdats m) launch5.win launch5.arr_whole c
      ((pdats m 5 c).share_full fun _ => rfl) (atTc (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none]
    refine (show (pdats m 5 c).Φ (Fin.last _) ⊢ Pipeline.ΦA spec5 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admz (Ix := Unit) (Name := ℕ) (U := UR sig nD τ) (Lvl := ℕ)
      launch5.win launch5.arr_whole c (pdats m) ((pdats m 5 c).share_full fun _ => rfl)
      (atTc (W11 m) c) (atTc (W12 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration unfolds plain definitions in a metavariable's type
set_option backward.isDefEq.respectTransparency.types false in
/-- Region 6 over the thread state: entered from every unscoped buffer at the contents `W13`, left at `W14`. Its arrays
    are split out of the unscoped buffers and put back at the exit contents; the generator register goes into the
    pipeline's invariant and comes back; nothing is owed; the kernel has no semaphore of its own. -/
def reg6 : Pipeline.RegionSeg (pcfgs (F := F)) admz (pdats m) () defs₀ 𝒱₀ Lz lvz 6 where
  win := launch6.win.to₀
  block_pos := launch6.block_pos
  stage_whole := launch6.stage_whole
  K := PEmpty
  osem k := k.elim
  ho := Pipeline.OwnSemFacts.none _
  hbody c := (body_obligation6 (atTc (W13 m)) c).loose
  hwaits := Pipeline.hwaits_of_owed_zero _ _ _ _ Lz lvz 6 fun _ _ => rfl
  pre c := iprop(StableHlo.held (c : Thread nD τ) (Pipeline.ucRefs τ sig) (W13 m c) ∗ Rr c)
  post c := iprop(StableHlo.held (c : Thread nD τ) (Pipeline.ucRefs τ sig) (W14 m c) ∗ Rr c)
  X c := iprop(∃ r, prngReg c r)
  Y c := iprop(∃ r, prngReg c r)
  Z c := Pipeline.unscopedRest (Ix := Unit) (Name := ℕ) (U := UR sig nD τ) (Lvl := ℕ) spec6 c (atTc (W13 m) c)
  hentry c := by
    rw [Pipeline.ownSems0_none]
    have hsplit := Pipeline.arrays_of_unscopedBufs (p := 6) (pcfgs (F := F)) admz (pdats m) launch6.win launch6.arr_whole c
      ((pdats m 6 c).share_full fun _ => rfl) (atTc (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none]
    refine (show (pdats m 6 c).Φ (Fin.last _) ⊢ Pipeline.ΦA spec6 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admz (Ix := Unit) (Name := ℕ) (U := UR sig nD τ) (Lvl := ℕ)
      launch6.win launch6.arr_whole c (pdats m) ((pdats m 6 c).share_full fun _ => rfl)
      (atTc (W13 m) c) (atTc (W14 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration unfolds plain definitions in a metavariable's type
set_option backward.isDefEq.respectTransparency.types false in
/-- Region 7 over the thread state: entered from every unscoped buffer at the contents `W15`, left at `W16`. Its arrays
    are split out of the unscoped buffers and put back at the exit contents; the generator register goes into the
    pipeline's invariant and comes back; nothing is owed; the kernel has no semaphore of its own. -/
def reg7 : Pipeline.RegionSeg (pcfgs (F := F)) admz (pdats m) () defs₀ 𝒱₀ Lz lvz 7 where
  win := launch7.win.to₀
  block_pos := launch7.block_pos
  stage_whole := launch7.stage_whole
  K := PEmpty
  osem k := k.elim
  ho := Pipeline.OwnSemFacts.none _
  hbody c := (body_obligation7 (atTc (W15 m)) c).loose
  hwaits := Pipeline.hwaits_of_owed_zero _ _ _ _ Lz lvz 7 fun _ _ => rfl
  pre c := iprop(StableHlo.held (c : Thread nD τ) (Pipeline.ucRefs τ sig) (W15 m c) ∗ Rr c)
  post c := iprop(StableHlo.held (c : Thread nD τ) (Pipeline.ucRefs τ sig) (W16 m c) ∗ Rr c)
  X c := iprop(∃ r, prngReg c r)
  Y c := iprop(∃ r, prngReg c r)
  Z c := Pipeline.unscopedRest (Ix := Unit) (Name := ℕ) (U := UR sig nD τ) (Lvl := ℕ) spec7 c (atTc (W15 m) c)
  hentry c := by
    rw [Pipeline.ownSems0_none]
    have hsplit := Pipeline.arrays_of_unscopedBufs (p := 7) (pcfgs (F := F)) admz (pdats m) launch7.win launch7.arr_whole c
      ((pdats m 7 c).share_full fun _ => rfl) (atTc (W15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none]
    refine (show (pdats m 7 c).Φ (Fin.last _) ⊢ Pipeline.ΦA spec7 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admz (Ix := Unit) (Name := ℕ) (U := UR sig nD τ) (Lvl := ℕ)
      launch7.win launch7.arr_whole c (pdats m) ((pdats m 7 c).share_full fun _ => rfl)
      (atTc (W15 m) c) (atTc (W16 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand
end
-- ==== Proof.Kernel.Run.lean ====
/- The main program as its twenty-one items — thirteen stretches of host operations and the eight kernel regions — run
   from the launch memory: every weakly fair execution terminates, nothing faulting, and in every final memory each
   unscoped buffer of each TensorCore holds the last boundary's contents `W21`.  The frame (the arguments end as launched)
   and the result's value are both read off that one statement. -/
import proofs.«117973_j38328288150260_2_alg».proof.Proof.Kernel.Records
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A stretch of host operations as a segment: its operations over the unscoped references from the contents `W`, the
    generator register and the empty debt riding along; it is left at the operations applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-- The main program's items in order, each entered from its boundary's contents. -/
abbrev segs : List (Pipeline.Seg (pcfgs (F := F)) admz (pdats m) () defs₀ 𝒱₀ Lz lvz) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .host (hseg hostOps6 hostOps6_sub hostOps6_fresh (W12 m)),
    .region (reg6 m),
    .host (hseg hostOps7 hostOps7_sub hostOps7_fresh (W14 m)),
    .region (reg7 m),
    .host (hseg hostOps8 hostOps8_sub hostOps8_fresh (W16 m)),
    .host (hseg hostOps8_1 hostOps8_1_sub hostOps8_1_fresh (W17 m)),
    .host (hseg hostOps8_2 hostOps8_2_sub hostOps8_2_fresh (W18 m)),
    .host (hseg hostOps8_3 hostOps8_3_sub hostOps8_3_fresh (W19 m)),
    .host (hseg hostOps8_4 hostOps8_4_sub hostOps8_4_fresh (W20 m)) ]

/-- The main program is the run of its items. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the kit's implicit arguments are found by unifying its conclusion with this one, which unfolds plain definitions in a metavariable's type
set_option backward.isDefEq.respectTransparency.types false in
/-- THE RUN. From any memory with zero counters every weakly fair execution of the main program on the TensorCores
    terminates, nothing faulting, and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m c b) :=
  Pipeline.θ_run_regions_kit (pcfgs (F := F)) admz (pdats m) () cellOf_inj emb₁ defs₀ 𝒱₀ Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c))
    (Tₙ := fun c => StableHlo.held (c : Thread nD τ) (Pipeline.ucRefs τ sig) (W21 m c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => sep_mono .rfl (by iintro ⟨-, H⟩; iexact H)⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m c b)
    (hfin := fun c s' => by
      iintro ⟨Hh, HSI⟩
      unfold StableHlo.held
      imodintro
      iapply (pointsTo_read_all (Pipeline.ucRefs τ sig) (fun b => (((c : Thread nD τ)).1, b)) (W21 m c) s')
      isplitl [Hh] <;> iassumption)
    (hQ := fun s h c => h c)

end Cert.Kernel.Hand
end
-- ==== Proof.Kernel.Kept.lean ====
/- What each item of the main program leaves unchanged: a stretch of host operations, every buffer none of its operations
   writes; a kernel region, every buffer that is not one of its output arrays (an input array is read through its window
   and never written back; any other buffer is not touched at all).  Walking back through the twenty-one items, each
   argument array holds at the end what the launch memory held. -/
import proofs.«117973_j38328288150260_2_alg».proof.Proof.Kernel.Fold
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## One item -/
theorem keep1 (c : Dev nD) (r : Ref sig .tc) (h : r ∉ hostOps0_W) : W1 m c r = W0 m c r :=
  StableHlo.after_of_writes_sub hostOps0 _ hostOps0_writes h
theorem keep2 (c : Dev nD) (r : Ref sig .tc) (h : r ≠ Pipeline.arrRef spec0 2 ∧ r ≠ Pipeline.arrRef spec0 3) : W2 m c r = W1 m c r := by
  by_cases hw : ∃ w, Pipeline.arrRef spec0 w = r
  · obtain ⟨w, rfl⟩ := hw
    refine (W2_arr m c w).trans ?_
    match w, h with
    | ⟨0, _⟩, _ => exact ((dat0 (atTc (W1 m)) c).arrAt_in 0 rfl _).trans (A_eq0 (atTc (W1 m)) c 0)
    | ⟨1, _⟩, _ => exact ((dat0 (atTc (W1 m)) c).arrAt_in 1 rfl _).trans (A_eq0 (atTc (W1 m)) c 1)
    | ⟨2, _⟩, h => exact absurd rfl h.1
    | ⟨3, _⟩, h => exact absurd rfl h.2
  · exact W2_of_ne m c r (fun w e => hw ⟨w, e⟩)
theorem keep3 (c : Dev nD) (r : Ref sig .tc) (h : r ∉ hostOps1_W) : W3 m c r = W2 m c r :=
  StableHlo.after_of_writes_sub hostOps1 _ hostOps1_writes h
theorem keep4 (c : Dev nD) (r : Ref sig .tc) (h : r ≠ Pipeline.arrRef spec1 3) : W4 m c r = W3 m c r := by
  by_cases hw : ∃ w, Pipeline.arrRef spec1 w = r
  · obtain ⟨w, rfl⟩ := hw
    refine (W4_arr m c w).trans ?_
    match w, h with
    | ⟨0, _⟩, _ => exact ((dat1 (atTc (W3 m)) c).arrAt_in 0 rfl _).trans (A_eq1 (atTc (W3 m)) c 0)
    | ⟨1, _⟩, _ => exact ((dat1 (atTc (W3 m)) c).arrAt_in 1 rfl _).trans (A_eq1 (atTc (W3 m)) c 1)
    | ⟨2, _⟩, _ => exact ((dat1 (atTc (W3 m)) c).arrAt_in 2 rfl _).trans (A_eq1 (atTc (W3 m)) c 2)
    | ⟨3, _⟩, h => exact absurd rfl h
  · exact W4_of_ne m c r (fun w e => hw ⟨w, e⟩)
theorem keep5 (c : Dev nD) (r : Ref sig .tc) (h : r ∉ hostOps2_W) : W5 m c r = W4 m c r :=
  StableHlo.after_of_writes_sub hostOps2 _ hostOps2_writes h
theorem keep6 (c : Dev nD) (r : Ref sig .tc) (h : r ≠ Pipeline.arrRef spec2 3) : W6 m c r = W5 m c r := by
  by_cases hw : ∃ w, Pipeline.arrRef spec2 w = r
  · obtain ⟨w, rfl⟩ := hw
    refine (W6_arr m c w).trans ?_
    match w, h with
    | ⟨0, _⟩, _ => exact ((dat2 (atTc (W5 m)) c).arrAt_in 0 rfl _).trans (A_eq2 (atTc (W5 m)) c 0)
    | ⟨1, _⟩, _ => exact ((dat2 (atTc (W5 m)) c).arrAt_in 1 rfl _).trans (A_eq2 (atTc (W5 m)) c 1)
    | ⟨2, _⟩, _ => exact ((dat2 (atTc (W5 m)) c).arrAt_in 2 rfl _).trans (A_eq2 (atTc (W5 m)) c 2)
    | ⟨3, _⟩, h => exact absurd rfl h
  · exact W6_of_ne m c r (fun w e => hw ⟨w, e⟩)
theorem keep7 (c : Dev nD) (r : Ref sig .tc) (h : r ∉ hostOps3_W) : W7 m c r = W6 m c r :=
  StableHlo.after_of_writes_sub hostOps3 _ hostOps3_writes h
theorem keep8 (c : Dev nD) (r : Ref sig .tc) (h : r ≠ Pipeline.arrRef spec3 3) : W8 m c r = W7 m c r := by
  by_cases hw : ∃ w, Pipeline.arrRef spec3 w = r
  · obtain ⟨w, rfl⟩ := hw
    refine (W8_arr m c w).trans ?_
    match w, h with
    | ⟨0, _⟩, _ => exact ((dat3 (atTc (W7 m)) c).arrAt_in 0 rfl _).trans (A_eq3 (atTc (W7 m)) c 0)
    | ⟨1, _⟩, _ => exact ((dat3 (atTc (W7 m)) c).arrAt_in 1 rfl _).trans (A_eq3 (atTc (W7 m)) c 1)
    | ⟨2, _⟩, _ => exact ((dat3 (atTc (W7 m)) c).arrAt_in 2 rfl _).trans (A_eq3 (atTc (W7 m)) c 2)
    | ⟨3, _⟩, h => exact absurd rfl h
  · exact W8_of_ne m c r (fun w e => hw ⟨w, e⟩)
theorem keep9 (c : Dev nD) (r : Ref sig .tc) (h : r ∉ hostOps4_W) : W9 m c r = W8 m c r :=
  StableHlo.after_of_writes_sub hostOps4 _ hostOps4_writes h
theorem keep10 (c : Dev nD) (r : Ref sig .tc) (h : r ≠ Pipeline.arrRef spec4 3) : W10 m c r = W9 m c r := by
  by_cases hw : ∃ w, Pipeline.arrRef spec4 w = r
  · obtain ⟨w, rfl⟩ := hw
    refine (W10_arr m c w).trans ?_
    match w, h with
    | ⟨0, _⟩, _ => exact ((dat4 (atTc (W9 m)) c).arrAt_in 0 rfl _).trans (A_eq4 (atTc (W9 m)) c 0)
    | ⟨1, _⟩, _ => exact ((dat4 (atTc (W9 m)) c).arrAt_in 1 rfl _).trans (A_eq4 (atTc (W9 m)) c 1)
    | ⟨2, _⟩, _ => exact ((dat4 (atTc (W9 m)) c).arrAt_in 2 rfl _).trans (A_eq4 (atTc (W9 m)) c 2)
    | ⟨3, _⟩, h => exact absurd rfl h
  · exact W10_of_ne m c r (fun w e => hw ⟨w, e⟩)
theorem keep11 (c : Dev nD) (r : Ref sig .tc) (h : r ∉ hostOps5_W) : W11 m c r = W10 m c r :=
  StableHlo.after_of_writes_sub hostOps5 _ hostOps5_writes h
theorem keep12 (c : Dev nD) (r : Ref sig .tc) (h : r ≠ Pipeline.arrRef spec5 3) : W12 m c r = W11 m c r := by
  by_cases hw : ∃ w, Pipeline.arrRef spec5 w = r
  · obtain ⟨w, rfl⟩ := hw
    refine (W12_arr m c w).trans ?_
    match w, h with
    | ⟨0, _⟩, _ => exact ((dat5 (atTc (W11 m)) c).arrAt_in 0 rfl _).trans (A_eq5 (atTc (W11 m)) c 0)
    | ⟨1, _⟩, _ => exact ((dat5 (atTc (W11 m)) c).arrAt_in 1 rfl _).trans (A_eq5 (atTc (W11 m)) c 1)
    | ⟨2, _⟩, _ => exact ((dat5 (atTc (W11 m)) c).arrAt_in 2 rfl _).trans (A_eq5 (atTc (W11 m)) c 2)
    | ⟨3, _⟩, h => exact absurd rfl h
  · exact W12_of_ne m c r (fun w e => hw ⟨w, e⟩)
theorem keep13 (c : Dev nD) (r : Ref sig .tc) (h : r ∉ hostOps6_W) : W13 m c r = W12 m c r :=
  StableHlo.after_of_writes_sub hostOps6 _ hostOps6_writes h
theorem keep14 (c : Dev nD) (r : Ref sig .tc) (h : r ≠ Pipeline.arrRef spec6 3) : W14 m c r = W13 m c r := by
  by_cases hw : ∃ w, Pipeline.arrRef spec6 w = r
  · obtain ⟨w, rfl⟩ := hw
    refine (W14_arr m c w).trans ?_
    match w, h with
    | ⟨0, _⟩, _ => exact ((dat6 (atTc (W13 m)) c).arrAt_in 0 rfl _).trans (A_eq6 (atTc (W13 m)) c 0)
    | ⟨1, _⟩, _ => exact ((dat6 (atTc (W13 m)) c).arrAt_in 1 rfl _).trans (A_eq6 (atTc (W13 m)) c 1)
    | ⟨2, _⟩, _ => exact ((dat6 (atTc (W13 m)) c).arrAt_in 2 rfl _).trans (A_eq6 (atTc (W13 m)) c 2)
    | ⟨3, _⟩, h => exact absurd rfl h
  · exact W14_of_ne m c r (fun w e => hw ⟨w, e⟩)
theorem keep15 (c : Dev nD) (r : Ref sig .tc) (h : r ∉ hostOps7_W) : W15 m c r = W14 m c r :=
  StableHlo.after_of_writes_sub hostOps7 _ hostOps7_writes h
theorem keep16 (c : Dev nD) (r : Ref sig .tc) (h : r ≠ Pipeline.arrRef spec7 3) : W16 m c r = W15 m c r := by
  by_cases hw : ∃ w, Pipeline.arrRef spec7 w = r
  · obtain ⟨w, rfl⟩ := hw
    refine (W16_arr m c w).trans ?_
    match w, h with
    | ⟨0, _⟩, _ => exact ((dat7 (atTc (W15 m)) c).arrAt_in 0 rfl _).trans (A_eq7 (atTc (W15 m)) c 0)
    | ⟨1, _⟩, _ => exact ((dat7 (atTc (W15 m)) c).arrAt_in 1 rfl _).trans (A_eq7 (atTc (W15 m)) c 1)
    | ⟨2, _⟩, _ => exact ((dat7 (atTc (W15 m)) c).arrAt_in 2 rfl _).trans (A_eq7 (atTc (W15 m)) c 2)
    | ⟨3, _⟩, h => exact absurd rfl h
  · exact W16_of_ne m c r (fun w e => hw ⟨w, e⟩)
theorem keep17 (c : Dev nD) (r : Ref sig .tc) (h : r ∉ hostOps8_W) : W17 m c r = W16 m c r :=
  StableHlo.after_of_writes_sub hostOps8 _ hostOps8_writes h
theorem keep18 (c : Dev nD) (r : Ref sig .tc) (h : r ∉ hostOps8_1_W) : W18 m c r = W17 m c r :=
  StableHlo.after_of_writes_sub hostOps8_1 _ hostOps8_1_writes h
theorem keep19 (c : Dev nD) (r : Ref sig .tc) (h : r ∉ hostOps8_2_W) : W19 m c r = W18 m c r :=
  StableHlo.after_of_writes_sub hostOps8_2 _ hostOps8_2_writes h
theorem keep20 (c : Dev nD) (r : Ref sig .tc) (h : r ∉ hostOps8_3_W) : W20 m c r = W19 m c r :=
  StableHlo.after_of_writes_sub hostOps8_3 _ hostOps8_3_writes h
theorem keep21 (c : Dev nD) (r : Ref sig .tc) (h : r ∉ hostOps8_4_W) : W21 m c r = W20 m c r :=
  StableHlo.after_of_writes_sub hostOps8_4 _ hostOps8_4_writes h

/-! ## The arguments end as launched -/
theorem W21_main_arg0 (c : Dev nD) : W21 m c main_arg0 = m ((c : Thread nD τ).loc main_arg0) :=
  calc W21 m c main_arg0
    _ = W20 m c main_arg0 := keep21 m c main_arg0 (by decide)
    _ = W19 m c main_arg0 := keep20 m c main_arg0 (by decide)
    _ = W18 m c main_arg0 := keep19 m c main_arg0 (by decide)
    _ = W17 m c main_arg0 := keep18 m c main_arg0 (by decide)
    _ = W16 m c main_arg0 := keep17 m c main_arg0 (by decide)
    _ = W15 m c main_arg0 := keep16 m c main_arg0 (by decide)
    _ = W14 m c main_arg0 := keep15 m c main_arg0 (by decide)
    _ = W13 m c main_arg0 := keep14 m c main_arg0 (by decide)
    _ = W12 m c main_arg0 := keep13 m c main_arg0 (by decide)
    _ = W11 m c main_arg0 := keep12 m c main_arg0 (by decide)
    _ = W10 m c main_arg0 := keep11 m c main_arg0 (by decide)
    _ = W9 m c main_arg0 := keep10 m c main_arg0 (by decide)
    _ = W8 m c main_arg0 := keep9 m c main_arg0 (by decide)
    _ = W7 m c main_arg0 := keep8 m c main_arg0 (by decide)
    _ = W6 m c main_arg0 := keep7 m c main_arg0 (by decide)
    _ = W5 m c main_arg0 := keep6 m c main_arg0 (by decide)
    _ = W4 m c main_arg0 := keep5 m c main_arg0 (by decide)
    _ = W3 m c main_arg0 := keep4 m c main_arg0 (by decide)
    _ = W2 m c main_arg0 := keep3 m c main_arg0 (by decide)
    _ = W1 m c main_arg0 := keep2 m c main_arg0 (by decide)
    _ = W0 m c main_arg0 := keep1 m c main_arg0 (by decide)
    _ = m ((c : Thread nD τ).loc main_arg0) := rfl
theorem W21_main_arg1 (c : Dev nD) : W21 m c main_arg1 = m ((c : Thread nD τ).loc main_arg1) :=
  calc W21 m c main_arg1
    _ = W20 m c main_arg1 := keep21 m c main_arg1 (by decide)
    _ = W19 m c main_arg1 := keep20 m c main_arg1 (by decide)
    _ = W18 m c main_arg1 := keep19 m c main_arg1 (by decide)
    _ = W17 m c main_arg1 := keep18 m c main_arg1 (by decide)
    _ = W16 m c main_arg1 := keep17 m c main_arg1 (by decide)
    _ = W15 m c main_arg1 := keep16 m c main_arg1 (by decide)
    _ = W14 m c main_arg1 := keep15 m c main_arg1 (by decide)
    _ = W13 m c main_arg1 := keep14 m c main_arg1 (by decide)
    _ = W12 m c main_arg1 := keep13 m c main_arg1 (by decide)
    _ = W11 m c main_arg1 := keep12 m c main_arg1 (by decide)
    _ = W10 m c main_arg1 := keep11 m c main_arg1 (by decide)
    _ = W9 m c main_arg1 := keep10 m c main_arg1 (by decide)
    _ = W8 m c main_arg1 := keep9 m c main_arg1 (by decide)
    _ = W7 m c main_arg1 := keep8 m c main_arg1 (by decide)
    _ = W6 m c main_arg1 := keep7 m c main_arg1 (by decide)
    _ = W5 m c main_arg1 := keep6 m c main_arg1 (by decide)
    _ = W4 m c main_arg1 := keep5 m c main_arg1 (by decide)
    _ = W3 m c main_arg1 := keep4 m c main_arg1 (by decide)
    _ = W2 m c main_arg1 := keep3 m c main_arg1 (by decide)
    _ = W1 m c main_arg1 := keep2 m c main_arg1 (by decide)
    _ = W0 m c main_arg1 := keep1 m c main_arg1 (by decide)
    _ = m ((c : Thread nD τ).loc main_arg1) := rfl
theorem W21_main_arg2 (c : Dev nD) : W21 m c main_arg2 = m ((c : Thread nD τ).loc main_arg2) :=
  calc W21 m c main_arg2
    _ = W20 m c main_arg2 := keep21 m c main_arg2 (by decide)
    _ = W19 m c main_arg2 := keep20 m c main_arg2 (by decide)
    _ = W18 m c main_arg2 := keep19 m c main_arg2 (by decide)
    _ = W17 m c main_arg2 := keep18 m c main_arg2 (by decide)
    _ = W16 m c main_arg2 := keep17 m c main_arg2 (by decide)
    _ = W15 m c main_arg2 := keep16 m c main_arg2 (by decide)
    _ = W14 m c main_arg2 := keep15 m c main_arg2 (by decide)
    _ = W13 m c main_arg2 := keep14 m c main_arg2 (by decide)
    _ = W12 m c main_arg2 := keep13 m c main_arg2 (by decide)
    _ = W11 m c main_arg2 := keep12 m c main_arg2 (by decide)
    _ = W10 m c main_arg2 := keep11 m c main_arg2 (by decide)
    _ = W9 m c main_arg2 := keep10 m c main_arg2 (by decide)
    _ = W8 m c main_arg2 := keep9 m c main_arg2 (by decide)
    _ = W7 m c main_arg2 := keep8 m c main_arg2 (by decide)
    _ = W6 m c main_arg2 := keep7 m c main_arg2 (by decide)
    _ = W5 m c main_arg2 := keep6 m c main_arg2 (by decide)
    _ = W4 m c main_arg2 := keep5 m c main_arg2 (by decide)
    _ = W3 m c main_arg2 := keep4 m c main_arg2 (by decide)
    _ = W2 m c main_arg2 := keep3 m c main_arg2 (by decide)
    _ = W1 m c main_arg2 := keep2 m c main_arg2 (by decide)
    _ = W0 m c main_arg2 := keep1 m c main_arg2 (by decide)
    _ = m ((c : Thread nD τ).loc main_arg2) := rfl
theorem W21_main_arg3 (c : Dev nD) : W21 m c main_arg3 = m ((c : Thread nD τ).loc main_arg3) :=
  calc W21 m c main_arg3
    _ = W20 m c main_arg3 := keep21 m c main_arg3 (by decide)
    _ = W19 m c main_arg3 := keep20 m c main_arg3 (by decide)
    _ = W18 m c main_arg3 := keep19 m c main_arg3 (by decide)
    _ = W17 m c main_arg3 := keep18 m c main_arg3 (by decide)
    _ = W16 m c main_arg3 := keep17 m c main_arg3 (by decide)
    _ = W15 m c main_arg3 := keep16 m c main_arg3 (by decide)
    _ = W14 m c main_arg3 := keep15 m c main_arg3 (by decide)
    _ = W13 m c main_arg3 := keep14 m c main_arg3 (by decide)
    _ = W12 m c main_arg3 := keep13 m c main_arg3 (by decide)
    _ = W11 m c main_arg3 := keep12 m c main_arg3 (by decide)
    _ = W10 m c main_arg3 := keep11 m c main_arg3 (by decide)
    _ = W9 m c main_arg3 := keep10 m c main_arg3 (by decide)
    _ = W8 m c main_arg3 := keep9 m c main_arg3 (by decide)
    _ = W7 m c main_arg3 := keep8 m c main_arg3 (by decide)
    _ = W6 m c main_arg3 := keep7 m c main_arg3 (by decide)
    _ = W5 m c main_arg3 := keep6 m c main_arg3 (by decide)
    _ = W4 m c main_arg3 := keep5 m c main_arg3 (by decide)
    _ = W3 m c main_arg3 := keep4 m c main_arg3 (by decide)
    _ = W2 m c main_arg3 := keep3 m c main_arg3 (by decide)
    _ = W1 m c main_arg3 := keep2 m c main_arg3 (by decide)
    _ = W0 m c main_arg3 := keep1 m c main_arg3 (by decide)
    _ = m ((c : Thread nD τ).loc main_arg3) := rfl
theorem W21_main_arg4 (c : Dev nD) : W21 m c main_arg4 = m ((c : Thread nD τ).loc main_arg4) :=
  calc W21 m c main_arg4
    _ = W20 m c main_arg4 := keep21 m c main_arg4 (by decide)
    _ = W19 m c main_arg4 := keep20 m c main_arg4 (by decide)
    _ = W18 m c main_arg4 := keep19 m c main_arg4 (by decide)
    _ = W17 m c main_arg4 := keep18 m c main_arg4 (by decide)
    _ = W16 m c main_arg4 := keep17 m c main_arg4 (by decide)
    _ = W15 m c main_arg4 := keep16 m c main_arg4 (by decide)
    _ = W14 m c main_arg4 := keep15 m c main_arg4 (by decide)
    _ = W13 m c main_arg4 := keep14 m c main_arg4 (by decide)
    _ = W12 m c main_arg4 := keep13 m c main_arg4 (by decide)
    _ = W11 m c main_arg4 := keep12 m c main_arg4 (by decide)
    _ = W10 m c main_arg4 := keep11 m c main_arg4 (by decide)
    _ = W9 m c main_arg4 := keep10 m c main_arg4 (by decide)
    _ = W8 m c main_arg4 := keep9 m c main_arg4 (by decide)
    _ = W7 m c main_arg4 := keep8 m c main_arg4 (by decide)
    _ = W6 m c main_arg4 := keep7 m c main_arg4 (by decide)
    _ = W5 m c main_arg4 := keep6 m c main_arg4 (by decide)
    _ = W4 m c main_arg4 := keep5 m c main_arg4 (by decide)
    _ = W3 m c main_arg4 := keep4 m c main_arg4 (by decide)
    _ = W2 m c main_arg4 := keep3 m c main_arg4 (by decide)
    _ = W1 m c main_arg4 := keep2 m c main_arg4 (by decide)
    _ = W0 m c main_arg4 := keep1 m c main_arg4 (by decide)
    _ = m ((c : Thread nD τ).loc main_arg4) := rfl
theorem W21_main_arg5 (c : Dev nD) : W21 m c main_arg5 = m ((c : Thread nD τ).loc main_arg5) :=
  calc W21 m c main_arg5
    _ = W20 m c main_arg5 := keep21 m c main_arg5 (by decide)
    _ = W19 m c main_arg5 := keep20 m c main_arg5 (by decide)
    _ = W18 m c main_arg5 := keep19 m c main_arg5 (by decide)
    _ = W17 m c main_arg5 := keep18 m c main_arg5 (by decide)
    _ = W16 m c main_arg5 := keep17 m c main_arg5 (by decide)
    _ = W15 m c main_arg5 := keep16 m c main_arg5 (by decide)
    _ = W14 m c main_arg5 := keep15 m c main_arg5 (by decide)
    _ = W13 m c main_arg5 := keep14 m c main_arg5 (by decide)
    _ = W12 m c main_arg5 := keep13 m c main_arg5 (by decide)
    _ = W11 m c main_arg5 := keep12 m c main_arg5 (by decide)
    _ = W10 m c main_arg5 := keep11 m c main_arg5 (by decide)
    _ = W9 m c main_arg5 := keep10 m c main_arg5 (by decide)
    _ = W8 m c main_arg5 := keep9 m c main_arg5 (by decide)
    _ = W7 m c main_arg5 := keep8 m c main_arg5 (by decide)
    _ = W6 m c main_arg5 := keep7 m c main_arg5 (by decide)
    _ = W5 m c main_arg5 := keep6 m c main_arg5 (by decide)
    _ = W4 m c main_arg5 := keep5 m c main_arg5 (by decide)
    _ = W3 m c main_arg5 := keep4 m c main_arg5 (by decide)
    _ = W2 m c main_arg5 := keep3 m c main_arg5 (by decide)
    _ = W1 m c main_arg5 := keep2 m c main_arg5 (by decide)
    _ = W0 m c main_arg5 := keep1 m c main_arg5 (by decide)
    _ = m ((c : Thread nD τ).loc main_arg5) := rfl
theorem W21_main_arg6 (c : Dev nD) : W21 m c main_arg6 = m ((c : Thread nD τ).loc main_arg6) :=
  calc W21 m c main_arg6
    _ = W20 m c main_arg6 := keep21 m c main_arg6 (by decide)
    _ = W19 m c main_arg6 := keep20 m c main_arg6 (by decide)
    _ = W18 m c main_arg6 := keep19 m c main_arg6 (by decide)
    _ = W17 m c main_arg6 := keep18 m c main_arg6 (by decide)
    _ = W16 m c main_arg6 := keep17 m c main_arg6 (by decide)
    _ = W15 m c main_arg6 := keep16 m c main_arg6 (by decide)
    _ = W14 m c main_arg6 := keep15 m c main_arg6 (by decide)
    _ = W13 m c main_arg6 := keep14 m c main_arg6 (by decide)
    _ = W12 m c main_arg6 := keep13 m c main_arg6 (by decide)
    _ = W11 m c main_arg6 := keep12 m c main_arg6 (by decide)
    _ = W10 m c main_arg6 := keep11 m c main_arg6 (by decide)
    _ = W9 m c main_arg6 := keep10 m c main_arg6 (by decide)
    _ = W8 m c main_arg6 := keep9 m c main_arg6 (by decide)
    _ = W7 m c main_arg6 := keep8 m c main_arg6 (by decide)
    _ = W6 m c main_arg6 := keep7 m c main_arg6 (by decide)
    _ = W5 m c main_arg6 := keep6 m c main_arg6 (by decide)
    _ = W4 m c main_arg6 := keep5 m c main_arg6 (by decide)
    _ = W3 m c main_arg6 := keep4 m c main_arg6 (by decide)
    _ = W2 m c main_arg6 := keep3 m c main_arg6 (by decide)
    _ = W1 m c main_arg6 := keep2 m c main_arg6 (by decide)
    _ = W0 m c main_arg6 := keep1 m c main_arg6 (by decide)
    _ = m ((c : Thread nD τ).loc main_arg6) := rfl
theorem W21_main_arg7 (c : Dev nD) : W21 m c main_arg7 = m ((c : Thread nD τ).loc main_arg7) :=
  calc W21 m c main_arg7
    _ = W20 m c main_arg7 := keep21 m c main_arg7 (by decide)
    _ = W19 m c main_arg7 := keep20 m c main_arg7 (by decide)
    _ = W18 m c main_arg7 := keep19 m c main_arg7 (by decide)
    _ = W17 m c main_arg7 := keep18 m c main_arg7 (by decide)
    _ = W16 m c main_arg7 := keep17 m c main_arg7 (by decide)
    _ = W15 m c main_arg7 := keep16 m c main_arg7 (by decide)
    _ = W14 m c main_arg7 := keep15 m c main_arg7 (by decide)
    _ = W13 m c main_arg7 := keep14 m c main_arg7 (by decide)
    _ = W12 m c main_arg7 := keep13 m c main_arg7 (by decide)
    _ = W11 m c main_arg7 := keep12 m c main_arg7 (by decide)
    _ = W10 m c main_arg7 := keep11 m c main_arg7 (by decide)
    _ = W9 m c main_arg7 := keep10 m c main_arg7 (by decide)
    _ = W8 m c main_arg7 := keep9 m c main_arg7 (by decide)
    _ = W7 m c main_arg7 := keep8 m c main_arg7 (by decide)
    _ = W6 m c main_arg7 := keep7 m c main_arg7 (by decide)
    _ = W5 m c main_arg7 := keep6 m c main_arg7 (by decide)
    _ = W4 m c main_arg7 := keep5 m c main_arg7 (by decide)
    _ = W3 m c main_arg7 := keep4 m c main_arg7 (by decide)
    _ = W2 m c main_arg7 := keep3 m c main_arg7 (by decide)
    _ = W1 m c main_arg7 := keep2 m c main_arg7 (by decide)
    _ = W0 m c main_arg7 := keep1 m c main_arg7 (by decide)
    _ = m ((c : Thread nD τ).loc main_arg7) := rfl

end Cert.Kernel.Hand
end
-- ==== Proof.KernelIdeal.Region0.Base.lean ====
/- Region 0 (the cast and the first product): what its three control cases share — the windows' blocks
   at the entry contents, the two branch conditions in closed form over the grid, where the last output
   window is idle, and the region invariant with the accumulator opened. -/
import proofs.«117973_j38328288150260_2_alg».proof.Proof.Gen.KernelIdeal.Launch
import proofs.«117973_j38328288150260_2_alg».proof.Proof.Gen.KernelIdeal.Skeleton
import proofs.«117973_j38328288150260_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The body's branch conditions -/

/-- The condition of the body's first conditional (the column coordinate is 0), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second conditional (the column coordinate is 7). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last column the body stores nothing into window 3's buffer, -/
theorem idleAt0_3 : ∀ t : Fin cfg0.N, ¬cond0_1 (grid0.coords t) → cfg0.idle 3 (grid0.coords t) = true := by decide +kernel
/-- and the pipeline does not write its block back; -/
theorem noFlush0_3 : ∀ t : Fin cfg0.N, ¬cond0_1 (grid0.coords t) → (cfg0.win 3).flush t = false := by decide +kernel
/-- at the last column it does store. -/
theorem liveAt0_3 : ∀ t : Fin cfg0.N, cond0_1 (grid0.coords t) → cfg0.idle 3 (grid0.coords t) = false := by decide +kernel

/-! ## The staging memrefs and the accumulator -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x32 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x32 .f32 := win0_3.stage (cfg0.slots t 3)
abbrev hs0_3 (t : Fin cfg0.N) : (ms0_3 t).IsWhole := hstage0_3 ((cfg0.slots t 3).cast nbuf0_3)
/-- The accumulator: a whole scoped buffer of the body's own, passed beside the windows. -/
abbrev scM0_0 : Memref sig .tc .vmem S1024x32 .f32 := Memref.whole cc0_scratch0

/-- The region invariant with the accumulator as a memref owned at some contents, the other scoped buffers unopened. -/
theorem PhiA0_eq (c : Dev nD) :
    (Pipeline.ΦA spec0 c : sProp 𝕄)
      = iprop(iprop(iprop((∃ d, owns (c : Thread nD τ) scM0_0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.KernelIdeal.Hand

end
-- ==== Proof.KernelIdeal.Region0.Runs.lean ====
/- Region 0: the body run on whole staging memrefs in each of its three control cases (first column: the
   accumulator is zeroed, then accumulated; middle columns: accumulated; last column: accumulated, then copied
   to the last output window). Each run yields, as lists of written pieces, what it leaves in the buffers it stores into. -/
import proofs.«117973_j38328288150260_2_alg».proof.Proof.KernelIdeal.Region0.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First column. The inputs' buffers at their blocks, window 2's at anything, window 3's (idle) at contents handed back
    untouched, the accumulator at anything: the body runs to the continuation with window 2's buffer and the
    accumulator at their pieces written. -/
noncomputable def bodyRun0_A (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : cond0_0 i) (hc1 : ¬cond0_1 i)
    (x0 : Vec F S1024x2048 .f32) (x1 : Vec F S2048x32 .bf16) :
    Σ' (L2 : List (View.Piece (Elt F) S1024x2048 .bf16)), { LS0 : List (View.Piece (Elt F) S1024x32 .f32) //
      ∀ (xi3 : Vec F S1024x32 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__cast_first_kernel i arg2 harg2 arg3 harg3 arg4 harg4 arg5 harg5 arg6 harg6) K } := by
  refine ⟨?_, ?_, fun xi3 E K => ?run⟩
  case run =>
    simp only [cc0__cast_first_kernel_eq_skeleton]; unfold cc0__cast_first_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

set_option maxHeartbeats 1000000 in
/-- Middle columns. As the first column's, the accumulator at what the point before left. -/
noncomputable def bodyRun0_B (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : ¬cond0_1 i)
    (x0 : Vec F S1024x2048 .f32) (x1 : Vec F S2048x32 .bf16) (xs0 : Vec F S1024x32 .f32) :
    Σ' (L2 : List (View.Piece (Elt F) S1024x2048 .bf16)), { LS0 : List (View.Piece (Elt F) S1024x32 .f32) //
      ∀ (xi3 : Vec F S1024x32 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__cast_first_kernel i arg2 harg2 arg3 harg3 arg4 harg4 arg5 harg5 arg6 harg6) K } := by
  refine ⟨?_, ?_, fun xi3 E K => ?run⟩
  case run =>
    simp only [cc0__cast_first_kernel_eq_skeleton]; unfold cc0__cast_first_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg2.eq_unread hf0; obtain rfl := harg3.eq_unread hf1; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

set_option maxHeartbeats 1000000 in
/-- Last column. Window 3's buffer at anything: the body also leaves it with its piece written. -/
noncomputable def bodyRun0_C (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : cond0_1 i)
    (x0 : Vec F S1024x2048 .f32) (x1 : Vec F S2048x32 .bf16) (xs0 : Vec F S1024x32 .f32) :
    Σ' (L2 : List (View.Piece (Elt F) S1024x2048 .bf16)) (L3 : List (View.Piece (Elt F) S1024x32 .f32)), { LS0 : List (View.Piece (Elt F) S1024x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__cast_first_kernel i arg2 harg2 arg3 harg3 arg4 harg4 arg5 harg5 arg6 harg6) K } := by
  refine ⟨?_, ?_, ?_, fun E K => ?run⟩
  case run =>
    simp only [cc0__cast_first_kernel_eq_skeleton]; unfold cc0__cast_first_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.KernelIdeal.Hand

end
-- ==== Proof.KernelIdeal.Region0.Data.lean ====
/- Region 0 (the cast and the first product) at the entry contents: what its output windows' staging buffers and the
   accumulator hold after each point, the region's proof data, and the body obligation. -/
import proofs.«117973_j38328288150260_2_alg».proof.Proof.KernelIdeal.Region0.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of each output window and the accumulator, as views through which contents are stated
    (the choice does not matter where the pieces cover). -/
abbrev VO0_2 : View sig .tc .vmem S1024x2048 .bf16 := (Memref.whole cc0_stg2_0 : Memref sig .tc .vmem S1024x2048 .bf16).view
abbrev VO0_3 : View sig .tc .vmem S1024x32 .f32 := (Memref.whole cc0_stg3_0 : Memref sig .tc .vmem S1024x32 .f32).view
abbrev VS0_0 : View sig .tc .vmem S1024x32 .f32 := scM0_0.view

/-- Window 3's buffer where the body stores nothing into it: a placeholder nothing consults (at those points the
    window is neither written back nor read at the next point). -/
def idle0_3 : Vec F S1024x32 .f32 := VO0_3.read (Elt F) (VO0_3.writes (Elt F) VO0_3.junk [])

/-- Case A: the pieces stored into window 2's buffer tile it, so they cover it. -/
theorem cover0_A_2 (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : cond0_0 i) (hc1 : ¬cond0_1 i) (x0 : Vec F S1024x2048 .f32) (x1 : Vec F S2048x32 .bf16) (y : S1024x2048.Idx) :
    ∃ pc ∈ (bodyRun0_A c i arg2 harg2 arg3 harg3 arg4 harg4 arg5 harg5 arg6 harg6 hc0 hc1 x0 x1).1, y ∈ pc.1.set :=
  View.cover_of_tiledL (bodyRun0_A c i arg2 harg2 arg3 harg3 arg4 harg4 arg5 harg5 arg6 harg6 hc0 hc1 x0 x1).1 S1024x2048.size (by sl_kernel_rfl) y

/-- What case A leaves in window 2's staging buffer: its pieces read back. -/
def out0_A_2 (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : cond0_0 i) (hc1 : ¬cond0_1 i) (x0 : Vec F S1024x2048 .f32) (x1 : Vec F S2048x32 .bf16) : Vec F S1024x2048 .bf16 :=
  VO0_2.read (Elt F) (VO0_2.writes (Elt F) VO0_2.junk (bodyRun0_A c i arg2 harg2 arg3 harg3 arg4 harg4 arg5 harg5 arg6 harg6 hc0 hc1 x0 x1).1)

/-- Case A: the pieces stored into the accumulator cover it. -/
theorem scover0_A (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : cond0_0 i) (hc1 : ¬cond0_1 i) (x0 : Vec F S1024x2048 .f32) (x1 : Vec F S2048x32 .bf16) (y : S1024x32.Idx) :
    ∃ pc ∈ (bodyRun0_A c i arg2 harg2 arg3 harg3 arg4 harg4 arg5 harg5 arg6 harg6 hc0 hc1 x0 x1).2.1, y ∈ pc.1.set :=
  View.cover_of_tiledL (bodyRun0_A c i arg2 harg2 arg3 harg3 arg4 harg4 arg5 harg5 arg6 harg6 hc0 hc1 x0 x1).2.1 S1024x32.size (by sl_kernel_rfl) y

/-- What case A leaves in the accumulator: its pieces read back. -/
def sout0_A (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : cond0_0 i) (hc1 : ¬cond0_1 i) (x0 : Vec F S1024x2048 .f32) (x1 : Vec F S2048x32 .bf16) : Vec F S1024x32 .f32 :=
  VS0_0.read (Elt F) (VS0_0.writes (Elt F) VS0_0.junk (bodyRun0_A c i arg2 harg2 arg3 harg3 arg4 harg4 arg5 harg5 arg6 harg6 hc0 hc1 x0 x1).2.1)

/-- Case B: the pieces stored into window 2's buffer tile it, so they cover it. -/
theorem cover0_B_2 (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : ¬cond0_1 i) (x0 : Vec F S1024x2048 .f32) (x1 : Vec F S2048x32 .bf16) (xs0 : Vec F S1024x32 .f32) (y : S1024x2048.Idx) :
    ∃ pc ∈ (bodyRun0_B c i arg2 harg2 arg3 harg3 arg4 harg4 arg5 harg5 arg6 harg6 hc0 hc1 x0 x1 xs0).1, y ∈ pc.1.set :=
  View.cover_of_tiledL (bodyRun0_B c i arg2 harg2 arg3 harg3 arg4 harg4 arg5 harg5 arg6 harg6 hc0 hc1 x0 x1 xs0).1 S1024x2048.size (by sl_kernel_rfl) y

/-- What case B leaves in window 2's staging buffer: its pieces read back. -/
def out0_B_2 (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : ¬cond0_1 i) (x0 : Vec F S1024x2048 .f32) (x1 : Vec F S2048x32 .bf16) (xs0 : Vec F S1024x32 .f32) : Vec F S1024x2048 .bf16 :=
  VO0_2.read (Elt F) (VO0_2.writes (Elt F) VO0_2.junk (bodyRun0_B c i arg2 harg2 arg3 harg3 arg4 harg4 arg5 harg5 arg6 harg6 hc0 hc1 x0 x1 xs0).1)

/-- Case B: the pieces stored into the accumulator cover it. -/
theorem scover0_B (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : ¬cond0_1 i) (x0 : Vec F S1024x2048 .f32) (x1 : Vec F S2048x32 .bf16) (xs0 : Vec F S1024x32 .f32) (y : S1024x32.Idx) :
    ∃ pc ∈ (bodyRun0_B c i arg2 harg2 arg3 harg3 arg4 harg4 arg5 harg5 arg6 harg6 hc0 hc1 x0 x1 xs0).2.1, y ∈ pc.1.set :=
  View.cover_of_tiledL (bodyRun0_B c i arg2 harg2 arg3 harg3 arg4 harg4 arg5 harg5 arg6 harg6 hc0 hc1 x0 x1 xs0).2.1 S1024x32.size (by sl_kernel_rfl) y

/-- What case B leaves in the accumulator: its pieces read back. -/
def sout0_B (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : ¬cond0_1 i) (x0 : Vec F S1024x2048 .f32) (x1 : Vec F S2048x32 .bf16) (xs0 : Vec F S1024x32 .f32) : Vec F S1024x32 .f32 :=
  VS0_0.read (Elt F) (VS0_0.writes (Elt F) VS0_0.junk (bodyRun0_B c i arg2 harg2 arg3 harg3 arg4 harg4 arg5 harg5 arg6 harg6 hc0 hc1 x0 x1 xs0).2.1)

/-- Case C: the pieces stored into window 2's buffer tile it, so they cover it. -/
theorem cover0_C_2 (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : cond0_1 i) (x0 : Vec F S1024x2048 .f32) (x1 : Vec F S2048x32 .bf16) (xs0 : Vec F S1024x32 .f32) (y : S1024x2048.Idx) :
    ∃ pc ∈ (bodyRun0_C c i arg2 harg2 arg3 harg3 arg4 harg4 arg5 harg5 arg6 harg6 hc0 hc1 x0 x1 xs0).1, y ∈ pc.1.set :=
  View.cover_of_tiledL (bodyRun0_C c i arg2 harg2 arg3 harg3 arg4 harg4 arg5 harg5 arg6 harg6 hc0 hc1 x0 x1 xs0).1 S1024x2048.size (by sl_kernel_rfl) y

/-- What case C leaves in window 2's staging buffer: its pieces read back. -/
def out0_C_2 (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : cond0_1 i) (x0 : Vec F S1024x2048 .f32) (x1 : Vec F S2048x32 .bf16) (xs0 : Vec F S1024x32 .f32) : Vec F S1024x2048 .bf16 :=
  VO0_2.read (Elt F) (VO0_2.writes (Elt F) VO0_2.junk (bodyRun0_C c i arg2 harg2 arg3 harg3 arg4 harg4 arg5 harg5 arg6 harg6 hc0 hc1 x0 x1 xs0).1)

/-- Case C: the pieces stored into the accumulator cover it. -/
theorem scover0_C (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : cond0_1 i) (x0 : Vec F S1024x2048 .f32) (x1 : Vec F S2048x32 .bf16) (xs0 : Vec F S1024x32 .f32) (y : S1024x32.Idx) :
    ∃ pc ∈ (bodyRun0_C c i arg2 harg2 arg3 harg3 arg4 harg4 arg5 harg5 arg6 harg6 hc0 hc1 x0 x1 xs0).2.2.1, y ∈ pc.1.set :=
  View.cover_of_tiledL (bodyRun0_C c i arg2 harg2 arg3 harg3 arg4 harg4 arg5 harg5 arg6 harg6 hc0 hc1 x0 x1 xs0).2.2.1 S1024x32.size (by sl_kernel_rfl) y

/-- What case C leaves in the accumulator: its pieces read back. -/
def sout0_C (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : cond0_1 i) (x0 : Vec F S1024x2048 .f32) (x1 : Vec F S2048x32 .bf16) (xs0 : Vec F S1024x32 .f32) : Vec F S1024x32 .f32 :=
  VS0_0.read (Elt F) (VS0_0.writes (Elt F) VS0_0.junk (bodyRun0_C c i arg2 harg2 arg3 harg3 arg4 harg4 arg5 harg5 arg6 harg6 hc0 hc1 x0 x1 xs0).2.2.1)

/-- Case C: the piece stored into window 3's buffer covers it. -/
theorem cover0_C_3 (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : cond0_1 i) (x0 : Vec F S1024x2048 .f32) (x1 : Vec F S2048x32 .bf16) (xs0 : Vec F S1024x32 .f32) (y : S1024x32.Idx) :
    ∃ pc ∈ (bodyRun0_C c i arg2 harg2 arg3 harg3 arg4 harg4 arg5 harg5 arg6 harg6 hc0 hc1 x0 x1 xs0).2.1, y ∈ pc.1.set :=
  View.cover_of_tiledL (bodyRun0_C c i arg2 harg2 arg3 harg3 arg4 harg4 arg5 harg5 arg6 harg6 hc0 hc1 x0 x1 xs0).2.1 S1024x32.size (by sl_kernel_rfl) y

/-- What case C leaves in window 3's staging buffer: its piece read back. -/
def out0_C_3 (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : cond0_1 i) (x0 : Vec F S1024x2048 .f32) (x1 : Vec F S2048x32 .bf16) (xs0 : Vec F S1024x32 .f32) : Vec F S1024x32 .f32 :=
  VO0_3.read (Elt F) (VO0_3.writes (Elt F) VO0_3.junk (bodyRun0_C c i arg2 harg2 arg3 harg3 arg4 harg4 arg5 harg5 arg6 harg6 hc0 hc1 x0 x1 xs0).2.1)

section Region
variable (V : (c : Dev nD) → (b : Ref sig .tc) → Buf (Elt F) ((c : Thread nD τ).loc b))

/-! ## What the outputs and the accumulator hold after each point -/

/-- THE ACCUMULATION. What window 2's and window 3's staging buffers and the accumulator hold after the body at
    position `n`: the case the column selects, run at the point's memrefs and input blocks, the accumulator read
    at what position `n - 1` left in it (off the first column). -/
def outsAt0 (c : Dev nD) : (n : ℕ) → n < cfg0.N → Vec F S1024x2048 .bf16 × Vec F S1024x32 .f32 × Vec F S1024x32 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), idle0_3, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), idle0_3, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2, idle0_3, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2)

/-- `outsAt0` at a point of the first column. -/
theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t), idle0_3, sout0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of the middle columns, over what the point before left. -/
theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2, idle0_3, sout0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of the last column, over what the point before left. -/
theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, sout0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer at anything); afterwards the accumulator at what the point before left in it, the other such
    buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ Pipeline.scopedRestBut (Ix := Unit) (Name := ℕ) (U := UR sig nD τ) (Lvl := ℕ) (Val := Elt F) spec0 c [cc0_scratch0]) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of the region on core `c`: the arrays as the region finds them; after the body at point `t`
    each input's buffer at its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- Before the first point the invariant is the class's. -/
theorem Phi0_first (c : Dev nD) : (dat0 V c).Φ 0 = Pipeline.ΦA spec0 c := rfl

/-- After any point but the first the invariant gives the class's back: the accumulator's named contents are forgotten. -/
theorem Phi0_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem Phi0_last (c : Dev nD) : (dat0 V c).Φ (Fin.last cfg0.N) ⊢ Pipeline.ΦA spec0 c :=
  Phi0_out V c _ (by rw [Fin.val_last]; have : cfg0.N = 128 := N_0; omega)

end Region

end Cert.KernelIdeal.Hand

end
-- ==== Proof.KernelIdeal.Region0.Body.lean ====
/- Region 0: the body obligation at a generic point, by the column's case. -/
import proofs.«117973_j38328288150260_2_alg».proof.Proof.KernelIdeal.Region0.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the column says which case the point is in; the
    invariant hands the body the accumulator at what the point before left (at anything before the first point, and
    the first column does not read it) and takes it back at this point's contents; window 3's buffer is handed back
    untouched off the last column; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 128 := lt_of_lt_of_eq t.isLt (show cfg0.N = 128 from N_0)
  by_cases h0 : t.val % 8 = 0
  · by_cases h1 : t.val % 8 = 7
    · exfalso; omega
    · rw [Dat.leavesExact_idle (dat0 V c) 3 t (idleAt0_3 t (fun h => h1 ((hcond0_1 t).mp h))) (noFlush0_3 t (fun h => h1 ((hcond0_1 t).mp h)))]
      rw [outsAt0_A V c t h0 h1]
      unfold out0_A_2 sout0_A; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩, ⟨%d3, H3⟩⟩
        iapply ((bodyRun0_A c (grid0.coords t) _ _ _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexists _; iexact H2
        isplitl [H3]; · iexact H3
        isplitl [HS0]; · iexact HS0
        iintro ⟨H0, H1, ⟨%e2, H2⟩, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _)
        iexists _; iexact H3
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((bodyRun0_A c (grid0.coords t) _ _ _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexists _; iexact H2
        isplitl [H3]; · iexact H3
        isplitl [HS0]; · iexists _; iexact HS0
        iintro ⟨H0, H1, ⟨%e2, H2⟩, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _)
        iexists _; iexact H3
  · have hz : t.val ≠ 0 := fun h => h0 (by rw [h])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_2 out0_C_3 sout0_C; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((bodyRun0_C c (grid0.coords t) _ _ _ _ _ _ _ _ _ _ (fun h => h0 ((hcond0_0 t).mp h)) ((hcond0_1 t).mpr h1) (iblk0 V c 0 t) (iblk0 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold out0_B_2 sout0_B; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((bodyRun0_B c (grid0.coords t) _ _ _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _)
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KernelIdeal.Region0.lean ====
/- Region 0 (the cast and the first product) at a parameter for the entry contents: the windows' blocks (iblk0),
   what the outputs and the accumulator hold after each point (outsAt0 and its case equations), the proof data
   (dat0, A_eq0), the invariant's ends (Phi0_first, Phi0_last) and the body obligation (body_obligation0).
   The parts are in Region0/: Base (what the cases share), Runs (the body in each case), Data, Body. -/
import proofs.«117973_j38328288150260_2_alg».proof.Proof.KernelIdeal.Region0.Body
-- ==== Proof.KernelIdeal.Region1.lean ====
/- The class-A half of region 1 (one matvec step on a 512-row block): each window's block at a grid point read off
   the arrays as the region finds them, the body's one store as a function of the three input blocks, the body's
   triple, the pipeline's proof data and its body obligation. Generic in the float model. -/
import proofs.«117973_j38328288150260_2_alg».proof.Proof.Gen.KernelIdeal.Launch
import proofs.«117973_j38328288150260_2_alg».proof.Proof.Gen.KernelIdeal.Skeleton
import proofs.«117973_j38328288150260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row block of the operator) holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the whole vector operand) is fetched at the first point only and its block index never moves, so
    its buffer holds its block at every point: unfetched, the index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the previous iterate's row block) holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x16384 := Rect.unit (s := S512x16384) ![0, 0] S512x16384.size inb_S512x16384_S512x16384_0_0
abbrev r1_1 : Rect S16384x32 := Rect.unit (s := S16384x32) ![0, 0] S16384x32.size inb_S16384x32_S16384x32_0_0
abbrev r1_2 : Rect S512x32 := Rect.unit (s := S512x32) ![0, 0] S512x32.size inb_S512x32_S512x32_0_0

/-! ## What the body leaves in the output window's buffer -/

/-- Window 3's staging buffer after the body, from the input windows' blocks: its one store, of twice the product of
    the operator's row block with the vector operand less the previous iterate's block. -/
def out1_3 (x0 : Vec F S512x16384 .bf16) (x1 : Vec F S16384x32 .bf16) (x2 : Vec F S512x32 .f32) : Vec F S512x32 .f32 :=
  View.canon [⟨r1_2, k1_pay1 (View.ld x0 r1_0) (View.ld x1 r1_1) (View.ld x2 r1_2)⟩]

/-- The one store is of the whole buffer, so it covers it. -/
theorem cover1_3 (p0 : Vec F S512x32 .f32) (y : S512x32.Idx) :
    ∃ pc ∈ ([⟨r1_2, p0⟩] : List (View.Piece (Elt F) S512x32 .f32)), y ∈ pc.1.set :=
  View.cover_of_tiled [⟨r1_2, p0⟩] S512x32.size (by rfl) y

/-! ## The body's triple -/

set_option maxHeartbeats 1000000 in
/-- The body on whole staging memrefs, the inputs' at read contents and the output's at anything, runs to the
    continuation holding the inputs' as they were and the output's at `out1_3` of the inputs'. The body also reads the
    output buffer and drops what it read. -/
theorem sound_kernel1 (c : Dev nD) (E : Set ℕ) (i : grid1.Coords) (arg1 : Memref sig .tc .vmem S512x16384 .bf16) (harg1 : arg1.IsWhole) (arg2 : Memref sig .tc .vmem S16384x32 .bf16) (harg2 : arg2.IsWhole) (arg3 : Memref sig .tc .vmem S512x32 .f32) (harg3 : arg3.IsWhole) (arg4 : Memref sig .tc .vmem S512x32 .f32) (harg4 : arg4.IsWhole)
    (x0 : Vec F S512x16384 .bf16) (x1 : Vec F S16384x32 .bf16) (x2 : Vec F S512x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__matvec_step_kernel i arg1 harg1 arg2 harg2 arg3 harg3 arg4 harg4) K := by
  simp only [cc1__matvec_step_kernel_eq_skeleton]; unfold cc1__matvec_step_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the pipeline on core `c`: the arrays as the region finds them (`V`); after the body at point `t`
    each input's buffer at its block and the output's at `out1_3` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KernelIdeal.Region2.lean ====
/- The class-A half of region 2 (one matvec step on a 512-row block): each window's block at a grid point read off
   the arrays as the region finds them, the body's one store as a function of the three input blocks, the body's
   triple, the pipeline's proof data and its body obligation. Generic in the float model. -/
import proofs.«117973_j38328288150260_2_alg».proof.Proof.Gen.KernelIdeal.Launch
import proofs.«117973_j38328288150260_2_alg».proof.Proof.Gen.KernelIdeal.Skeleton
import proofs.«117973_j38328288150260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the row block of the operator) holds its block at every point, for any proof data whose array is
    `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole vector operand) is fetched at the first point only and its block index never moves, so
    its buffer holds its block at every point: unfetched, the index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the previous iterate's row block) holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S512x16384 := Rect.unit (s := S512x16384) ![0, 0] S512x16384.size inb_S512x16384_S512x16384_0_0
abbrev r2_1 : Rect S16384x32 := Rect.unit (s := S16384x32) ![0, 0] S16384x32.size inb_S16384x32_S16384x32_0_0
abbrev r2_2 : Rect S512x32 := Rect.unit (s := S512x32) ![0, 0] S512x32.size inb_S512x32_S512x32_0_0

/-! ## What the body leaves in the output window's buffer -/

/-- Window 3's staging buffer after the body, from the input windows' blocks: its one store, of twice the product of
    the operator's row block with the vector operand less the previous iterate's block. -/
def out2_3 (x0 : Vec F S512x16384 .bf16) (x1 : Vec F S16384x32 .bf16) (x2 : Vec F S512x32 .f32) : Vec F S512x32 .f32 :=
  View.canon [⟨r2_2, k2_pay1 (View.ld x0 r2_0) (View.ld x1 r2_1) (View.ld x2 r2_2)⟩]

/-- The one store is of the whole buffer, so it covers it. -/
theorem cover2_3 (p0 : Vec F S512x32 .f32) (y : S512x32.Idx) :
    ∃ pc ∈ ([⟨r2_2, p0⟩] : List (View.Piece (Elt F) S512x32 .f32)), y ∈ pc.1.set :=
  View.cover_of_tiled [⟨r2_2, p0⟩] S512x32.size (by rfl) y

/-! ## The body's triple -/

set_option maxHeartbeats 1000000 in
/-- The body on whole staging memrefs, the inputs' at read contents and the output's at anything, runs to the
    continuation holding the inputs' as they were and the output's at `out2_3` of the inputs'. The body also reads the
    output buffer and drops what it read. -/
theorem sound_kernel2 (c : Dev nD) (E : Set ℕ) (i : grid2.Coords) (arg1 : Memref sig .tc .vmem S512x16384 .bf16) (harg1 : arg1.IsWhole) (arg2 : Memref sig .tc .vmem S16384x32 .bf16) (harg2 : arg2.IsWhole) (arg3 : Memref sig .tc .vmem S512x32 .f32) (harg3 : arg3.IsWhole) (arg4 : Memref sig .tc .vmem S512x32 .f32) (harg4 : arg4.IsWhole)
    (x0 : Vec F S512x16384 .bf16) (x1 : Vec F S16384x32 .bf16) (x2 : Vec F S512x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__matvec_step_kernel i arg1 harg1 arg2 harg2 arg3 harg3 arg4 harg4) K := by
  simp only [cc2__matvec_step_kernel_eq_skeleton]; unfold cc2__matvec_step_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the pipeline on core `c`: the arrays as the region finds them (`V`); after the body at point `t`
    each input's buffer at its block and the output's at `out2_3` of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KernelIdeal.Region3.lean ====
/- The class-A half of region 3 (one matvec step on a 512-row block): each window's block at a grid point read off
   the arrays as the region finds them, the body's one store as a function of the three input blocks, the body's
   triple, the pipeline's proof data and its body obligation. Generic in the float model. -/
import proofs.«117973_j38328288150260_2_alg».proof.Proof.Gen.KernelIdeal.Launch
import proofs.«117973_j38328288150260_2_alg».proof.Proof.Gen.KernelIdeal.Skeleton
import proofs.«117973_j38328288150260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row block of the operator) holds its block at every point, for any proof data whose array is
    `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the whole vector operand) is fetched at the first point only and its block index never moves, so
    its buffer holds its block at every point: unfetched, the index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the previous iterate's row block) holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S512x16384 := Rect.unit (s := S512x16384) ![0, 0] S512x16384.size inb_S512x16384_S512x16384_0_0
abbrev r3_1 : Rect S16384x32 := Rect.unit (s := S16384x32) ![0, 0] S16384x32.size inb_S16384x32_S16384x32_0_0
abbrev r3_2 : Rect S512x32 := Rect.unit (s := S512x32) ![0, 0] S512x32.size inb_S512x32_S512x32_0_0

/-! ## What the body leaves in the output window's buffer -/

/-- Window 3's staging buffer after the body, from the input windows' blocks: its one store, of twice the product of
    the operator's row block with the vector operand less the previous iterate's block. -/
def out3_3 (x0 : Vec F S512x16384 .bf16) (x1 : Vec F S16384x32 .bf16) (x2 : Vec F S512x32 .f32) : Vec F S512x32 .f32 :=
  View.canon [⟨r3_2, k3_pay1 (View.ld x0 r3_0) (View.ld x1 r3_1) (View.ld x2 r3_2)⟩]

/-- The one store is of the whole buffer, so it covers it. -/
theorem cover3_3 (p0 : Vec F S512x32 .f32) (y : S512x32.Idx) :
    ∃ pc ∈ ([⟨r3_2, p0⟩] : List (View.Piece (Elt F) S512x32 .f32)), y ∈ pc.1.set :=
  View.cover_of_tiled [⟨r3_2, p0⟩] S512x32.size (by rfl) y

/-! ## The body's triple -/

set_option maxHeartbeats 1000000 in
/-- The body on whole staging memrefs, the inputs' at read contents and the output's at anything, runs to the
    continuation holding the inputs' as they were and the output's at `out3_3` of the inputs'. The body also reads the
    output buffer and drops what it read. -/
theorem sound_kernel3 (c : Dev nD) (E : Set ℕ) (i : grid3.Coords) (arg1 : Memref sig .tc .vmem S512x16384 .bf16) (harg1 : arg1.IsWhole) (arg2 : Memref sig .tc .vmem S16384x32 .bf16) (harg2 : arg2.IsWhole) (arg3 : Memref sig .tc .vmem S512x32 .f32) (harg3 : arg3.IsWhole) (arg4 : Memref sig .tc .vmem S512x32 .f32) (harg4 : arg4.IsWhole)
    (x0 : Vec F S512x16384 .bf16) (x1 : Vec F S16384x32 .bf16) (x2 : Vec F S512x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__matvec_step_kernel i arg1 harg1 arg2 harg2 arg3 harg3 arg4 harg4) K := by
  simp only [cc3__matvec_step_kernel_eq_skeleton]; unfold cc3__matvec_step_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of the pipeline on core `c`: the arrays as the region finds them (`V`); after the body at point `t`
    each input's buffer at its block and the output's at `out3_3` of the input blocks; the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and the
    core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KernelIdeal.Region4.lean ====
/- The class-A half of region 4 (one matvec step on a 512-row block): each window's block at a grid point read off
   the arrays as the region finds them, the body's one store as a function of the three input blocks, the body's
   triple, the pipeline's proof data and its body obligation. Generic in the float model. -/
import proofs.«117973_j38328288150260_2_alg».proof.Proof.Gen.KernelIdeal.Launch
import proofs.«117973_j38328288150260_2_alg».proof.Proof.Gen.KernelIdeal.Skeleton
import proofs.«117973_j38328288150260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the row block of the operator) holds its block at every point, for any proof data whose array is
    `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the whole vector operand) is fetched at the first point only and its block index never moves, so
    its buffer holds its block at every point: unfetched, the index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2 (the previous iterate's row block) holds its block at every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S512x16384 := Rect.unit (s := S512x16384) ![0, 0] S512x16384.size inb_S512x16384_S512x16384_0_0
abbrev r4_1 : Rect S16384x32 := Rect.unit (s := S16384x32) ![0, 0] S16384x32.size inb_S16384x32_S16384x32_0_0
abbrev r4_2 : Rect S512x32 := Rect.unit (s := S512x32) ![0, 0] S512x32.size inb_S512x32_S512x32_0_0

/-! ## What the body leaves in the output window's buffer -/

/-- Window 3's staging buffer after the body, from the input windows' blocks: its one store, of twice the product of
    the operator's row block with the vector operand less the previous iterate's block. -/
def out4_3 (x0 : Vec F S512x16384 .bf16) (x1 : Vec F S16384x32 .bf16) (x2 : Vec F S512x32 .f32) : Vec F S512x32 .f32 :=
  View.canon [⟨r4_2, k4_pay1 (View.ld x0 r4_0) (View.ld x1 r4_1) (View.ld x2 r4_2)⟩]

/-- The one store is of the whole buffer, so it covers it. -/
theorem cover4_3 (p0 : Vec F S512x32 .f32) (y : S512x32.Idx) :
    ∃ pc ∈ ([⟨r4_2, p0⟩] : List (View.Piece (Elt F) S512x32 .f32)), y ∈ pc.1.set :=
  View.cover_of_tiled [⟨r4_2, p0⟩] S512x32.size (by rfl) y

/-! ## The body's triple -/

set_option maxHeartbeats 1000000 in
/-- The body on whole staging memrefs, the inputs' at read contents and the output's at anything, runs to the
    continuation holding the inputs' as they were and the output's at `out4_3` of the inputs'. The body also reads the
    output buffer and drops what it read. -/
theorem sound_kernel4 (c : Dev nD) (E : Set ℕ) (i : grid4.Coords) (arg1 : Memref sig .tc .vmem S512x16384 .bf16) (harg1 : arg1.IsWhole) (arg2 : Memref sig .tc .vmem S16384x32 .bf16) (harg2 : arg2.IsWhole) (arg3 : Memref sig .tc .vmem S512x32 .f32) (harg3 : arg3.IsWhole) (arg4 : Memref sig .tc .vmem S512x32 .f32) (harg4 : arg4.IsWhole)
    (x0 : Vec F S512x16384 .bf16) (x1 : Vec F S16384x32 .bf16) (x2 : Vec F S512x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__matvec_step_kernel i arg1 harg1 arg2 harg2 arg3 harg3 arg4 harg4) K := by
  simp only [cc4__matvec_step_kernel_eq_skeleton]; unfold cc4__matvec_step_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of the pipeline on core `c`: the arrays as the region finds them (`V`); after the body at point `t`
    each input's buffer at its block and the output's at `out4_3` of the input blocks; the scoped rest and the generator
    register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so `sound_kernel4` applies; the invariant and the
    core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KernelIdeal.Region5.lean ====
/- The class-A half of region 5 (one matvec step on a 512-row block): each window's block at a grid point read off
   the arrays as the region finds them, the body's one store as a function of the three input blocks, the body's
   triple, the pipeline's proof data and its body obligation. Generic in the float model. -/
import proofs.«117973_j38328288150260_2_alg».proof.Proof.Gen.KernelIdeal.Launch
import proofs.«117973_j38328288150260_2_alg».proof.Proof.Gen.KernelIdeal.Skeleton
import proofs.«117973_j38328288150260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the row block of the operator) holds its block at every point, for any proof data whose array is
    `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the whole vector operand) is fetched at the first point only and its block index never moves, so
    its buffer holds its block at every point: unfetched, the index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2 (the previous iterate's row block) holds its block at every point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S512x16384 := Rect.unit (s := S512x16384) ![0, 0] S512x16384.size inb_S512x16384_S512x16384_0_0
abbrev r5_1 : Rect S16384x32 := Rect.unit (s := S16384x32) ![0, 0] S16384x32.size inb_S16384x32_S16384x32_0_0
abbrev r5_2 : Rect S512x32 := Rect.unit (s := S512x32) ![0, 0] S512x32.size inb_S512x32_S512x32_0_0

/-! ## What the body leaves in the output window's buffer -/

/-- Window 3's staging buffer after the body, from the input windows' blocks: its one store, of twice the product of
    the operator's row block with the vector operand less the previous iterate's block. -/
def out5_3 (x0 : Vec F S512x16384 .bf16) (x1 : Vec F S16384x32 .bf16) (x2 : Vec F S512x32 .f32) : Vec F S512x32 .f32 :=
  View.canon [⟨r5_2, k5_pay1 (View.ld x0 r5_0) (View.ld x1 r5_1) (View.ld x2 r5_2)⟩]

/-- The one store is of the whole buffer, so it covers it. -/
theorem cover5_3 (p0 : Vec F S512x32 .f32) (y : S512x32.Idx) :
    ∃ pc ∈ ([⟨r5_2, p0⟩] : List (View.Piece (Elt F) S512x32 .f32)), y ∈ pc.1.set :=
  View.cover_of_tiled [⟨r5_2, p0⟩] S512x32.size (by rfl) y

/-! ## The body's triple -/

set_option maxHeartbeats 1000000 in
/-- The body on whole staging memrefs, the inputs' at read contents and the output's at anything, runs to the
    continuation holding the inputs' as they were and the output's at `out5_3` of the inputs'. The body also reads the
    output buffer and drops what it read. -/
theorem sound_kernel5 (c : Dev nD) (E : Set ℕ) (i : grid5.Coords) (arg1 : Memref sig .tc .vmem S512x16384 .bf16) (harg1 : arg1.IsWhole) (arg2 : Memref sig .tc .vmem S16384x32 .bf16) (harg2 : arg2.IsWhole) (arg3 : Memref sig .tc .vmem S512x32 .f32) (harg3 : arg3.IsWhole) (arg4 : Memref sig .tc .vmem S512x32 .f32) (harg4 : arg4.IsWhole)
    (x0 : Vec F S512x16384 .bf16) (x1 : Vec F S16384x32 .bf16) (x2 : Vec F S512x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__matvec_step_kernel i arg1 harg1 arg2 harg2 arg3 harg3 arg4 harg4) K := by
  simp only [cc5__matvec_step_kernel_eq_skeleton]; unfold cc5__matvec_step_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of the pipeline on core `c`: the arrays as the region finds them (`V`); after the body at point `t`
    each input's buffer at its block and the output's at `out5_3` of the input blocks; the scoped rest and the generator
    register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so `sound_kernel5` applies; the invariant and the
    core's debt pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.KernelIdeal.Region6.lean ====
/- The class-A half of region 6 (one matvec step on a 512-row block): each window's block at a grid point read off
   the arrays as the region finds them, the body's one store as a function of the three input blocks, the body's
   triple, the pipeline's proof data and its body obligation. Generic in the float model. -/
import proofs.«117973_j38328288150260_2_alg».proof.Proof.Gen.KernelIdeal.Launch
import proofs.«117973_j38328288150260_2_alg».proof.Proof.Gen.KernelIdeal.Skeleton
import proofs.«117973_j38328288150260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (the row block of the operator) holds its block at every point, for any proof data whose array is
    `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the whole vector operand) is fetched at the first point only and its block index never moves, so
    its buffer holds its block at every point: unfetched, the index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2 (the previous iterate's row block) holds its block at every point. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S512x16384 := Rect.unit (s := S512x16384) ![0, 0] S512x16384.size inb_S512x16384_S512x16384_0_0
abbrev r6_1 : Rect S16384x32 := Rect.unit (s := S16384x32) ![0, 0] S16384x32.size inb_S16384x32_S16384x32_0_0
abbrev r6_2 : Rect S512x32 := Rect.unit (s := S512x32) ![0, 0] S512x32.size inb_S512x32_S512x32_0_0

/-! ## What the body leaves in the output window's buffer -/

/-- Window 3's staging buffer after the body, from the input windows' blocks: its one store, of twice the product of
    the operator's row block with the vector operand less the previous iterate's block. -/
def out6_3 (x0 : Vec F S512x16384 .bf16) (x1 : Vec F S16384x32 .bf16) (x2 : Vec F S512x32 .f32) : Vec F S512x32 .f32 :=
  View.canon [⟨r6_2, k6_pay1 (View.ld x0 r6_0) (View.ld x1 r6_1) (View.ld x2 r6_2)⟩]

/-- The one store is of the whole buffer, so it covers it. -/
theorem cover6_3 (p0 : Vec F S512x32 .f32) (y : S512x32.Idx) :
    ∃ pc ∈ ([⟨r6_2, p0⟩] : List (View.Piece (Elt F) S512x32 .f32)), y ∈ pc.1.set :=
  View.cover_of_tiled [⟨r6_2, p0⟩] S512x32.size (by rfl) y

/-! ## The body's triple -/

set_option maxHeartbeats 1000000 in
/-- The body on whole staging memrefs, the inputs' at read contents and the output's at anything, runs to the
    continuation holding the inputs' as they were and the output's at `out6_3` of the inputs'. The body also reads the
    output buffer and drops what it read. -/
theorem sound_kernel6 (c : Dev nD) (E : Set ℕ) (i : grid6.Coords) (arg1 : Memref sig .tc .vmem S512x16384 .bf16) (harg1 : arg1.IsWhole) (arg2 : Memref sig .tc .vmem S16384x32 .bf16) (harg2 : arg2.IsWhole) (arg3 : Memref sig .tc .vmem S512x32 .f32) (harg3 : arg3.IsWhole) (arg4 : Memref sig .tc .vmem S512x32 .f32) (harg4 : arg4.IsWhole)
    (x0 : Vec F S512x16384 .bf16) (x1 : Vec F S16384x32 .bf16) (x2 : Vec F S512x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__matvec_step_kernel i arg1 harg1 arg2 harg2 arg3 harg3 arg4 harg4) K := by
  simp only [cc6__matvec_step_kernel_eq_skeleton]; unfold cc6__matvec_step_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of the pipeline on core `c`: the arrays as the region finds them (`V`); after the body at point `t`
    each input's buffer at its block and the output's at `out6_3` of the input blocks; the scoped rest and the generator
    register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so `sound_kernel6` applies; the invariant and the
    core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KernelIdeal.Region7.lean ====
/- The class-A half of region 7 (one matvec step on a 512-row block): each window's block at a grid point read off
   the arrays as the region finds them, the body's one store as a function of the three input blocks, the body's
   triple, the pipeline's proof data and its body obligation. Generic in the float model. -/
import proofs.«117973_j38328288150260_2_alg».proof.Proof.Gen.KernelIdeal.Launch
import proofs.«117973_j38328288150260_2_alg».proof.Proof.Gen.KernelIdeal.Skeleton
import proofs.«117973_j38328288150260_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0 (the row block of the operator) holds its block at every point, for any proof data whose array is
    `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1 (the whole vector operand) is fetched at the first point only and its block index never moves, so
    its buffer holds its block at every point: unfetched, the index has not moved. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2 (the previous iterate's row block) holds its block at every point. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S512x16384 := Rect.unit (s := S512x16384) ![0, 0] S512x16384.size inb_S512x16384_S512x16384_0_0
abbrev r7_1 : Rect S16384x32 := Rect.unit (s := S16384x32) ![0, 0] S16384x32.size inb_S16384x32_S16384x32_0_0
abbrev r7_2 : Rect S512x32 := Rect.unit (s := S512x32) ![0, 0] S512x32.size inb_S512x32_S512x32_0_0

/-! ## What the body leaves in the output window's buffer -/

/-- Window 3's staging buffer after the body, from the input windows' blocks: its one store, of twice the product of
    the operator's row block with the vector operand less the previous iterate's block. -/
def out7_3 (x0 : Vec F S512x16384 .bf16) (x1 : Vec F S16384x32 .bf16) (x2 : Vec F S512x32 .f32) : Vec F S512x32 .f32 :=
  View.canon [⟨r7_2, k7_pay1 (View.ld x0 r7_0) (View.ld x1 r7_1) (View.ld x2 r7_2)⟩]

/-- The one store is of the whole buffer, so it covers it. -/
theorem cover7_3 (p0 : Vec F S512x32 .f32) (y : S512x32.Idx) :
    ∃ pc ∈ ([⟨r7_2, p0⟩] : List (View.Piece (Elt F) S512x32 .f32)), y ∈ pc.1.set :=
  View.cover_of_tiled [⟨r7_2, p0⟩] S512x32.size (by rfl) y

/-! ## The body's triple -/

set_option maxHeartbeats 1000000 in
/-- The body on whole staging memrefs, the inputs' at read contents and the output's at anything, runs to the
    continuation holding the inputs' as they were and the output's at `out7_3` of the inputs'. The body also reads the
    output buffer and drops what it read. -/
theorem sound_kernel7 (c : Dev nD) (E : Set ℕ) (i : grid7.Coords) (arg1 : Memref sig .tc .vmem S512x16384 .bf16) (harg1 : arg1.IsWhole) (arg2 : Memref sig .tc .vmem S16384x32 .bf16) (harg2 : arg2.IsWhole) (arg3 : Memref sig .tc .vmem S512x32 .f32) (harg3 : arg3.IsWhole) (arg4 : Memref sig .tc .vmem S512x32 .f32) (harg4 : arg4.IsWhole)
    (x0 : Vec F S512x16384 .bf16) (x1 : Vec F S16384x32 .bf16) (x2 : Vec F S512x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__matvec_step_kernel i arg1 harg1 arg2 harg2 arg3 harg3 arg4 harg4) K := by
  simp only [cc7__matvec_step_kernel_eq_skeleton]; unfold cc7__matvec_step_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of the pipeline on core `c`: the arrays as the region finds them (`V`); after the body at point `t`
    each input's buffer at its block and the output's at `out7_3` of the input blocks; the scoped rest and the generator
    register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so `sound_kernel7` applies; the invariant and the
    core's debt pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand
-- ==== Proof.KernelIdeal.Fold.lean ====
/- The contents of the TensorCore's unscoped buffers at every boundary between two items of the main program — a
   stretch of host operations, or one of the eight kernel regions — as a fold from the launch memory: a host stretch
   applies its operations; a region leaves each of its arrays at what its pipeline's write-backs fold to and every other
   buffer as it found it.  With it: every pipeline's proof data at its region's entry contents. -/
import proofs.«117973_j38328288150260_2_alg».proof.Proof.Gen.KernelIdeal.Regions
import proofs.«117973_j38328288150260_2_alg».proof.Proof.KernelIdeal.Region0
import proofs.«117973_j38328288150260_2_alg».proof.Proof.KernelIdeal.Region1
import proofs.«117973_j38328288150260_2_alg».proof.Proof.KernelIdeal.Region2
import proofs.«117973_j38328288150260_2_alg».proof.Proof.KernelIdeal.Region3
import proofs.«117973_j38328288150260_2_alg».proof.Proof.KernelIdeal.Region4
import proofs.«117973_j38328288150260_2_alg».proof.Proof.KernelIdeal.Region5
import proofs.«117973_j38328288150260_2_alg».proof.Proof.KernelIdeal.Region6
import proofs.«117973_j38328288150260_2_alg».proof.Proof.KernelIdeal.Region7
import Idealize.ShloMosaic.Lib.Pipeline.FrameSuffix
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev atTc (W : Dev nD → Valuation τ sig (Elt F)) : (c : Dev nD) → (b : Ref sig .tc) → Buf (Elt F) ((c : Thread nD τ).loc b) := fun c b => W c b

/-! ## The fold -/

/-- Core `c`'s buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- After region 0: its arrays at what the pipeline leaves (an input as entered, an output at its write-backs folded), every
    other buffer as entered. -/
def W2 (c : Dev nD) : Valuation τ sig (Elt F) :=
  Pipeline.withArrays spec0 c (W1 m c) fun w => (dat0 (atTc (W1 m)) c).arrAt w cfg0.N
theorem W2_arr (c : Dev nD) (w : Fin cfg0.W) :
    W2 m c (Proc.devRef .tc (Pipeline.arrRef spec0 w)) = (dat0 (atTc (W1 m)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- At region 0's exit each of its arrays holds what the pipeline leaves, and every other buffer what it held at entry. -/
theorem hF0 (c : Dev nD) (w : Fin cfg0.W) : (dat0 (atTc (W1 m)) c).arrAt w cfg0.N = atTc (W2 m) c (Pipeline.arrRef spec0 w) :=
  (W2_arr m c w).symm
theorem hrest0 (c : Dev nD) : ∀ b, b ∉ Finset.univ.image (Pipeline.arrRef spec0) → atTc (W2 m) c b = atTc (W1 m) c b :=
  fun b hb => W2_of_ne m c b fun w e => hb (Finset.mem_image.mpr ⟨w, Finset.mem_univ _, e⟩)
/-- After the host stretch `hostOps1`. -/
abbrev W3 : Dev nD → Valuation τ sig (Elt F) := fun c => StableHlo.after hostOps1 (W2 m c)
/-- After region 1: its arrays at what the pipeline leaves (an input as entered, an output at its write-backs folded), every
    other buffer as entered. -/
def W4 (c : Dev nD) : Valuation τ sig (Elt F) :=
  Pipeline.withArrays spec1 c (W3 m c) fun w => (dat1 (atTc (W3 m)) c).arrAt w cfg1.N
theorem W4_arr (c : Dev nD) (w : Fin cfg1.W) :
    W4 m c (Proc.devRef .tc (Pipeline.arrRef spec1 w)) = (dat1 (atTc (W3 m)) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- At region 1's exit each of its arrays holds what the pipeline leaves, and every other buffer what it held at entry. -/
theorem hF1 (c : Dev nD) (w : Fin cfg1.W) : (dat1 (atTc (W3 m)) c).arrAt w cfg1.N = atTc (W4 m) c (Pipeline.arrRef spec1 w) :=
  (W4_arr m c w).symm
theorem hrest1 (c : Dev nD) : ∀ b, b ∉ Finset.univ.image (Pipeline.arrRef spec1) → atTc (W4 m) c b = atTc (W3 m) c b :=
  fun b hb => W4_of_ne m c b fun w e => hb (Finset.mem_image.mpr ⟨w, Finset.mem_univ _, e⟩)
/-- After the host stretch `hostOps2`. -/
abbrev W5 : Dev nD → Valuation τ sig (Elt F) := fun c => StableHlo.after hostOps2 (W4 m c)
/-- After region 2: its arrays at what the pipeline leaves (an input as entered, an output at its write-backs folded), every
    other buffer as entered. -/
def W6 (c : Dev nD) : Valuation τ sig (Elt F) :=
  Pipeline.withArrays spec2 c (W5 m c) fun w => (dat2 (atTc (W5 m)) c).arrAt w cfg2.N
theorem W6_arr (c : Dev nD) (w : Fin cfg2.W) :
    W6 m c (Proc.devRef .tc (Pipeline.arrRef spec2 w)) = (dat2 (atTc (W5 m)) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- At region 2's exit each of its arrays holds what the pipeline leaves, and every other buffer what it held at entry. -/
theorem hF2 (c : Dev nD) (w : Fin cfg2.W) : (dat2 (atTc (W5 m)) c).arrAt w cfg2.N = atTc (W6 m) c (Pipeline.arrRef spec2 w) :=
  (W6_arr m c w).symm
theorem hrest2 (c : Dev nD) : ∀ b, b ∉ Finset.univ.image (Pipeline.arrRef spec2) → atTc (W6 m) c b = atTc (W5 m) c b :=
  fun b hb => W6_of_ne m c b fun w e => hb (Finset.mem_image.mpr ⟨w, Finset.mem_univ _, e⟩)
/-- After the host stretch `hostOps3`. -/
abbrev W7 : Dev nD → Valuation τ sig (Elt F) := fun c => StableHlo.after hostOps3 (W6 m c)
/-- After region 3: its arrays at what the pipeline leaves (an input as entered, an output at its write-backs folded), every
    other buffer as entered. -/
def W8 (c : Dev nD) : Valuation τ sig (Elt F) :=
  Pipeline.withArrays spec3 c (W7 m c) fun w => (dat3 (atTc (W7 m)) c).arrAt w cfg3.N
theorem W8_arr (c : Dev nD) (w : Fin cfg3.W) :
    W8 m c (Proc.devRef .tc (Pipeline.arrRef spec3 w)) = (dat3 (atTc (W7 m)) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- At region 3's exit each of its arrays holds what the pipeline leaves, and every other buffer what it held at entry. -/
theorem hF3 (c : Dev nD) (w : Fin cfg3.W) : (dat3 (atTc (W7 m)) c).arrAt w cfg3.N = atTc (W8 m) c (Pipeline.arrRef spec3 w) :=
  (W8_arr m c w).symm
theorem hrest3 (c : Dev nD) : ∀ b, b ∉ Finset.univ.image (Pipeline.arrRef spec3) → atTc (W8 m) c b = atTc (W7 m) c b :=
  fun b hb => W8_of_ne m c b fun w e => hb (Finset.mem_image.mpr ⟨w, Finset.mem_univ _, e⟩)
/-- After the host stretch `hostOps4`. -/
abbrev W9 : Dev nD → Valuation τ sig (Elt F) := fun c => StableHlo.after hostOps4 (W8 m c)
/-- After region 4: its arrays at what the pipeline leaves (an input as entered, an output at its write-backs folded), every
    other buffer as entered. -/
def W10 (c : Dev nD) : Valuation τ sig (Elt F) :=
  Pipeline.withArrays spec4 c (W9 m c) fun w => (dat4 (atTc (W9 m)) c).arrAt w cfg4.N
theorem W10_arr (c : Dev nD) (w : Fin cfg4.W) :
    W10 m c (Proc.devRef .tc (Pipeline.arrRef spec4 w)) = (dat4 (atTc (W9 m)) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
/-- At region 4's exit each of its arrays holds what the pipeline leaves, and every other buffer what it held at entry. -/
theorem hF4 (c : Dev nD) (w : Fin cfg4.W) : (dat4 (atTc (W9 m)) c).arrAt w cfg4.N = atTc (W10 m) c (Pipeline.arrRef spec4 w) :=
  (W10_arr m c w).symm
theorem hrest4 (c : Dev nD) : ∀ b, b ∉ Finset.univ.image (Pipeline.arrRef spec4) → atTc (W10 m) c b = atTc (W9 m) c b :=
  fun b hb => W10_of_ne m c b fun w e => hb (Finset.mem_image.mpr ⟨w, Finset.mem_univ _, e⟩)
/-- After the host stretch `hostOps5`. -/
abbrev W11 : Dev nD → Valuation τ sig (Elt F) := fun c => StableHlo.after hostOps5 (W10 m c)
/-- After region 5: its arrays at what the pipeline leaves (an input as entered, an output at its write-backs folded), every
    other buffer as entered. -/
def W12 (c : Dev nD) : Valuation τ sig (Elt F) :=
  Pipeline.withArrays spec5 c (W11 m c) fun w => (dat5 (atTc (W11 m)) c).arrAt w cfg5.N
theorem W12_arr (c : Dev nD) (w : Fin cfg5.W) :
    W12 m c (Proc.devRef .tc (Pipeline.arrRef spec5 w)) = (dat5 (atTc (W11 m)) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
/-- At region 5's exit each of its arrays holds what the pipeline leaves, and every other buffer what it held at entry. -/
theorem hF5 (c : Dev nD) (w : Fin cfg5.W) : (dat5 (atTc (W11 m)) c).arrAt w cfg5.N = atTc (W12 m) c (Pipeline.arrRef spec5 w) :=
  (W12_arr m c w).symm
theorem hrest5 (c : Dev nD) : ∀ b, b ∉ Finset.univ.image (Pipeline.arrRef spec5) → atTc (W12 m) c b = atTc (W11 m) c b :=
  fun b hb => W12_of_ne m c b fun w e => hb (Finset.mem_image.mpr ⟨w, Finset.mem_univ _, e⟩)
/-- After the host stretch `hostOps6`. -/
abbrev W13 : Dev nD → Valuation τ sig (Elt F) := fun c => StableHlo.after hostOps6 (W12 m c)
/-- After region 6: its arrays at what the pipeline leaves (an input as entered, an output at its write-backs folded), every
    other buffer as entered. -/
def W14 (c : Dev nD) : Valuation τ sig (Elt F) :=
  Pipeline.withArrays spec6 c (W13 m c) fun w => (dat6 (atTc (W13 m)) c).arrAt w cfg6.N
theorem W14_arr (c : Dev nD) (w : Fin cfg6.W) :
    W14 m c (Proc.devRef .tc (Pipeline.arrRef spec6 w)) = (dat6 (atTc (W13 m)) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
/-- At region 6's exit each of its arrays holds what the pipeline leaves, and every other buffer what it held at entry. -/
theorem hF6 (c : Dev nD) (w : Fin cfg6.W) : (dat6 (atTc (W13 m)) c).arrAt w cfg6.N = atTc (W14 m) c (Pipeline.arrRef spec6 w) :=
  (W14_arr m c w).symm
theorem hrest6 (c : Dev nD) : ∀ b, b ∉ Finset.univ.image (Pipeline.arrRef spec6) → atTc (W14 m) c b = atTc (W13 m) c b :=
  fun b hb => W14_of_ne m c b fun w e => hb (Finset.mem_image.mpr ⟨w, Finset.mem_univ _, e⟩)
/-- After the host stretch `hostOps7`. -/
abbrev W15 : Dev nD → Valuation τ sig (Elt F) := fun c => StableHlo.after hostOps7 (W14 m c)
/-- After region 7: its arrays at what the pipeline leaves (an input as entered, an output at its write-backs folded), every
    other buffer as entered. -/
def W16 (c : Dev nD) : Valuation τ sig (Elt F) :=
  Pipeline.withArrays spec7 c (W15 m c) fun w => (dat7 (atTc (W15 m)) c).arrAt w cfg7.N
theorem W16_arr (c : Dev nD) (w : Fin cfg7.W) :
    W16 m c (Proc.devRef .tc (Pipeline.arrRef spec7 w)) = (dat7 (atTc (W15 m)) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb
/-- At region 7's exit each of its arrays holds what the pipeline leaves, and every other buffer what it held at entry. -/
theorem hF7 (c : Dev nD) (w : Fin cfg7.W) : (dat7 (atTc (W15 m)) c).arrAt w cfg7.N = atTc (W16 m) c (Pipeline.arrRef spec7 w) :=
  (W16_arr m c w).symm
theorem hrest7 (c : Dev nD) : ∀ b, b ∉ Finset.univ.image (Pipeline.arrRef spec7) → atTc (W16 m) c b = atTc (W15 m) c b :=
  fun b hb => W16_of_ne m c b fun w e => hb (Finset.mem_image.mpr ⟨w, Finset.mem_univ _, e⟩)
/-- After the host stretch `hostOps8`. -/
abbrev W17 : Dev nD → Valuation τ sig (Elt F) := fun c => StableHlo.after hostOps8 (W16 m c)
/-- After the host stretch `hostOps8_1`. -/
abbrev W18 : Dev nD → Valuation τ sig (Elt F) := fun c => StableHlo.after hostOps8_1 (W17 m c)
/-- After the host stretch `hostOps8_2`. -/
abbrev W19 : Dev nD → Valuation τ sig (Elt F) := fun c => StableHlo.after hostOps8_2 (W18 m c)
/-- After the host stretch `hostOps8_3`. -/
abbrev W20 : Dev nD → Valuation τ sig (Elt F) := fun c => StableHlo.after hostOps8_3 (W19 m c)
/-- After the host stretch `hostOps8_4`. -/
abbrev W21 : Dev nD → Valuation τ sig (Elt F) := fun c => StableHlo.after hostOps8_4 (W20 m c)

/-! ## The proof data family -/

/-- The prefetched tables' admissible contents: no pipeline has a table. -/
abbrev admz : (p : Fin 8) → (pcfgs (F := F) p).Adm := fun p => (cfgs p).toPCfg_adm
/-- Every pipeline's proof data, each at its region's entry contents: a literal match on the pipeline's index, so that
    the family at a numeral reduces to that region's data. -/
def pdats : (p : Fin 8) → (c : Dev nD) → Dat τ (Elt F) Unit ℕ (UR sig nD τ) ℕ (Pipeline.pin (pcfgs (F := F)) admz p) c
  | ⟨0, _⟩ => fun c => dat0 (atTc (W1 m)) c
  | ⟨1, _⟩ => fun c => dat1 (atTc (W3 m)) c
  | ⟨2, _⟩ => fun c => dat2 (atTc (W5 m)) c
  | ⟨3, _⟩ => fun c => dat3 (atTc (W7 m)) c
  | ⟨4, _⟩ => fun c => dat4 (atTc (W9 m)) c
  | ⟨5, _⟩ => fun c => dat5 (atTc (W11 m)) c
  | ⟨6, _⟩ => fun c => dat6 (atTc (W13 m)) c
  | ⟨7, _⟩ => fun c => dat7 (atTc (W15 m)) c
abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers between two items: the generator register at some state, nothing owed. -/
abbrev Rr (c : Dev nD) : sProp 𝕄 := iprop((∃ r, prngReg c r) ∗ ∃ W, owes (c : Thread nD τ) (0 : CellTallies nD τ sig Unit) W)

end Cert.KernelIdeal.Hand
end
-- ==== Proof.KernelIdeal.Records.lean ====
/- The eight kernel regions as segments of the main program: each one's layout as the launch decides it, its body
   obligation, and the four entailments that take the thread state before the region into the pipeline's invariant and
   its arrays, and give them back at the contents after it. -/
import proofs.«117973_j38328288150260_2_alg».proof.Proof.KernelIdeal.Fold
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unification of a library lemma stated over the pinned configuration unfolds plain definitions in a metavariable's type
set_option backward.isDefEq.respectTransparency.types false in
/-- Region 0 over the thread state: entered from every unscoped buffer at the contents `W1`, left at `W2`. Its arrays
    are split out of the unscoped buffers and put back at the exit contents; the generator register goes into the
    pipeline's invariant and comes back; nothing is owed; the kernel has no semaphore of its own. -/
def reg0 : Pipeline.RegionSeg (pcfgs (F := F)) admz (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (atTc (W1 m)) c).loose
  hwaits := Pipeline.hwaits_of_owed_zero _ _ _ _ Lz lvz 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    have hsplit := Pipeline.arrays_of_unscopedBufs (p := 0) (pcfgs (F := F)) admz (pdats m) launch0.win launch0.arr_whole c
      ((pdats m 0 c).share_full fun _ => rfl) (atTc (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0_first (atTc (W1 m)) c]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi0_last (atTc (W1 m)) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admz (Ix := Unit) (Name := ℕ) (U := UR sig nD τ) (Lvl := ℕ)
      launch0.win launch0.arr_whole c (pdats m) ((pdats m 0 c).share_full fun _ => rfl)
      (atTc (W1 m) c) (atTc (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration unfolds plain definitions in a metavariable's type
set_option backward.isDefEq.respectTransparency.types false in
/-- Region 1 over the thread state: entered from every unscoped buffer at the contents `W3`, left at `W4`. Its arrays
    are split out of the unscoped buffers and put back at the exit contents; the generator register goes into the
    pipeline's invariant and comes back; nothing is owed; the kernel has no semaphore of its own. -/
def reg1 : Pipeline.RegionSeg (pcfgs (F := F)) admz (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (atTc (W3 m)) c).loose
  hwaits := Pipeline.hwaits_of_owed_zero _ _ _ _ Lz lvz 1 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec1 c (atTc (W3 m) c)
  hentry c := by
    rw [Pipeline.ownSems0_none]
    have hsplit := Pipeline.arrays_of_unscopedBufs (p := 1) (pcfgs (F := F)) admz (pdats m) launch1.win launch1.arr_whole c
      ((pdats m 1 c).share_full fun _ => rfl) (atTc (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admz (Ix := Unit) (Name := ℕ) (U := UR sig nD τ) (Lvl := ℕ)
      launch1.win launch1.arr_whole c (pdats m) ((pdats m 1 c).share_full fun _ => rfl)
      (atTc (W3 m) c) (atTc (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration unfolds plain definitions in a metavariable's type
set_option backward.isDefEq.respectTransparency.types false in
/-- Region 2 over the thread state: entered from every unscoped buffer at the contents `W5`, left at `W6`. Its arrays
    are split out of the unscoped buffers and put back at the exit contents; the generator register goes into the
    pipeline's invariant and comes back; nothing is owed; the kernel has no semaphore of its own. -/
def reg2 : Pipeline.RegionSeg (pcfgs (F := F)) admz (pdats m) () defs₀ 𝒱₀ Lz lvz 2 where
  win := launch2.win.to₀
  block_pos := launch2.block_pos
  stage_whole := launch2.stage_whole
  K := PEmpty
  osem k := k.elim
  ho := Pipeline.OwnSemFacts.none _
  hbody c := (body_obligation2 (atTc (W5 m)) c).loose
  hwaits := Pipeline.hwaits_of_owed_zero _ _ _ _ Lz lvz 2 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec2 c (atTc (W5 m) c)
  hentry c := by
    rw [Pipeline.ownSems0_none]
    have hsplit := Pipeline.arrays_of_unscopedBufs (p := 2) (pcfgs (F := F)) admz (pdats m) launch2.win launch2.arr_whole c
      ((pdats m 2 c).share_full fun _ => rfl) (atTc (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admz (Ix := Unit) (Name := ℕ) (U := UR sig nD τ) (Lvl := ℕ)
      launch2.win launch2.arr_whole c (pdats m) ((pdats m 2 c).share_full fun _ => rfl)
      (atTc (W5 m) c) (atTc (W6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration unfolds plain definitions in a metavariable's type
set_option backward.isDefEq.respectTransparency.types false in
/-- Region 3 over the thread state: entered from every unscoped buffer at the contents `W7`, left at `W8`. Its arrays
    are split out of the unscoped buffers and put back at the exit contents; the generator register goes into the
    pipeline's invariant and comes back; nothing is owed; the kernel has no semaphore of its own. -/
def reg3 : Pipeline.RegionSeg (pcfgs (F := F)) admz (pdats m) () defs₀ 𝒱₀ Lz lvz 3 where
  win := launch3.win.to₀
  block_pos := launch3.block_pos
  stage_whole := launch3.stage_whole
  K := PEmpty
  osem k := k.elim
  ho := Pipeline.OwnSemFacts.none _
  hbody c := (body_obligation3 (atTc (W7 m)) c).loose
  hwaits := Pipeline.hwaits_of_owed_zero _ _ _ _ Lz lvz 3 fun _ _ => rfl
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec3 c (atTc (W7 m) c)
  hentry c := by
    rw [Pipeline.ownSems0_none]
    have hsplit := Pipeline.arrays_of_unscopedBufs (p := 3) (pcfgs (F := F)) admz (pdats m) launch3.win launch3.arr_whole c
      ((pdats m 3 c).share_full fun _ => rfl) (atTc (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admz (Ix := Unit) (Name := ℕ) (U := UR sig nD τ) (Lvl := ℕ)
      launch3.win launch3.arr_whole c (pdats m) ((pdats m 3 c).share_full fun _ => rfl)
      (atTc (W7 m) c) (atTc (W8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration unfolds plain definitions in a metavariable's type
set_option backward.isDefEq.respectTransparency.types false in
/-- Region 4 over the thread state: entered from every unscoped buffer at the contents `W9`, left at `W10`. Its arrays
    are split out of the unscoped buffers and put back at the exit contents; the generator register goes into the
    pipeline's invariant and comes back; nothing is owed; the kernel has no semaphore of its own. -/
def reg4 : Pipeline.RegionSeg (pcfgs (F := F)) admz (pdats m) () defs₀ 𝒱₀ Lz lvz 4 where
  win := launch4.win.to₀
  block_pos := launch4.block_pos
  stage_whole := launch4.stage_whole
  K := PEmpty
  osem k := k.elim
  ho := Pipeline.OwnSemFacts.none _
  hbody c := (body_obligation4 (atTc (W9 m)) c).loose
  hwaits := Pipeline.hwaits_of_owed_zero _ _ _ _ Lz lvz 4 fun _ _ => rfl
  pre c := iprop(StableHlo.held (c : Thread nD τ) (Pipeline.ucRefs τ sig) (W9 m c) ∗ Rr c)
  post c := iprop(StableHlo.held (c : Thread nD τ) (Pipeline.ucRefs τ sig) (W10 m c) ∗ Rr c)
  X c := iprop(∃ r, prngReg c r)
  Y c := iprop(∃ r, prngReg c r)
  Z c := Pipeline.unscopedRest (Ix := Unit) (Name := ℕ) (U := UR sig nD τ) (Lvl := ℕ) spec4 c (atTc (W9 m) c)
  hentry c := by
    rw [Pipeline.ownSems0_none]
    have hsplit := Pipeline.arrays_of_unscopedBufs (p := 4) (pcfgs (F := F)) admz (pdats m) launch4.win launch4.arr_whole c
      ((pdats m 4 c).share_full fun _ => rfl) (atTc (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (show (pdats m 4 c).Φ (Fin.last _) ⊢ Pipeline.ΦA spec4 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admz (Ix := Unit) (Name := ℕ) (U := UR sig nD τ) (Lvl := ℕ)
      launch4.win launch4.arr_whole c (pdats m) ((pdats m 4 c).share_full fun _ => rfl)
      (atTc (W9 m) c) (atTc (W10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration unfolds plain definitions in a metavariable's type
set_option backward.isDefEq.respectTransparency.types false in
/-- Region 5 over the thread state: entered from every unscoped buffer at the contents `W11`, left at `W12`. Its arrays
    are split out of the unscoped buffers and put back at the exit contents; the generator register goes into the
    pipeline's invariant and comes back; nothing is owed; the kernel has no semaphore of its own. -/
def reg5 : Pipeline.RegionSeg (pcfgs (F := F)) admz (pdats m) () defs₀ 𝒱₀ Lz lvz 5 where
  win := launch5.win.to₀
  block_pos := launch5.block_pos
  stage_whole := launch5.stage_whole
  K := PEmpty
  osem k := k.elim
  ho := Pipeline.OwnSemFacts.none _
  hbody c := (body_obligation5 (atTc (W11 m)) c).loose
  hwaits := Pipeline.hwaits_of_owed_zero _ _ _ _ Lz lvz 5 fun _ _ => rfl
  pre c := iprop(StableHlo.held (c : Thread nD τ) (Pipeline.ucRefs τ sig) (W11 m c) ∗ Rr c)
  post c := iprop(StableHlo.held (c : Thread nD τ) (Pipeline.ucRefs τ sig) (W12 m c) ∗ Rr c)
  X c := iprop(∃ r, prngReg c r)
  Y c := iprop(∃ r, prngReg c r)
  Z c := Pipeline.unscopedRest (Ix := Unit) (Name := ℕ) (U := UR sig nD τ) (Lvl := ℕ) spec5 c (atTc (W11 m) c)
  hentry c := by
    rw [Pipeline.ownSems0_none]
    have hsplit := Pipeline.arrays_of_unscopedBufs (p := 5) (pcfgs (F := F)) admz (pdats m) launch5.win launch5.arr_whole c
      ((pdats m 5 c).share_full fun _ => rfl) (atTc (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none]
    refine (show (pdats m 5 c).Φ (Fin.last _) ⊢ Pipeline.ΦA spec5 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admz (Ix := Unit) (Name := ℕ) (U := UR sig nD τ) (Lvl := ℕ)
      launch5.win launch5.arr_whole c (pdats m) ((pdats m 5 c).share_full fun _ => rfl)
      (atTc (W11 m) c) (atTc (W12 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration unfolds plain definitions in a metavariable's type
set_option backward.isDefEq.respectTransparency.types false in
/-- Region 6 over the thread state: entered from every unscoped buffer at the contents `W13`, left at `W14`. Its arrays
    are split out of the unscoped buffers and put back at the exit contents; the generator register goes into the
    pipeline's invariant and comes back; nothing is owed; the kernel has no semaphore of its own. -/
def reg6 : Pipeline.RegionSeg (pcfgs (F := F)) admz (pdats m) () defs₀ 𝒱₀ Lz lvz 6 where
  win := launch6.win.to₀
  block_pos := launch6.block_pos
  stage_whole := launch6.stage_whole
  K := PEmpty
  osem k := k.elim
  ho := Pipeline.OwnSemFacts.none _
  hbody c := (body_obligation6 (atTc (W13 m)) c).loose
  hwaits := Pipeline.hwaits_of_owed_zero _ _ _ _ Lz lvz 6 fun _ _ => rfl
  pre c := iprop(StableHlo.held (c : Thread nD τ) (Pipeline.ucRefs τ sig) (W13 m c) ∗ Rr c)
  post c := iprop(StableHlo.held (c : Thread nD τ) (Pipeline.ucRefs τ sig) (W14 m c) ∗ Rr c)
  X c := iprop(∃ r, prngReg c r)
  Y c := iprop(∃ r, prngReg c r)
  Z c := Pipeline.unscopedRest (Ix := Unit) (Name := ℕ) (U := UR sig nD τ) (Lvl := ℕ) spec6 c (atTc (W13 m) c)
  hentry c := by
    rw [Pipeline.ownSems0_none]
    have hsplit := Pipeline.arrays_of_unscopedBufs (p := 6) (pcfgs (F := F)) admz (pdats m) launch6.win launch6.arr_whole c
      ((pdats m 6 c).share_full fun _ => rfl) (atTc (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none]
    refine (show (pdats m 6 c).Φ (Fin.last _) ⊢ Pipeline.ΦA spec6 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admz (Ix := Unit) (Name := ℕ) (U := UR sig nD τ) (Lvl := ℕ)
      launch6.win launch6.arr_whole c (pdats m) ((pdats m 6 c).share_full fun _ => rfl)
      (atTc (W13 m) c) (atTc (W14 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification of a library lemma stated over the pinned configuration unfolds plain definitions in a metavariable's type
set_option backward.isDefEq.respectTransparency.types false in
/-- Region 7 over the thread state: entered from every unscoped buffer at the contents `W15`, left at `W16`. Its arrays
    are split out of the unscoped buffers and put back at the exit contents; the generator register goes into the
    pipeline's invariant and comes back; nothing is owed; the kernel has no semaphore of its own. -/
def reg7 : Pipeline.RegionSeg (pcfgs (F := F)) admz (pdats m) () defs₀ 𝒱₀ Lz lvz 7 where
  win := launch7.win.to₀
  block_pos := launch7.block_pos
  stage_whole := launch7.stage_whole
  K := PEmpty
  osem k := k.elim
  ho := Pipeline.OwnSemFacts.none _
  hbody c := (body_obligation7 (atTc (W15 m)) c).loose
  hwaits := Pipeline.hwaits_of_owed_zero _ _ _ _ Lz lvz 7 fun _ _ => rfl
  pre c := iprop(StableHlo.held (c : Thread nD τ) (Pipeline.ucRefs τ sig) (W15 m c) ∗ Rr c)
  post c := iprop(StableHlo.held (c : Thread nD τ) (Pipeline.ucRefs τ sig) (W16 m c) ∗ Rr c)
  X c := iprop(∃ r, prngReg c r)
  Y c := iprop(∃ r, prngReg c r)
  Z c := Pipeline.unscopedRest (Ix := Unit) (Name := ℕ) (U := UR sig nD τ) (Lvl := ℕ) spec7 c (atTc (W15 m) c)
  hentry c := by
    rw [Pipeline.ownSems0_none]
    have hsplit := Pipeline.arrays_of_unscopedBufs (p := 7) (pcfgs (F := F)) admz (pdats m) launch7.win launch7.arr_whole c
      ((pdats m 7 c).share_full fun _ => rfl) (atTc (W15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none]
    refine (show (pdats m 7 c).Φ (Fin.last _) ⊢ Pipeline.ΦA spec7 c from .rfl).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admz (Ix := Unit) (Name := ℕ) (U := UR sig nD τ) (Lvl := ℕ)
      launch7.win launch7.arr_whole c (pdats m) ((pdats m 7 c).share_full fun _ => rfl)
      (atTc (W15 m) c) (atTc (W16 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand
end
-- ==== Proof.KernelIdeal.Run.lean ====
/- The main program as its twenty-one items — thirteen stretches of host operations and the eight kernel regions — run
   from the launch memory: every weakly fair execution terminates, nothing faulting, and in every final memory each
   unscoped buffer of each TensorCore holds the last boundary's contents `W21`.  The frame (the arguments end as launched)
   and the result's value are both read off that one statement. -/
import proofs.«117973_j38328288150260_2_alg».proof.Proof.KernelIdeal.Records
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A stretch of host operations as a segment: its operations over the unscoped references from the contents `W`, the
    generator register and the empty debt riding along; it is left at the operations applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-- The main program's items in order, each entered from its boundary's contents. -/
abbrev segs : List (Pipeline.Seg (pcfgs (F := F)) admz (pdats m) () defs₀ 𝒱₀ Lz lvz) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .host (hseg hostOps6 hostOps6_sub hostOps6_fresh (W12 m)),
    .region (reg6 m),
    .host (hseg hostOps7 hostOps7_sub hostOps7_fresh (W14 m)),
    .region (reg7 m),
    .host (hseg hostOps8 hostOps8_sub hostOps8_fresh (W16 m)),
    .host (hseg hostOps8_1 hostOps8_1_sub hostOps8_1_fresh (W17 m)),
    .host (hseg hostOps8_2 hostOps8_2_sub hostOps8_2_fresh (W18 m)),
    .host (hseg hostOps8_3 hostOps8_3_sub hostOps8_3_fresh (W19 m)),
    .host (hseg hostOps8_4 hostOps8_4_sub hostOps8_4_fresh (W20 m)) ]

/-- The main program is the run of its items. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the kit's implicit arguments are found by unifying its conclusion with this one, which unfolds plain definitions in a metavariable's type
set_option backward.isDefEq.respectTransparency.types false in
/-- THE RUN. From any memory with zero counters every weakly fair execution of the main program on the TensorCores
    terminates, nothing faulting, and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m c b) :=
  Pipeline.θ_run_regions_kit (pcfgs (F := F)) admz (pdats m) () cellOf_inj emb₁ defs₀ 𝒱₀ Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c))
    (Tₙ := fun c => StableHlo.held (c : Thread nD τ) (Pipeline.ucRefs τ sig) (W21 m c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => sep_mono .rfl (by iintro ⟨-, H⟩; iexact H)⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m c b)
    (hfin := fun c s' => by
      iintro ⟨Hh, HSI⟩
      unfold StableHlo.held
      imodintro
      iapply (pointsTo_read_all (Pipeline.ucRefs τ sig) (fun b => (((c : Thread nD τ)).1, b)) (W21 m c) s')
      isplitl [Hh] <;> iassumption)
    (hQ := fun s h c => h c)

end Cert.KernelIdeal.Hand
end
-- ==== Proof.KernelIdeal.Kept.lean ====
/- What each item of the main program leaves unchanged: a stretch of host operations, every buffer none of its operations
   writes; a kernel region, every buffer that is not one of its output arrays (an input array is read through its window
   and never written back; any other buffer is not touched at all).  Walking back through the twenty-one items, each
   argument array holds at the end what the launch memory held. -/
import proofs.«117973_j38328288150260_2_alg».proof.Proof.KernelIdeal.Fold
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## One item -/
theorem keep1 (c : Dev nD) (r : Ref sig .tc) (h : r ∉ hostOps0_W) : W1 m c r = W0 m c r :=
  StableHlo.after_of_writes_sub hostOps0 _ hostOps0_writes h
theorem keep2 (c : Dev nD) (r : Ref sig .tc) (h : r ≠ Pipeline.arrRef spec0 2 ∧ r ≠ Pipeline.arrRef spec0 3) : W2 m c r = W1 m c r := by
  by_cases hw : ∃ w, Pipeline.arrRef spec0 w = r
  · obtain ⟨w, rfl⟩ := hw
    refine (W2_arr m c w).trans ?_
    match w, h with
    | ⟨0, _⟩, _ => exact ((dat0 (atTc (W1 m)) c).arrAt_in 0 rfl _).trans (A_eq0 (atTc (W1 m)) c 0)
    | ⟨1, _⟩, _ => exact ((dat0 (atTc (W1 m)) c).arrAt_in 1 rfl _).trans (A_eq0 (atTc (W1 m)) c 1)
    | ⟨2, _⟩, h => exact absurd rfl h.1
    | ⟨3, _⟩, h => exact absurd rfl h.2
  · exact W2_of_ne m c r (fun w e => hw ⟨w, e⟩)
theorem keep3 (c : Dev nD) (r : Ref sig .tc) (h : r ∉ hostOps1_W) : W3 m c r = W2 m c r :=
  StableHlo.after_of_writes_sub hostOps1 _ hostOps1_writes h
theorem keep4 (c : Dev nD) (r : Ref sig .tc) (h : r ≠ Pipeline.arrRef spec1 3) : W4 m c r = W3 m c r := by
  by_cases hw : ∃ w, Pipeline.arrRef spec1 w = r
  · obtain ⟨w, rfl⟩ := hw
    refine (W4_arr m c w).trans ?_
    match w, h with
    | ⟨0, _⟩, _ => exact ((dat1 (atTc (W3 m)) c).arrAt_in 0 rfl _).trans (A_eq1 (atTc (W3 m)) c 0)
    | ⟨1, _⟩, _ => exact ((dat1 (atTc (W3 m)) c).arrAt_in 1 rfl _).trans (A_eq1 (atTc (W3 m)) c 1)
    | ⟨2, _⟩, _ => exact ((dat1 (atTc (W3 m)) c).arrAt_in 2 rfl _).trans (A_eq1 (atTc (W3 m)) c 2)
    | ⟨3, _⟩, h => exact absurd rfl h
  · exact W4_of_ne m c r (fun w e => hw ⟨w, e⟩)
theorem keep5 (c : Dev nD) (r : Ref sig .tc) (h : r ∉ hostOps2_W) : W5 m c r = W4 m c r :=
  StableHlo.after_of_writes_sub hostOps2 _ hostOps2_writes h
theorem keep6 (c : Dev nD) (r : Ref sig .tc) (h : r ≠ Pipeline.arrRef spec2 3) : W6 m c r = W5 m c r := by
  by_cases hw : ∃ w, Pipeline.arrRef spec2 w = r
  · obtain ⟨w, rfl⟩ := hw
    refine (W6_arr m c w).trans ?_
    match w, h with
    | ⟨0, _⟩, _ => exact ((dat2 (atTc (W5 m)) c).arrAt_in 0 rfl _).trans (A_eq2 (atTc (W5 m)) c 0)
    | ⟨1, _⟩, _ => exact ((dat2 (atTc (W5 m)) c).arrAt_in 1 rfl _).trans (A_eq2 (atTc (W5 m)) c 1)
    | ⟨2, _⟩, _ => exact ((dat2 (atTc (W5 m)) c).arrAt_in 2 rfl _).trans (A_eq2 (atTc (W5 m)) c 2)
    | ⟨3, _⟩, h => exact absurd rfl h
  · exact W6_of_ne m c r (fun w e => hw ⟨w, e⟩)
theorem keep7 (c : Dev nD) (r : Ref sig .tc) (h : r ∉ hostOps3_W) : W7 m c r = W6 m c r :=
  StableHlo.after_of_writes_sub hostOps3 _ hostOps3_writes h
theorem keep8 (c : Dev nD) (r : Ref sig .tc) (h : r ≠ Pipeline.arrRef spec3 3) : W8 m c r = W7 m c r := by
  by_cases hw : ∃ w, Pipeline.arrRef spec3 w = r
  · obtain ⟨w, rfl⟩ := hw
    refine (W8_arr m c w).trans ?_
    match w, h with
    | ⟨0, _⟩, _ => exact ((dat3 (atTc (W7 m)) c).arrAt_in 0 rfl _).trans (A_eq3 (atTc (W7 m)) c 0)
    | ⟨1, _⟩, _ => exact ((dat3 (atTc (W7 m)) c).arrAt_in 1 rfl _).trans (A_eq3 (atTc (W7 m)) c 1)
    | ⟨2, _⟩, _ => exact ((dat3 (atTc (W7 m)) c).arrAt_in 2 rfl _).trans (A_eq3 (atTc (W7 m)) c 2)
    | ⟨3, _⟩, h => exact absurd rfl h
  · exact W8_of_ne m c r (fun w e => hw ⟨w, e⟩)
theorem keep9 (c : Dev nD) (r : Ref sig .tc) (h : r ∉ hostOps4_W) : W9 m c r = W8 m c r :=
  StableHlo.after_of_writes_sub hostOps4 _ hostOps4_writes h
theorem keep10 (c : Dev nD) (r : Ref sig .tc) (h : r ≠ Pipeline.arrRef spec4 3) : W10 m c r = W9 m c r := by
  by_cases hw : ∃ w, Pipeline.arrRef spec4 w = r
  · obtain ⟨w, rfl⟩ := hw
    refine (W10_arr m c w).trans ?_
    match w, h with
    | ⟨0, _⟩, _ => exact ((dat4 (atTc (W9 m)) c).arrAt_in 0 rfl _).trans (A_eq4 (atTc (W9 m)) c 0)
    | ⟨1, _⟩, _ => exact ((dat4 (atTc (W9 m)) c).arrAt_in 1 rfl _).trans (A_eq4 (atTc (W9 m)) c 1)
    | ⟨2, _⟩, _ => exact ((dat4 (atTc (W9 m)) c).arrAt_in 2 rfl _).trans (A_eq4 (atTc (W9 m)) c 2)
    | ⟨3, _⟩, h => exact absurd rfl h
  · exact W10_of_ne m c r (fun w e => hw ⟨w, e⟩)
theorem keep11 (c : Dev nD) (r : Ref sig .tc) (h : r ∉ hostOps5_W) : W11 m c r = W10 m c r :=
  StableHlo.after_of_writes_sub hostOps5 _ hostOps5_writes h
theorem keep12 (c : Dev nD) (r : Ref sig .tc) (h : r ≠ Pipeline.arrRef spec5 3) : W12 m c r = W11 m c r := by
  by_cases hw : ∃ w, Pipeline.arrRef spec5 w = r
  · obtain ⟨w, rfl⟩ := hw
    refine (W12_arr m c w).trans ?_
    match w, h with
    | ⟨0, _⟩, _ => exact ((dat5 (atTc (W11 m)) c).arrAt_in 0 rfl _).trans (A_eq5 (atTc (W11 m)) c 0)
    | ⟨1, _⟩, _ => exact ((dat5 (atTc (W11 m)) c).arrAt_in 1 rfl _).trans (A_eq5 (atTc (W11 m)) c 1)
    | ⟨2, _⟩, _ => exact ((dat5 (atTc (W11 m)) c).arrAt_in 2 rfl _).trans (A_eq5 (atTc (W11 m)) c 2)
    | ⟨3, _⟩, h => exact absurd rfl h
  · exact W12_of_ne m c r (fun w e => hw ⟨w, e⟩)
theorem keep13 (c : Dev nD) (r : Ref sig .tc) (h : r ∉ hostOps6_W) : W13 m c r = W12 m c r :=
  StableHlo.after_of_writes_sub hostOps6 _ hostOps6_writes h
theorem keep14 (c : Dev nD) (r : Ref sig .tc) (h : r ≠ Pipeline.arrRef spec6 3) : W14 m c r = W13 m c r := by
  by_cases hw : ∃ w, Pipeline.arrRef spec6 w = r
  · obtain ⟨w, rfl⟩ := hw
    refine (W14_arr m c w).trans ?_
    match w, h with
    | ⟨0, _⟩, _ => exact ((dat6 (atTc (W13 m)) c).arrAt_in 0 rfl _).trans (A_eq6 (atTc (W13 m)) c 0)
    | ⟨1, _⟩, _ => exact ((dat6 (atTc (W13 m)) c).arrAt_in 1 rfl _).trans (A_eq6 (atTc (W13 m)) c 1)
    | ⟨2, _⟩, _ => exact ((dat6 (atTc (W13 m)) c).arrAt_in 2 rfl _).trans (A_eq6 (atTc (W13 m)) c 2)
    | ⟨3, _⟩, h => exact absurd rfl h
  · exact W14_of_ne m c r (fun w e => hw ⟨w, e⟩)
theorem keep15 (c : Dev nD) (r : Ref sig .tc) (h : r ∉ hostOps7_W) : W15 m c r = W14 m c r :=
  StableHlo.after_of_writes_sub hostOps7 _ hostOps7_writes h
theorem keep16 (c : Dev nD) (r : Ref sig .tc) (h : r ≠ Pipeline.arrRef spec7 3) : W16 m c r = W15 m c r := by
  by_cases hw : ∃ w, Pipeline.arrRef spec7 w = r
  · obtain ⟨w, rfl⟩ := hw
    refine (W16_arr m c w).trans ?_
    match w, h with
    | ⟨0, _⟩, _ => exact ((dat7 (atTc (W15 m)) c).arrAt_in 0 rfl _).trans (A_eq7 (atTc (W15 m)) c 0)
    | ⟨1, _⟩, _ => exact ((dat7 (atTc (W15 m)) c).arrAt_in 1 rfl _).trans (A_eq7 (atTc (W15 m)) c 1)
    | ⟨2, _⟩, _ => exact ((dat7 (atTc (W15 m)) c).arrAt_in 2 rfl _).trans (A_eq7 (atTc (W15 m)) c 2)
    | ⟨3, _⟩, h => exact absurd rfl h
  · exact W16_of_ne m c r (fun w e => hw ⟨w, e⟩)
theorem keep17 (c : Dev nD) (r : Ref sig .tc) (h : r ∉ hostOps8_W) : W17 m c r = W16 m c r :=
  StableHlo.after_of_writes_sub hostOps8 _ hostOps8_writes h
theorem keep18 (c : Dev nD) (r : Ref sig .tc) (h : r ∉ hostOps8_1_W) : W18 m c r = W17 m c r :=
  StableHlo.after_of_writes_sub hostOps8_1 _ hostOps8_1_writes h
theorem keep19 (c : Dev nD) (r : Ref sig .tc) (h : r ∉ hostOps8_2_W) : W19 m c r = W18 m c r :=
  StableHlo.after_of_writes_sub hostOps8_2 _ hostOps8_2_writes h
theorem keep20 (c : Dev nD) (r : Ref sig .tc) (h : r ∉ hostOps8_3_W) : W20 m c r = W19 m c r :=
  StableHlo.after_of_writes_sub hostOps8_3 _ hostOps8_3_writes h
theorem keep21 (c : Dev nD) (r : Ref sig .tc) (h : r ∉ hostOps8_4_W) : W21 m c r = W20 m c r :=
  StableHlo.after_of_writes_sub hostOps8_4 _ hostOps8_4_writes h

/-! ## The arguments end as launched -/
theorem W21_main_arg0 (c : Dev nD) : W21 m c main_arg0 = m ((c : Thread nD τ).loc main_arg0) :=
  calc W21 m c main_arg0
    _ = W20 m c main_arg0 := keep21 m c main_arg0 (by decide)
    _ = W19 m c main_arg0 := keep20 m c main_arg0 (by decide)
    _ = W18 m c main_arg0 := keep19 m c main_arg0 (by decide)
    _ = W17 m c main_arg0 := keep18 m c main_arg0 (by decide)
    _ = W16 m c main_arg0 := keep17 m c main_arg0 (by decide)
    _ = W15 m c main_arg0 := keep16 m c main_arg0 (by decide)
    _ = W14 m c main_arg0 := keep15 m c main_arg0 (by decide)
    _ = W13 m c main_arg0 := keep14 m c main_arg0 (by decide)
    _ = W12 m c main_arg0 := keep13 m c main_arg0 (by decide)
    _ = W11 m c main_arg0 := keep12 m c main_arg0 (by decide)
    _ = W10 m c main_arg0 := keep11 m c main_arg0 (by decide)
    _ = W9 m c main_arg0 := keep10 m c main_arg0 (by decide)
    _ = W8 m c main_arg0 := keep9 m c main_arg0 (by decide)
    _ = W7 m c main_arg0 := keep8 m c main_arg0 (by decide)
    _ = W6 m c main_arg0 := keep7 m c main_arg0 (by decide)
    _ = W5 m c main_arg0 := keep6 m c main_arg0 (by decide)
    _ = W4 m c main_arg0 := keep5 m c main_arg0 (by decide)
    _ = W3 m c main_arg0 := keep4 m c main_arg0 (by decide)
    _ = W2 m c main_arg0 := keep3 m c main_arg0 (by decide)
    _ = W1 m c main_arg0 := keep2 m c main_arg0 (by decide)
    _ = W0 m c main_arg0 := keep1 m c main_arg0 (by decide)
    _ = m ((c : Thread nD τ).loc main_arg0) := rfl
theorem W21_main_arg1 (c : Dev nD) : W21 m c main_arg1 = m ((c : Thread nD τ).loc main_arg1) :=
  calc W21 m c main_arg1
    _ = W20 m c main_arg1 := keep21 m c main_arg1 (by decide)
    _ = W19 m c main_arg1 := keep20 m c main_arg1 (by decide)
    _ = W18 m c main_arg1 := keep19 m c main_arg1 (by decide)
    _ = W17 m c main_arg1 := keep18 m c main_arg1 (by decide)
    _ = W16 m c main_arg1 := keep17 m c main_arg1 (by decide)
    _ = W15 m c main_arg1 := keep16 m c main_arg1 (by decide)
    _ = W14 m c main_arg1 := keep15 m c main_arg1 (by decide)
    _ = W13 m c main_arg1 := keep14 m c main_arg1 (by decide)
    _ = W12 m c main_arg1 := keep13 m c main_arg1 (by decide)
    _ = W11 m c main_arg1 := keep12 m c main_arg1 (by decide)
    _ = W10 m c main_arg1 := keep11 m c main_arg1 (by decide)
    _ = W9 m c main_arg1 := keep10 m c main_arg1 (by decide)
    _ = W8 m c main_arg1 := keep9 m c main_arg1 (by decide)
    _ = W7 m c main_arg1 := keep8 m c main_arg1 (by decide)
    _ = W6 m c main_arg1 := keep7 m c main_arg1 (by decide)
    _ = W5 m c main_arg1 := keep6 m c main_arg1 (by decide)
    _ = W4 m c main_arg1 := keep5 m c main_arg1 (by decide)
    _ = W3 m c main_arg1 := keep4 m c main_arg1 (by decide)
    _ = W2 m c main_arg1 := keep3 m c main_arg1 (by decide)
    _ = W1 m c main_arg1 := keep2 m c main_arg1 (by decide)
    _ = W0 m c main_arg1 := keep1 m c main_arg1 (by decide)
    _ = m ((c : Thread nD τ).loc main_arg1) := rfl
theorem W21_main_arg2 (c : Dev nD) : W21 m c main_arg2 = m ((c : Thread nD τ).loc main_arg2) :=
  calc W21 m c main_arg2
    _ = W20 m c main_arg2 := keep21 m c main_arg2 (by decide)
    _ = W19 m c main_arg2 := keep20 m c main_arg2 (by decide)
    _ = W18 m c main_arg2 := keep19 m c main_arg2 (by decide)
    _ = W17 m c main_arg2 := keep18 m c main_arg2 (by decide)
    _ = W16 m c main_arg2 := keep17 m c main_arg2 (by decide)
    _ = W15 m c main_arg2 := keep16 m c main_arg2 (by decide)
    _ = W14 m c main_arg2 := keep15 m c main_arg2 (by decide)
    _ = W13 m c main_arg2 := keep14 m c main_arg2 (by decide)
    _ = W12 m c main_arg2 := keep13 m c main_arg2 (by decide)
    _ = W11 m c main_arg2 := keep12 m c main_arg2 (by decide)
    _ = W10 m c main_arg2 := keep11 m c main_arg2 (by decide)
    _ = W9 m c main_arg2 := keep10 m c main_arg2 (by decide)
    _ = W8 m c main_arg2 := keep9 m c main_arg2 (by decide)
    _ = W7 m c main_arg2 := keep8 m c main_arg2 (by decide)
    _ = W6 m c main_arg2 := keep7 m c main_arg2 (by decide)
    _ = W5 m c main_arg2 := keep6 m c main_arg2 (by decide)
    _ = W4 m c main_arg2 := keep5 m c main_arg2 (by decide)
    _ = W3 m c main_arg2 := keep4 m c main_arg2 (by decide)
    _ = W2 m c main_arg2 := keep3 m c main_arg2 (by decide)
    _ = W1 m c main_arg2 := keep2 m c main_arg2 (by decide)
    _ = W0 m c main_arg2 := keep1 m c main_arg2 (by decide)
    _ = m ((c : Thread nD τ).loc main_arg2) := rfl
theorem W21_main_arg3 (c : Dev nD) : W21 m c main_arg3 = m ((c : Thread nD τ).loc main_arg3) :=
  calc W21 m c main_arg3
    _ = W20 m c main_arg3 := keep21 m c main_arg3 (by decide)
    _ = W19 m c main_arg3 := keep20 m c main_arg3 (by decide)
    _ = W18 m c main_arg3 := keep19 m c main_arg3 (by decide)
    _ = W17 m c main_arg3 := keep18 m c main_arg3 (by decide)
    _ = W16 m c main_arg3 := keep17 m c main_arg3 (by decide)
    _ = W15 m c main_arg3 := keep16 m c main_arg3 (by decide)
    _ = W14 m c main_arg3 := keep15 m c main_arg3 (by decide)
    _ = W13 m c main_arg3 := keep14 m c main_arg3 (by decide)
    _ = W12 m c main_arg3 := keep13 m c main_arg3 (by decide)
    _ = W11 m c main_arg3 := keep12 m c main_arg3 (by decide)
    _ = W10 m c main_arg3 := keep11 m c main_arg3 (by decide)
    _ = W9 m c main_arg3 := keep10 m c main_arg3 (by decide)
    _ = W8 m c main_arg3 := keep9 m c main_arg3 (by decide)
    _ = W7 m c main_arg3 := keep8 m c main_arg3 (by decide)
    _ = W6 m c main_arg3 := keep7 m c main_arg3 (by decide)
    _ = W5 m c main_arg3 := keep6 m c main_arg3 (by decide)
    _ = W4 m c main_arg3 := keep5 m c main_arg3 (by decide)
    _ = W3 m c main_arg3 := keep4 m c main_arg3 (by decide)
    _ = W2 m c main_arg3 := keep3 m c main_arg3 (by decide)
    _ = W1 m c main_arg3 := keep2 m c main_arg3 (by decide)
    _ = W0 m c main_arg3 := keep1 m c main_arg3 (by decide)
    _ = m ((c : Thread nD τ).loc main_arg3) := rfl
theorem W21_main_arg4 (c : Dev nD) : W21 m c main_arg4 = m ((c : Thread nD τ).loc main_arg4) :=
  calc W21 m c main_arg4
    _ = W20 m c main_arg4 := keep21 m c main_arg4 (by decide)
    _ = W19 m c main_arg4 := keep20 m c main_arg4 (by decide)
    _ = W18 m c main_arg4 := keep19 m c main_arg4 (by decide)
    _ = W17 m c main_arg4 := keep18 m c main_arg4 (by decide)
    _ = W16 m c main_arg4 := keep17 m c main_arg4 (by decide)
    _ = W15 m c main_arg4 := keep16 m c main_arg4 (by decide)
    _ = W14 m c main_arg4 := keep15 m c main_arg4 (by decide)
    _ = W13 m c main_arg4 := keep14 m c main_arg4 (by decide)
    _ = W12 m c main_arg4 := keep13 m c main_arg4 (by decide)
    _ = W11 m c main_arg4 := keep12 m c main_arg4 (by decide)
    _ = W10 m c main_arg4 := keep11 m c main_arg4 (by decide)
    _ = W9 m c main_arg4 := keep10 m c main_arg4 (by decide)
    _ = W8 m c main_arg4 := keep9 m c main_arg4 (by decide)
    _ = W7 m c main_arg4 := keep8 m c main_arg4 (by decide)
    _ = W6 m c main_arg4 := keep7 m c main_arg4 (by decide)
    _ = W5 m c main_arg4 := keep6 m c main_arg4 (by decide)
    _ = W4 m c main_arg4 := keep5 m c main_arg4 (by decide)
    _ = W3 m c main_arg4 := keep4 m c main_arg4 (by decide)
    _ = W2 m c main_arg4 := keep3 m c main_arg4 (by decide)
    _ = W1 m c main_arg4 := keep2 m c main_arg4 (by decide)
    _ = W0 m c main_arg4 := keep1 m c main_arg4 (by decide)
    _ = m ((c : Thread nD τ).loc main_arg4) := rfl
theorem W21_main_arg5 (c : Dev nD) : W21 m c main_arg5 = m ((c : Thread nD τ).loc main_arg5) :=
  calc W21 m c main_arg5
    _ = W20 m c main_arg5 := keep21 m c main_arg5 (by decide)
    _ = W19 m c main_arg5 := keep20 m c main_arg5 (by decide)
    _ = W18 m c main_arg5 := keep19 m c main_arg5 (by decide)
    _ = W17 m c main_arg5 := keep18 m c main_arg5 (by decide)
    _ = W16 m c main_arg5 := keep17 m c main_arg5 (by decide)
    _ = W15 m c main_arg5 := keep16 m c main_arg5 (by decide)
    _ = W14 m c main_arg5 := keep15 m c main_arg5 (by decide)
    _ = W13 m c main_arg5 := keep14 m c main_arg5 (by decide)
    _ = W12 m c main_arg5 := keep13 m c main_arg5 (by decide)
    _ = W11 m c main_arg5 := keep12 m c main_arg5 (by decide)
    _ = W10 m c main_arg5 := keep11 m c main_arg5 (by decide)
    _ = W9 m c main_arg5 := keep10 m c main_arg5 (by decide)
    _ = W8 m c main_arg5 := keep9 m c main_arg5 (by decide)
    _ = W7 m c main_arg5 := keep8 m c main_arg5 (by decide)
    _ = W6 m c main_arg5 := keep7 m c main_arg5 (by decide)
    _ = W5 m c main_arg5 := keep6 m c main_arg5 (by decide)
    _ = W4 m c main_arg5 := keep5 m c main_arg5 (by decide)
    _ = W3 m c main_arg5 := keep4 m c main_arg5 (by decide)
    _ = W2 m c main_arg5 := keep3 m c main_arg5 (by decide)
    _ = W1 m c main_arg5 := keep2 m c main_arg5 (by decide)
    _ = W0 m c main_arg5 := keep1 m c main_arg5 (by decide)
    _ = m ((c : Thread nD τ).loc main_arg5) := rfl
theorem W21_main_arg6 (c : Dev nD) : W21 m c main_arg6 = m ((c : Thread nD τ).loc main_arg6) :=
  calc W21 m c main_arg6
    _ = W20 m c main_arg6 := keep21 m c main_arg6 (by decide)
    _ = W19 m c main_arg6 := keep20 m c main_arg6 (by decide)
    _ = W18 m c main_arg6 := keep19 m c main_arg6 (by decide)
    _ = W17 m c main_arg6 := keep18 m c main_arg6 (by decide)
    _ = W16 m c main_arg6 := keep17 m c main_arg6 (by decide)
    _ = W15 m c main_arg6 := keep16 m c main_arg6 (by decide)
    _ = W14 m c main_arg6 := keep15 m c main_arg6 (by decide)
    _ = W13 m c main_arg6 := keep14 m c main_arg6 (by decide)
    _ = W12 m c main_arg6 := keep13 m c main_arg6 (by decide)
    _ = W11 m c main_arg6 := keep12 m c main_arg6 (by decide)
    _ = W10 m c main_arg6 := keep11 m c main_arg6 (by decide)
    _ = W9 m c main_arg6 := keep10 m c main_arg6 (by decide)
    _ = W8 m c main_arg6 := keep9 m c main_arg6 (by decide)
    _ = W7 m c main_arg6 := keep8 m c main_arg6 (by decide)
    _ = W6 m c main_arg6 := keep7 m c main_arg6 (by decide)
    _ = W5 m c main_arg6 := keep6 m c main_arg6 (by decide)
    _ = W4 m c main_arg6 := keep5 m c main_arg6 (by decide)
    _ = W3 m c main_arg6 := keep4 m c main_arg6 (by decide)
    _ = W2 m c main_arg6 := keep3 m c main_arg6 (by decide)
    _ = W1 m c main_arg6 := keep2 m c main_arg6 (by decide)
    _ = W0 m c main_arg6 := keep1 m c main_arg6 (by decide)
    _ = m ((c : Thread nD τ).loc main_arg6) := rfl
theorem W21_main_arg7 (c : Dev nD) : W21 m c main_arg7 = m ((c : Thread nD τ).loc main_arg7) :=
  calc W21 m c main_arg7
    _ = W20 m c main_arg7 := keep21 m c main_arg7 (by decide)
    _ = W19 m c main_arg7 := keep20 m c main_arg7 (by decide)
    _ = W18 m c main_arg7 := keep19 m c main_arg7 (by decide)
    _ = W17 m c main_arg7 := keep18 m c main_arg7 (by decide)
    _ = W16 m c main_arg7 := keep17 m c main_arg7 (by decide)
    _ = W15 m c main_arg7 := keep16 m c main_arg7 (by decide)
    _ = W14 m c main_arg7 := keep15 m c main_arg7 (by decide)
    _ = W13 m c main_arg7 := keep14 m c main_arg7 (by decide)
    _ = W12 m c main_arg7 := keep13 m c main_arg7 (by decide)
    _ = W11 m c main_arg7 := keep12 m c main_arg7 (by decide)
    _ = W10 m c main_arg7 := keep11 m c main_arg7 (by decide)
    _ = W9 m c main_arg7 := keep10 m c main_arg7 (by decide)
    _ = W8 m c main_arg7 := keep9 m c main_arg7 (by decide)
    _ = W7 m c main_arg7 := keep8 m c main_arg7 (by decide)
    _ = W6 m c main_arg7 := keep7 m c main_arg7 (by decide)
    _ = W5 m c main_arg7 := keep6 m c main_arg7 (by decide)
    _ = W4 m c main_arg7 := keep5 m c main_arg7 (by decide)
    _ = W3 m c main_arg7 := keep4 m c main_arg7 (by decide)
    _ = W2 m c main_arg7 := keep3 m c main_arg7 (by decide)
    _ = W1 m c main_arg7 := keep2 m c main_arg7 (by decide)
    _ = W0 m c main_arg7 := keep1 m c main_arg7 (by decide)
    _ = m ((c : Thread nD τ).loc main_arg7) := rfl

end Cert.KernelIdeal.Hand
end
-- ==== Proof.Spec.lean ====
/-
  The function both programs compute, as small named pieces over the extended reals.

  With L the [N, N] operator and X the [N, d] signal, the Chebyshev recurrence is
      T 0 = X,   T 1 = L · X,   T (k+2) = 2 · (L · T (k+1)) − T k,
  the two filters are the running sums  acc a k = a 0 · T 0 + a 1 · T 1 + … + a k · T k  (summed left to
  right) for the two coefficient tables, the high-pass branch is X − acc a_hp 8, each branch goes through a
  dense layer with bias and a rectifier, and the result is the dense layer of the three blocks
  [rect-low | rect-high | X] laid side by side.  Every operation is the host's own, so a host program's
  stage is one of these pieces by unfolding; a tiled product is one of them by a law about sums.
-/
import proofs.«117973_j38328288150260_2_alg».proof.ReferenceIdeal
import Idealize.ShloMosaic.PureOps.Ideal

noncomputable section

namespace Cert.Spec

open Idealize.ShloMosaic Cert.ReferenceIdeal Cert.ReferenceIdeal.Facts₀

variable [Cert.ReferenceIdeal.Facts]

/-- An [N, d] array of extended reals. -/
abbrev Arr : Type := FVec Ideal S16384x32 .f32
/-- The [N, N] operator. -/
abbrev Op : Type := FVec Ideal S16384x16384 .f32
/-- A [d, d] weight, a [3d, d] weight, a length-d bias. -/
abbrev Wt : Type := FVec Ideal S32x32 .f32
abbrev Wt3 : Type := FVec Ideal S96x32 .f32
abbrev Bias : Type := FVec Ideal S32 .f32

/-- The scalar with bit pattern `w`, at every entry of an [N, d] array. -/
def coef (w : BitVec 32) : Arr := broadcastInDim S16384x32 ![] bcast_S_S16384x32 (constant (F := Ideal) S_ .f32 w)

/-- The product L · T: entry (i, j) is the sum over k of L(i, k) · T(k, j). -/
def mv (L : Op) (T : Arr) : Arr := Host.dotGeneral (F := Ideal) dot_S16384x16384_S16384x32_S16384x32_1_0_0_1_n_n none L T

/-- One step of the recurrence: 2 · (L · T) − P. -/
def next (L : Op) (T P : Arr) : Arr := subf (mulf (coef 0x40000000#32) (mv L T)) P

/-- The Chebyshev terms. -/
def T (L : Op) (X : Arr) : ℕ → Arr
  | 0 => X
  | 1 => mv L X
  | (k + 2) => next L (T L X (k + 1)) (T L X k)

theorem T_zero (L : Op) (X : Arr) : T L X 0 = X := rfl
theorem T_one (L : Op) (X : Arr) : T L X 1 = mv L X := rfl
theorem T_step (L : Op) (X : Arr) (k : ℕ) : T L X (k + 2) = next L (T L X (k + 1)) (T L X k) := rfl

/-- The running sum a 0 · T 0 + a 1 · T 1 + … + a k · T k, added left to right (k ≥ 1). -/
def acc (a : ℕ → BitVec 32) (L : Op) (X : Arr) : ℕ → Arr
  | 0 => mulf (coef (a 0)) (T L X 0)
  | 1 => addf (mulf (coef (a 0)) (T L X 0)) (mulf (coef (a 1)) (T L X 1))
  | (k + 2) => addf (acc a L X (k + 1)) (mulf (coef (a (k + 2))) (T L X (k + 2)))

theorem acc_one (a : ℕ → BitVec 32) (L : Op) (X : Arr) :
    acc a L X 1 = addf (mulf (coef (a 0)) (T L X 0)) (mulf (coef (a 1)) (T L X 1)) := rfl
theorem acc_step (a : ℕ → BitVec 32) (L : Op) (X : Arr) (k : ℕ) :
    acc a L X (k + 2) = addf (acc a L X (k + 1)) (mulf (coef (a (k + 2))) (T L X (k + 2))) := rfl

/-- The low-pass and high-pass coefficient tables (bit patterns of the nine f32 coefficients each). -/
def aLP (k : ℕ) : BitVec 32 := lit0 (Fin.ofNat 9 k)
def aHP (k : ℕ) : BitVec 32 := lit1 (Fin.ofNat 9 k)

/-- A length-d bias on every row. -/
def bias (b : Bias) : Arr :=
  broadcastInDim S16384x32 ![0, 1] bcast_S1x32_S16384x32_0_1 (broadcastInDim S1x32 ![1] bcast_S32_S1x32_1 b)

/-- The rectifier max(x, 0), entry by entry. -/
def relu (x : Arr) : Arr := maximumf x (broadcastInDim S16384x32 ![] bcast_S_S16384x32 (constant (F := Ideal) S_ .f32 0x00000000#32))

/-- A dense layer x · W + b. -/
def dense (x : Arr) (W : Wt) (b : Bias) : Arr :=
  addf (Host.dotGeneral (F := Ideal) dot_S16384x32_S32x32_S16384x32_1_0_0_1_n_n none x W) (bias b)

/-- The tail: from the two filtered signals and X to the result. -/
def tail (LP HPc X : Arr) (Wlp : Wt) (blp : Bias) (Whp : Wt) (bhp : Bias) (Wf : Wt3) (bf : Bias) : Arr :=
  addf (Host.dotGeneral (F := Ideal) dot_S16384x96_S96x32_S16384x32_1_0_0_1_n_n none
      (concatenate S16384x96 1 [⟨S16384x32, relu (dense LP Wlp blp)⟩, ⟨S16384x32, relu (dense (subf X HPc) Whp bhp)⟩, ⟨S16384x32, X⟩]
        concatenates_S16384x32_S16384x32_S16384x32_S16384x96_d1) Wf) (bias bf)

/-- The whole function of the eight arguments. -/
def out (X : Arr) (L : Op) (Wlp : Wt) (blp : Bias) (Whp : Wt) (bhp : Bias) (Wf : Wt3) (bf : Bias) : Arr :=
  tail (acc aLP L X 8) (acc aHP L X 8) X Wlp blp Whp bhp Wf bf

end Cert.Spec

end
-- ==== Proof.KernelIdeal.FirstValuePieces.lean ====
/- Region 0: what each case of the body leaves in the buffers it stores into, as values of the blocks it loads:
   window 2's buffer holds the cast of window 0's block; the accumulator holds the sum of what it held (zero on the first
   column) and the product of the two blocks; on the last column window 3's buffer holds the accumulator. -/
import proofs.«117973_j38328288150260_2_alg».proof.Proof.KernelIdeal.Region0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem out2_A (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : cond0_0 i) (hc1 : ¬cond0_1 i) (x0 : Vec F S1024x2048 .f32) (x1 : Vec F S2048x32 .bf16) :
    out0_A_2 c i arg2 harg2 arg3 harg3 arg4 harg4 arg5 harg5 arg6 harg6 hc0 hc1 x0 x1 = k0_pay2 x0 := by
  unfold out0_A_2
  rw [View.read_writes_eq_canon _ _ _ (cover0_A_2 c i arg2 harg2 arg3 harg3 arg4 harg4 arg5 harg5 arg6 harg6 hc0 hc1 x0 x1)]
  unfold bodyRun0_A
  dsimp only
  rw [View.canon_unit_zero hz2]
  simp only [View.readAt_eq_ld, harg2.read_unread, View.ld_unit_zero (S := S1024x2048) hz2]

theorem out2_B (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : ¬cond0_1 i) (x0 : Vec F S1024x2048 .f32) (x1 : Vec F S2048x32 .bf16) (xs0 : Vec F S1024x32 .f32) :
    out0_B_2 c i arg2 harg2 arg3 harg3 arg4 harg4 arg5 harg5 arg6 harg6 hc0 hc1 x0 x1 xs0 = k0_pay2 x0 := by
  unfold out0_B_2
  rw [View.read_writes_eq_canon _ _ _ (cover0_B_2 c i arg2 harg2 arg3 harg3 arg4 harg4 arg5 harg5 arg6 harg6 hc0 hc1 x0 x1 xs0)]
  unfold bodyRun0_B
  dsimp only
  rw [View.canon_unit_zero hz2]
  simp only [View.readAt_eq_ld, harg2.read_unread, View.ld_unit_zero (S := S1024x2048) hz2]

theorem out2_C (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : cond0_1 i) (x0 : Vec F S1024x2048 .f32) (x1 : Vec F S2048x32 .bf16) (xs0 : Vec F S1024x32 .f32) :
    out0_C_2 c i arg2 harg2 arg3 harg3 arg4 harg4 arg5 harg5 arg6 harg6 hc0 hc1 x0 x1 xs0 = k0_pay2 x0 := by
  unfold out0_C_2
  rw [View.read_writes_eq_canon _ _ _ (cover0_C_2 c i arg2 harg2 arg3 harg3 arg4 harg4 arg5 harg5 arg6 harg6 hc0 hc1 x0 x1 xs0)]
  unfold bodyRun0_C
  dsimp only
  rw [View.canon_unit_zero hz2]
  simp only [View.readAt_eq_ld, harg2.read_unread, View.ld_unit_zero (S := S1024x2048) hz2]

theorem sout_B (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : ¬cond0_1 i) (x0 : Vec F S1024x2048 .f32) (x1 : Vec F S2048x32 .bf16) (xs0 : Vec F S1024x32 .f32) :
    sout0_B c i arg2 harg2 arg3 harg3 arg4 harg4 arg5 harg5 arg6 harg6 hc0 hc1 x0 x1 xs0 = k0_pay3 x0 xs0 x1 := by
  unfold sout0_B
  rw [View.read_writes_eq_canon _ _ _ (scover0_B c i arg2 harg2 arg3 harg3 arg4 harg4 arg5 harg5 arg6 harg6 hc0 hc1 x0 x1 xs0)]
  unfold bodyRun0_B
  dsimp only
  rw [View.canon_unit_zero hz2]
  simp only [View.readAt_eq_ld, harg2.read_unread, harg3.read_unread, harg6.read_unread, View.ld_unit_zero (S := S1024x2048) hz2, View.ld_unit_zero (S := S2048x32) hz2, View.ld_unit_zero (S := S1024x32) hz2]

theorem sout_C (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : cond0_1 i) (x0 : Vec F S1024x2048 .f32) (x1 : Vec F S2048x32 .bf16) (xs0 : Vec F S1024x32 .f32) :
    sout0_C c i arg2 harg2 arg3 harg3 arg4 harg4 arg5 harg5 arg6 harg6 hc0 hc1 x0 x1 xs0 = k0_pay3 x0 xs0 x1 := by
  unfold sout0_C
  rw [View.read_writes_eq_canon _ _ _ (scover0_C c i arg2 harg2 arg3 harg3 arg4 harg4 arg5 harg5 arg6 harg6 hc0 hc1 x0 x1 xs0)]
  unfold bodyRun0_C
  dsimp only
  sl_unfold_words
  rw [View.canon_unit_zero hz2]
  simp only [View.readAt_eq_ld, harg2.read_unread, harg3.read_unread, harg6.read_unread, View.ld_unit_zero (S := S1024x2048) hz2, View.ld_unit_zero (S := S2048x32) hz2, View.ld_unit_zero (S := S1024x32) hz2]

theorem out3_C (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : ¬cond0_0 i) (hc1 : cond0_1 i) (x0 : Vec F S1024x2048 .f32) (x1 : Vec F S2048x32 .bf16) (xs0 : Vec F S1024x32 .f32) :
    out0_C_3 c i arg2 harg2 arg3 harg3 arg4 harg4 arg5 harg5 arg6 harg6 hc0 hc1 x0 x1 xs0 = k0_pay3 x0 xs0 x1 := by
  unfold out0_C_3
  rw [View.read_writes_eq_canon _ _ _ (cover0_C_3 c i arg2 harg2 arg3 harg3 arg4 harg4 arg5 harg5 arg6 harg6 hc0 hc1 x0 x1 xs0)]
  unfold bodyRun0_C
  dsimp only
  sl_unfold_words
  rw [View.canon_unit_zero hz2, View.readCov_unit_zero (S := S1024x32) _ hz2]
  simp only [View.readAt_eq_ld, harg2.read_unread, harg3.read_unread, harg6.read_unread, View.ld_unit_zero (S := S1024x2048) hz2, View.ld_unit_zero (S := S2048x32) hz2, View.ld_unit_zero (S := S1024x32) hz2]

theorem sout_A (c : Dev nD) (i : grid0.Coords) (arg2 : Memref sig .tc .vmem S1024x2048 .f32) (harg2 : arg2.IsWhole) (arg3 : Memref sig .tc .vmem S2048x32 .bf16) (harg3 : arg3.IsWhole) (arg4 : Memref sig .tc .vmem S1024x2048 .bf16) (harg4 : arg4.IsWhole) (arg5 : Memref sig .tc .vmem S1024x32 .f32) (harg5 : arg5.IsWhole) (arg6 : Memref sig .tc .vmem S1024x32 .f32) (harg6 : arg6.IsWhole) (hc0 : cond0_0 i) (hc1 : ¬cond0_1 i) (x0 : Vec F S1024x2048 .f32) (x1 : Vec F S2048x32 .bf16) :
    sout0_A c i arg2 harg2 arg3 harg3 arg4 harg4 arg5 harg5 arg6 harg6 hc0 hc1 x0 x1 = k0_pay3 x0 k0_pay1 x1 := by
  unfold sout0_A
  rw [View.read_writes_eq_canon _ _ _ (scover0_A c i arg2 harg2 arg3 harg3 arg4 harg4 arg5 harg5 arg6 harg6 hc0 hc1 x0 x1)]
  unfold bodyRun0_A
  dsimp only
  sl_unfold_words
  rw [View.canon_cons_unit_zero (S := S1024x32) hz2, View.readCov_unit_zero (S := S1024x32) _ hz2]
  simp only [View.readAt_eq_ld, harg2.read_unread, harg3.read_unread, View.ld_unit_zero (S := S1024x2048) hz2, View.ld_unit_zero (S := S2048x32) hz2]

end Cert.KernelIdeal.Hand

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.KernelIdeal.FirstValue.lean ====
/- Region 0's value over the extended reals: after the region, window 2's array is the operator (the narrowing cast is the
   identity on extended reals) and window 3's array is the operator times the signal: row block by row block, the
   accumulator adds the eight column blocks' products to zero, and a sum over the 16384 contracted coordinates is the sum
   over the eight blocks of the sums over each block's 2048 coordinates. -/
import proofs.«117973_j38328288150260_2_alg».proof.Proof.KernelIdeal.FirstValuePieces
import proofs.«117973_j38328288150260_2_alg».proof.Proof.LibPlainMatmul
import proofs.«117973_j38328288150260_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-! ## The payloads over the extended reals -/

/-- The narrowing cast is the identity. -/
theorem pay2_ideal (x0 : Vec Ideal S1024x2048 .f32) : (k0_pay2 (F := Ideal) x0 : S1024x2048.Idx → EReal) = x0 := rfl

/-- The zero block. -/
theorem pay1_ideal (j : S1024x32.Idx) : (k0_pay1 (F := Ideal) j : EReal) = 0 := by
  unfold k0_pay1
  simp only [shapeCast_self]
  show Ideal.ofBits .f32 0x00000000#32 = 0
  exact Ideal.ofBits_zero_f32

/-- The accumulation: what the accumulator held plus the product of the two blocks. -/
theorem pay3_ideal (x0 : Vec Ideal S1024x2048 .f32) (xs : Vec Ideal S1024x32 .f32) (x1 : Vec Ideal S2048x32 .bf16) (a : Fin 1024) (b : Fin 32) :
    (k0_pay3 (F := Ideal) x0 xs x1 (ix2 a b) : EReal)
      = (xs (ix2 a b) : EReal) + ∑ k : Fin 2048, (x0 (ix2 a k) : EReal) * (x1 (ix2 k b) : EReal) := by
  unfold k0_pay3 k0_pay2
  simp only [shapeCast_self]
  show (xs (ix2 a b) : EReal) + matmul (F := Ideal) (DotDims.plain 1024 2048 32) none (x0 : (⟨2, ![1024, 2048]⟩ : Shape).Idx → EReal) (x1 : (⟨2, ![2048, 32]⟩ : Shape).Idx → EReal) (constant ⟨2, ![1024, 32]⟩ .f32 0x00000000#32) (ix2 a b) = _
  rw [Cert.Lib.matmul_plain_zero_apply]

section Value
variable (V : (c : Dev nD) → (b : Ref sig .tc) → Buf (Elt Ideal) ((c : Thread nD τ).loc b))

/-! ## The arrays by natural coordinates, and the blocks read through them -/

/-- The operator at row `r`, column `k` (0 outside the array). -/
def Lat (c : Dev nD) (r k : ℕ) : EReal :=
  if h : r < 16384 ∧ k < 16384 then (V c main_arg1 : S16384x16384.Idx → EReal) (ix2 ⟨r, h.1⟩ ⟨k, h.2⟩) else 0
/-- The signal at row `k`, column `j` (0 outside the array). -/
def Xat (c : Dev nD) (k j : ℕ) : EReal :=
  if h : k < 16384 ∧ j < 32 then (V c main_v0 : S16384x32.Idx → EReal) (ix2 ⟨k, h.1⟩ ⟨j, h.2⟩) else 0

/-- The printed index maps over the grid: point `t` has row block `t / 8` and column block `t % 8`. -/
theorem idx_facts0 : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = t.val % 8
    ∧ win0_3.index t (0 : Fin 2) = t.val / 8 ∧ win0_3.index t (1 : Fin 2) = 0 :=
  (by decide +kernel : ∀ t : Fin grid0.N, _)

/-- Window 0's block at point `t`: rows `1024 (t / 8) …`, columns `2048 (t % 8) …` of the operator. -/
theorem iblk0_0_apply (c : Dev nD) (t : Fin cfg0.N) (a : Fin 1024) (k : Fin 2048) :
    (iblk0 V c 0 t (ix2 a k) : EReal) = Lat V c (1024 * (t.val / 8) + a.val) (2048 * (t.val % 8) + k.val) := by
  have hN : t.val < 128 := lt_of_lt_of_eq t.isLt (show cfg0.N = 128 from N_0)
  have ha := a.isLt
  have hk := k.isLt
  unfold Lat
  rw [dif_pos ⟨by omega, by omega⟩]
  show V c main_arg1 (((cfg0.win 0).blk t).view.emb (ix2 a k)) = V c main_arg1 (ix2 _ _)
  refine congrArg (V c main_arg1) ?_
  obtain ⟨e0, e1, -, -, -, -, -, -⟩ := idx_facts0 t
  funext ax; apply Fin.ext
  match ax with
  | ⟨0, _⟩ => show win0_0.index t (0 : Fin 2) * 1024 + 1 * a.val = 1024 * (t.val / 8) + a.val; omega
  | ⟨1, _⟩ => show win0_0.index t (1 : Fin 2) * 2048 + 1 * k.val = 2048 * (t.val % 8) + k.val; omega

/-- Window 1's block at point `t`: rows `2048 (t % 8) …` of the signal. -/
theorem iblk0_1_apply (c : Dev nD) (t : Fin cfg0.N) (k : Fin 2048) (b : Fin 32) :
    (iblk0 V c 1 t (ix2 k b) : EReal) = Xat V c (2048 * (t.val % 8) + k.val) b.val := by
  have hN : t.val < 128 := lt_of_lt_of_eq t.isLt (show cfg0.N = 128 from N_0)
  have hb := b.isLt
  have hk := k.isLt
  unfold Xat
  rw [dif_pos ⟨by omega, by omega⟩]
  show V c main_v0 (((cfg0.win 1).blk t).view.emb (ix2 k b)) = V c main_v0 (ix2 _ _)
  refine congrArg (V c main_v0) ?_
  obtain ⟨-, -, e0, e1, -, -, -, -⟩ := idx_facts0 t
  funext ax; apply Fin.ext
  match ax with
  | ⟨0, _⟩ => show win0_1.index t (0 : Fin 2) * 2048 + 1 * k.val = 2048 * (t.val % 8) + k.val; omega
  | ⟨1, _⟩ => show win0_1.index t (1 : Fin 2) * 32 + 1 * b.val = b.val; omega

/-! ## The accumulator after each point -/

/-- Column block `q`'s share of entry (a, b) of row block `rb` of the product. -/
def colsum (c : Dev nD) (rb q : ℕ) (a : Fin 1024) (b : Fin 32) : EReal :=
  ∑ k : Fin 2048, Lat V c (1024 * rb + a.val) (2048 * q + k.val) * Xat V c (2048 * q + k.val) b.val

/-- One accumulation step read at an entry, the blocks read through the arrays. -/
theorem step_apply (c : Dev nD) (t : Fin cfg0.N) (xs : Vec Ideal S1024x32 .f32) (a : Fin 1024) (b : Fin 32) :
    (k0_pay3 (F := Ideal) (iblk0 V c 0 t) xs (iblk0 V c 1 t) (ix2 a b) : EReal)
      = (xs (ix2 a b) : EReal) + colsum V c (t.val / 8) (t.val % 8) a b := by
  rw [pay3_ideal]
  unfold colsum
  refine congrArg (fun z => (xs (ix2 a b) : EReal) + z) (Finset.sum_congr rfl fun k _ => ?_)
  rw [iblk0_0_apply V c t a k, iblk0_1_apply V c t k b]

/-- THE ACCUMULATOR after point `n`: the sum of the shares of the column blocks up to the point's own. -/
theorem acc_eq (c : Dev nD) : ∀ (n : ℕ) (h : n < cfg0.N) (a : Fin 1024) (b : Fin 32),
    ((outsAt0 V c n h).2.2 (ix2 a b) : EReal) = ∑ q ∈ Finset.range (n % 8 + 1), colsum V c (n / 8) q a b
  | 0, h, a, b => by
    rw [outsAt0_A V c ⟨0, h⟩ (Nat.zero_mod _) (show ¬ ((0 : ℕ) % 8 = 7) from by decide)]
    dsimp only
    rw [sout_A, step_apply V c ⟨0, h⟩ _ a b, pay1_ideal, zero_add]
    simp only [Nat.zero_mod, Nat.zero_div, zero_add, Finset.sum_range_one]
  | n + 1, h, a, b => by
    by_cases h0 : (n + 1) % 8 = 0
    · have h1 : ¬ (n + 1) % 8 = 7 := by omega
      rw [outsAt0_A V c ⟨n + 1, h⟩ h0 h1]
      dsimp only
      rw [sout_A, step_apply V c ⟨n + 1, h⟩ _ a b, pay1_ideal, zero_add]
      show colsum V c ((n + 1) / 8) ((n + 1) % 8) a b = _
      rw [h0, zero_add, Finset.sum_range_one]
    · have e1 : (n + 1) % 8 = n % 8 + 1 := by omega
      have e2 : (n + 1) / 8 = n / 8 := by omega
      have hp := acc_eq c n (Nat.lt_of_succ_lt h) a b
      by_cases h1 : (n + 1) % 8 = 7
      · rw [outsAt0_C V c ⟨n + 1, h⟩ h0 h1]
        dsimp only
        rw [sout_C, step_apply V c ⟨n + 1, h⟩ _ a b]
        show ((outsAt0 V c n _).2.2 (ix2 a b) : EReal) + colsum V c ((n + 1) / 8) ((n + 1) % 8) a b = _
        rw [e1, e2, Finset.sum_range_succ, hp]
      · rw [outsAt0_B V c ⟨n + 1, h⟩ h0 h1]
        dsimp only
        rw [sout_B, step_apply V c ⟨n + 1, h⟩ _ a b]
        show ((outsAt0 V c n _).2.2 (ix2 a b) : EReal) + colsum V c ((n + 1) / 8) ((n + 1) % 8) a b = _
        rw [e1, e2, Finset.sum_range_succ, hp]

/-! ## Window 2: the operator, cast -/

/-- Whatever the column, window 2's buffer holds the cast of window 0's block. -/
theorem outsAt0_fst (c : Dev nD) (t : Fin cfg0.N) : (outsAt0 V c t.val t.isLt).1 = k0_pay2 (iblk0 V c 0 t) := by
  by_cases h0 : t.val % 8 = 0
  · have h1 : ¬ t.val % 8 = 7 := by omega
    rw [outsAt0_A V c t h0 h1]; dsimp only; rw [out2_A]
  · by_cases h1 : t.val % 8 = 7
    · rw [outsAt0_C V c t h0 h1]; dsimp only; rw [out2_C]
    · rw [outsAt0_B V c t h0 h1]; dsimp only; rw [out2_B]

/-- What window 2's array ends holding: the operator. -/
abbrev G2 (c : Dev nD) : Buf (Elt Ideal) ((c : Thread nD τ).loc main_v1_0) := fun i => (V c main_arg1 : S16384x16384.Idx → EReal) i

/-- What point `t` writes back of window 2 is block `t` of the operator. -/
theorem flushed2_eq (c : Dev nD) (t : Fin cfg0.N) :
    (dat0 V c).flushed 2 t = ((cfg0.win 2).blk t).view.read (Elt Ideal) (G2 V c) := by
  show (cfg0.win 2).cut (grid0.coords t) ((dat0 V c).after 2 t) = _
  rw [after0_2, outsAt0_fst]
  obtain ⟨e0, e1, -, -, e4, e5, -, -⟩ := idx_facts0 t
  funext j
  show V c main_arg1 (((cfg0.win 0).blk t).view.emb j) = V c main_arg1 (((cfg0.win 2).blk t).view.emb j)
  refine congrArg (V c main_arg1) ?_
  funext a; apply Fin.ext
  match a with
  | ⟨0, _⟩ => show win0_0.index t (0 : Fin 2) * 1024 + 1 * (j 0).val = win0_2.index t (0 : Fin 2) * 1024 + 1 * (j 0).val; omega
  | ⟨1, _⟩ => show win0_0.index t (1 : Fin 2) * 2048 + 1 * (j 1).val = win0_2.index t (1 : Fin 2) * 2048 + 1 * (j 1).val; omega

/-- An index of window 2's array is in point `t`'s block iff each coordinate is in the block's range. -/
theorem mem_blk2 (t : Fin cfg0.N) (i : S16384x16384.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v1_0).slice (win0_2.rect t)).set ↔ _
  rw [View.set_slice_whole, Rect.mem_set_unit]
  exact Iff.rfl

/-- Entry (r, k) is in the block of the point with row block `r / 1024` and column block `k / 2048`. -/
theorem cover2 (i : S16384x16384.Idx) :
    ∃ t : Fin cfg0.N, (cfg0.win 2).flush t = true ∧ i ∈ ((cfg0.win 2).blk t).view.set := by
  have hi0 : (i 0).val < 16384 := (i 0).isLt
  have hi1 : (i 1).val < 16384 := (i 1).isLt
  have hlt : 8 * ((i 0).val / 1024) + (i 1).val / 2048 < cfg0.N := by rw [show cfg0.N = 128 from N_0]; omega
  refine ⟨⟨8 * ((i 0).val / 1024) + (i 1).val / 2048, hlt⟩, flush0_2 _, ?_⟩
  rw [mem_blk2]
  obtain ⟨-, -, -, -, e4, e5, -, -⟩ := idx_facts0 ⟨8 * ((i 0).val / 1024) + (i 1).val / 2048, hlt⟩
  have e4' : win0_2.index ⟨8 * ((i 0).val / 1024) + (i 1).val / 2048, hlt⟩ (0 : Fin 2) = (8 * ((i 0).val / 1024) + (i 1).val / 2048) / 8 := e4
  have e5' : win0_2.index ⟨8 * ((i 0).val / 1024) + (i 1).val / 2048, hlt⟩ (1 : Fin 2) = (8 * ((i 0).val / 1024) + (i 1).val / 2048) % 8 := e5
  intro a
  match a with
  | ⟨0, _⟩ => show win0_2.index _ (0 : Fin 2) * 1024 ≤ (i 0).val ∧ (i 0).val < win0_2.index _ (0 : Fin 2) * 1024 + 1024; rw [e4']; omega
  | ⟨1, _⟩ => show win0_2.index _ (1 : Fin 2) * 2048 ≤ (i 1).val ∧ (i 1).val < win0_2.index _ (1 : Fin 2) * 2048 + 2048; rw [e5']; omega

/-! ## Window 3: the operator times the signal -/

/-- A sum over the 16384 contracted coordinates, block by block. -/
theorem sum_blocks (f : ℕ → EReal) :
    ∑ k : Fin 16384, f k.val = ∑ q ∈ Finset.range 8, ∑ k : Fin 2048, f (2048 * q + k.val) := by
  have h1 : ∑ k : Fin (8 * 2048), f k.val = ∑ p : Fin 8 × Fin 2048, f (finProdFinEquiv p).val :=
    (Equiv.sum_comp finProdFinEquiv (fun k : Fin (8 * 2048) => f k.val)).symm
  have h2 : ∑ p : Fin 8 × Fin 2048, f (finProdFinEquiv p).val = ∑ q : Fin 8, ∑ k : Fin 2048, f (2048 * q.val + k.val) := by
    rw [Fintype.sum_prod_type]
    refine Finset.sum_congr rfl fun q _ => Finset.sum_congr rfl fun k _ => ?_
    rw [finProdFinEquiv_apply_val, add_comm]
  exact h1.trans (h2.trans (Finset.sum_range fun q => ∑ k : Fin 2048, f (2048 * q + k.val)).symm)

/-- On the last column window 3's buffer holds the accumulator. -/
theorem outsAt0_snd (c : Dev nD) (t : Fin cfg0.N) (h7 : t.val % 8 = 7) :
    (outsAt0 V c t.val t.isLt).2.1 = (outsAt0 V c t.val t.isLt).2.2 := by
  have h0 : ¬ t.val % 8 = 0 := by omega
  rw [outsAt0_C V c t h0 h7]; dsimp only; rw [out3_C, sout_C]

section Final
variable [Cert.ReferenceIdeal.Facts]

/-- What window 3's array ends holding: the operator times the signal. -/
abbrev G3 (c : Dev nD) : Buf (Elt Ideal) ((c : Thread nD τ).loc main_v1_1) :=
  fun i => (Cert.Spec.mv (V c main_arg1) (V c main_v0) : S16384x32.Idx → EReal) i

/-- Entry (r, b) of the product, as the sum over the contracted coordinate read by natural coordinates. -/
theorem mv_apply (c : Dev nD) (r : Fin 16384) (b : Fin 32) :
    (Cert.Spec.mv (V c main_arg1) (V c main_v0) (ix2 r b) : EReal) = ∑ k : Fin 16384, Lat V c r.val k.val * Xat V c k.val b.val := by
  unfold Cert.Spec.mv
  show Host.dotGeneral (F := Ideal) (DotDims.plain 16384 16384 32) none (V c main_arg1 : (⟨2, ![16384, 16384]⟩ : Shape).Idx → EReal) (V c main_v0 : (⟨2, ![16384, 32]⟩ : Shape).Idx → EReal) (ix2 r b) = _
  rw [StackMember.dotGeneral_plain_apply]
  refine Finset.sum_congr rfl fun k _ => ?_
  unfold Lat Xat
  rw [dif_pos ⟨r.isLt, k.isLt⟩, dif_pos ⟨k.isLt, b.isLt⟩]

/-- What a last-column point `t` writes back of window 3 is block `t` of the product. -/
theorem flushed3_eq (c : Dev nD) (t : Fin cfg0.N) (hf : (cfg0.win 3).flush t = true) :
    (dat0 V c).flushed 3 t = ((cfg0.win 3).blk t).view.read (Elt Ideal) (G3 V c) := by
  have h7 : t.val % 8 = 7 := (flush0_3 t).mp hf
  have hN : t.val < 128 := lt_of_lt_of_eq t.isLt (show cfg0.N = 128 from N_0)
  show (cfg0.win 3).cut (grid0.coords t) ((dat0 V c).after 3 t) = _
  rw [after0_3, outsAt0_snd V c t h7]
  obtain ⟨-, -, -, -, -, -, e6, e7⟩ := idx_facts0 t
  funext j
  obtain ⟨a, b, rfl⟩ : ∃ (a : Fin 1024) (b : Fin 32), j = ix2 a b := ⟨j 0, j 1, eq_ix2 j⟩
  have ha := a.isLt
  have hr : 1024 * (t.val / 8) + a.val < 16384 := by omega
  have hemb : ((cfg0.win 3).blk t).view.emb (ix2 a b) = ix2 (⟨1024 * (t.val / 8) + a.val, hr⟩ : Fin 16384) b := by
    funext ax; apply Fin.ext
    match ax with
    | ⟨0, _⟩ => show win0_3.index t (0 : Fin 2) * 1024 + 1 * a.val = 1024 * (t.val / 8) + a.val; omega
    | ⟨1, _⟩ => show win0_3.index t (1 : Fin 2) * 32 + 1 * b.val = b.val; omega
  show ((outsAt0 V c t.val t.isLt).2.2 (ix2 a b) : EReal) = (Cert.Spec.mv (V c main_arg1) (V c main_v0) (((cfg0.win 3).blk t).view.emb (ix2 a b)) : EReal)
  rw [hemb, mv_apply V c ⟨1024 * (t.val / 8) + a.val, hr⟩ b, acc_eq V c t.val t.isLt a b, h7]
  rw [sum_blocks fun m => Lat V c (1024 * (t.val / 8) + a.val) m * Xat V c m b.val]
  rfl

/-- An index of window 3's array is in point `t`'s block iff each coordinate is in the block's range. -/
theorem mem_blk3 (t : Fin cfg0.N) (i : S16384x32.Idx) :
    i ∈ ((cfg0.win 3).blk t).view.set ↔ ∀ a : Fin 2, win0_3.index t a * S1024x32.size a ≤ (i a).val ∧ (i a).val < win0_3.index t a * S1024x32.size a + S1024x32.size a := by
  show i ∈ ((View.whole main_v1_1).slice (win0_3.rect t)).set ↔ _
  rw [View.set_slice_whole, Rect.mem_set_unit]
  exact Iff.rfl

/-- Row `r` is in the block the last-column point of row block `r / 1024` writes back. -/
theorem cover3 (i : S16384x32.Idx) :
    ∃ t : Fin cfg0.N, (cfg0.win 3).flush t = true ∧ i ∈ ((cfg0.win 3).blk t).view.set := by
  have hi0 : (i 0).val < 16384 := (i 0).isLt
  have hi1 : (i 1).val < 32 := (i 1).isLt
  have hlt : 8 * ((i 0).val / 1024) + 7 < cfg0.N := by rw [show cfg0.N = 128 from N_0]; omega
  refine ⟨⟨8 * ((i 0).val / 1024) + 7, hlt⟩, (flush0_3 _).mpr (by show (8 * ((i 0).val / 1024) + 7) % 8 = 7; omega), ?_⟩
  rw [mem_blk3]
  obtain ⟨-, -, -, -, -, -, e6, e7⟩ := idx_facts0 ⟨8 * ((i 0).val / 1024) + 7, hlt⟩
  have e6' : win0_3.index ⟨8 * ((i 0).val / 1024) + 7, hlt⟩ (0 : Fin 2) = (8 * ((i 0).val / 1024) + 7) / 8 := e6
  intro a
  match a with
  | ⟨0, _⟩ => show win0_3.index _ (0 : Fin 2) * 1024 ≤ (i 0).val ∧ (i 0).val < win0_3.index _ (0 : Fin 2) * 1024 + 1024; rw [e6']; omega
  | ⟨1, _⟩ => show win0_3.index _ (1 : Fin 2) * 32 ≤ (i 1).val ∧ (i 1).val < win0_3.index _ (1 : Fin 2) * 32 + 32; rw [e7]; omega

/-- AFTER THE REGION window 2's array is the operator: the copy narrowed to 16 bits is the operator itself over the extended reals. -/
theorem final0_2 (c : Dev nD) : (dat0 (F := Ideal) V c).arrAt 2 cfg0.N = (V c main_arg1 : Cert.Spec.Op) :=
  (dat0 V c).arrAt_eq_of_cover 2 (G2 V c) (fun t _ => flushed2_eq V c t) (cover2)

/-- AFTER THE REGION window 3's array is the operator times the signal. -/
theorem final0_3 (c : Dev nD) : (dat0 (F := Ideal) V c).arrAt 3 cfg0.N = Cert.Spec.mv (V c main_arg1) (V c main_v0) :=
  (dat0 V c).arrAt_eq_of_cover 3 (G3 V c) (flushed3_eq V c) (cover3)

end Final

end Value

end Cert.KernelIdeal.Hand

end
-- ==== Proof.LibRowBlockProduct.lean ====
/-
  A block of rows of a matrix product, over the extended reals.

  Rows off, …, off + m - 1 of X · W depend on those rows of X and on all of W only: entry (off + a, b) of the whole
  product is the sum over the contracted coordinate c of X (off + a, c) · W (c, b), and that is entry (a, b) of the product
  of the m-row block of X with W. So a kernel that multiplies one block of rows at a time (accumulating into zero) writes,
  block by block, the host's one whole product. How a block sits in its array is left to three index maps, about which
  only their coordinates are assumed: the left block's and the result block's rows are shifted by `off`, nothing else
  moves.
-/
import proofs.«117973_j38328288150260_2_alg».proof.Proof.LibPlainMatmul

noncomputable section

namespace Cert.Lib

open Idealize.ShloMosaic Idealize.ShloMosaic.ValueIdx

/-- The product of an m-row block of `X` (rows `off …`) with `W`, accumulated into zero, read at a block index `j`, is the
    whole product `X · W` read where the result block puts `j`. -/
theorem plain_product_row_block {m M k n : Nat} {φ₁ φ₂ : FTy} (prec : Option ContractPrecision)
    (x : FVec Ideal ⟨2, ![m, k]⟩ φ₁) (w : FVec Ideal ⟨2, ![k, n]⟩ φ₂)
    (X : FVec Ideal ⟨2, ![M, k]⟩ φ₁) (W : FVec Ideal ⟨2, ![k, n]⟩ φ₂)
    (ex : (⟨2, ![m, k]⟩ : Shape).Idx → (⟨2, ![M, k]⟩ : Shape).Idx)
    (ew : (⟨2, ![k, n]⟩ : Shape).Idx → (⟨2, ![k, n]⟩ : Shape).Idx)
    (eo : (⟨2, ![m, n]⟩ : Shape).Idx → (⟨2, ![M, n]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![m, n]⟩ : Shape).Idx) :
    matmul (DotDims.plain m k n) prec x w (constant ⟨2, ![m, n]⟩ .f32 0x00000000#32) j
      = Host.dotGeneral (DotDims.plain M k n) prec X W (eo j) := by
  obtain ⟨a, b, rfl⟩ : ∃ (a : Fin m) (b : Fin n), j = ix2 a b := ⟨j 0, j 1, eq_ix2 j⟩
  -- where the result block puts (a, b): row off + a, column b
  obtain ⟨a', b', hab⟩ : ∃ (a' : Fin M) (b' : Fin n), eo (ix2 a b) = ix2 a' b' :=
    ⟨eo (ix2 a b) 0, eo (ix2 a b) 1, eq_ix2 _⟩
  have ha' : a'.val = off + a.val := by
    have := heo0 (ix2 a b); rw [hab] at this; exact this
  have hb' : b'.val = b.val := by
    have := heo1 (ix2 a b); rw [hab] at this; exact this
  rw [matmul_plain_zero_apply, hab, StackMember.dotGeneral_plain_apply]
  refine Finset.sum_congr rfl fun c _ => ?_
  rw [hx, hw]
  have e1 : ex (ix2 a c) = ix2 a' c := by
    funext q; apply Fin.ext
    match q with
    | ⟨0, _⟩ => exact (hex0 (ix2 a c)).trans ha'.symm
    | ⟨1, _⟩ => exact hex1 (ix2 a c)
  have e2 : ew (ix2 c b) = ix2 c b' := by
    funext q; apply Fin.ext
    match q with
    | ⟨0, _⟩ => exact hew0 (ix2 c b)
    | ⟨1, _⟩ => exact (hew1 (ix2 c b)).trans hb'.symm
  rw [e1, e2]

end Cert.Lib

end
-- ==== Proof.KernelIdeal.StepCommon.lean ====
/- One step of the recurrence on a block of rows, over the extended reals.

   A grid point of a matvec-step region multiplies a 512-row block of the operator by the whole vector operand
   (accumulating into zero), doubles the product and subtracts the same rows of the previous iterate. Read at an entry of
   the block, that is the whole-array step 2 · (L · Z) − P read where the block sits in the array: the product of a block
   of rows is those rows of the whole product, the doubled factor is the same scalar at every entry, and the subtrahend is
   read at the same place. How a block sits in its array is left to four index maps, about which only their coordinates
   are assumed. -/
import proofs.«117973_j38328288150260_2_alg».proof.Proof.Spec
import proofs.«117973_j38328288150260_2_alg».proof.Proof.LibRowBlockProduct
import Idealize.ShloMosaic.Lib.Pipeline.Value
import Idealize.ShloMosaic.Lib.ValueIdx
import Idealize.ShloMosaic.Lib.ValueLayout

noncomputable section

namespace Cert.Step

open Idealize.ShloMosaic Idealize.ShloMosaic.ValueIdx

variable [Cert.ReferenceIdeal.Facts]

/-- The origin of a two-axis block, as the constant-zero offsets. -/
theorem origin2 : (![0, 0] : Fin 2 → Nat) = fun _ => 0 := funext fun a => by fin_cases a <;> rfl

/-- The scalar coefficient array reads the scalar at every entry. -/
theorem coef_apply (w : BitVec 32) (i : Cert.ReferenceIdeal.S16384x32.Idx) :
    Cert.Spec.coef w i = Scalar.ofBits (F := Ideal) .f32 w := by
  unfold Cert.Spec.coef
  exact (broadcastInDim_apply ![] _ _ i ix0 (fun a => a.elim0)).trans rfl

/-- What a grid point computes from its three blocks: twice the product of the operator's rows with the vector
    operand, less the previous iterate's rows. -/
def block (x0 : FVec Ideal ⟨2, ![512, 16384]⟩ .bf16) (x1 : FVec Ideal ⟨2, ![16384, 32]⟩ .bf16)
    (x2 : FVec Ideal ⟨2, ![512, 32]⟩ .f32) : FVec Ideal ⟨2, ![512, 32]⟩ .f32 :=
  subf (mulf (broadcast ⟨2, ![512, 32]⟩ (Scalar.ofBits (F := Ideal) .f32 0x40000000#32))
    (matmul (DotDims.plain 512 16384 32) none x0 x1 (constant ⟨2, ![512, 32]⟩ .f32 0x00000000#32))) x2

/-- A grid point's result read at a block entry is the whole-array step read where the result block puts the entry. -/
theorem block_apply (x0 : FVec Ideal ⟨2, ![512, 16384]⟩ .bf16) (x1 : FVec Ideal ⟨2, ![16384, 32]⟩ .bf16)
    (x2 : FVec Ideal ⟨2, ![512, 32]⟩ .f32) (L : Cert.Spec.Op) (Z P : Cert.Spec.Arr)
    (ex : (⟨2, ![512, 16384]⟩ : Shape).Idx → (⟨2, ![16384, 16384]⟩ : Shape).Idx)
    (ew : (⟨2, ![16384, 32]⟩ : Shape).Idx → (⟨2, ![16384, 32]⟩ : Shape).Idx)
    (ep eo : (⟨2, ![512, 32]⟩ : Shape).Idx → (⟨2, ![16384, 32]⟩ : Shape).Idx) (off : Nat)
    (hx : ∀ y, x0 y = L (ex y)) (hw : ∀ y, x1 y = Z (ew y)) (hp : ∀ y, x2 y = P (ep y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (hep : ∀ y, ep y = eo y)
    (j : (⟨2, ![512, 32]⟩ : Shape).Idx) :
    block x0 x1 x2 j = Cert.Spec.next L Z P (eo j) := by
  have hm : matmul (DotDims.plain 512 16384 32) none x0 x1 (constant ⟨2, ![512, 32]⟩ .f32 0x00000000#32) j
      = Cert.Spec.mv L Z (eo j) :=
    Cert.Lib.plain_product_row_block none x0 x1 L Z ex ew eo off hx hw hex0 hex1 hew0 hew1 heo0 heo1 j
  unfold block Cert.Spec.next
  rw [subf_apply, mulf_apply, broadcast_apply, subf_apply, mulf_apply, coef_apply, hm, hp, hep]

end Cert.Step

end
-- ==== Proof.KernelIdeal.StepValue1.lean ====
/- The value of region 1: the array its write-backs leave is one step of the recurrence, 2 · (L · Z) − P, of the
   operator, the vector operand and the previous iterate as the region finds them. Each grid point writes 512 rows of it
   (the product of a block of rows is those rows of the whole product), and the 32 points cover the 16384 rows. -/
import proofs.«117973_j38328288150260_2_alg».proof.Proof.KernelIdeal.Region1
import proofs.«117973_j38328288150260_2_alg».proof.Proof.KernelIdeal.StepCommon

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable [Cert.ReferenceIdeal.Facts]
variable (V : (c : Dev nD) → (b : Ref sig .tc) → Buf (Elt Ideal) ((c : Thread nD τ).loc b))

/-- The body's payload is the step on its three blocks: its casts are to the same shapes, and are the identity. -/
theorem pay1_eq (x0 : Vec Ideal S512x16384 .bf16) (x1 : Vec Ideal S16384x32 .bf16) (x2 : Vec Ideal S512x32 .f32) :
    k1_pay1 (F := Ideal) x0 x1 x2 = Cert.Step.block x0 x1 x2 := by
  unfold k1_pay1 Cert.Step.block
  simp only [shapeCast_self]
  rfl

/-- The printed index maps, decided over the grid: the operator's, the previous iterate's and the result's row blocks
    move with the point, the vector operand's block never moves, and no block moves along the columns. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole-array step. -/
theorem flushed1_3_eq (c : Dev nD) (t : Fin cfg1.N) :
    (dat1 (F := Ideal) V c).flushed 3 t
      = ((cfg1.win 3).blk t).view.read (Elt Ideal) (Cert.Spec.next (V c main_v1_0) (V c main_v12) (V c main_arg0)) := by
  show (cfg1.win 3).cut (grid1.coords t) ((dat1 (F := Ideal) V c).after 3 t) = _
  rw [after1_3]
  unfold out1_3
  rw [View.canon_unit_zero Cert.Step.origin2]
  simp only [View.ld_unit_zero (S := S512x16384) Cert.Step.origin2, View.ld_unit_zero (S := S16384x32) Cert.Step.origin2,
    View.ld_unit_zero (S := S512x32) Cert.Step.origin2]
  rw [pay1_eq]
  obtain ⟨e00, e01, e10, e11, e20, e21, e30, e31⟩ := idx_facts1 t
  funext j
  exact Cert.Step.block_apply (iblk1 V c 0 t) (iblk1 V c 1 t) (iblk1 V c 2 t) (V c main_v1_0) (V c main_v12) (V c main_arg0)
    ((cfg1.win 0).blk t).view.emb ((cfg1.win 1).blk t).view.emb ((cfg1.win 2).blk t).view.emb ((cfg1.win 3).blk t).view.emb
    (t.val * 512) (fun y => rfl) (fun y => rfl) (fun y => rfl)
    (fun y => by show win1_0.index t (0 : Fin 2) * 512 + 1 * (y 0).val = t.val * 512 + (y 0).val; omega)
    (fun y => by show win1_0.index t (1 : Fin 2) * 16384 + 1 * (y 1).val = (y 1).val; omega)
    (fun y => by show win1_1.index t (0 : Fin 2) * 16384 + 1 * (y 0).val = (y 0).val; omega)
    (fun y => by show win1_1.index t (1 : Fin 2) * 32 + 1 * (y 1).val = (y 1).val; omega)
    (fun y => by show win1_3.index t (0 : Fin 2) * 512 + 1 * (y 0).val = t.val * 512 + (y 0).val; omega)
    (fun y => by show win1_3.index t (1 : Fin 2) * 32 + 1 * (y 1).val = (y 1).val; omega)
    (fun y => by
      funext a; apply Fin.ext
      match a with
      | ⟨0, _⟩ => show win1_2.index t (0 : Fin 2) * 512 + 1 * (y 0).val = win1_3.index t (0 : Fin 2) * 512 + 1 * (y 0).val; omega
      | ⟨1, _⟩ => show win1_2.index t (1 : Fin 2) * 32 + 1 * (y 1).val = win1_3.index t (1 : Fin 2) * 32 + 1 * (y 1).val; omega)
    j

/-- An index of the result array is in point `t`'s block iff each coordinate is in the block's range on its axis. -/
theorem mem_blk1_3 (t : Fin cfg1.N) (i : S16384x32.Idx) :
    i ∈ ((cfg1.win 3).blk t).view.set ↔ ∀ a : Fin 2, win1_3.index t a * S512x32.size a ≤ (i a).val ∧ (i a).val < win1_3.index t a * S512x32.size a + S512x32.size a := by
  show i ∈ ((View.whole main_v13).slice (win1_3.rect t)).set ↔ _
  rw [View.set_slice_whole, Rect.mem_set_unit]
  exact Iff.rfl

/-- Every row is in some point's block: row `r` is in the block of point `r / 512`. -/
theorem rows_covered1 (i : S16384x32.Idx) :
    ∃ t : Fin cfg1.N, (cfg1.win 3).flush t = true ∧ i ∈ ((cfg1.win 3).blk t).view.set := by
  have hi0 : (i 0).val < 16384 := (i 0).isLt
  have hi1 : (i 1).val < 32 := (i 1).isLt
  have hN : cfg1.N = 32 := N_1
  have hlt : (i 0).val / 512 < cfg1.N := by rw [hN]; omega
  refine ⟨⟨(i 0).val / 512, hlt⟩, flush1_3 _, ?_⟩
  rw [mem_blk1_3]
  obtain ⟨-, -, -, -, -, -, e30, e31⟩ := idx_facts1 ⟨(i 0).val / 512, hlt⟩
  have e30' : win1_3.index ⟨(i 0).val / 512, hlt⟩ (0 : Fin 2) = (i 0).val / 512 := e30
  intro a
  match a with
  | ⟨0, _⟩ => show win1_3.index ⟨(i 0).val / 512, hlt⟩ (0 : Fin 2) * 512 ≤ (i 0).val ∧ (i 0).val < win1_3.index ⟨(i 0).val / 512, hlt⟩ (0 : Fin 2) * 512 + 512; omega
  | ⟨1, _⟩ => show win1_3.index ⟨(i 0).val / 512, hlt⟩ (1 : Fin 2) * 32 ≤ (i 1).val ∧ (i 1).val < win1_3.index ⟨(i 0).val / 512, hlt⟩ (1 : Fin 2) * 32 + 32; omega

/-- The result array after the region is one step of the recurrence of the arrays as the region finds them. -/
theorem final1_3 (c : Dev nD) :
    (dat1 (F := Ideal) V c).arrAt 3 cfg1.N = Cert.Spec.next (V c main_v1_0) (V c main_v12) (V c main_arg0) :=
  (dat1 (F := Ideal) V c).arrAt_eq_of_cover 3 (Cert.Spec.next (V c main_v1_0) (V c main_v12) (V c main_arg0))
    (fun t _ => flushed1_3_eq V c t) (rows_covered1)

end Cert.KernelIdeal.Hand

end
-- ==== Proof.KernelIdeal.StepValue2.lean ====
/- The value of region 2: the array its write-backs leave is one step of the recurrence, 2 · (L · Z) − P, of the
   operator, the vector operand and the previous iterate as the region finds them. Each grid point writes 512 rows of it
   (the product of a block of rows is those rows of the whole product), and the 32 points cover the 16384 rows. -/
import proofs.«117973_j38328288150260_2_alg».proof.Proof.KernelIdeal.Region2
import proofs.«117973_j38328288150260_2_alg».proof.Proof.KernelIdeal.StepCommon

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable [Cert.ReferenceIdeal.Facts]
variable (V : (c : Dev nD) → (b : Ref sig .tc) → Buf (Elt Ideal) ((c : Thread nD τ).loc b))

/-- The body's payload is the step on its three blocks: its casts are to the same shapes, and are the identity. -/
theorem pay2_eq (x0 : Vec Ideal S512x16384 .bf16) (x1 : Vec Ideal S16384x32 .bf16) (x2 : Vec Ideal S512x32 .f32) :
    k2_pay1 (F := Ideal) x0 x1 x2 = Cert.Step.block x0 x1 x2 := by
  unfold k2_pay1 Cert.Step.block
  simp only [shapeCast_self]
  rfl

/-- The printed index maps, decided over the grid: the operator's, the previous iterate's and the result's row blocks
    move with the point, the vector operand's block never moves, and no block moves along the columns. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the whole-array step. -/
theorem flushed2_3_eq (c : Dev nD) (t : Fin cfg2.N) :
    (dat2 (F := Ideal) V c).flushed 3 t
      = ((cfg2.win 3).blk t).view.read (Elt Ideal) (Cert.Spec.next (V c main_v1_0) (V c main_v20) (V c main_v1_1)) := by
  show (cfg2.win 3).cut (grid2.coords t) ((dat2 (F := Ideal) V c).after 3 t) = _
  rw [after2_3]
  unfold out2_3
  rw [View.canon_unit_zero Cert.Step.origin2]
  simp only [View.ld_unit_zero (S := S512x16384) Cert.Step.origin2, View.ld_unit_zero (S := S16384x32) Cert.Step.origin2,
    View.ld_unit_zero (S := S512x32) Cert.Step.origin2]
  rw [pay2_eq]
  obtain ⟨e00, e01, e10, e11, e20, e21, e30, e31⟩ := idx_facts2 t
  funext j
  exact Cert.Step.block_apply (iblk2 V c 0 t) (iblk2 V c 1 t) (iblk2 V c 2 t) (V c main_v1_0) (V c main_v20) (V c main_v1_1)
    ((cfg2.win 0).blk t).view.emb ((cfg2.win 1).blk t).view.emb ((cfg2.win 2).blk t).view.emb ((cfg2.win 3).blk t).view.emb
    (t.val * 512) (fun y => rfl) (fun y => rfl) (fun y => rfl)
    (fun y => by show win2_0.index t (0 : Fin 2) * 512 + 1 * (y 0).val = t.val * 512 + (y 0).val; omega)
    (fun y => by show win2_0.index t (1 : Fin 2) * 16384 + 1 * (y 1).val = (y 1).val; omega)
    (fun y => by show win2_1.index t (0 : Fin 2) * 16384 + 1 * (y 0).val = (y 0).val; omega)
    (fun y => by show win2_1.index t (1 : Fin 2) * 32 + 1 * (y 1).val = (y 1).val; omega)
    (fun y => by show win2_3.index t (0 : Fin 2) * 512 + 1 * (y 0).val = t.val * 512 + (y 0).val; omega)
    (fun y => by show win2_3.index t (1 : Fin 2) * 32 + 1 * (y 1).val = (y 1).val; omega)
    (fun y => by
      funext a; apply Fin.ext
      match a with
      | ⟨0, _⟩ => show win2_2.index t (0 : Fin 2) * 512 + 1 * (y 0).val = win2_3.index t (0 : Fin 2) * 512 + 1 * (y 0).val; omega
      | ⟨1, _⟩ => show win2_2.index t (1 : Fin 2) * 32 + 1 * (y 1).val = win2_3.index t (1 : Fin 2) * 32 + 1 * (y 1).val; omega)
    j

/-- An index of the result array is in point `t`'s block iff each coordinate is in the block's range on its axis. -/
theorem mem_blk2_3 (t : Fin cfg2.N) (i : S16384x32.Idx) :
    i ∈ ((cfg2.win 3).blk t).view.set ↔ ∀ a : Fin 2, win2_3.index t a * S512x32.size a ≤ (i a).val ∧ (i a).val < win2_3.index t a * S512x32.size a + S512x32.size a := by
  show i ∈ ((View.whole main_v21).slice (win2_3.rect t)).set ↔ _
  rw [View.set_slice_whole, Rect.mem_set_unit]
  exact Iff.rfl

/-- Every row is in some point's block: row `r` is in the block of point `r / 512`. -/
theorem rows_covered2 (i : S16384x32.Idx) :
    ∃ t : Fin cfg2.N, (cfg2.win 3).flush t = true ∧ i ∈ ((cfg2.win 3).blk t).view.set := by
  have hi0 : (i 0).val < 16384 := (i 0).isLt
  have hi1 : (i 1).val < 32 := (i 1).isLt
  have hN : cfg2.N = 32 := N_2
  have hlt : (i 0).val / 512 < cfg2.N := by rw [hN]; omega
  refine ⟨⟨(i 0).val / 512, hlt⟩, flush2_3 _, ?_⟩
  rw [mem_blk2_3]
  obtain ⟨-, -, -, -, -, -, e30, e31⟩ := idx_facts2 ⟨(i 0).val / 512, hlt⟩
  have e30' : win2_3.index ⟨(i 0).val / 512, hlt⟩ (0 : Fin 2) = (i 0).val / 512 := e30
  intro a
  match a with
  | ⟨0, _⟩ => show win2_3.index ⟨(i 0).val / 512, hlt⟩ (0 : Fin 2) * 512 ≤ (i 0).val ∧ (i 0).val < win2_3.index ⟨(i 0).val / 512, hlt⟩ (0 : Fin 2) * 512 + 512; omega
  | ⟨1, _⟩ => show win2_3.index ⟨(i 0).val / 512, hlt⟩ (1 : Fin 2) * 32 ≤ (i 1).val ∧ (i 1).val < win2_3.index ⟨(i 0).val / 512, hlt⟩ (1 : Fin 2) * 32 + 32; omega

/-- The result array after the region is one step of the recurrence of the arrays as the region finds them. -/
theorem final2_3 (c : Dev nD) :
    (dat2 (F := Ideal) V c).arrAt 3 cfg2.N = Cert.Spec.next (V c main_v1_0) (V c main_v20) (V c main_v1_1) :=
  (dat2 (F := Ideal) V c).arrAt_eq_of_cover 3 (Cert.Spec.next (V c main_v1_0) (V c main_v20) (V c main_v1_1))
    (fun t _ => flushed2_3_eq V c t) (rows_covered2)

end Cert.KernelIdeal.Hand

end
-- ==== Proof.KernelIdeal.StepValue3.lean ====
/- The value of region 3: the array its write-backs leave is one step of the recurrence, 2 · (L · Z) − P, of the
   operator, the vector operand and the previous iterate as the region finds them. Each grid point writes 512 rows of it
   (the product of a block of rows is those rows of the whole product), and the 32 points cover the 16384 rows. -/
import proofs.«117973_j38328288150260_2_alg».proof.Proof.KernelIdeal.Region3
import proofs.«117973_j38328288150260_2_alg».proof.Proof.KernelIdeal.StepCommon

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable [Cert.ReferenceIdeal.Facts]
variable (V : (c : Dev nD) → (b : Ref sig .tc) → Buf (Elt Ideal) ((c : Thread nD τ).loc b))

/-- The body's payload is the step on its three blocks: its casts are to the same shapes, and are the identity. -/
theorem pay3_eq (x0 : Vec Ideal S512x16384 .bf16) (x1 : Vec Ideal S16384x32 .bf16) (x2 : Vec Ideal S512x32 .f32) :
    k3_pay1 (F := Ideal) x0 x1 x2 = Cert.Step.block x0 x1 x2 := by
  unfold k3_pay1 Cert.Step.block
  simp only [shapeCast_self]
  rfl

/-- The printed index maps, decided over the grid: the operator's, the previous iterate's and the result's row blocks
    move with the point, the vector operand's block never moves, and no block moves along the columns. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the whole-array step. -/
theorem flushed3_3_eq (c : Dev nD) (t : Fin cfg3.N) :
    (dat3 (F := Ideal) V c).flushed 3 t
      = ((cfg3.win 3).blk t).view.read (Elt Ideal) (Cert.Spec.next (V c main_v1_0) (V c main_v28) (V c main_v13)) := by
  show (cfg3.win 3).cut (grid3.coords t) ((dat3 (F := Ideal) V c).after 3 t) = _
  rw [after3_3]
  unfold out3_3
  rw [View.canon_unit_zero Cert.Step.origin2]
  simp only [View.ld_unit_zero (S := S512x16384) Cert.Step.origin2, View.ld_unit_zero (S := S16384x32) Cert.Step.origin2,
    View.ld_unit_zero (S := S512x32) Cert.Step.origin2]
  rw [pay3_eq]
  obtain ⟨e00, e01, e10, e11, e20, e21, e30, e31⟩ := idx_facts3 t
  funext j
  exact Cert.Step.block_apply (iblk3 V c 0 t) (iblk3 V c 1 t) (iblk3 V c 2 t) (V c main_v1_0) (V c main_v28) (V c main_v13)
    ((cfg3.win 0).blk t).view.emb ((cfg3.win 1).blk t).view.emb ((cfg3.win 2).blk t).view.emb ((cfg3.win 3).blk t).view.emb
    (t.val * 512) (fun y => rfl) (fun y => rfl) (fun y => rfl)
    (fun y => by show win3_0.index t (0 : Fin 2) * 512 + 1 * (y 0).val = t.val * 512 + (y 0).val; omega)
    (fun y => by show win3_0.index t (1 : Fin 2) * 16384 + 1 * (y 1).val = (y 1).val; omega)
    (fun y => by show win3_1.index t (0 : Fin 2) * 16384 + 1 * (y 0).val = (y 0).val; omega)
    (fun y => by show win3_1.index t (1 : Fin 2) * 32 + 1 * (y 1).val = (y 1).val; omega)
    (fun y => by show win3_3.index t (0 : Fin 2) * 512 + 1 * (y 0).val = t.val * 512 + (y 0).val; omega)
    (fun y => by show win3_3.index t (1 : Fin 2) * 32 + 1 * (y 1).val = (y 1).val; omega)
    (fun y => by
      funext a; apply Fin.ext
      match a with
      | ⟨0, _⟩ => show win3_2.index t (0 : Fin 2) * 512 + 1 * (y 0).val = win3_3.index t (0 : Fin 2) * 512 + 1 * (y 0).val; omega
      | ⟨1, _⟩ => show win3_2.index t (1 : Fin 2) * 32 + 1 * (y 1).val = win3_3.index t (1 : Fin 2) * 32 + 1 * (y 1).val; omega)
    j

/-- An index of the result array is in point `t`'s block iff each coordinate is in the block's range on its axis. -/
theorem mem_blk3_3 (t : Fin cfg3.N) (i : S16384x32.Idx) :
    i ∈ ((cfg3.win 3).blk t).view.set ↔ ∀ a : Fin 2, win3_3.index t a * S512x32.size a ≤ (i a).val ∧ (i a).val < win3_3.index t a * S512x32.size a + S512x32.size a := by
  show i ∈ ((View.whole main_v29).slice (win3_3.rect t)).set ↔ _
  rw [View.set_slice_whole, Rect.mem_set_unit]
  exact Iff.rfl

/-- Every row is in some point's block: row `r` is in the block of point `r / 512`. -/
theorem rows_covered3 (i : S16384x32.Idx) :
    ∃ t : Fin cfg3.N, (cfg3.win 3).flush t = true ∧ i ∈ ((cfg3.win 3).blk t).view.set := by
  have hi0 : (i 0).val < 16384 := (i 0).isLt
  have hi1 : (i 1).val < 32 := (i 1).isLt
  have hN : cfg3.N = 32 := N_3
  have hlt : (i 0).val / 512 < cfg3.N := by rw [hN]; omega
  refine ⟨⟨(i 0).val / 512, hlt⟩, flush3_3 _, ?_⟩
  rw [mem_blk3_3]
  obtain ⟨-, -, -, -, -, -, e30, e31⟩ := idx_facts3 ⟨(i 0).val / 512, hlt⟩
  have e30' : win3_3.index ⟨(i 0).val / 512, hlt⟩ (0 : Fin 2) = (i 0).val / 512 := e30
  intro a
  match a with
  | ⟨0, _⟩ => show win3_3.index ⟨(i 0).val / 512, hlt⟩ (0 : Fin 2) * 512 ≤ (i 0).val ∧ (i 0).val < win3_3.index ⟨(i 0).val / 512, hlt⟩ (0 : Fin 2) * 512 + 512; omega
  | ⟨1, _⟩ => show win3_3.index ⟨(i 0).val / 512, hlt⟩ (1 : Fin 2) * 32 ≤ (i 1).val ∧ (i 1).val < win3_3.index ⟨(i 0).val / 512, hlt⟩ (1 : Fin 2) * 32 + 32; omega

/-- The result array after the region is one step of the recurrence of the arrays as the region finds them. -/
theorem final3_3 (c : Dev nD) :
    (dat3 (F := Ideal) V c).arrAt 3 cfg3.N = Cert.Spec.next (V c main_v1_0) (V c main_v28) (V c main_v13) :=
  (dat3 (F := Ideal) V c).arrAt_eq_of_cover 3 (Cert.Spec.next (V c main_v1_0) (V c main_v28) (V c main_v13))
    (fun t _ => flushed3_3_eq V c t) (rows_covered3)

end Cert.KernelIdeal.Hand

end
-- ==== Proof.KernelIdeal.StepValue4.lean ====
/- The value of region 4: the array its write-backs leave is one step of the recurrence, 2 · (L · Z) − P, of the
   operator, the vector operand and the previous iterate as the region finds them. Each grid point writes 512 rows of it
   (the product of a block of rows is those rows of the whole product), and the 32 points cover the 16384 rows. -/
import proofs.«117973_j38328288150260_2_alg».proof.Proof.KernelIdeal.Region4
import proofs.«117973_j38328288150260_2_alg».proof.Proof.KernelIdeal.StepCommon

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable [Cert.ReferenceIdeal.Facts]
variable (V : (c : Dev nD) → (b : Ref sig .tc) → Buf (Elt Ideal) ((c : Thread nD τ).loc b))

/-- The body's payload is the step on its three blocks: its casts are to the same shapes, and are the identity. -/
theorem pay4_eq (x0 : Vec Ideal S512x16384 .bf16) (x1 : Vec Ideal S16384x32 .bf16) (x2 : Vec Ideal S512x32 .f32) :
    k4_pay1 (F := Ideal) x0 x1 x2 = Cert.Step.block x0 x1 x2 := by
  unfold k4_pay1 Cert.Step.block
  simp only [shapeCast_self]
  rfl

/-- The printed index maps, decided over the grid: the operator's, the previous iterate's and the result's row blocks
    move with the point, the vector operand's block never moves, and no block moves along the columns. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- What point `t` writes back is block `t` of the whole-array step. -/
theorem flushed4_3_eq (c : Dev nD) (t : Fin cfg4.N) :
    (dat4 (F := Ideal) V c).flushed 3 t
      = ((cfg4.win 3).blk t).view.read (Elt Ideal) (Cert.Spec.next (V c main_v1_0) (V c main_v36) (V c main_v21)) := by
  show (cfg4.win 3).cut (grid4.coords t) ((dat4 (F := Ideal) V c).after 3 t) = _
  rw [after4_3]
  unfold out4_3
  rw [View.canon_unit_zero Cert.Step.origin2]
  simp only [View.ld_unit_zero (S := S512x16384) Cert.Step.origin2, View.ld_unit_zero (S := S16384x32) Cert.Step.origin2,
    View.ld_unit_zero (S := S512x32) Cert.Step.origin2]
  rw [pay4_eq]
  obtain ⟨e00, e01, e10, e11, e20, e21, e30, e31⟩ := idx_facts4 t
  funext j
  exact Cert.Step.block_apply (iblk4 V c 0 t) (iblk4 V c 1 t) (iblk4 V c 2 t) (V c main_v1_0) (V c main_v36) (V c main_v21)
    ((cfg4.win 0).blk t).view.emb ((cfg4.win 1).blk t).view.emb ((cfg4.win 2).blk t).view.emb ((cfg4.win 3).blk t).view.emb
    (t.val * 512) (fun y => rfl) (fun y => rfl) (fun y => rfl)
    (fun y => by show win4_0.index t (0 : Fin 2) * 512 + 1 * (y 0).val = t.val * 512 + (y 0).val; omega)
    (fun y => by show win4_0.index t (1 : Fin 2) * 16384 + 1 * (y 1).val = (y 1).val; omega)
    (fun y => by show win4_1.index t (0 : Fin 2) * 16384 + 1 * (y 0).val = (y 0).val; omega)
    (fun y => by show win4_1.index t (1 : Fin 2) * 32 + 1 * (y 1).val = (y 1).val; omega)
    (fun y => by show win4_3.index t (0 : Fin 2) * 512 + 1 * (y 0).val = t.val * 512 + (y 0).val; omega)
    (fun y => by show win4_3.index t (1 : Fin 2) * 32 + 1 * (y 1).val = (y 1).val; omega)
    (fun y => by
      funext a; apply Fin.ext
      match a with
      | ⟨0, _⟩ => show win4_2.index t (0 : Fin 2) * 512 + 1 * (y 0).val = win4_3.index t (0 : Fin 2) * 512 + 1 * (y 0).val; omega
      | ⟨1, _⟩ => show win4_2.index t (1 : Fin 2) * 32 + 1 * (y 1).val = win4_3.index t (1 : Fin 2) * 32 + 1 * (y 1).val; omega)
    j

/-- An index of the result array is in point `t`'s block iff each coordinate is in the block's range on its axis. -/
theorem mem_blk4_3 (t : Fin cfg4.N) (i : S16384x32.Idx) :
    i ∈ ((cfg4.win 3).blk t).view.set ↔ ∀ a : Fin 2, win4_3.index t a * S512x32.size a ≤ (i a).val ∧ (i a).val < win4_3.index t a * S512x32.size a + S512x32.size a := by
  show i ∈ ((View.whole main_v37).slice (win4_3.rect t)).set ↔ _
  rw [View.set_slice_whole, Rect.mem_set_unit]
  exact Iff.rfl

/-- Every row is in some point's block: row `r` is in the block of point `r / 512`. -/
theorem rows_covered4 (i : S16384x32.Idx) :
    ∃ t : Fin cfg4.N, (cfg4.win 3).flush t = true ∧ i ∈ ((cfg4.win 3).blk t).view.set := by
  have hi0 : (i 0).val < 16384 := (i 0).isLt
  have hi1 : (i 1).val < 32 := (i 1).isLt
  have hN : cfg4.N = 32 := N_4
  have hlt : (i 0).val / 512 < cfg4.N := by rw [hN]; omega
  refine ⟨⟨(i 0).val / 512, hlt⟩, flush4_3 _, ?_⟩
  rw [mem_blk4_3]
  obtain ⟨-, -, -, -, -, -, e30, e31⟩ := idx_facts4 ⟨(i 0).val / 512, hlt⟩
  have e30' : win4_3.index ⟨(i 0).val / 512, hlt⟩ (0 : Fin 2) = (i 0).val / 512 := e30
  intro a
  match a with
  | ⟨0, _⟩ => show win4_3.index ⟨(i 0).val / 512, hlt⟩ (0 : Fin 2) * 512 ≤ (i 0).val ∧ (i 0).val < win4_3.index ⟨(i 0).val / 512, hlt⟩ (0 : Fin 2) * 512 + 512; omega
  | ⟨1, _⟩ => show win4_3.index ⟨(i 0).val / 512, hlt⟩ (1 : Fin 2) * 32 ≤ (i 1).val ∧ (i 1).val < win4_3.index ⟨(i 0).val / 512, hlt⟩ (1 : Fin 2) * 32 + 32; omega

/-- The result array after the region is one step of the recurrence of the arrays as the region finds them. -/
theorem final4_3 (c : Dev nD) :
    (dat4 (F := Ideal) V c).arrAt 3 cfg4.N = Cert.Spec.next (V c main_v1_0) (V c main_v36) (V c main_v21) :=
  (dat4 (F := Ideal) V c).arrAt_eq_of_cover 3 (Cert.Spec.next (V c main_v1_0) (V c main_v36) (V c main_v21))
    (fun t _ => flushed4_3_eq V c t) (rows_covered4)

end Cert.KernelIdeal.Hand

end
-- ==== Proof.KernelIdeal.StepValue5.lean ====
/- The value of region 5: the array its write-backs leave is one step of the recurrence, 2 · (L · Z) − P, of the
   operator, the vector operand and the previous iterate as the region finds them. Each grid point writes 512 rows of it
   (the product of a block of rows is those rows of the whole product), and the 32 points cover the 16384 rows. -/
import proofs.«117973_j38328288150260_2_alg».proof.Proof.KernelIdeal.Region5
import proofs.«117973_j38328288150260_2_alg».proof.Proof.KernelIdeal.StepCommon

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable [Cert.ReferenceIdeal.Facts]
variable (V : (c : Dev nD) → (b : Ref sig .tc) → Buf (Elt Ideal) ((c : Thread nD τ).loc b))

/-- The body's payload is the step on its three blocks: its casts are to the same shapes, and are the identity. -/
theorem pay5_eq (x0 : Vec Ideal S512x16384 .bf16) (x1 : Vec Ideal S16384x32 .bf16) (x2 : Vec Ideal S512x32 .f32) :
    k5_pay1 (F := Ideal) x0 x1 x2 = Cert.Step.block x0 x1 x2 := by
  unfold k5_pay1 Cert.Step.block
  simp only [shapeCast_self]
  rfl

/-- The printed index maps, decided over the grid: the operator's, the previous iterate's and the result's row blocks
    move with the point, the vector operand's block never moves, and no block moves along the columns. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- What point `t` writes back is block `t` of the whole-array step. -/
theorem flushed5_3_eq (c : Dev nD) (t : Fin cfg5.N) :
    (dat5 (F := Ideal) V c).flushed 3 t
      = ((cfg5.win 3).blk t).view.read (Elt Ideal) (Cert.Spec.next (V c main_v1_0) (V c main_v44) (V c main_v29)) := by
  show (cfg5.win 3).cut (grid5.coords t) ((dat5 (F := Ideal) V c).after 3 t) = _
  rw [after5_3]
  unfold out5_3
  rw [View.canon_unit_zero Cert.Step.origin2]
  simp only [View.ld_unit_zero (S := S512x16384) Cert.Step.origin2, View.ld_unit_zero (S := S16384x32) Cert.Step.origin2,
    View.ld_unit_zero (S := S512x32) Cert.Step.origin2]
  rw [pay5_eq]
  obtain ⟨e00, e01, e10, e11, e20, e21, e30, e31⟩ := idx_facts5 t
  funext j
  exact Cert.Step.block_apply (iblk5 V c 0 t) (iblk5 V c 1 t) (iblk5 V c 2 t) (V c main_v1_0) (V c main_v44) (V c main_v29)
    ((cfg5.win 0).blk t).view.emb ((cfg5.win 1).blk t).view.emb ((cfg5.win 2).blk t).view.emb ((cfg5.win 3).blk t).view.emb
    (t.val * 512) (fun y => rfl) (fun y => rfl) (fun y => rfl)
    (fun y => by show win5_0.index t (0 : Fin 2) * 512 + 1 * (y 0).val = t.val * 512 + (y 0).val; omega)
    (fun y => by show win5_0.index t (1 : Fin 2) * 16384 + 1 * (y 1).val = (y 1).val; omega)
    (fun y => by show win5_1.index t (0 : Fin 2) * 16384 + 1 * (y 0).val = (y 0).val; omega)
    (fun y => by show win5_1.index t (1 : Fin 2) * 32 + 1 * (y 1).val = (y 1).val; omega)
    (fun y => by show win5_3.index t (0 : Fin 2) * 512 + 1 * (y 0).val = t.val * 512 + (y 0).val; omega)
    (fun y => by show win5_3.index t (1 : Fin 2) * 32 + 1 * (y 1).val = (y 1).val; omega)
    (fun y => by
      funext a; apply Fin.ext
      match a with
      | ⟨0, _⟩ => show win5_2.index t (0 : Fin 2) * 512 + 1 * (y 0).val = win5_3.index t (0 : Fin 2) * 512 + 1 * (y 0).val; omega
      | ⟨1, _⟩ => show win5_2.index t (1 : Fin 2) * 32 + 1 * (y 1).val = win5_3.index t (1 : Fin 2) * 32 + 1 * (y 1).val; omega)
    j

/-- An index of the result array is in point `t`'s block iff each coordinate is in the block's range on its axis. -/
theorem mem_blk5_3 (t : Fin cfg5.N) (i : S16384x32.Idx) :
    i ∈ ((cfg5.win 3).blk t).view.set ↔ ∀ a : Fin 2, win5_3.index t a * S512x32.size a ≤ (i a).val ∧ (i a).val < win5_3.index t a * S512x32.size a + S512x32.size a := by
  show i ∈ ((View.whole main_v45).slice (win5_3.rect t)).set ↔ _
  rw [View.set_slice_whole, Rect.mem_set_unit]
  exact Iff.rfl

/-- Every row is in some point's block: row `r` is in the block of point `r / 512`. -/
theorem rows_covered5 (i : S16384x32.Idx) :
    ∃ t : Fin cfg5.N, (cfg5.win 3).flush t = true ∧ i ∈ ((cfg5.win 3).blk t).view.set := by
  have hi0 : (i 0).val < 16384 := (i 0).isLt
  have hi1 : (i 1).val < 32 := (i 1).isLt
  have hN : cfg5.N = 32 := N_5
  have hlt : (i 0).val / 512 < cfg5.N := by rw [hN]; omega
  refine ⟨⟨(i 0).val / 512, hlt⟩, flush5_3 _, ?_⟩
  rw [mem_blk5_3]
  obtain ⟨-, -, -, -, -, -, e30, e31⟩ := idx_facts5 ⟨(i 0).val / 512, hlt⟩
  have e30' : win5_3.index ⟨(i 0).val / 512, hlt⟩ (0 : Fin 2) = (i 0).val / 512 := e30
  intro a
  match a with
  | ⟨0, _⟩ => show win5_3.index ⟨(i 0).val / 512, hlt⟩ (0 : Fin 2) * 512 ≤ (i 0).val ∧ (i 0).val < win5_3.index ⟨(i 0).val / 512, hlt⟩ (0 : Fin 2) * 512 + 512; omega
  | ⟨1, _⟩ => show win5_3.index ⟨(i 0).val / 512, hlt⟩ (1 : Fin 2) * 32 ≤ (i 1).val ∧ (i 1).val < win5_3.index ⟨(i 0).val / 512, hlt⟩ (1 : Fin 2) * 32 + 32; omega

/-- The result array after the region is one step of the recurrence of the arrays as the region finds them. -/
theorem final5_3 (c : Dev nD) :
    (dat5 (F := Ideal) V c).arrAt 3 cfg5.N = Cert.Spec.next (V c main_v1_0) (V c main_v44) (V c main_v29) :=
  (dat5 (F := Ideal) V c).arrAt_eq_of_cover 3 (Cert.Spec.next (V c main_v1_0) (V c main_v44) (V c main_v29))
    (fun t _ => flushed5_3_eq V c t) (rows_covered5)

end Cert.KernelIdeal.Hand

end
-- ==== Proof.KernelIdeal.StepValue6.lean ====
/- The value of region 6: the array its write-backs leave is one step of the recurrence, 2 · (L · Z) − P, of the
   operator, the vector operand and the previous iterate as the region finds them. Each grid point writes 512 rows of it
   (the product of a block of rows is those rows of the whole product), and the 32 points cover the 16384 rows. -/
import proofs.«117973_j38328288150260_2_alg».proof.Proof.KernelIdeal.Region6
import proofs.«117973_j38328288150260_2_alg».proof.Proof.KernelIdeal.StepCommon

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable [Cert.ReferenceIdeal.Facts]
variable (V : (c : Dev nD) → (b : Ref sig .tc) → Buf (Elt Ideal) ((c : Thread nD τ).loc b))

/-- The body's payload is the step on its three blocks: its casts are to the same shapes, and are the identity. -/
theorem pay6_eq (x0 : Vec Ideal S512x16384 .bf16) (x1 : Vec Ideal S16384x32 .bf16) (x2 : Vec Ideal S512x32 .f32) :
    k6_pay1 (F := Ideal) x0 x1 x2 = Cert.Step.block x0 x1 x2 := by
  unfold k6_pay1 Cert.Step.block
  simp only [shapeCast_self]
  rfl

/-- The printed index maps, decided over the grid: the operator's, the previous iterate's and the result's row blocks
    move with the point, the vector operand's block never moves, and no block moves along the columns. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

/-- What point `t` writes back is block `t` of the whole-array step. -/
theorem flushed6_3_eq (c : Dev nD) (t : Fin cfg6.N) :
    (dat6 (F := Ideal) V c).flushed 3 t
      = ((cfg6.win 3).blk t).view.read (Elt Ideal) (Cert.Spec.next (V c main_v1_0) (V c main_v52) (V c main_v37)) := by
  show (cfg6.win 3).cut (grid6.coords t) ((dat6 (F := Ideal) V c).after 3 t) = _
  rw [after6_3]
  unfold out6_3
  rw [View.canon_unit_zero Cert.Step.origin2]
  simp only [View.ld_unit_zero (S := S512x16384) Cert.Step.origin2, View.ld_unit_zero (S := S16384x32) Cert.Step.origin2,
    View.ld_unit_zero (S := S512x32) Cert.Step.origin2]
  rw [pay6_eq]
  obtain ⟨e00, e01, e10, e11, e20, e21, e30, e31⟩ := idx_facts6 t
  funext j
  exact Cert.Step.block_apply (iblk6 V c 0 t) (iblk6 V c 1 t) (iblk6 V c 2 t) (V c main_v1_0) (V c main_v52) (V c main_v37)
    ((cfg6.win 0).blk t).view.emb ((cfg6.win 1).blk t).view.emb ((cfg6.win 2).blk t).view.emb ((cfg6.win 3).blk t).view.emb
    (t.val * 512) (fun y => rfl) (fun y => rfl) (fun y => rfl)
    (fun y => by show win6_0.index t (0 : Fin 2) * 512 + 1 * (y 0).val = t.val * 512 + (y 0).val; omega)
    (fun y => by show win6_0.index t (1 : Fin 2) * 16384 + 1 * (y 1).val = (y 1).val; omega)
    (fun y => by show win6_1.index t (0 : Fin 2) * 16384 + 1 * (y 0).val = (y 0).val; omega)
    (fun y => by show win6_1.index t (1 : Fin 2) * 32 + 1 * (y 1).val = (y 1).val; omega)
    (fun y => by show win6_3.index t (0 : Fin 2) * 512 + 1 * (y 0).val = t.val * 512 + (y 0).val; omega)
    (fun y => by show win6_3.index t (1 : Fin 2) * 32 + 1 * (y 1).val = (y 1).val; omega)
    (fun y => by
      funext a; apply Fin.ext
      match a with
      | ⟨0, _⟩ => show win6_2.index t (0 : Fin 2) * 512 + 1 * (y 0).val = win6_3.index t (0 : Fin 2) * 512 + 1 * (y 0).val; omega
      | ⟨1, _⟩ => show win6_2.index t (1 : Fin 2) * 32 + 1 * (y 1).val = win6_3.index t (1 : Fin 2) * 32 + 1 * (y 1).val; omega)
    j

/-- An index of the result array is in point `t`'s block iff each coordinate is in the block's range on its axis. -/
theorem mem_blk6_3 (t : Fin cfg6.N) (i : S16384x32.Idx) :
    i ∈ ((cfg6.win 3).blk t).view.set ↔ ∀ a : Fin 2, win6_3.index t a * S512x32.size a ≤ (i a).val ∧ (i a).val < win6_3.index t a * S512x32.size a + S512x32.size a := by
  show i ∈ ((View.whole main_v53).slice (win6_3.rect t)).set ↔ _
  rw [View.set_slice_whole, Rect.mem_set_unit]
  exact Iff.rfl

/-- Every row is in some point's block: row `r` is in the block of point `r / 512`. -/
theorem rows_covered6 (i : S16384x32.Idx) :
    ∃ t : Fin cfg6.N, (cfg6.win 3).flush t = true ∧ i ∈ ((cfg6.win 3).blk t).view.set := by
  have hi0 : (i 0).val < 16384 := (i 0).isLt
  have hi1 : (i 1).val < 32 := (i 1).isLt
  have hN : cfg6.N = 32 := N_6
  have hlt : (i 0).val / 512 < cfg6.N := by rw [hN]; omega
  refine ⟨⟨(i 0).val / 512, hlt⟩, flush6_3 _, ?_⟩
  rw [mem_blk6_3]
  obtain ⟨-, -, -, -, -, -, e30, e31⟩ := idx_facts6 ⟨(i 0).val / 512, hlt⟩
  have e30' : win6_3.index ⟨(i 0).val / 512, hlt⟩ (0 : Fin 2) = (i 0).val / 512 := e30
  intro a
  match a with
  | ⟨0, _⟩ => show win6_3.index ⟨(i 0).val / 512, hlt⟩ (0 : Fin 2) * 512 ≤ (i 0).val ∧ (i 0).val < win6_3.index ⟨(i 0).val / 512, hlt⟩ (0 : Fin 2) * 512 + 512; omega
  | ⟨1, _⟩ => show win6_3.index ⟨(i 0).val / 512, hlt⟩ (1 : Fin 2) * 32 ≤ (i 1).val ∧ (i 1).val < win6_3.index ⟨(i 0).val / 512, hlt⟩ (1 : Fin 2) * 32 + 32; omega

/-- The result array after the region is one step of the recurrence of the arrays as the region finds them. -/
theorem final6_3 (c : Dev nD) :
    (dat6 (F := Ideal) V c).arrAt 3 cfg6.N = Cert.Spec.next (V c main_v1_0) (V c main_v52) (V c main_v37) :=
  (dat6 (F := Ideal) V c).arrAt_eq_of_cover 3 (Cert.Spec.next (V c main_v1_0) (V c main_v52) (V c main_v37))
    (fun t _ => flushed6_3_eq V c t) (rows_covered6)

end Cert.KernelIdeal.Hand

end
-- ==== Proof.KernelIdeal.StepValue7.lean ====
/- The value of region 7: the array its write-backs leave is one step of the recurrence, 2 · (L · Z) − P, of the
   operator, the vector operand and the previous iterate as the region finds them. Each grid point writes 512 rows of it
   (the product of a block of rows is those rows of the whole product), and the 32 points cover the 16384 rows. -/
import proofs.«117973_j38328288150260_2_alg».proof.Proof.KernelIdeal.Region7
import proofs.«117973_j38328288150260_2_alg».proof.Proof.KernelIdeal.StepCommon

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable [Cert.ReferenceIdeal.Facts]
variable (V : (c : Dev nD) → (b : Ref sig .tc) → Buf (Elt Ideal) ((c : Thread nD τ).loc b))

/-- The body's payload is the step on its three blocks: its casts are to the same shapes, and are the identity. -/
theorem pay7_eq (x0 : Vec Ideal S512x16384 .bf16) (x1 : Vec Ideal S16384x32 .bf16) (x2 : Vec Ideal S512x32 .f32) :
    k7_pay1 (F := Ideal) x0 x1 x2 = Cert.Step.block x0 x1 x2 := by
  unfold k7_pay1 Cert.Step.block
  simp only [shapeCast_self]
  rfl

/-- The printed index maps, decided over the grid: the operator's, the previous iterate's and the result's row blocks
    move with the point, the vector operand's block never moves, and no block moves along the columns. -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0 :=
  (by decide +kernel : ∀ t : Fin grid7.N, _)

/-- What point `t` writes back is block `t` of the whole-array step. -/
theorem flushed7_3_eq (c : Dev nD) (t : Fin cfg7.N) :
    (dat7 (F := Ideal) V c).flushed 3 t
      = ((cfg7.win 3).blk t).view.read (Elt Ideal) (Cert.Spec.next (V c main_v1_0) (V c main_v60) (V c main_v45)) := by
  show (cfg7.win 3).cut (grid7.coords t) ((dat7 (F := Ideal) V c).after 3 t) = _
  rw [after7_3]
  unfold out7_3
  rw [View.canon_unit_zero Cert.Step.origin2]
  simp only [View.ld_unit_zero (S := S512x16384) Cert.Step.origin2, View.ld_unit_zero (S := S16384x32) Cert.Step.origin2,
    View.ld_unit_zero (S := S512x32) Cert.Step.origin2]
  rw [pay7_eq]
  obtain ⟨e00, e01, e10, e11, e20, e21, e30, e31⟩ := idx_facts7 t
  funext j
  exact Cert.Step.block_apply (iblk7 V c 0 t) (iblk7 V c 1 t) (iblk7 V c 2 t) (V c main_v1_0) (V c main_v60) (V c main_v45)
    ((cfg7.win 0).blk t).view.emb ((cfg7.win 1).blk t).view.emb ((cfg7.win 2).blk t).view.emb ((cfg7.win 3).blk t).view.emb
    (t.val * 512) (fun y => rfl) (fun y => rfl) (fun y => rfl)
    (fun y => by show win7_0.index t (0 : Fin 2) * 512 + 1 * (y 0).val = t.val * 512 + (y 0).val; omega)
    (fun y => by show win7_0.index t (1 : Fin 2) * 16384 + 1 * (y 1).val = (y 1).val; omega)
    (fun y => by show win7_1.index t (0 : Fin 2) * 16384 + 1 * (y 0).val = (y 0).val; omega)
    (fun y => by show win7_1.index t (1 : Fin 2) * 32 + 1 * (y 1).val = (y 1).val; omega)
    (fun y => by show win7_3.index t (0 : Fin 2) * 512 + 1 * (y 0).val = t.val * 512 + (y 0).val; omega)
    (fun y => by show win7_3.index t (1 : Fin 2) * 32 + 1 * (y 1).val = (y 1).val; omega)
    (fun y => by
      funext a; apply Fin.ext
      match a with
      | ⟨0, _⟩ => show win7_2.index t (0 : Fin 2) * 512 + 1 * (y 0).val = win7_3.index t (0 : Fin 2) * 512 + 1 * (y 0).val; omega
      | ⟨1, _⟩ => show win7_2.index t (1 : Fin 2) * 32 + 1 * (y 1).val = win7_3.index t (1 : Fin 2) * 32 + 1 * (y 1).val; omega)
    j

/-- An index of the result array is in point `t`'s block iff each coordinate is in the block's range on its axis. -/
theorem mem_blk7_3 (t : Fin cfg7.N) (i : S16384x32.Idx) :
    i ∈ ((cfg7.win 3).blk t).view.set ↔ ∀ a : Fin 2, win7_3.index t a * S512x32.size a ≤ (i a).val ∧ (i a).val < win7_3.index t a * S512x32.size a + S512x32.size a := by
  show i ∈ ((View.whole main_v61).slice (win7_3.rect t)).set ↔ _
  rw [View.set_slice_whole, Rect.mem_set_unit]
  exact Iff.rfl

/-- Every row is in some point's block: row `r` is in the block of point `r / 512`. -/
theorem rows_covered7 (i : S16384x32.Idx) :
    ∃ t : Fin cfg7.N, (cfg7.win 3).flush t = true ∧ i ∈ ((cfg7.win 3).blk t).view.set := by
  have hi0 : (i 0).val < 16384 := (i 0).isLt
  have hi1 : (i 1).val < 32 := (i 1).isLt
  have hN : cfg7.N = 32 := N_7
  have hlt : (i 0).val / 512 < cfg7.N := by rw [hN]; omega
  refine ⟨⟨(i 0).val / 512, hlt⟩, flush7_3 _, ?_⟩
  rw [mem_blk7_3]
  obtain ⟨-, -, -, -, -, -, e30, e31⟩ := idx_facts7 ⟨(i 0).val / 512, hlt⟩
  have e30' : win7_3.index ⟨(i 0).val / 512, hlt⟩ (0 : Fin 2) = (i 0).val / 512 := e30
  intro a
  match a with
  | ⟨0, _⟩ => show win7_3.index ⟨(i 0).val / 512, hlt⟩ (0 : Fin 2) * 512 ≤ (i 0).val ∧ (i 0).val < win7_3.index ⟨(i 0).val / 512, hlt⟩ (0 : Fin 2) * 512 + 512; omega
  | ⟨1, _⟩ => show win7_3.index ⟨(i 0).val / 512, hlt⟩ (1 : Fin 2) * 32 ≤ (i 1).val ∧ (i 1).val < win7_3.index ⟨(i 0).val / 512, hlt⟩ (1 : Fin 2) * 32 + 32; omega

/-- The result array after the region is one step of the recurrence of the arrays as the region finds them. -/
theorem final7_3 (c : Dev nD) :
    (dat7 (F := Ideal) V c).arrAt 3 cfg7.N = Cert.Spec.next (V c main_v1_0) (V c main_v60) (V c main_v45) :=
  (dat7 (F := Ideal) V c).arrAt_eq_of_cover 3 (Cert.Spec.next (V c main_v1_0) (V c main_v60) (V c main_v45))
    (fun t _ => flushed7_3_eq V c t) (rows_covered7)

end Cert.KernelIdeal.Hand

end
-- ==== Proof.KernelIdeal.Bridge.lean ====
/- The idealized kernel's result is the specification's function of the arguments.  Boundary by boundary through the
   main program: the first region leaves the operator's copy (the operator itself: a change of float format is the
   identity on the extended reals) and the first Chebyshev term L · X; region k leaves term k + 1 = 2 · (L · T k) − T (k − 1);
   the host stretch after it adds a_(k+1) · T (k+1) to each of the two running sums; the tail applies the two dense
   layers, the rectifier and the final dense layer of the three blocks side by side.  Each stage is read off the fold with
   the host operations' own terms, so both sides are the same expression once the earlier stages are substituted. -/
import proofs.«117973_j38328288150260_2_alg».proof.Proof.KernelIdeal.Kept
import proofs.«117973_j38328288150260_2_alg».proof.Proof.Spec
import proofs.«117973_j38328288150260_2_alg».proof.Proof.Gen.ReferenceIdeal
import proofs.«117973_j38328288150260_2_alg».proof.Proof.KernelIdeal.FirstValue
import proofs.«117973_j38328288150260_2_alg».proof.Proof.KernelIdeal.StepValue1
import proofs.«117973_j38328288150260_2_alg».proof.Proof.KernelIdeal.StepValue2
import proofs.«117973_j38328288150260_2_alg».proof.Proof.KernelIdeal.StepValue3
import proofs.«117973_j38328288150260_2_alg».proof.Proof.KernelIdeal.StepValue4
import proofs.«117973_j38328288150260_2_alg».proof.Proof.KernelIdeal.StepValue5
import proofs.«117973_j38328288150260_2_alg».proof.Proof.KernelIdeal.StepValue6
import proofs.«117973_j38328288150260_2_alg».proof.Proof.KernelIdeal.StepValue7
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)

attribute [local instance] Cert.ReferenceIdeal.Gen.facts

variable (m : (ℓ : Loc nD τ sig) → Buf (Elt Ideal) ℓ) (c : Dev nD)

/-- The signal and the operator the launch memory holds. -/
abbrev X0 : Cert.Spec.Arr := W0 m c main_arg0
abbrev L0 : Cert.Spec.Op := W0 m c main_arg1

/-! ## The arguments at every boundary -/
theorem arg0_1 : W1 m c (Proc.devRef .tc main_arg0) = W0 m c (Proc.devRef .tc main_arg0) := (keep1 m c main_arg0 (by decide))
theorem arg0_2 : W2 m c (Proc.devRef .tc main_arg0) = W0 m c (Proc.devRef .tc main_arg0) := (keep2 m c main_arg0 (by decide)).trans (arg0_1 m c)
theorem arg0_3 : W3 m c (Proc.devRef .tc main_arg0) = W0 m c (Proc.devRef .tc main_arg0) := (keep3 m c main_arg0 (by decide)).trans (arg0_2 m c)
theorem arg0_4 : W4 m c (Proc.devRef .tc main_arg0) = W0 m c (Proc.devRef .tc main_arg0) := (keep4 m c main_arg0 (by decide)).trans (arg0_3 m c)
theorem arg0_5 : W5 m c (Proc.devRef .tc main_arg0) = W0 m c (Proc.devRef .tc main_arg0) := (keep5 m c main_arg0 (by decide)).trans (arg0_4 m c)
theorem arg0_6 : W6 m c (Proc.devRef .tc main_arg0) = W0 m c (Proc.devRef .tc main_arg0) := (keep6 m c main_arg0 (by decide)).trans (arg0_5 m c)
theorem arg0_7 : W7 m c (Proc.devRef .tc main_arg0) = W0 m c (Proc.devRef .tc main_arg0) := (keep7 m c main_arg0 (by decide)).trans (arg0_6 m c)
theorem arg0_8 : W8 m c (Proc.devRef .tc main_arg0) = W0 m c (Proc.devRef .tc main_arg0) := (keep8 m c main_arg0 (by decide)).trans (arg0_7 m c)
theorem arg0_9 : W9 m c (Proc.devRef .tc main_arg0) = W0 m c (Proc.devRef .tc main_arg0) := (keep9 m c main_arg0 (by decide)).trans (arg0_8 m c)
theorem arg0_10 : W10 m c (Proc.devRef .tc main_arg0) = W0 m c (Proc.devRef .tc main_arg0) := (keep10 m c main_arg0 (by decide)).trans (arg0_9 m c)
theorem arg0_11 : W11 m c (Proc.devRef .tc main_arg0) = W0 m c (Proc.devRef .tc main_arg0) := (keep11 m c main_arg0 (by decide)).trans (arg0_10 m c)
theorem arg0_12 : W12 m c (Proc.devRef .tc main_arg0) = W0 m c (Proc.devRef .tc main_arg0) := (keep12 m c main_arg0 (by decide)).trans (arg0_11 m c)
theorem arg0_13 : W13 m c (Proc.devRef .tc main_arg0) = W0 m c (Proc.devRef .tc main_arg0) := (keep13 m c main_arg0 (by decide)).trans (arg0_12 m c)
theorem arg0_14 : W14 m c (Proc.devRef .tc main_arg0) = W0 m c (Proc.devRef .tc main_arg0) := (keep14 m c main_arg0 (by decide)).trans (arg0_13 m c)
theorem arg0_15 : W15 m c (Proc.devRef .tc main_arg0) = W0 m c (Proc.devRef .tc main_arg0) := (keep15 m c main_arg0 (by decide)).trans (arg0_14 m c)
theorem arg0_16 : W16 m c (Proc.devRef .tc main_arg0) = W0 m c (Proc.devRef .tc main_arg0) := (keep16 m c main_arg0 (by decide)).trans (arg0_15 m c)
theorem arg0_17 : W17 m c (Proc.devRef .tc main_arg0) = W0 m c (Proc.devRef .tc main_arg0) := (keep17 m c main_arg0 (by decide)).trans (arg0_16 m c)
theorem arg0_18 : W18 m c (Proc.devRef .tc main_arg0) = W0 m c (Proc.devRef .tc main_arg0) := (keep18 m c main_arg0 (by decide)).trans (arg0_17 m c)
theorem arg0_19 : W19 m c (Proc.devRef .tc main_arg0) = W0 m c (Proc.devRef .tc main_arg0) := (keep19 m c main_arg0 (by decide)).trans (arg0_18 m c)
theorem arg0_20 : W20 m c (Proc.devRef .tc main_arg0) = W0 m c (Proc.devRef .tc main_arg0) := (keep20 m c main_arg0 (by decide)).trans (arg0_19 m c)
theorem arg0_21 : W21 m c (Proc.devRef .tc main_arg0) = W0 m c (Proc.devRef .tc main_arg0) := (keep21 m c main_arg0 (by decide)).trans (arg0_20 m c)
theorem arg1_1 : W1 m c (Proc.devRef .tc main_arg1) = W0 m c (Proc.devRef .tc main_arg1) := (keep1 m c main_arg1 (by decide))
theorem arg1_2 : W2 m c (Proc.devRef .tc main_arg1) = W0 m c (Proc.devRef .tc main_arg1) := (keep2 m c main_arg1 (by decide)).trans (arg1_1 m c)
theorem arg1_3 : W3 m c (Proc.devRef .tc main_arg1) = W0 m c (Proc.devRef .tc main_arg1) := (keep3 m c main_arg1 (by decide)).trans (arg1_2 m c)
theorem arg1_4 : W4 m c (Proc.devRef .tc main_arg1) = W0 m c (Proc.devRef .tc main_arg1) := (keep4 m c main_arg1 (by decide)).trans (arg1_3 m c)
theorem arg1_5 : W5 m c (Proc.devRef .tc main_arg1) = W0 m c (Proc.devRef .tc main_arg1) := (keep5 m c main_arg1 (by decide)).trans (arg1_4 m c)
theorem arg1_6 : W6 m c (Proc.devRef .tc main_arg1) = W0 m c (Proc.devRef .tc main_arg1) := (keep6 m c main_arg1 (by decide)).trans (arg1_5 m c)
theorem arg1_7 : W7 m c (Proc.devRef .tc main_arg1) = W0 m c (Proc.devRef .tc main_arg1) := (keep7 m c main_arg1 (by decide)).trans (arg1_6 m c)
theorem arg1_8 : W8 m c (Proc.devRef .tc main_arg1) = W0 m c (Proc.devRef .tc main_arg1) := (keep8 m c main_arg1 (by decide)).trans (arg1_7 m c)
theorem arg1_9 : W9 m c (Proc.devRef .tc main_arg1) = W0 m c (Proc.devRef .tc main_arg1) := (keep9 m c main_arg1 (by decide)).trans (arg1_8 m c)
theorem arg1_10 : W10 m c (Proc.devRef .tc main_arg1) = W0 m c (Proc.devRef .tc main_arg1) := (keep10 m c main_arg1 (by decide)).trans (arg1_9 m c)
theorem arg1_11 : W11 m c (Proc.devRef .tc main_arg1) = W0 m c (Proc.devRef .tc main_arg1) := (keep11 m c main_arg1 (by decide)).trans (arg1_10 m c)
theorem arg1_12 : W12 m c (Proc.devRef .tc main_arg1) = W0 m c (Proc.devRef .tc main_arg1) := (keep12 m c main_arg1 (by decide)).trans (arg1_11 m c)
theorem arg1_13 : W13 m c (Proc.devRef .tc main_arg1) = W0 m c (Proc.devRef .tc main_arg1) := (keep13 m c main_arg1 (by decide)).trans (arg1_12 m c)
theorem arg1_14 : W14 m c (Proc.devRef .tc main_arg1) = W0 m c (Proc.devRef .tc main_arg1) := (keep14 m c main_arg1 (by decide)).trans (arg1_13 m c)
theorem arg1_15 : W15 m c (Proc.devRef .tc main_arg1) = W0 m c (Proc.devRef .tc main_arg1) := (keep15 m c main_arg1 (by decide)).trans (arg1_14 m c)
theorem arg1_16 : W16 m c (Proc.devRef .tc main_arg1) = W0 m c (Proc.devRef .tc main_arg1) := (keep16 m c main_arg1 (by decide)).trans (arg1_15 m c)
theorem arg1_17 : W17 m c (Proc.devRef .tc main_arg1) = W0 m c (Proc.devRef .tc main_arg1) := (keep17 m c main_arg1 (by decide)).trans (arg1_16 m c)
theorem arg1_18 : W18 m c (Proc.devRef .tc main_arg1) = W0 m c (Proc.devRef .tc main_arg1) := (keep18 m c main_arg1 (by decide)).trans (arg1_17 m c)
theorem arg1_19 : W19 m c (Proc.devRef .tc main_arg1) = W0 m c (Proc.devRef .tc main_arg1) := (keep19 m c main_arg1 (by decide)).trans (arg1_18 m c)
theorem arg1_20 : W20 m c (Proc.devRef .tc main_arg1) = W0 m c (Proc.devRef .tc main_arg1) := (keep20 m c main_arg1 (by decide)).trans (arg1_19 m c)
theorem arg1_21 : W21 m c (Proc.devRef .tc main_arg1) = W0 m c (Proc.devRef .tc main_arg1) := (keep21 m c main_arg1 (by decide)).trans (arg1_20 m c)
theorem arg2_1 : W1 m c (Proc.devRef .tc main_arg2) = W0 m c (Proc.devRef .tc main_arg2) := (keep1 m c main_arg2 (by decide))
theorem arg2_2 : W2 m c (Proc.devRef .tc main_arg2) = W0 m c (Proc.devRef .tc main_arg2) := (keep2 m c main_arg2 (by decide)).trans (arg2_1 m c)
theorem arg2_3 : W3 m c (Proc.devRef .tc main_arg2) = W0 m c (Proc.devRef .tc main_arg2) := (keep3 m c main_arg2 (by decide)).trans (arg2_2 m c)
theorem arg2_4 : W4 m c (Proc.devRef .tc main_arg2) = W0 m c (Proc.devRef .tc main_arg2) := (keep4 m c main_arg2 (by decide)).trans (arg2_3 m c)
theorem arg2_5 : W5 m c (Proc.devRef .tc main_arg2) = W0 m c (Proc.devRef .tc main_arg2) := (keep5 m c main_arg2 (by decide)).trans (arg2_4 m c)
theorem arg2_6 : W6 m c (Proc.devRef .tc main_arg2) = W0 m c (Proc.devRef .tc main_arg2) := (keep6 m c main_arg2 (by decide)).trans (arg2_5 m c)
theorem arg2_7 : W7 m c (Proc.devRef .tc main_arg2) = W0 m c (Proc.devRef .tc main_arg2) := (keep7 m c main_arg2 (by decide)).trans (arg2_6 m c)
theorem arg2_8 : W8 m c (Proc.devRef .tc main_arg2) = W0 m c (Proc.devRef .tc main_arg2) := (keep8 m c main_arg2 (by decide)).trans (arg2_7 m c)
theorem arg2_9 : W9 m c (Proc.devRef .tc main_arg2) = W0 m c (Proc.devRef .tc main_arg2) := (keep9 m c main_arg2 (by decide)).trans (arg2_8 m c)
theorem arg2_10 : W10 m c (Proc.devRef .tc main_arg2) = W0 m c (Proc.devRef .tc main_arg2) := (keep10 m c main_arg2 (by decide)).trans (arg2_9 m c)
theorem arg2_11 : W11 m c (Proc.devRef .tc main_arg2) = W0 m c (Proc.devRef .tc main_arg2) := (keep11 m c main_arg2 (by decide)).trans (arg2_10 m c)
theorem arg2_12 : W12 m c (Proc.devRef .tc main_arg2) = W0 m c (Proc.devRef .tc main_arg2) := (keep12 m c main_arg2 (by decide)).trans (arg2_11 m c)
theorem arg2_13 : W13 m c (Proc.devRef .tc main_arg2) = W0 m c (Proc.devRef .tc main_arg2) := (keep13 m c main_arg2 (by decide)).trans (arg2_12 m c)
theorem arg2_14 : W14 m c (Proc.devRef .tc main_arg2) = W0 m c (Proc.devRef .tc main_arg2) := (keep14 m c main_arg2 (by decide)).trans (arg2_13 m c)
theorem arg2_15 : W15 m c (Proc.devRef .tc main_arg2) = W0 m c (Proc.devRef .tc main_arg2) := (keep15 m c main_arg2 (by decide)).trans (arg2_14 m c)
theorem arg2_16 : W16 m c (Proc.devRef .tc main_arg2) = W0 m c (Proc.devRef .tc main_arg2) := (keep16 m c main_arg2 (by decide)).trans (arg2_15 m c)
theorem arg2_17 : W17 m c (Proc.devRef .tc main_arg2) = W0 m c (Proc.devRef .tc main_arg2) := (keep17 m c main_arg2 (by decide)).trans (arg2_16 m c)
theorem arg2_18 : W18 m c (Proc.devRef .tc main_arg2) = W0 m c (Proc.devRef .tc main_arg2) := (keep18 m c main_arg2 (by decide)).trans (arg2_17 m c)
theorem arg2_19 : W19 m c (Proc.devRef .tc main_arg2) = W0 m c (Proc.devRef .tc main_arg2) := (keep19 m c main_arg2 (by decide)).trans (arg2_18 m c)
theorem arg2_20 : W20 m c (Proc.devRef .tc main_arg2) = W0 m c (Proc.devRef .tc main_arg2) := (keep20 m c main_arg2 (by decide)).trans (arg2_19 m c)
theorem arg2_21 : W21 m c (Proc.devRef .tc main_arg2) = W0 m c (Proc.devRef .tc main_arg2) := (keep21 m c main_arg2 (by decide)).trans (arg2_20 m c)
theorem arg3_1 : W1 m c (Proc.devRef .tc main_arg3) = W0 m c (Proc.devRef .tc main_arg3) := (keep1 m c main_arg3 (by decide))
theorem arg3_2 : W2 m c (Proc.devRef .tc main_arg3) = W0 m c (Proc.devRef .tc main_arg3) := (keep2 m c main_arg3 (by decide)).trans (arg3_1 m c)
theorem arg3_3 : W3 m c (Proc.devRef .tc main_arg3) = W0 m c (Proc.devRef .tc main_arg3) := (keep3 m c main_arg3 (by decide)).trans (arg3_2 m c)
theorem arg3_4 : W4 m c (Proc.devRef .tc main_arg3) = W0 m c (Proc.devRef .tc main_arg3) := (keep4 m c main_arg3 (by decide)).trans (arg3_3 m c)
theorem arg3_5 : W5 m c (Proc.devRef .tc main_arg3) = W0 m c (Proc.devRef .tc main_arg3) := (keep5 m c main_arg3 (by decide)).trans (arg3_4 m c)
theorem arg3_6 : W6 m c (Proc.devRef .tc main_arg3) = W0 m c (Proc.devRef .tc main_arg3) := (keep6 m c main_arg3 (by decide)).trans (arg3_5 m c)
theorem arg3_7 : W7 m c (Proc.devRef .tc main_arg3) = W0 m c (Proc.devRef .tc main_arg3) := (keep7 m c main_arg3 (by decide)).trans (arg3_6 m c)
theorem arg3_8 : W8 m c (Proc.devRef .tc main_arg3) = W0 m c (Proc.devRef .tc main_arg3) := (keep8 m c main_arg3 (by decide)).trans (arg3_7 m c)
theorem arg3_9 : W9 m c (Proc.devRef .tc main_arg3) = W0 m c (Proc.devRef .tc main_arg3) := (keep9 m c main_arg3 (by decide)).trans (arg3_8 m c)
theorem arg3_10 : W10 m c (Proc.devRef .tc main_arg3) = W0 m c (Proc.devRef .tc main_arg3) := (keep10 m c main_arg3 (by decide)).trans (arg3_9 m c)
theorem arg3_11 : W11 m c (Proc.devRef .tc main_arg3) = W0 m c (Proc.devRef .tc main_arg3) := (keep11 m c main_arg3 (by decide)).trans (arg3_10 m c)
theorem arg3_12 : W12 m c (Proc.devRef .tc main_arg3) = W0 m c (Proc.devRef .tc main_arg3) := (keep12 m c main_arg3 (by decide)).trans (arg3_11 m c)
theorem arg3_13 : W13 m c (Proc.devRef .tc main_arg3) = W0 m c (Proc.devRef .tc main_arg3) := (keep13 m c main_arg3 (by decide)).trans (arg3_12 m c)
theorem arg3_14 : W14 m c (Proc.devRef .tc main_arg3) = W0 m c (Proc.devRef .tc main_arg3) := (keep14 m c main_arg3 (by decide)).trans (arg3_13 m c)
theorem arg3_15 : W15 m c (Proc.devRef .tc main_arg3) = W0 m c (Proc.devRef .tc main_arg3) := (keep15 m c main_arg3 (by decide)).trans (arg3_14 m c)
theorem arg3_16 : W16 m c (Proc.devRef .tc main_arg3) = W0 m c (Proc.devRef .tc main_arg3) := (keep16 m c main_arg3 (by decide)).trans (arg3_15 m c)
theorem arg3_17 : W17 m c (Proc.devRef .tc main_arg3) = W0 m c (Proc.devRef .tc main_arg3) := (keep17 m c main_arg3 (by decide)).trans (arg3_16 m c)
theorem arg3_18 : W18 m c (Proc.devRef .tc main_arg3) = W0 m c (Proc.devRef .tc main_arg3) := (keep18 m c main_arg3 (by decide)).trans (arg3_17 m c)
theorem arg3_19 : W19 m c (Proc.devRef .tc main_arg3) = W0 m c (Proc.devRef .tc main_arg3) := (keep19 m c main_arg3 (by decide)).trans (arg3_18 m c)
theorem arg3_20 : W20 m c (Proc.devRef .tc main_arg3) = W0 m c (Proc.devRef .tc main_arg3) := (keep20 m c main_arg3 (by decide)).trans (arg3_19 m c)
theorem arg3_21 : W21 m c (Proc.devRef .tc main_arg3) = W0 m c (Proc.devRef .tc main_arg3) := (keep21 m c main_arg3 (by decide)).trans (arg3_20 m c)
theorem arg4_1 : W1 m c (Proc.devRef .tc main_arg4) = W0 m c (Proc.devRef .tc main_arg4) := (keep1 m c main_arg4 (by decide))
theorem arg4_2 : W2 m c (Proc.devRef .tc main_arg4) = W0 m c (Proc.devRef .tc main_arg4) := (keep2 m c main_arg4 (by decide)).trans (arg4_1 m c)
theorem arg4_3 : W3 m c (Proc.devRef .tc main_arg4) = W0 m c (Proc.devRef .tc main_arg4) := (keep3 m c main_arg4 (by decide)).trans (arg4_2 m c)
theorem arg4_4 : W4 m c (Proc.devRef .tc main_arg4) = W0 m c (Proc.devRef .tc main_arg4) := (keep4 m c main_arg4 (by decide)).trans (arg4_3 m c)
theorem arg4_5 : W5 m c (Proc.devRef .tc main_arg4) = W0 m c (Proc.devRef .tc main_arg4) := (keep5 m c main_arg4 (by decide)).trans (arg4_4 m c)
theorem arg4_6 : W6 m c (Proc.devRef .tc main_arg4) = W0 m c (Proc.devRef .tc main_arg4) := (keep6 m c main_arg4 (by decide)).trans (arg4_5 m c)
theorem arg4_7 : W7 m c (Proc.devRef .tc main_arg4) = W0 m c (Proc.devRef .tc main_arg4) := (keep7 m c main_arg4 (by decide)).trans (arg4_6 m c)
theorem arg4_8 : W8 m c (Proc.devRef .tc main_arg4) = W0 m c (Proc.devRef .tc main_arg4) := (keep8 m c main_arg4 (by decide)).trans (arg4_7 m c)
theorem arg4_9 : W9 m c (Proc.devRef .tc main_arg4) = W0 m c (Proc.devRef .tc main_arg4) := (keep9 m c main_arg4 (by decide)).trans (arg4_8 m c)
theorem arg4_10 : W10 m c (Proc.devRef .tc main_arg4) = W0 m c (Proc.devRef .tc main_arg4) := (keep10 m c main_arg4 (by decide)).trans (arg4_9 m c)
theorem arg4_11 : W11 m c (Proc.devRef .tc main_arg4) = W0 m c (Proc.devRef .tc main_arg4) := (keep11 m c main_arg4 (by decide)).trans (arg4_10 m c)
theorem arg4_12 : W12 m c (Proc.devRef .tc main_arg4) = W0 m c (Proc.devRef .tc main_arg4) := (keep12 m c main_arg4 (by decide)).trans (arg4_11 m c)
theorem arg4_13 : W13 m c (Proc.devRef .tc main_arg4) = W0 m c (Proc.devRef .tc main_arg4) := (keep13 m c main_arg4 (by decide)).trans (arg4_12 m c)
theorem arg4_14 : W14 m c (Proc.devRef .tc main_arg4) = W0 m c (Proc.devRef .tc main_arg4) := (keep14 m c main_arg4 (by decide)).trans (arg4_13 m c)
theorem arg4_15 : W15 m c (Proc.devRef .tc main_arg4) = W0 m c (Proc.devRef .tc main_arg4) := (keep15 m c main_arg4 (by decide)).trans (arg4_14 m c)
theorem arg4_16 : W16 m c (Proc.devRef .tc main_arg4) = W0 m c (Proc.devRef .tc main_arg4) := (keep16 m c main_arg4 (by decide)).trans (arg4_15 m c)
theorem arg4_17 : W17 m c (Proc.devRef .tc main_arg4) = W0 m c (Proc.devRef .tc main_arg4) := (keep17 m c main_arg4 (by decide)).trans (arg4_16 m c)
theorem arg4_18 : W18 m c (Proc.devRef .tc main_arg4) = W0 m c (Proc.devRef .tc main_arg4) := (keep18 m c main_arg4 (by decide)).trans (arg4_17 m c)
theorem arg4_19 : W19 m c (Proc.devRef .tc main_arg4) = W0 m c (Proc.devRef .tc main_arg4) := (keep19 m c main_arg4 (by decide)).trans (arg4_18 m c)
theorem arg4_20 : W20 m c (Proc.devRef .tc main_arg4) = W0 m c (Proc.devRef .tc main_arg4) := (keep20 m c main_arg4 (by decide)).trans (arg4_19 m c)
theorem arg4_21 : W21 m c (Proc.devRef .tc main_arg4) = W0 m c (Proc.devRef .tc main_arg4) := (keep21 m c main_arg4 (by decide)).trans (arg4_20 m c)
theorem arg5_1 : W1 m c (Proc.devRef .tc main_arg5) = W0 m c (Proc.devRef .tc main_arg5) := (keep1 m c main_arg5 (by decide))
theorem arg5_2 : W2 m c (Proc.devRef .tc main_arg5) = W0 m c (Proc.devRef .tc main_arg5) := (keep2 m c main_arg5 (by decide)).trans (arg5_1 m c)
theorem arg5_3 : W3 m c (Proc.devRef .tc main_arg5) = W0 m c (Proc.devRef .tc main_arg5) := (keep3 m c main_arg5 (by decide)).trans (arg5_2 m c)
theorem arg5_4 : W4 m c (Proc.devRef .tc main_arg5) = W0 m c (Proc.devRef .tc main_arg5) := (keep4 m c main_arg5 (by decide)).trans (arg5_3 m c)
theorem arg5_5 : W5 m c (Proc.devRef .tc main_arg5) = W0 m c (Proc.devRef .tc main_arg5) := (keep5 m c main_arg5 (by decide)).trans (arg5_4 m c)
theorem arg5_6 : W6 m c (Proc.devRef .tc main_arg5) = W0 m c (Proc.devRef .tc main_arg5) := (keep6 m c main_arg5 (by decide)).trans (arg5_5 m c)
theorem arg5_7 : W7 m c (Proc.devRef .tc main_arg5) = W0 m c (Proc.devRef .tc main_arg5) := (keep7 m c main_arg5 (by decide)).trans (arg5_6 m c)
theorem arg5_8 : W8 m c (Proc.devRef .tc main_arg5) = W0 m c (Proc.devRef .tc main_arg5) := (keep8 m c main_arg5 (by decide)).trans (arg5_7 m c)
theorem arg5_9 : W9 m c (Proc.devRef .tc main_arg5) = W0 m c (Proc.devRef .tc main_arg5) := (keep9 m c main_arg5 (by decide)).trans (arg5_8 m c)
theorem arg5_10 : W10 m c (Proc.devRef .tc main_arg5) = W0 m c (Proc.devRef .tc main_arg5) := (keep10 m c main_arg5 (by decide)).trans (arg5_9 m c)
theorem arg5_11 : W11 m c (Proc.devRef .tc main_arg5) = W0 m c (Proc.devRef .tc main_arg5) := (keep11 m c main_arg5 (by decide)).trans (arg5_10 m c)
theorem arg5_12 : W12 m c (Proc.devRef .tc main_arg5) = W0 m c (Proc.devRef .tc main_arg5) := (keep12 m c main_arg5 (by decide)).trans (arg5_11 m c)
theorem arg5_13 : W13 m c (Proc.devRef .tc main_arg5) = W0 m c (Proc.devRef .tc main_arg5) := (keep13 m c main_arg5 (by decide)).trans (arg5_12 m c)
theorem arg5_14 : W14 m c (Proc.devRef .tc main_arg5) = W0 m c (Proc.devRef .tc main_arg5) := (keep14 m c main_arg5 (by decide)).trans (arg5_13 m c)
theorem arg5_15 : W15 m c (Proc.devRef .tc main_arg5) = W0 m c (Proc.devRef .tc main_arg5) := (keep15 m c main_arg5 (by decide)).trans (arg5_14 m c)
theorem arg5_16 : W16 m c (Proc.devRef .tc main_arg5) = W0 m c (Proc.devRef .tc main_arg5) := (keep16 m c main_arg5 (by decide)).trans (arg5_15 m c)
theorem arg5_17 : W17 m c (Proc.devRef .tc main_arg5) = W0 m c (Proc.devRef .tc main_arg5) := (keep17 m c main_arg5 (by decide)).trans (arg5_16 m c)
theorem arg5_18 : W18 m c (Proc.devRef .tc main_arg5) = W0 m c (Proc.devRef .tc main_arg5) := (keep18 m c main_arg5 (by decide)).trans (arg5_17 m c)
theorem arg5_19 : W19 m c (Proc.devRef .tc main_arg5) = W0 m c (Proc.devRef .tc main_arg5) := (keep19 m c main_arg5 (by decide)).trans (arg5_18 m c)
theorem arg5_20 : W20 m c (Proc.devRef .tc main_arg5) = W0 m c (Proc.devRef .tc main_arg5) := (keep20 m c main_arg5 (by decide)).trans (arg5_19 m c)
theorem arg5_21 : W21 m c (Proc.devRef .tc main_arg5) = W0 m c (Proc.devRef .tc main_arg5) := (keep21 m c main_arg5 (by decide)).trans (arg5_20 m c)
theorem arg6_1 : W1 m c (Proc.devRef .tc main_arg6) = W0 m c (Proc.devRef .tc main_arg6) := (keep1 m c main_arg6 (by decide))
theorem arg6_2 : W2 m c (Proc.devRef .tc main_arg6) = W0 m c (Proc.devRef .tc main_arg6) := (keep2 m c main_arg6 (by decide)).trans (arg6_1 m c)
theorem arg6_3 : W3 m c (Proc.devRef .tc main_arg6) = W0 m c (Proc.devRef .tc main_arg6) := (keep3 m c main_arg6 (by decide)).trans (arg6_2 m c)
theorem arg6_4 : W4 m c (Proc.devRef .tc main_arg6) = W0 m c (Proc.devRef .tc main_arg6) := (keep4 m c main_arg6 (by decide)).trans (arg6_3 m c)
theorem arg6_5 : W5 m c (Proc.devRef .tc main_arg6) = W0 m c (Proc.devRef .tc main_arg6) := (keep5 m c main_arg6 (by decide)).trans (arg6_4 m c)
theorem arg6_6 : W6 m c (Proc.devRef .tc main_arg6) = W0 m c (Proc.devRef .tc main_arg6) := (keep6 m c main_arg6 (by decide)).trans (arg6_5 m c)
theorem arg6_7 : W7 m c (Proc.devRef .tc main_arg6) = W0 m c (Proc.devRef .tc main_arg6) := (keep7 m c main_arg6 (by decide)).trans (arg6_6 m c)
theorem arg6_8 : W8 m c (Proc.devRef .tc main_arg6) = W0 m c (Proc.devRef .tc main_arg6) := (keep8 m c main_arg6 (by decide)).trans (arg6_7 m c)
theorem arg6_9 : W9 m c (Proc.devRef .tc main_arg6) = W0 m c (Proc.devRef .tc main_arg6) := (keep9 m c main_arg6 (by decide)).trans (arg6_8 m c)
theorem arg6_10 : W10 m c (Proc.devRef .tc main_arg6) = W0 m c (Proc.devRef .tc main_arg6) := (keep10 m c main_arg6 (by decide)).trans (arg6_9 m c)
theorem arg6_11 : W11 m c (Proc.devRef .tc main_arg6) = W0 m c (Proc.devRef .tc main_arg6) := (keep11 m c main_arg6 (by decide)).trans (arg6_10 m c)
theorem arg6_12 : W12 m c (Proc.devRef .tc main_arg6) = W0 m c (Proc.devRef .tc main_arg6) := (keep12 m c main_arg6 (by decide)).trans (arg6_11 m c)
theorem arg6_13 : W13 m c (Proc.devRef .tc main_arg6) = W0 m c (Proc.devRef .tc main_arg6) := (keep13 m c main_arg6 (by decide)).trans (arg6_12 m c)
theorem arg6_14 : W14 m c (Proc.devRef .tc main_arg6) = W0 m c (Proc.devRef .tc main_arg6) := (keep14 m c main_arg6 (by decide)).trans (arg6_13 m c)
theorem arg6_15 : W15 m c (Proc.devRef .tc main_arg6) = W0 m c (Proc.devRef .tc main_arg6) := (keep15 m c main_arg6 (by decide)).trans (arg6_14 m c)
theorem arg6_16 : W16 m c (Proc.devRef .tc main_arg6) = W0 m c (Proc.devRef .tc main_arg6) := (keep16 m c main_arg6 (by decide)).trans (arg6_15 m c)
theorem arg6_17 : W17 m c (Proc.devRef .tc main_arg6) = W0 m c (Proc.devRef .tc main_arg6) := (keep17 m c main_arg6 (by decide)).trans (arg6_16 m c)
theorem arg6_18 : W18 m c (Proc.devRef .tc main_arg6) = W0 m c (Proc.devRef .tc main_arg6) := (keep18 m c main_arg6 (by decide)).trans (arg6_17 m c)
theorem arg6_19 : W19 m c (Proc.devRef .tc main_arg6) = W0 m c (Proc.devRef .tc main_arg6) := (keep19 m c main_arg6 (by decide)).trans (arg6_18 m c)
theorem arg6_20 : W20 m c (Proc.devRef .tc main_arg6) = W0 m c (Proc.devRef .tc main_arg6) := (keep20 m c main_arg6 (by decide)).trans (arg6_19 m c)
theorem arg6_21 : W21 m c (Proc.devRef .tc main_arg6) = W0 m c (Proc.devRef .tc main_arg6) := (keep21 m c main_arg6 (by decide)).trans (arg6_20 m c)
theorem arg7_1 : W1 m c (Proc.devRef .tc main_arg7) = W0 m c (Proc.devRef .tc main_arg7) := (keep1 m c main_arg7 (by decide))
theorem arg7_2 : W2 m c (Proc.devRef .tc main_arg7) = W0 m c (Proc.devRef .tc main_arg7) := (keep2 m c main_arg7 (by decide)).trans (arg7_1 m c)
theorem arg7_3 : W3 m c (Proc.devRef .tc main_arg7) = W0 m c (Proc.devRef .tc main_arg7) := (keep3 m c main_arg7 (by decide)).trans (arg7_2 m c)
theorem arg7_4 : W4 m c (Proc.devRef .tc main_arg7) = W0 m c (Proc.devRef .tc main_arg7) := (keep4 m c main_arg7 (by decide)).trans (arg7_3 m c)
theorem arg7_5 : W5 m c (Proc.devRef .tc main_arg7) = W0 m c (Proc.devRef .tc main_arg7) := (keep5 m c main_arg7 (by decide)).trans (arg7_4 m c)
theorem arg7_6 : W6 m c (Proc.devRef .tc main_arg7) = W0 m c (Proc.devRef .tc main_arg7) := (keep6 m c main_arg7 (by decide)).trans (arg7_5 m c)
theorem arg7_7 : W7 m c (Proc.devRef .tc main_arg7) = W0 m c (Proc.devRef .tc main_arg7) := (keep7 m c main_arg7 (by decide)).trans (arg7_6 m c)
theorem arg7_8 : W8 m c (Proc.devRef .tc main_arg7) = W0 m c (Proc.devRef .tc main_arg7) := (keep8 m c main_arg7 (by decide)).trans (arg7_7 m c)
theorem arg7_9 : W9 m c (Proc.devRef .tc main_arg7) = W0 m c (Proc.devRef .tc main_arg7) := (keep9 m c main_arg7 (by decide)).trans (arg7_8 m c)
theorem arg7_10 : W10 m c (Proc.devRef .tc main_arg7) = W0 m c (Proc.devRef .tc main_arg7) := (keep10 m c main_arg7 (by decide)).trans (arg7_9 m c)
theorem arg7_11 : W11 m c (Proc.devRef .tc main_arg7) = W0 m c (Proc.devRef .tc main_arg7) := (keep11 m c main_arg7 (by decide)).trans (arg7_10 m c)
theorem arg7_12 : W12 m c (Proc.devRef .tc main_arg7) = W0 m c (Proc.devRef .tc main_arg7) := (keep12 m c main_arg7 (by decide)).trans (arg7_11 m c)
theorem arg7_13 : W13 m c (Proc.devRef .tc main_arg7) = W0 m c (Proc.devRef .tc main_arg7) := (keep13 m c main_arg7 (by decide)).trans (arg7_12 m c)
theorem arg7_14 : W14 m c (Proc.devRef .tc main_arg7) = W0 m c (Proc.devRef .tc main_arg7) := (keep14 m c main_arg7 (by decide)).trans (arg7_13 m c)
theorem arg7_15 : W15 m c (Proc.devRef .tc main_arg7) = W0 m c (Proc.devRef .tc main_arg7) := (keep15 m c main_arg7 (by decide)).trans (arg7_14 m c)
theorem arg7_16 : W16 m c (Proc.devRef .tc main_arg7) = W0 m c (Proc.devRef .tc main_arg7) := (keep16 m c main_arg7 (by decide)).trans (arg7_15 m c)
theorem arg7_17 : W17 m c (Proc.devRef .tc main_arg7) = W0 m c (Proc.devRef .tc main_arg7) := (keep17 m c main_arg7 (by decide)).trans (arg7_16 m c)
theorem arg7_18 : W18 m c (Proc.devRef .tc main_arg7) = W0 m c (Proc.devRef .tc main_arg7) := (keep18 m c main_arg7 (by decide)).trans (arg7_17 m c)
theorem arg7_19 : W19 m c (Proc.devRef .tc main_arg7) = W0 m c (Proc.devRef .tc main_arg7) := (keep19 m c main_arg7 (by decide)).trans (arg7_18 m c)
theorem arg7_20 : W20 m c (Proc.devRef .tc main_arg7) = W0 m c (Proc.devRef .tc main_arg7) := (keep20 m c main_arg7 (by decide)).trans (arg7_19 m c)
theorem arg7_21 : W21 m c (Proc.devRef .tc main_arg7) = W0 m c (Proc.devRef .tc main_arg7) := (keep21 m c main_arg7 (by decide)).trans (arg7_20 m c)

/-! ## Region 0: the operator's copy and the first term -/

theorem v0_1 : W1 m c (Proc.devRef .tc main_v0) = X0 m c := by
  show StableHlo.after hostOps0 (W0 m c) (Proc.devRef .tc main_v0) = _
  after_results
  rfl
theorem L_2 : W2 m c (Proc.devRef .tc main_v1_0) = L0 m c :=
  (W2_arr m c 2).trans ((final0_2 (atTc (W1 m)) c).trans (arg1_1 m c))
theorem T_2 : W2 m c (Proc.devRef .tc main_v1_1) = Cert.Spec.T (L0 m c) (X0 m c) 1 :=
  (W2_arr m c 3).trans ((final0_3 (atTc (W1 m)) c).trans (by
    show Cert.Spec.mv (W1 m c (Proc.devRef .tc main_arg1)) (W1 m c (Proc.devRef .tc main_v0)) = _
    rw [arg1_1 m c, v0_1 m c]; rfl))

/-! ## After the host stretch that follows region 0: stage 1 -/

theorem L_3 : W3 m c (Proc.devRef .tc main_v1_0) = L0 m c := (keep3 m c main_v1_0 (by decide)).trans (L_2 m c)
theorem T_3 : W3 m c (Proc.devRef .tc main_v1_1) = Cert.Spec.T (L0 m c) (X0 m c) 1 := (keep3 m c main_v1_1 (by decide)).trans (T_2 m c)
theorem P_3 : W3 m c (Proc.devRef .tc main_arg0) = Cert.Spec.T (L0 m c) (X0 m c) 0 := (keep3 m c main_arg0 (by decide)).trans (arg0_2 m c)
theorem Z_3 : W3 m c (Proc.devRef .tc main_v12) = Cert.Spec.T (L0 m c) (X0 m c) 1 := by
  show StableHlo.after hostOps1 (W2 m c) (Proc.devRef .tc main_v12) = _
  after_results
  rw [T_2 m c]; rfl
theorem LP_3 : W3 m c (Proc.devRef .tc main_v6) = Cert.Spec.acc Cert.Spec.aLP (L0 m c) (X0 m c) 1 := by
  show StableHlo.after hostOps1 (W2 m c) (Proc.devRef .tc main_v6) = _
  after_results
  rw [arg0_2 m c, T_2 m c]; rfl
theorem HP_3 : W3 m c (Proc.devRef .tc main_v11) = Cert.Spec.acc Cert.Spec.aHP (L0 m c) (X0 m c) 1 := by
  show StableHlo.after hostOps1 (W2 m c) (Proc.devRef .tc main_v11) = _
  after_results
  rw [arg0_2 m c, T_2 m c]; rfl

/-! ## After the host stretch that follows region 1: stage 2 -/

theorem T_4 : W4 m c (Proc.devRef .tc main_v13) = Cert.Spec.T (L0 m c) (X0 m c) 2 :=
  (W4_arr m c 3).trans ((final1_3 (atTc (W3 m)) c).trans (by
    show Cert.Spec.next (W3 m c (Proc.devRef .tc main_v1_0)) (W3 m c (Proc.devRef .tc main_v12)) (W3 m c (Proc.devRef .tc main_arg0)) = _
    rw [L_3 m c, Z_3 m c, P_3 m c]; rfl))
theorem L_4 : W4 m c (Proc.devRef .tc main_v1_0) = L0 m c := (keep4 m c main_v1_0 (by decide)).trans (L_3 m c)
theorem Q_4 : W4 m c (Proc.devRef .tc main_v1_1) = Cert.Spec.T (L0 m c) (X0 m c) 1 := (keep4 m c main_v1_1 (by decide)).trans (T_3 m c)
theorem LP_4 : W4 m c (Proc.devRef .tc main_v6) = Cert.Spec.acc Cert.Spec.aLP (L0 m c) (X0 m c) 1 := (keep4 m c main_v6 (by decide)).trans (LP_3 m c)
theorem HP_4 : W4 m c (Proc.devRef .tc main_v11) = Cert.Spec.acc Cert.Spec.aHP (L0 m c) (X0 m c) 1 := (keep4 m c main_v11 (by decide)).trans (HP_3 m c)
theorem L_5 : W5 m c (Proc.devRef .tc main_v1_0) = L0 m c := (keep5 m c main_v1_0 (by decide)).trans (L_4 m c)
theorem T_5 : W5 m c (Proc.devRef .tc main_v13) = Cert.Spec.T (L0 m c) (X0 m c) 2 := (keep5 m c main_v13 (by decide)).trans (T_4 m c)
theorem P_5 : W5 m c (Proc.devRef .tc main_v1_1) = Cert.Spec.T (L0 m c) (X0 m c) 1 := (keep5 m c main_v1_1 (by decide)).trans (Q_4 m c)
theorem Z_5 : W5 m c (Proc.devRef .tc main_v20) = Cert.Spec.T (L0 m c) (X0 m c) 2 := by
  show StableHlo.after hostOps2 (W4 m c) (Proc.devRef .tc main_v20) = _
  after_results
  rw [T_4 m c]; rfl
theorem LP_5 : W5 m c (Proc.devRef .tc main_v16) = Cert.Spec.acc Cert.Spec.aLP (L0 m c) (X0 m c) 2 := by
  show StableHlo.after hostOps2 (W4 m c) (Proc.devRef .tc main_v16) = _
  after_results
  rw [LP_4 m c, T_4 m c]; rfl
theorem HP_5 : W5 m c (Proc.devRef .tc main_v19) = Cert.Spec.acc Cert.Spec.aHP (L0 m c) (X0 m c) 2 := by
  show StableHlo.after hostOps2 (W4 m c) (Proc.devRef .tc main_v19) = _
  after_results
  rw [HP_4 m c, T_4 m c]; rfl

/-! ## After the host stretch that follows region 2: stage 3 -/

theorem T_6 : W6 m c (Proc.devRef .tc main_v21) = Cert.Spec.T (L0 m c) (X0 m c) 3 :=
  (W6_arr m c 3).trans ((final2_3 (atTc (W5 m)) c).trans (by
    show Cert.Spec.next (W5 m c (Proc.devRef .tc main_v1_0)) (W5 m c (Proc.devRef .tc main_v20)) (W5 m c (Proc.devRef .tc main_v1_1)) = _
    rw [L_5 m c, Z_5 m c, P_5 m c]; rfl))
theorem L_6 : W6 m c (Proc.devRef .tc main_v1_0) = L0 m c := (keep6 m c main_v1_0 (by decide)).trans (L_5 m c)
theorem Q_6 : W6 m c (Proc.devRef .tc main_v13) = Cert.Spec.T (L0 m c) (X0 m c) 2 := (keep6 m c main_v13 (by decide)).trans (T_5 m c)
theorem LP_6 : W6 m c (Proc.devRef .tc main_v16) = Cert.Spec.acc Cert.Spec.aLP (L0 m c) (X0 m c) 2 := (keep6 m c main_v16 (by decide)).trans (LP_5 m c)
theorem HP_6 : W6 m c (Proc.devRef .tc main_v19) = Cert.Spec.acc Cert.Spec.aHP (L0 m c) (X0 m c) 2 := (keep6 m c main_v19 (by decide)).trans (HP_5 m c)
theorem L_7 : W7 m c (Proc.devRef .tc main_v1_0) = L0 m c := (keep7 m c main_v1_0 (by decide)).trans (L_6 m c)
theorem T_7 : W7 m c (Proc.devRef .tc main_v21) = Cert.Spec.T (L0 m c) (X0 m c) 3 := (keep7 m c main_v21 (by decide)).trans (T_6 m c)
theorem P_7 : W7 m c (Proc.devRef .tc main_v13) = Cert.Spec.T (L0 m c) (X0 m c) 2 := (keep7 m c main_v13 (by decide)).trans (Q_6 m c)
theorem Z_7 : W7 m c (Proc.devRef .tc main_v28) = Cert.Spec.T (L0 m c) (X0 m c) 3 := by
  show StableHlo.after hostOps3 (W6 m c) (Proc.devRef .tc main_v28) = _
  after_results
  rw [T_6 m c]; rfl
theorem LP_7 : W7 m c (Proc.devRef .tc main_v24) = Cert.Spec.acc Cert.Spec.aLP (L0 m c) (X0 m c) 3 := by
  show StableHlo.after hostOps3 (W6 m c) (Proc.devRef .tc main_v24) = _
  after_results
  rw [LP_6 m c, T_6 m c]; rfl
theorem HP_7 : W7 m c (Proc.devRef .tc main_v27) = Cert.Spec.acc Cert.Spec.aHP (L0 m c) (X0 m c) 3 := by
  show StableHlo.after hostOps3 (W6 m c) (Proc.devRef .tc main_v27) = _
  after_results
  rw [HP_6 m c, T_6 m c]; rfl

/-! ## After the host stretch that follows region 3: stage 4 -/

theorem T_8 : W8 m c (Proc.devRef .tc main_v29) = Cert.Spec.T (L0 m c) (X0 m c) 4 :=
  (W8_arr m c 3).trans ((final3_3 (atTc (W7 m)) c).trans (by
    show Cert.Spec.next (W7 m c (Proc.devRef .tc main_v1_0)) (W7 m c (Proc.devRef .tc main_v28)) (W7 m c (Proc.devRef .tc main_v13)) = _
    rw [L_7 m c, Z_7 m c, P_7 m c]; rfl))
theorem L_8 : W8 m c (Proc.devRef .tc main_v1_0) = L0 m c := (keep8 m c main_v1_0 (by decide)).trans (L_7 m c)
theorem Q_8 : W8 m c (Proc.devRef .tc main_v21) = Cert.Spec.T (L0 m c) (X0 m c) 3 := (keep8 m c main_v21 (by decide)).trans (T_7 m c)
theorem LP_8 : W8 m c (Proc.devRef .tc main_v24) = Cert.Spec.acc Cert.Spec.aLP (L0 m c) (X0 m c) 3 := (keep8 m c main_v24 (by decide)).trans (LP_7 m c)
theorem HP_8 : W8 m c (Proc.devRef .tc main_v27) = Cert.Spec.acc Cert.Spec.aHP (L0 m c) (X0 m c) 3 := (keep8 m c main_v27 (by decide)).trans (HP_7 m c)
theorem L_9 : W9 m c (Proc.devRef .tc main_v1_0) = L0 m c := (keep9 m c main_v1_0 (by decide)).trans (L_8 m c)
theorem T_9 : W9 m c (Proc.devRef .tc main_v29) = Cert.Spec.T (L0 m c) (X0 m c) 4 := (keep9 m c main_v29 (by decide)).trans (T_8 m c)
theorem P_9 : W9 m c (Proc.devRef .tc main_v21) = Cert.Spec.T (L0 m c) (X0 m c) 3 := (keep9 m c main_v21 (by decide)).trans (Q_8 m c)
theorem Z_9 : W9 m c (Proc.devRef .tc main_v36) = Cert.Spec.T (L0 m c) (X0 m c) 4 := by
  show StableHlo.after hostOps4 (W8 m c) (Proc.devRef .tc main_v36) = _
  after_results
  rw [T_8 m c]; rfl
theorem LP_9 : W9 m c (Proc.devRef .tc main_v32) = Cert.Spec.acc Cert.Spec.aLP (L0 m c) (X0 m c) 4 := by
  show StableHlo.after hostOps4 (W8 m c) (Proc.devRef .tc main_v32) = _
  after_results
  rw [LP_8 m c, T_8 m c]; rfl
theorem HP_9 : W9 m c (Proc.devRef .tc main_v35) = Cert.Spec.acc Cert.Spec.aHP (L0 m c) (X0 m c) 4 := by
  show StableHlo.after hostOps4 (W8 m c) (Proc.devRef .tc main_v35) = _
  after_results
  rw [HP_8 m c, T_8 m c]; rfl

/-! ## After the host stretch that follows region 4: stage 5 -/

theorem T_10 : W10 m c (Proc.devRef .tc main_v37) = Cert.Spec.T (L0 m c) (X0 m c) 5 :=
  (W10_arr m c 3).trans ((final4_3 (atTc (W9 m)) c).trans (by
    show Cert.Spec.next (W9 m c (Proc.devRef .tc main_v1_0)) (W9 m c (Proc.devRef .tc main_v36)) (W9 m c (Proc.devRef .tc main_v21)) = _
    rw [L_9 m c, Z_9 m c, P_9 m c]; rfl))
theorem L_10 : W10 m c (Proc.devRef .tc main_v1_0) = L0 m c := (keep10 m c main_v1_0 (by decide)).trans (L_9 m c)
theorem Q_10 : W10 m c (Proc.devRef .tc main_v29) = Cert.Spec.T (L0 m c) (X0 m c) 4 := (keep10 m c main_v29 (by decide)).trans (T_9 m c)
theorem LP_10 : W10 m c (Proc.devRef .tc main_v32) = Cert.Spec.acc Cert.Spec.aLP (L0 m c) (X0 m c) 4 := (keep10 m c main_v32 (by decide)).trans (LP_9 m c)
theorem HP_10 : W10 m c (Proc.devRef .tc main_v35) = Cert.Spec.acc Cert.Spec.aHP (L0 m c) (X0 m c) 4 := (keep10 m c main_v35 (by decide)).trans (HP_9 m c)
theorem L_11 : W11 m c (Proc.devRef .tc main_v1_0) = L0 m c := (keep11 m c main_v1_0 (by decide)).trans (L_10 m c)
theorem T_11 : W11 m c (Proc.devRef .tc main_v37) = Cert.Spec.T (L0 m c) (X0 m c) 5 := (keep11 m c main_v37 (by decide)).trans (T_10 m c)
theorem P_11 : W11 m c (Proc.devRef .tc main_v29) = Cert.Spec.T (L0 m c) (X0 m c) 4 := (keep11 m c main_v29 (by decide)).trans (Q_10 m c)
theorem Z_11 : W11 m c (Proc.devRef .tc main_v44) = Cert.Spec.T (L0 m c) (X0 m c) 5 := by
  show StableHlo.after hostOps5 (W10 m c) (Proc.devRef .tc main_v44) = _
  after_results
  rw [T_10 m c]; rfl
theorem LP_11 : W11 m c (Proc.devRef .tc main_v40) = Cert.Spec.acc Cert.Spec.aLP (L0 m c) (X0 m c) 5 := by
  show StableHlo.after hostOps5 (W10 m c) (Proc.devRef .tc main_v40) = _
  after_results
  rw [LP_10 m c, T_10 m c]; rfl
theorem HP_11 : W11 m c (Proc.devRef .tc main_v43) = Cert.Spec.acc Cert.Spec.aHP (L0 m c) (X0 m c) 5 := by
  show StableHlo.after hostOps5 (W10 m c) (Proc.devRef .tc main_v43) = _
  after_results
  rw [HP_10 m c, T_10 m c]; rfl

/-! ## After the host stretch that follows region 5: stage 6 -/

theorem T_12 : W12 m c (Proc.devRef .tc main_v45) = Cert.Spec.T (L0 m c) (X0 m c) 6 :=
  (W12_arr m c 3).trans ((final5_3 (atTc (W11 m)) c).trans (by
    show Cert.Spec.next (W11 m c (Proc.devRef .tc main_v1_0)) (W11 m c (Proc.devRef .tc main_v44)) (W11 m c (Proc.devRef .tc main_v29)) = _
    rw [L_11 m c, Z_11 m c, P_11 m c]; rfl))
theorem L_12 : W12 m c (Proc.devRef .tc main_v1_0) = L0 m c := (keep12 m c main_v1_0 (by decide)).trans (L_11 m c)
theorem Q_12 : W12 m c (Proc.devRef .tc main_v37) = Cert.Spec.T (L0 m c) (X0 m c) 5 := (keep12 m c main_v37 (by decide)).trans (T_11 m c)
theorem LP_12 : W12 m c (Proc.devRef .tc main_v40) = Cert.Spec.acc Cert.Spec.aLP (L0 m c) (X0 m c) 5 := (keep12 m c main_v40 (by decide)).trans (LP_11 m c)
theorem HP_12 : W12 m c (Proc.devRef .tc main_v43) = Cert.Spec.acc Cert.Spec.aHP (L0 m c) (X0 m c) 5 := (keep12 m c main_v43 (by decide)).trans (HP_11 m c)
theorem L_13 : W13 m c (Proc.devRef .tc main_v1_0) = L0 m c := (keep13 m c main_v1_0 (by decide)).trans (L_12 m c)
theorem T_13 : W13 m c (Proc.devRef .tc main_v45) = Cert.Spec.T (L0 m c) (X0 m c) 6 := (keep13 m c main_v45 (by decide)).trans (T_12 m c)
theorem P_13 : W13 m c (Proc.devRef .tc main_v37) = Cert.Spec.T (L0 m c) (X0 m c) 5 := (keep13 m c main_v37 (by decide)).trans (Q_12 m c)
theorem Z_13 : W13 m c (Proc.devRef .tc main_v52) = Cert.Spec.T (L0 m c) (X0 m c) 6 := by
  show StableHlo.after hostOps6 (W12 m c) (Proc.devRef .tc main_v52) = _
  after_results
  rw [T_12 m c]; rfl
theorem LP_13 : W13 m c (Proc.devRef .tc main_v48) = Cert.Spec.acc Cert.Spec.aLP (L0 m c) (X0 m c) 6 := by
  show StableHlo.after hostOps6 (W12 m c) (Proc.devRef .tc main_v48) = _
  after_results
  rw [LP_12 m c, T_12 m c]; rfl
theorem HP_13 : W13 m c (Proc.devRef .tc main_v51) = Cert.Spec.acc Cert.Spec.aHP (L0 m c) (X0 m c) 6 := by
  show StableHlo.after hostOps6 (W12 m c) (Proc.devRef .tc main_v51) = _
  after_results
  rw [HP_12 m c, T_12 m c]; rfl

/-! ## After the host stretch that follows region 6: stage 7 -/

theorem T_14 : W14 m c (Proc.devRef .tc main_v53) = Cert.Spec.T (L0 m c) (X0 m c) 7 :=
  (W14_arr m c 3).trans ((final6_3 (atTc (W13 m)) c).trans (by
    show Cert.Spec.next (W13 m c (Proc.devRef .tc main_v1_0)) (W13 m c (Proc.devRef .tc main_v52)) (W13 m c (Proc.devRef .tc main_v37)) = _
    rw [L_13 m c, Z_13 m c, P_13 m c]; rfl))
theorem L_14 : W14 m c (Proc.devRef .tc main_v1_0) = L0 m c := (keep14 m c main_v1_0 (by decide)).trans (L_13 m c)
theorem Q_14 : W14 m c (Proc.devRef .tc main_v45) = Cert.Spec.T (L0 m c) (X0 m c) 6 := (keep14 m c main_v45 (by decide)).trans (T_13 m c)
theorem LP_14 : W14 m c (Proc.devRef .tc main_v48) = Cert.Spec.acc Cert.Spec.aLP (L0 m c) (X0 m c) 6 := (keep14 m c main_v48 (by decide)).trans (LP_13 m c)
theorem HP_14 : W14 m c (Proc.devRef .tc main_v51) = Cert.Spec.acc Cert.Spec.aHP (L0 m c) (X0 m c) 6 := (keep14 m c main_v51 (by decide)).trans (HP_13 m c)
theorem L_15 : W15 m c (Proc.devRef .tc main_v1_0) = L0 m c := (keep15 m c main_v1_0 (by decide)).trans (L_14 m c)
theorem T_15 : W15 m c (Proc.devRef .tc main_v53) = Cert.Spec.T (L0 m c) (X0 m c) 7 := (keep15 m c main_v53 (by decide)).trans (T_14 m c)
theorem P_15 : W15 m c (Proc.devRef .tc main_v45) = Cert.Spec.T (L0 m c) (X0 m c) 6 := (keep15 m c main_v45 (by decide)).trans (Q_14 m c)
theorem Z_15 : W15 m c (Proc.devRef .tc main_v60) = Cert.Spec.T (L0 m c) (X0 m c) 7 := by
  show StableHlo.after hostOps7 (W14 m c) (Proc.devRef .tc main_v60) = _
  after_results
  rw [T_14 m c]; rfl
theorem LP_15 : W15 m c (Proc.devRef .tc main_v56) = Cert.Spec.acc Cert.Spec.aLP (L0 m c) (X0 m c) 7 := by
  show StableHlo.after hostOps7 (W14 m c) (Proc.devRef .tc main_v56) = _
  after_results
  rw [LP_14 m c, T_14 m c]; rfl
theorem HP_15 : W15 m c (Proc.devRef .tc main_v59) = Cert.Spec.acc Cert.Spec.aHP (L0 m c) (X0 m c) 7 := by
  show StableHlo.after hostOps7 (W14 m c) (Proc.devRef .tc main_v59) = _
  after_results
  rw [HP_14 m c, T_14 m c]; rfl

/-! ## After the host stretch that follows region 7: stage 8 -/

theorem T_16 : W16 m c (Proc.devRef .tc main_v61) = Cert.Spec.T (L0 m c) (X0 m c) 8 :=
  (W16_arr m c 3).trans ((final7_3 (atTc (W15 m)) c).trans (by
    show Cert.Spec.next (W15 m c (Proc.devRef .tc main_v1_0)) (W15 m c (Proc.devRef .tc main_v60)) (W15 m c (Proc.devRef .tc main_v45)) = _
    rw [L_15 m c, Z_15 m c, P_15 m c]; rfl))
theorem L_16 : W16 m c (Proc.devRef .tc main_v1_0) = L0 m c := (keep16 m c main_v1_0 (by decide)).trans (L_15 m c)
theorem Q_16 : W16 m c (Proc.devRef .tc main_v53) = Cert.Spec.T (L0 m c) (X0 m c) 7 := (keep16 m c main_v53 (by decide)).trans (T_15 m c)
theorem LP_16 : W16 m c (Proc.devRef .tc main_v56) = Cert.Spec.acc Cert.Spec.aLP (L0 m c) (X0 m c) 7 := (keep16 m c main_v56 (by decide)).trans (LP_15 m c)
theorem HP_16 : W16 m c (Proc.devRef .tc main_v59) = Cert.Spec.acc Cert.Spec.aHP (L0 m c) (X0 m c) 7 := (keep16 m c main_v59 (by decide)).trans (HP_15 m c)

end Cert.KernelIdeal.Hand
end
-- ==== Proof.KernelIdeal.TailValue.lean ====
import proofs.«117973_j38328288150260_2_alg».proof.Proof.KernelIdeal.Kept
import proofs.«117973_j38328288150260_2_alg».proof.Proof.Spec
import proofs.«117973_j38328288150260_2_alg».proof.Proof.Gen.ReferenceIdeal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.Spec (Arr Op Wt Wt3 Bias coef aLP aHP dense relu bias tail)

variable [Cert.ReferenceIdeal.Facts]

/-- A three-operand operation's result with each operand's contents at its own buffer. -/
private theorem nary3_result' {x a b y : Ref sig .tc}
    (f : ((k : Fin 3) → ((![x, a, b] : Fin 3 → Ref sig .tc) k).ty.Contents (Elt Ideal)) → y.ty.Contents (Elt Ideal)) (hxs hy)
    (V : Valuation τ sig (Elt Ideal)) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [nary_result]; congr 1; funext k; fin_cases k <;> rfl

/-! ## The five host stretches of the tail, each over any contents before it -/

/-- The first stretch: the last term joins the two running sums, the high-pass branch is the signal minus its sum, and
    the low-pass branch goes through its dense layer. -/
theorem st17 (V : Valuation τ sig (Elt Ideal)) (T8 LP7 HP7 X : Arr) (Wlp : Wt) (blp : Bias)
    (hT : V (Proc.devRef .tc main_v61) = T8) (hLP : V (Proc.devRef .tc main_v56) = LP7) (hHP : V (Proc.devRef .tc main_v59) = HP7)
    (h0 : V (Proc.devRef .tc main_arg0) = X) (h2 : V (Proc.devRef .tc main_arg2) = Wlp) (h3 : V (Proc.devRef .tc main_arg3) = blp) :
    after (hostOps8 (F := Ideal)) V (Proc.devRef .tc main_v72) = dense (addf LP7 (mulf (coef (aLP 8)) T8)) Wlp blp
      ∧ after (hostOps8 (F := Ideal)) V (Proc.devRef .tc main_v68) = subf X (addf HP7 (mulf (coef (aHP 8)) T8)) := by
  constructor
  · after_results_simp
    rw [hLP, hT, h2, h3]
    rfl
  · after_results_simp
    rw [h0, hHP, hT]
    rfl

/-- The second stretch: the rectifier of the low-pass branch. -/
theorem st18 (V : Valuation τ sig (Elt Ideal)) (A : Arr) (hA : V (Proc.devRef .tc main_v72) = A) :
    after (hostOps8_1 (F := Ideal)) V (Proc.devRef .tc main_v73) = relu A := by
  after_results_simp
  rw [hA]
  rfl

/-- The third stretch: the dense layer of the high-pass branch. -/
theorem st19 (V : Valuation τ sig (Elt Ideal)) (B : Arr) (Whp : Wt) (bhp : Bias)
    (hB : V (Proc.devRef .tc main_v68) = B) (h4 : V (Proc.devRef .tc main_arg4) = Whp) (h5 : V (Proc.devRef .tc main_arg5) = bhp) :
    after (hostOps8_2 (F := Ideal)) V (Proc.devRef .tc main_v77) = dense B Whp bhp := by
  after_results_simp
  rw [hB, h4, h5]
  rfl

/-- The fourth stretch: the rectifier of the high-pass branch. -/
theorem st20 (V : Valuation τ sig (Elt Ideal)) (A : Arr) (hA : V (Proc.devRef .tc main_v77) = A) :
    after (hostOps8_3 (F := Ideal)) V (Proc.devRef .tc main_v78) = relu A := by
  after_results_simp
  rw [hA]
  rfl

/-- The fifth stretch: the three blocks side by side through the fusing layer. -/
theorem st21 (V : Valuation τ sig (Elt Ideal)) (A B X : Arr) (Wf : Wt3) (bf : Bias)
    (hA : V (Proc.devRef .tc main_v73) = A) (hB : V (Proc.devRef .tc main_v78) = B) (h0 : V (Proc.devRef .tc main_arg0) = X)
    (h6 : V (Proc.devRef .tc main_arg6) = Wf) (h7 : V (Proc.devRef .tc main_arg7) = bf) :
    after (hostOps8_4 (F := Ideal)) V (Proc.devRef .tc main_v83)
      = addf (Host.dotGeneral (F := Ideal) Cert.ReferenceIdeal.dot_S16384x96_S96x32_S16384x32_1_0_0_1_n_n none
          (concatenate Cert.ReferenceIdeal.S16384x96 1
            [⟨Cert.ReferenceIdeal.S16384x32, A⟩, ⟨Cert.ReferenceIdeal.S16384x32, B⟩, ⟨Cert.ReferenceIdeal.S16384x32, X⟩]
            Cert.ReferenceIdeal.Facts₀.concatenates_S16384x32_S16384x32_S16384x32_S16384x96_d1) Wf) (bias bf) := by
  simp (disch := decide) only [after_cons, after_nil, nullary_result', unary_result', binary_result', nary3_result',
    nullary_result_ne', unary_result_ne', binary_result_ne', nary_result_ne']
  rw [hA, hB, h0, h6, h7]
  rfl

/-! ## The arguments the tail reads hold their launch contents at the last region's exit -/

theorem W16_main_arg0 (m : (ℓ : Loc nD τ sig) → Buf (Elt Ideal) ℓ) (c : Dev nD) :
    W16 m c (Proc.devRef .tc main_arg0) = W0 m c (Proc.devRef .tc main_arg0) :=
  calc W16 m c (Proc.devRef .tc main_arg0)
    _ = W15 m c (Proc.devRef .tc main_arg0) := keep16 m c main_arg0 (by decide)
    _ = W14 m c (Proc.devRef .tc main_arg0) := keep15 m c main_arg0 (by decide)
    _ = W13 m c (Proc.devRef .tc main_arg0) := keep14 m c main_arg0 (by decide)
    _ = W12 m c (Proc.devRef .tc main_arg0) := keep13 m c main_arg0 (by decide)
    _ = W11 m c (Proc.devRef .tc main_arg0) := keep12 m c main_arg0 (by decide)
    _ = W10 m c (Proc.devRef .tc main_arg0) := keep11 m c main_arg0 (by decide)
    _ = W9 m c (Proc.devRef .tc main_arg0) := keep10 m c main_arg0 (by decide)
    _ = W8 m c (Proc.devRef .tc main_arg0) := keep9 m c main_arg0 (by decide)
    _ = W7 m c (Proc.devRef .tc main_arg0) := keep8 m c main_arg0 (by decide)
    _ = W6 m c (Proc.devRef .tc main_arg0) := keep7 m c main_arg0 (by decide)
    _ = W5 m c (Proc.devRef .tc main_arg0) := keep6 m c main_arg0 (by decide)
    _ = W4 m c (Proc.devRef .tc main_arg0) := keep5 m c main_arg0 (by decide)
    _ = W3 m c (Proc.devRef .tc main_arg0) := keep4 m c main_arg0 (by decide)
    _ = W2 m c (Proc.devRef .tc main_arg0) := keep3 m c main_arg0 (by decide)
    _ = W1 m c (Proc.devRef .tc main_arg0) := keep2 m c main_arg0 (by decide)
    _ = W0 m c (Proc.devRef .tc main_arg0) := keep1 m c main_arg0 (by decide)
theorem W16_main_arg2 (m : (ℓ : Loc nD τ sig) → Buf (Elt Ideal) ℓ) (c : Dev nD) :
    W16 m c (Proc.devRef .tc main_arg2) = W0 m c (Proc.devRef .tc main_arg2) :=
  calc W16 m c (Proc.devRef .tc main_arg2)
    _ = W15 m c (Proc.devRef .tc main_arg2) := keep16 m c main_arg2 (by decide)
    _ = W14 m c (Proc.devRef .tc main_arg2) := keep15 m c main_arg2 (by decide)
    _ = W13 m c (Proc.devRef .tc main_arg2) := keep14 m c main_arg2 (by decide)
    _ = W12 m c (Proc.devRef .tc main_arg2) := keep13 m c main_arg2 (by decide)
    _ = W11 m c (Proc.devRef .tc main_arg2) := keep12 m c main_arg2 (by decide)
    _ = W10 m c (Proc.devRef .tc main_arg2) := keep11 m c main_arg2 (by decide)
    _ = W9 m c (Proc.devRef .tc main_arg2) := keep10 m c main_arg2 (by decide)
    _ = W8 m c (Proc.devRef .tc main_arg2) := keep9 m c main_arg2 (by decide)
    _ = W7 m c (Proc.devRef .tc main_arg2) := keep8 m c main_arg2 (by decide)
    _ = W6 m c (Proc.devRef .tc main_arg2) := keep7 m c main_arg2 (by decide)
    _ = W5 m c (Proc.devRef .tc main_arg2) := keep6 m c main_arg2 (by decide)
    _ = W4 m c (Proc.devRef .tc main_arg2) := keep5 m c main_arg2 (by decide)
    _ = W3 m c (Proc.devRef .tc main_arg2) := keep4 m c main_arg2 (by decide)
    _ = W2 m c (Proc.devRef .tc main_arg2) := keep3 m c main_arg2 (by decide)
    _ = W1 m c (Proc.devRef .tc main_arg2) := keep2 m c main_arg2 (by decide)
    _ = W0 m c (Proc.devRef .tc main_arg2) := keep1 m c main_arg2 (by decide)
theorem W16_main_arg3 (m : (ℓ : Loc nD τ sig) → Buf (Elt Ideal) ℓ) (c : Dev nD) :
    W16 m c (Proc.devRef .tc main_arg3) = W0 m c (Proc.devRef .tc main_arg3) :=
  calc W16 m c (Proc.devRef .tc main_arg3)
    _ = W15 m c (Proc.devRef .tc main_arg3) := keep16 m c main_arg3 (by decide)
    _ = W14 m c (Proc.devRef .tc main_arg3) := keep15 m c main_arg3 (by decide)
    _ = W13 m c (Proc.devRef .tc main_arg3) := keep14 m c main_arg3 (by decide)
    _ = W12 m c (Proc.devRef .tc main_arg3) := keep13 m c main_arg3 (by decide)
    _ = W11 m c (Proc.devRef .tc main_arg3) := keep12 m c main_arg3 (by decide)
    _ = W10 m c (Proc.devRef .tc main_arg3) := keep11 m c main_arg3 (by decide)
    _ = W9 m c (Proc.devRef .tc main_arg3) := keep10 m c main_arg3 (by decide)
    _ = W8 m c (Proc.devRef .tc main_arg3) := keep9 m c main_arg3 (by decide)
    _ = W7 m c (Proc.devRef .tc main_arg3) := keep8 m c main_arg3 (by decide)
    _ = W6 m c (Proc.devRef .tc main_arg3) := keep7 m c main_arg3 (by decide)
    _ = W5 m c (Proc.devRef .tc main_arg3) := keep6 m c main_arg3 (by decide)
    _ = W4 m c (Proc.devRef .tc main_arg3) := keep5 m c main_arg3 (by decide)
    _ = W3 m c (Proc.devRef .tc main_arg3) := keep4 m c main_arg3 (by decide)
    _ = W2 m c (Proc.devRef .tc main_arg3) := keep3 m c main_arg3 (by decide)
    _ = W1 m c (Proc.devRef .tc main_arg3) := keep2 m c main_arg3 (by decide)
    _ = W0 m c (Proc.devRef .tc main_arg3) := keep1 m c main_arg3 (by decide)
theorem W16_main_arg4 (m : (ℓ : Loc nD τ sig) → Buf (Elt Ideal) ℓ) (c : Dev nD) :
    W16 m c (Proc.devRef .tc main_arg4) = W0 m c (Proc.devRef .tc main_arg4) :=
  calc W16 m c (Proc.devRef .tc main_arg4)
    _ = W15 m c (Proc.devRef .tc main_arg4) := keep16 m c main_arg4 (by decide)
    _ = W14 m c (Proc.devRef .tc main_arg4) := keep15 m c main_arg4 (by decide)
    _ = W13 m c (Proc.devRef .tc main_arg4) := keep14 m c main_arg4 (by decide)
    _ = W12 m c (Proc.devRef .tc main_arg4) := keep13 m c main_arg4 (by decide)
    _ = W11 m c (Proc.devRef .tc main_arg4) := keep12 m c main_arg4 (by decide)
    _ = W10 m c (Proc.devRef .tc main_arg4) := keep11 m c main_arg4 (by decide)
    _ = W9 m c (Proc.devRef .tc main_arg4) := keep10 m c main_arg4 (by decide)
    _ = W8 m c (Proc.devRef .tc main_arg4) := keep9 m c main_arg4 (by decide)
    _ = W7 m c (Proc.devRef .tc main_arg4) := keep8 m c main_arg4 (by decide)
    _ = W6 m c (Proc.devRef .tc main_arg4) := keep7 m c main_arg4 (by decide)
    _ = W5 m c (Proc.devRef .tc main_arg4) := keep6 m c main_arg4 (by decide)
    _ = W4 m c (Proc.devRef .tc main_arg4) := keep5 m c main_arg4 (by decide)
    _ = W3 m c (Proc.devRef .tc main_arg4) := keep4 m c main_arg4 (by decide)
    _ = W2 m c (Proc.devRef .tc main_arg4) := keep3 m c main_arg4 (by decide)
    _ = W1 m c (Proc.devRef .tc main_arg4) := keep2 m c main_arg4 (by decide)
    _ = W0 m c (Proc.devRef .tc main_arg4) := keep1 m c main_arg4 (by decide)
theorem W16_main_arg5 (m : (ℓ : Loc nD τ sig) → Buf (Elt Ideal) ℓ) (c : Dev nD) :
    W16 m c (Proc.devRef .tc main_arg5) = W0 m c (Proc.devRef .tc main_arg5) :=
  calc W16 m c (Proc.devRef .tc main_arg5)
    _ = W15 m c (Proc.devRef .tc main_arg5) := keep16 m c main_arg5 (by decide)
    _ = W14 m c (Proc.devRef .tc main_arg5) := keep15 m c main_arg5 (by decide)
    _ = W13 m c (Proc.devRef .tc main_arg5) := keep14 m c main_arg5 (by decide)
    _ = W12 m c (Proc.devRef .tc main_arg5) := keep13 m c main_arg5 (by decide)
    _ = W11 m c (Proc.devRef .tc main_arg5) := keep12 m c main_arg5 (by decide)
    _ = W10 m c (Proc.devRef .tc main_arg5) := keep11 m c main_arg5 (by decide)
    _ = W9 m c (Proc.devRef .tc main_arg5) := keep10 m c main_arg5 (by decide)
    _ = W8 m c (Proc.devRef .tc main_arg5) := keep9 m c main_arg5 (by decide)
    _ = W7 m c (Proc.devRef .tc main_arg5) := keep8 m c main_arg5 (by decide)
    _ = W6 m c (Proc.devRef .tc main_arg5) := keep7 m c main_arg5 (by decide)
    _ = W5 m c (Proc.devRef .tc main_arg5) := keep6 m c main_arg5 (by decide)
    _ = W4 m c (Proc.devRef .tc main_arg5) := keep5 m c main_arg5 (by decide)
    _ = W3 m c (Proc.devRef .tc main_arg5) := keep4 m c main_arg5 (by decide)
    _ = W2 m c (Proc.devRef .tc main_arg5) := keep3 m c main_arg5 (by decide)
    _ = W1 m c (Proc.devRef .tc main_arg5) := keep2 m c main_arg5 (by decide)
    _ = W0 m c (Proc.devRef .tc main_arg5) := keep1 m c main_arg5 (by decide)
theorem W16_main_arg6 (m : (ℓ : Loc nD τ sig) → Buf (Elt Ideal) ℓ) (c : Dev nD) :
    W16 m c (Proc.devRef .tc main_arg6) = W0 m c (Proc.devRef .tc main_arg6) :=
  calc W16 m c (Proc.devRef .tc main_arg6)
    _ = W15 m c (Proc.devRef .tc main_arg6) := keep16 m c main_arg6 (by decide)
    _ = W14 m c (Proc.devRef .tc main_arg6) := keep15 m c main_arg6 (by decide)
    _ = W13 m c (Proc.devRef .tc main_arg6) := keep14 m c main_arg6 (by decide)
    _ = W12 m c (Proc.devRef .tc main_arg6) := keep13 m c main_arg6 (by decide)
    _ = W11 m c (Proc.devRef .tc main_arg6) := keep12 m c main_arg6 (by decide)
    _ = W10 m c (Proc.devRef .tc main_arg6) := keep11 m c main_arg6 (by decide)
    _ = W9 m c (Proc.devRef .tc main_arg6) := keep10 m c main_arg6 (by decide)
    _ = W8 m c (Proc.devRef .tc main_arg6) := keep9 m c main_arg6 (by decide)
    _ = W7 m c (Proc.devRef .tc main_arg6) := keep8 m c main_arg6 (by decide)
    _ = W6 m c (Proc.devRef .tc main_arg6) := keep7 m c main_arg6 (by decide)
    _ = W5 m c (Proc.devRef .tc main_arg6) := keep6 m c main_arg6 (by decide)
    _ = W4 m c (Proc.devRef .tc main_arg6) := keep5 m c main_arg6 (by decide)
    _ = W3 m c (Proc.devRef .tc main_arg6) := keep4 m c main_arg6 (by decide)
    _ = W2 m c (Proc.devRef .tc main_arg6) := keep3 m c main_arg6 (by decide)
    _ = W1 m c (Proc.devRef .tc main_arg6) := keep2 m c main_arg6 (by decide)
    _ = W0 m c (Proc.devRef .tc main_arg6) := keep1 m c main_arg6 (by decide)
theorem W16_main_arg7 (m : (ℓ : Loc nD τ sig) → Buf (Elt Ideal) ℓ) (c : Dev nD) :
    W16 m c (Proc.devRef .tc main_arg7) = W0 m c (Proc.devRef .tc main_arg7) :=
  calc W16 m c (Proc.devRef .tc main_arg7)
    _ = W15 m c (Proc.devRef .tc main_arg7) := keep16 m c main_arg7 (by decide)
    _ = W14 m c (Proc.devRef .tc main_arg7) := keep15 m c main_arg7 (by decide)
    _ = W13 m c (Proc.devRef .tc main_arg7) := keep14 m c main_arg7 (by decide)
    _ = W12 m c (Proc.devRef .tc main_arg7) := keep13 m c main_arg7 (by decide)
    _ = W11 m c (Proc.devRef .tc main_arg7) := keep12 m c main_arg7 (by decide)
    _ = W10 m c (Proc.devRef .tc main_arg7) := keep11 m c main_arg7 (by decide)
    _ = W9 m c (Proc.devRef .tc main_arg7) := keep10 m c main_arg7 (by decide)
    _ = W8 m c (Proc.devRef .tc main_arg7) := keep9 m c main_arg7 (by decide)
    _ = W7 m c (Proc.devRef .tc main_arg7) := keep8 m c main_arg7 (by decide)
    _ = W6 m c (Proc.devRef .tc main_arg7) := keep7 m c main_arg7 (by decide)
    _ = W5 m c (Proc.devRef .tc main_arg7) := keep6 m c main_arg7 (by decide)
    _ = W4 m c (Proc.devRef .tc main_arg7) := keep5 m c main_arg7 (by decide)
    _ = W3 m c (Proc.devRef .tc main_arg7) := keep4 m c main_arg7 (by decide)
    _ = W2 m c (Proc.devRef .tc main_arg7) := keep3 m c main_arg7 (by decide)
    _ = W1 m c (Proc.devRef .tc main_arg7) := keep2 m c main_arg7 (by decide)
    _ = W0 m c (Proc.devRef .tc main_arg7) := keep1 m c main_arg7 (by decide)

/-! ## The tail of the program's value -/

/-- From the last region's exit — holding the last Chebyshev term and the two running sums through seven — the five host
    stretches leave the result at the tail of the function: the stretches in order, each read from the contents the one
    before left. -/
theorem tail_value (m : (ℓ : Loc nD τ sig) → Buf (Elt Ideal) ℓ) (c : Dev nD) (T8 LP7 HP7 : Cert.Spec.Arr)
    (hT : W16 m c (Proc.devRef .tc main_v61) = T8) (hLP : W16 m c (Proc.devRef .tc main_v56) = LP7) (hHP : W16 m c (Proc.devRef .tc main_v59) = HP7) :
    W21 m c (Proc.devRef .tc main_v83)
      = Cert.Spec.tail (addf LP7 (mulf (Cert.Spec.coef (Cert.Spec.aLP 8)) T8)) (addf HP7 (mulf (Cert.Spec.coef (Cert.Spec.aHP 8)) T8))
          (W0 m c (Proc.devRef .tc main_arg0)) (W0 m c (Proc.devRef .tc main_arg2)) (W0 m c (Proc.devRef .tc main_arg3)) (W0 m c (Proc.devRef .tc main_arg4))
          (W0 m c (Proc.devRef .tc main_arg5)) (W0 m c (Proc.devRef .tc main_arg6)) (W0 m c (Proc.devRef .tc main_arg7)) := by
  have a0 := W16_main_arg0 m c
  have a2 := W16_main_arg2 m c
  have a3 := W16_main_arg3 m c
  have a4 := W16_main_arg4 m c
  have a5 := W16_main_arg5 m c
  have a6 := W16_main_arg6 m c
  have a7 := W16_main_arg7 m c
  show after (hostOps8_4 (F := Ideal)) (after (hostOps8_3 (F := Ideal)) (after (hostOps8_2 (F := Ideal))
    (after (hostOps8_1 (F := Ideal)) (after (hostOps8 (F := Ideal)) (W16 m c))))) (Proc.devRef .tc main_v83) = _
  generalize W16 m c = V16 at hT hLP hHP a0 a2 a3 a4 a5 a6 a7 ⊢
  obtain ⟨e72, e68⟩ := st17 V16 _ _ _ _ _ _ hT hLP hHP a0 a2 a3
  have b0 := (after_of_writes_sub (hostOps8 (F := Ideal)) V16 hostOps8_writes (by decide : main_arg0 ∉ hostOps8_W)).trans a0
  have b4 := (after_of_writes_sub (hostOps8 (F := Ideal)) V16 hostOps8_writes (by decide : main_arg4 ∉ hostOps8_W)).trans a4
  have b5 := (after_of_writes_sub (hostOps8 (F := Ideal)) V16 hostOps8_writes (by decide : main_arg5 ∉ hostOps8_W)).trans a5
  have b6 := (after_of_writes_sub (hostOps8 (F := Ideal)) V16 hostOps8_writes (by decide : main_arg6 ∉ hostOps8_W)).trans a6
  have b7 := (after_of_writes_sub (hostOps8 (F := Ideal)) V16 hostOps8_writes (by decide : main_arg7 ∉ hostOps8_W)).trans a7
  generalize after (hostOps8 (F := Ideal)) V16 = V17 at e72 e68 b0 b4 b5 b6 b7 ⊢
  have e73 := st18 V17 _ e72
  have c68 := (after_of_writes_sub (hostOps8_1 (F := Ideal)) V17 hostOps8_1_writes (by decide : main_v68 ∉ hostOps8_1_W)).trans e68
  have c0 := (after_of_writes_sub (hostOps8_1 (F := Ideal)) V17 hostOps8_1_writes (by decide : main_arg0 ∉ hostOps8_1_W)).trans b0
  have c4 := (after_of_writes_sub (hostOps8_1 (F := Ideal)) V17 hostOps8_1_writes (by decide : main_arg4 ∉ hostOps8_1_W)).trans b4
  have c5 := (after_of_writes_sub (hostOps8_1 (F := Ideal)) V17 hostOps8_1_writes (by decide : main_arg5 ∉ hostOps8_1_W)).trans b5
  have c6 := (after_of_writes_sub (hostOps8_1 (F := Ideal)) V17 hostOps8_1_writes (by decide : main_arg6 ∉ hostOps8_1_W)).trans b6
  have c7 := (after_of_writes_sub (hostOps8_1 (F := Ideal)) V17 hostOps8_1_writes (by decide : main_arg7 ∉ hostOps8_1_W)).trans b7
  generalize after (hostOps8_1 (F := Ideal)) V17 = V18 at e73 c68 c0 c4 c5 c6 c7 ⊢
  have e77 := st19 V18 _ _ _ c68 c4 c5
  have d73 := (after_of_writes_sub (hostOps8_2 (F := Ideal)) V18 hostOps8_2_writes (by decide : main_v73 ∉ hostOps8_2_W)).trans e73
  have d0 := (after_of_writes_sub (hostOps8_2 (F := Ideal)) V18 hostOps8_2_writes (by decide : main_arg0 ∉ hostOps8_2_W)).trans c0
  have d6 := (after_of_writes_sub (hostOps8_2 (F := Ideal)) V18 hostOps8_2_writes (by decide : main_arg6 ∉ hostOps8_2_W)).trans c6
  have d7 := (after_of_writes_sub (hostOps8_2 (F := Ideal)) V18 hostOps8_2_writes (by decide : main_arg7 ∉ hostOps8_2_W)).trans c7
  generalize after (hostOps8_2 (F := Ideal)) V18 = V19 at e77 d73 d0 d6 d7 ⊢
  have e78 := st20 V19 _ e77
  have f73 := (after_of_writes_sub (hostOps8_3 (F := Ideal)) V19 hostOps8_3_writes (by decide : main_v73 ∉ hostOps8_3_W)).trans d73
  have f0 := (after_of_writes_sub (hostOps8_3 (F := Ideal)) V19 hostOps8_3_writes (by decide : main_arg0 ∉ hostOps8_3_W)).trans d0
  have f6 := (after_of_writes_sub (hostOps8_3 (F := Ideal)) V19 hostOps8_3_writes (by decide : main_arg6 ∉ hostOps8_3_W)).trans d6
  have f7 := (after_of_writes_sub (hostOps8_3 (F := Ideal)) V19 hostOps8_3_writes (by decide : main_arg7 ∉ hostOps8_3_W)).trans d7
  generalize after (hostOps8_3 (F := Ideal)) V19 = V20 at e78 f73 f0 f6 f7 ⊢
  exact st21 V20 _ _ _ _ _ f73 e78 f0 f6 f7

end Cert.KernelIdeal.Hand

end
-- ==== Proof.KernelIdeal.Result.lean ====
/- The idealized kernel's result array, after the whole main program, is the specification's function of the eight
   argument arrays: the stages give the eighth Chebyshev term and the two running sums through the seventh at the
   last region's exit, and the tail adds the eighth terms, subtracts the high-pass sum from the signal, and applies the
   two dense layers, the rectifier and the final dense layer — which is how the specification's result is defined. -/
import proofs.«117973_j38328288150260_2_alg».proof.Proof.KernelIdeal.Bridge
import proofs.«117973_j38328288150260_2_alg».proof.Proof.KernelIdeal.TailValue

set_option maxRecDepth 16384

noncomputable section

namespace Cert.KernelIdeal.Hand

open Cert.KernelIdeal Cert.KernelIdeal.Gen
open Idealize.ShloMosaic Idealize.ShloMosaic.TcCoe
open Idealize.SL.Sem

attribute [local instance] Cert.ReferenceIdeal.Gen.facts

/-- The result buffer at the last boundary holds the specification's result of the launch memory's arguments. -/
theorem result_eq (m : (ℓ : Loc nD τ sig) → Buf (Elt Ideal) ℓ) (c : Dev nD) :
    W21 m c (Proc.devRef .tc main_v83) = Cert.Spec.out (W0 m c (Proc.devRef .tc main_arg0)) (W0 m c (Proc.devRef .tc main_arg1))
      (W0 m c (Proc.devRef .tc main_arg2)) (W0 m c (Proc.devRef .tc main_arg3)) (W0 m c (Proc.devRef .tc main_arg4))
      (W0 m c (Proc.devRef .tc main_arg5)) (W0 m c (Proc.devRef .tc main_arg6)) (W0 m c (Proc.devRef .tc main_arg7)) :=
  (tail_value m c _ _ _ (T_16 m c) (LP_16 m c) (HP_16 m c)).trans rfl

end Cert.KernelIdeal.Hand
end
-- ==== Proof.ReferenceIdeal.Run.lean ====
import proofs.«117973_j38328288150260_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The reference's host operations, stretch by stretch

The reference is a straight line of host operations. It is listed here in nine consecutive stretches that follow
the mathematics: the start of the Chebyshev recurrence, its seven steps, and the tail. -/

/-- Operations 1 … 21: the two coefficient tables, `T₁ = L·X`, and the two running sums through `k = 1`. -/
abbrev s1 : List (HloOp τ sig (Elt F)) :=
  [
    StableHlo.nullary main_cst (fun i => FloatOps.ofBits .f32 (lit0 (S9.rowMajor i))),
    StableHlo.nullary main_cst_0 (fun i => FloatOps.ofBits .f32 (lit1 (S9.rowMajor i))),
    StableHlo.binary main_arg1 main_arg0 main_v0 ((fun l r => Host.dotGeneral dot_S16384x16384_S16384x32_S16384x32_1_0_0_1_n_n none l r) : (⟨S16384x16384, .f32⟩ : BufTy).Contents (Elt F) → (⟨S16384x32, .f32⟩ : BufTy).Contents (Elt F) → (⟨S16384x32, .f32⟩ : BufTy).Contents (Elt F)),
    StableHlo.unary main_cst main_v1 ((extractStridedSlice S1 ![0] · slices_S9_S1_0) : (⟨S9, .f32⟩ : BufTy).Contents (Elt F) → (⟨S1, .f32⟩ : BufTy).Contents (Elt F)),
    StableHlo.reshape main_v1 main_v2 rfl shapeCasts_S1_S_,
    StableHlo.unary main_v2 main_v3 (broadcastInDim S16384x32 ![] bcast_S_S16384x32 : (⟨S_, .f32⟩ : BufTy).Contents (Elt F) → (⟨S16384x32, .f32⟩ : BufTy).Contents (Elt F)),
    StableHlo.binary main_v3 main_arg0 main_v4 (mulf : (⟨S16384x32, .f32⟩ : BufTy).Contents (Elt F) → (⟨S16384x32, .f32⟩ : BufTy).Contents (Elt F) → (⟨S16384x32, .f32⟩ : BufTy).Contents (Elt F)),
    StableHlo.unary main_cst main_v5 ((extractStridedSlice S1 ![1] · slices_S9_S1_1) : (⟨S9, .f32⟩ : BufTy).Contents (Elt F) → (⟨S1, .f32⟩ : BufTy).Contents (Elt F)),
    StableHlo.reshape main_v5 main_v6 rfl shapeCasts_S1_S_,
    StableHlo.unary main_v6 main_v7 (broadcastInDim S16384x32 ![] bcast_S_S16384x32 : (⟨S_, .f32⟩ : BufTy).Contents (Elt F) → (⟨S16384x32, .f32⟩ : BufTy).Contents (Elt F)),
    StableHlo.binary main_v7 main_v0 main_v8 (mulf : (⟨S16384x32, .f32⟩ : BufTy).Contents (Elt F) → (⟨S16384x32, .f32⟩ : BufTy).Contents (Elt F) → (⟨S16384x32, .f32⟩ : BufTy).Contents (Elt F)),
    StableHlo.binary main_v4 main_v8 main_v9 (addf : (⟨S16384x32, .f32⟩ : BufTy).Contents (Elt F) → (⟨S16384x32, .f32⟩ : BufTy).Contents (Elt F) → (⟨S16384x32, .f32⟩ : BufTy).Contents (Elt F)),
    StableHlo.unary main_cst_0 main_v10 ((extractStridedSlice S1 ![0] · slices_S9_S1_0) : (⟨S9, .f32⟩ : BufTy).Contents (Elt F) → (⟨S1, .f32⟩ : BufTy).Contents (Elt F)),
    StableHlo.reshape main_v10 main_v11 rfl shapeCasts_S1_S_,
    StableHlo.unary main_v11 main_v12 (broadcastInDim S16384x32 ![] bcast_S_S16384x32 : (⟨S_, .f32⟩ : BufTy).Contents (Elt F) → (⟨S16384x32, .f32⟩ : BufTy).Contents (Elt F)),
    StableHlo.binary main_v12 main_arg0 main_v13 (mulf : (⟨S16384x32, .f32⟩ : BufTy).Contents (Elt F) → (⟨S16384x32, .f32⟩ : BufTy).Contents (Elt F) → (⟨S16384x32, .f32⟩ : BufTy).Contents (Elt F)),
    StableHlo.unary main_cst_0 main_v14 ((extractStridedSlice S1 ![1] · slices_S9_S1_1) : (⟨S9, .f32⟩ : BufTy).Contents (Elt F) → (⟨S1, .f32⟩ : BufTy).Contents (Elt F)),
    StableHlo.reshape main_v14 main_v15 rfl shapeCasts_S1_S_,
    StableHlo.unary main_v15 main_v16 (broadcastInDim S16384x32 ![] bcast_S_S16384x32 : (⟨S_, .f32⟩ : BufTy).Contents (Elt F) → (⟨S16384x32, .f32⟩ : BufTy).Contents (Elt F)),
    StableHlo.binary main_v16 main_v0 main_v17 (mulf : (⟨S16384x32, .f32⟩ : BufTy).Contents (Elt F) → (⟨S16384x32, .f32⟩ : BufTy).Contents (Elt F) → (⟨S16384x32, .f32⟩ : BufTy).Contents (Elt F)),
    StableHlo.binary main_v13 main_v17 main_v18 (addf : (⟨S16384x32, .f32⟩ : BufTy).Contents (Elt F) → (⟨S16384x32, .f32⟩ : BufTy).Contents (Elt F) → (⟨S16384x32, .f32⟩ : BufTy).Contents (Elt F)) ]

/-- Operations 22 … 36: the recurrence step `T_2 = 2·(L·T_1) − T_0` and the two running sums through `k = 2`. -/
abbrev k2 : List (HloOp τ sig (Elt F)) :=
  [
    StableHlo.binary main_arg1 main_v0 main_v19 ((fun l r => Host.dotGeneral dot_S16384x16384_S16384x32_S16384x32_1_0_0_1_n_n none l r) : (⟨S16384x16384, .f32⟩ : BufTy).Contents (Elt F) → (⟨S16384x32, .f32⟩ : BufTy).Contents (Elt F) → (⟨S16384x32, .f32⟩ : BufTy).Contents (Elt F)),
    StableHlo.nullary main_cst_1 (constant S_ .f32 0x40000000#32),
    StableHlo.unary main_cst_1 main_v20 (broadcastInDim S16384x32 ![] bcast_S_S16384x32 : (⟨S_, .f32⟩ : BufTy).Contents (Elt F) → (⟨S16384x32, .f32⟩ : BufTy).Contents (Elt F)),
    StableHlo.binary main_v20 main_v19 main_v21 (mulf : (⟨S16384x32, .f32⟩ : BufTy).Contents (Elt F) → (⟨S16384x32, .f32⟩ : BufTy).Contents (Elt F) → (⟨S16384x32, .f32⟩ : BufTy).Contents (Elt F)),
    StableHlo.binary main_v21 main_arg0 main_v22 (subf : (⟨S16384x32, .f32⟩ : BufTy).Contents (Elt F) → (⟨S16384x32, .f32⟩ : BufTy).Contents (Elt F) → (⟨S16384x32, .f32⟩ : BufTy).Contents (Elt F)),
    StableHlo.unary main_cst main_v23 ((extractStridedSlice S1 ![2] · slices_S9_S1_2) : (⟨S9, .f32⟩ : BufTy).Contents (Elt F) → (⟨S1, .f32⟩ : BufTy).Contents (Elt F)),
    StableHlo.reshape main_v23 main_v24 rfl shapeCasts_S1_S_,
    StableHlo.unary main_v24 main_v25 (broadcastInDim S16384x32 ![] bcast_S_S16384x32 : (⟨S_, .f32⟩ : BufTy).Contents (Elt F) → (⟨S16384x32, .f32⟩ : BufTy).Contents (Elt F)),
    StableHlo.binary main_v25 main_v22 main_v26 (mulf : (⟨S16384x32, .f32⟩ : BufTy).Contents (Elt F) → (⟨S16384x32, .f32⟩ : BufTy).Contents (Elt F) → (⟨S16384x32, .f32⟩ : BufTy).Contents (Elt F)),
    StableHlo.binary main_v9 main_v26 main_v27 (addf : (⟨S16384x32, .f32⟩ : BufTy).Contents (Elt F) → (⟨S16384x32, .f32⟩ : BufTy).Contents (Elt F) → (⟨S16384x32, .f32⟩ : BufTy).Contents (Elt F)),
    StableHlo.unary main_cst_0 main_v28 ((extractStridedSlice S1 ![2] · slices_S9_S1_2) : (⟨S9, .f32⟩ : BufTy).Contents (Elt F) → (⟨S1, .f32⟩ : BufTy).Contents (Elt F)),
    StableHlo.reshape main_v28 main_v29 rfl shapeCasts_S1_S_,
    StableHlo.unary main_v29 main_v30 (broadcastInDim S16384x32 ![] bcast_S_S16384x32 : (⟨S_, .f32⟩ : BufTy).Contents (Elt F) → (⟨S16384x32, .f32⟩ : BufTy).Contents (Elt F)),
    StableHlo.binary main_v30 main_v22 main_v31 (mulf : (⟨S16384x32, .f32⟩ : BufTy).Contents (Elt F) → (⟨S16384x32, .f32⟩ : BufTy).Contents (Elt F) → (⟨S16384x32, .f32⟩ : BufTy).Contents (Elt F)),
    StableHlo.binary main_v18 main_v31 main_v32 (addf : (⟨S16384x32, .f32⟩ : BufTy).Contents (Elt F) → (⟨S16384x32, .f32⟩ : BufTy).Contents (Elt F) → (⟨S16384x32, .f32⟩ : BufTy).Contents (Elt F)) ]

/-- Operations 37 … 51: the recurrence step `T_3 = 2·(L·T_2) − T_1` and the two running sums through `k = 3`. -/
abbrev k3 : List (HloOp τ sig (Elt F)) :=
  [
    StableHlo.binary main_arg1 main_v22 main_v33 ((fun l r => Host.dotGeneral dot_S16384x16384_S16384x32_S16384x32_1_0_0_1_n_n none l r) : (⟨S16384x16384, .f32⟩ : BufTy).Contents (Elt F) → (⟨S16384x32, .f32⟩ : BufTy).Contents (Elt F) → (⟨S16384x32, .f32⟩ : BufTy).Contents (Elt F)),
    StableHlo.nullary main_cst_2 (constant S_ .f32 0x40000000#32),
    StableHlo.unary main_cst_2 main_v34 (broadcastInDim S16384x32 ![] bcast_S_S16384x32 : (⟨S_, .f32⟩ : BufTy).Contents (Elt F) → (⟨S16384x32, .f32⟩ : BufTy).Contents (Elt F)),
    StableHlo.binary main_v34 main_v33 main_v35 (mulf : (⟨S16384x32, .f32⟩ : BufTy).Contents (Elt F) → (⟨S16384x32, .f32⟩ : BufTy).Contents (Elt F) → (⟨S16384x32, .f32⟩ : BufTy).Contents (Elt F)),
    StableHlo.binary main_v35 main_v0 main_v36 (subf : (⟨S16384x32, .f32⟩ : BufTy).Contents (Elt F) → (⟨S16384x32, .f32⟩ : BufTy).Contents (Elt F) → (⟨S16384x32, .f32⟩ : BufTy).Contents (Elt F)),
    StableHlo.unary main_cst main_v37 ((extractStridedSlice S1 ![3] · slices_S9_S1_3) : (⟨S9, .f32⟩ : BufTy).Contents (Elt F) → (⟨S1, .f32⟩ : BufTy).Contents (Elt F)),
    StableHlo.reshape main_v37 main_v38 rfl shapeCasts_S1_S_,
    StableHlo.unary main_v38 main_v39 (broadcastInDim S16384x32 ![] bcast_S_S16384x32 : (⟨S_, .f32⟩ : BufTy).Contents (Elt F) → (⟨S16384x32, .f32⟩ : BufTy).Contents (Elt F)),
    StableHlo.binary main_v39 main_v36 main_v40 (mulf : (⟨S16384x32, .f32⟩ : BufTy).Contents (Elt F) → (⟨S16384x32, .f32⟩ : BufTy).Contents (Elt F) → (⟨S16384x32, .f32⟩ : BufTy).Contents (Elt F)),
    StableHlo.binary main_v27 main_v40 main_v41 (addf : (⟨S16384x32, .f32⟩ : BufTy).Contents (Elt F) → (⟨S16384x32, .f32⟩ : BufTy).Contents (Elt F) → (⟨S16384x32, .f32⟩ : BufTy).Contents (Elt F)),
    StableHlo.unary main_cst_0 main_v42 ((extractStridedSlice S1 ![3] · slices_S9_S1_3) : (⟨S9, .f32⟩ : BufTy).Contents (Elt F) → (⟨S1, .f32⟩ : BufTy).Contents (Elt F)),
    StableHlo.reshape main_v42 main_v43 rfl shapeCasts_S1_S_,
    StableHlo.unary main_v43 main_v44 (broadcastInDim S16384x32 ![] bcast_S_S16384x32 : (⟨S_, .f32⟩ : BufTy).Contents (Elt F) → (⟨S16384x32, .f32⟩ : BufTy).Contents (Elt F)),
    StableHlo.binary main_v44 main_v36 main_v45 (mulf : (⟨S16384x32, .f32⟩ : BufTy).Contents (Elt F) → (⟨S16384x32, .f32⟩ : BufTy).Contents (Elt F) → (⟨S16384x32, .f32⟩ : BufTy).Contents (Elt F)),
    StableHlo.binary main_v32 main_v45 main_v46 (addf : (⟨S16384x32, .f32⟩ : BufTy).Contents (Elt F) → (⟨S16384x32, .f32⟩ : BufTy).Contents (Elt F) → (⟨S16384x32, .f32⟩ : BufTy).Contents (Elt F)) ]

/-- Operations 52 … 66: the recurrence step `T_4 = 2·(L·T_3) − T_2` and the two running sums through `k = 4`. -/
abbrev k4 : List (HloOp τ sig (Elt F)) :=
  [
    StableHlo.binary main_arg1 main_v36 main_v47 ((fun l r => Host.dotGeneral dot_S16384x16384_S16384x32_S16384x32_1_0_0_1_n_n none l r) : (⟨S16384x16384, .f32⟩ : BufTy).Contents (Elt F) → (⟨S16384x32, .f32⟩ : BufTy).Contents (Elt F) → (⟨S16384x32, .f32⟩ : BufTy).Contents (Elt F)),
    StableHlo.nullary main_cst_3 (constant S_ .f32 0x40000000#32),
    StableHlo.unary main_cst_3 main_v48 (broadcastInDim S16384x32 ![] bcast_S_S16384x32 : (⟨S_, .f32⟩ : BufTy).Contents (Elt F) → (⟨S16384x32, .f32⟩ : BufTy).Contents (Elt F)),
    StableHlo.binary main_v48 main_v47 main_v49 (mulf : (⟨S16384x32, .f32⟩ : BufTy).Contents (Elt F) → (⟨S16384x32, .f32⟩ : BufTy).Contents (Elt F) → (⟨S16384x32, .f32⟩ : BufTy).Contents (Elt F)),
    StableHlo.binary main_v49 main_v22 main_v50 (subf : (⟨S16384x32, .f32⟩ : BufTy).Contents (Elt F) → (⟨S16384x32, .f32⟩ : BufTy).Contents (Elt F) → (⟨S16384x32, .f32⟩ : BufTy).Contents (Elt F)),
    StableHlo.unary main_cst main_v51 ((extractStridedSlice S1 ![4] · slices_S9_S1_4) : (⟨S9, .f32⟩ : BufTy).Contents (Elt F) → (⟨S1, .f32⟩ : BufTy).Contents (Elt F)),
    StableHlo.reshape main_v51 main_v52 rfl shapeCasts_S1_S_,
    StableHlo.unary main_v52 main_v53 (broadcastInDim S16384x32 ![] bcast_S_S16384x32 : (⟨S_, .f32⟩ : BufTy).Contents (Elt F) → (⟨S16384x32, .f32⟩ : BufTy).Contents (Elt F)),
    StableHlo.binary main_v53 main_v50 main_v54 (mulf : (⟨S16384x32, .f32⟩ : BufTy).Contents (Elt F) → (⟨S16384x32, .f32⟩ : BufTy).Contents (Elt F) → (⟨S16384x32, .f32⟩ : BufTy).Contents (Elt F)),
    StableHlo.binary main_v41 main_v54 main_v55 (addf : (⟨S16384x32, .f32⟩ : BufTy).Contents (Elt F) → (⟨S16384x32, .f32⟩ : BufTy).Contents (Elt F) → (⟨S16384x32, .f32⟩ : BufTy).Contents (Elt F)),
    StableHlo.unary main_cst_0 main_v56 ((extractStridedSlice S1 ![4] · slices_S9_S1_4) : (⟨S9, .f32⟩ : BufTy).Contents (Elt F) → (⟨S1, .f32⟩ : BufTy).Contents (Elt F)),
    StableHlo.reshape main_v56 main_v57 rfl shapeCasts_S1_S_,
    StableHlo.unary main_v57 main_v58 (broadcastInDim S16384x32 ![] bcast_S_S16384x32 : (⟨S_, .f32⟩ : BufTy).Contents (Elt F) → (⟨S16384x32, .f32⟩ : BufTy).Contents (Elt F)),
    StableHlo.binary main_v58 main_v50 main_v59 (mulf : (⟨S16384x32, .f32⟩ : BufTy).Contents (Elt F) → (⟨S16384x32, .f32⟩ : BufTy).Contents (Elt F) → (⟨S16384x32, .f32⟩ : BufTy).Contents (Elt F)),
    StableHlo.binary main_v46 main_v59 main_v60 (addf : (⟨S16384x32, .f32⟩ : BufTy).Contents (Elt F) → (⟨S16384x32, .f32⟩ : BufTy).Contents (Elt F) → (⟨S16384x32, .f32⟩ : BufTy).Contents (Elt F)) ]

/-- Operations 67 … 81: the recurrence step `T_5 = 2·(L·T_4) − T_3` and the two running sums through `k = 5`. -/
abbrev k5 : List (HloOp τ sig (Elt F)) :=
  [
    StableHlo.binary main_arg1 main_v50 main_v61 ((fun l r => Host.dotGeneral dot_S16384x16384_S16384x32_S16384x32_1_0_0_1_n_n none l r) : (⟨S16384x16384, .f32⟩ : BufTy).Contents (Elt F) → (⟨S16384x32, .f32⟩ : BufTy).Contents (Elt F) → (⟨S16384x32, .f32⟩ : BufTy).Contents (Elt F)),
    StableHlo.nullary main_cst_4 (constant S_ .f32 0x40000000#32),
    StableHlo.unary main_cst_4 main_v62 (broadcastInDim S16384x32 ![] bcast_S_S16384x32 : (⟨S_, .f32⟩ : BufTy).Contents (Elt F) → (⟨S16384x32, .f32⟩ : BufTy).Contents (Elt F)),
    StableHlo.binary main_v62 main_v61 main_v63 (mulf : (⟨S16384x32, .f32⟩ : BufTy).Contents (Elt F) → (⟨S16384x32, .f32⟩ : BufTy).Contents (Elt F) → (⟨S16384x32, .f32⟩ : BufTy).Contents (Elt F)),
    StableHlo.binary main_v63 main_v36 main_v64 (subf : (⟨S16384x32, .f32⟩ : BufTy).Contents (Elt F) → (⟨S16384x32, .f32⟩ : BufTy).Contents (Elt F) → (⟨S16384x32, .f32⟩ : BufTy).Contents (Elt F)),
    StableHlo.unary main_cst main_v65 ((extractStridedSlice S1 ![5] · slices_S9_S1_5) : (⟨S9, .f32⟩ : BufTy).Contents (Elt F) → (⟨S1, .f32⟩ : BufTy).Contents (Elt F)),
    StableHlo.reshape main_v65 main_v66 rfl shapeCasts_S1_S_,
    StableHlo.unary main_v66 main_v67 (broadcastInDim S16384x32 ![] bcast_S_S16384x32 : (⟨S_, .f32⟩ : BufTy).Contents (Elt F) → (⟨S16384x32, .f32⟩ : BufTy).Contents (Elt F)),
    StableHlo.binary main_v67 main_v64 main_v68 (mulf : (⟨S16384x32, .f32⟩ : BufTy).Contents (Elt F) → (⟨S16384x32, .f32⟩ : BufTy).Contents (Elt F) → (⟨S16384x32, .f32⟩ : BufTy).Contents (Elt F)),
    StableHlo.binary main_v55 main_v68 main_v69 (addf : (⟨S16384x32, .f32⟩ : BufTy).Contents (Elt F) → (⟨S16384x32, .f32⟩ : BufTy).Contents (Elt F) → (⟨S16384x32, .f32⟩ : BufTy).Contents (Elt F)),
    StableHlo.unary main_cst_0 main_v70 ((extractStridedSlice S1 ![5] · slices_S9_S1_5) : (⟨S9, .f32⟩ : BufTy).Contents (Elt F) → (⟨S1, .f32⟩ : BufTy).Contents (Elt F)),
    StableHlo.reshape main_v70 main_v71 rfl shapeCasts_S1_S_,
    StableHlo.unary main_v71 main_v72 (broadcastInDim S16384x32 ![] bcast_S_S16384x32 : (⟨S_, .f32⟩ : BufTy).Contents (Elt F) → (⟨S16384x32, .f32⟩ : BufTy).Contents (Elt F)),
    StableHlo.binary main_v72 main_v64 main_v73 (mulf : (⟨S16384x32, .f32⟩ : BufTy).Contents (Elt F) → (⟨S16384x32, .f32⟩ : BufTy).Contents (Elt F) → (⟨S16384x32, .f32⟩ : BufTy).Contents (Elt F)),
    StableHlo.binary main_v60 main_v73 main_v74 (addf : (⟨S16384x32, .f32⟩ : BufTy).Contents (Elt F) → (⟨S16384x32, .f32⟩ : BufTy).Contents (Elt F) → (⟨S16384x32, .f32⟩ : BufTy).Contents (Elt F)) ]

/-- Operations 82 … 96: the recurrence step `T_6 = 2·(L·T_5) − T_4` and the two running sums through `k = 6`. -/
abbrev k6 : List (HloOp τ sig (Elt F)) :=
  [
    StableHlo.binary main_arg1 main_v64 main_v75 ((fun l r => Host.dotGeneral dot_S16384x16384_S16384x32_S16384x32_1_0_0_1_n_n none l r) : (⟨S16384x16384, .f32⟩ : BufTy).Contents (Elt F) → (⟨S16384x32, .f32⟩ : BufTy).Contents (Elt F) → (⟨S16384x32, .f32⟩ : BufTy).Contents (Elt F)),
    StableHlo.nullary main_cst_5 (constant S_ .f32 0x40000000#32),
    StableHlo.unary main_cst_5 main_v76 (broadcastInDim S16384x32 ![] bcast_S_S16384x32 : (⟨S_, .f32⟩ : BufTy).Contents (Elt F) → (⟨S16384x32, .f32⟩ : BufTy).Contents (Elt F)),
    StableHlo.binary main_v76 main_v75 main_v77 (mulf : (⟨S16384x32, .f32⟩ : BufTy).Contents (Elt F) → (⟨S16384x32, .f32⟩ : BufTy).Contents (Elt F) → (⟨S16384x32, .f32⟩ : BufTy).Contents (Elt F)),
    StableHlo.binary main_v77 main_v50 main_v78 (subf : (⟨S16384x32, .f32⟩ : BufTy).Contents (Elt F) → (⟨S16384x32, .f32⟩ : BufTy).Contents (Elt F) → (⟨S16384x32, .f32⟩ : BufTy).Contents (Elt F)),
    StableHlo.unary main_cst main_v79 ((extractStridedSlice S1 ![6] · slices_S9_S1_6) : (⟨S9, .f32⟩ : BufTy).Contents (Elt F) → (⟨S1, .f32⟩ : BufTy).Contents (Elt F)),
    StableHlo.reshape main_v79 main_v80 rfl shapeCasts_S1_S_,
    StableHlo.unary main_v80 main_v81 (broadcastInDim S16384x32 ![] bcast_S_S16384x32 : (⟨S_, .f32⟩ : BufTy).Contents (Elt F) → (⟨S16384x32, .f32⟩ : BufTy).Contents (Elt F)),
    StableHlo.binary main_v81 main_v78 main_v82 (mulf : (⟨S16384x32, .f32⟩ : BufTy).Contents (Elt F) → (⟨S16384x32, .f32⟩ : BufTy).Contents (Elt F) → (⟨S16384x32, .f32⟩ : BufTy).Contents (Elt F)),
    StableHlo.binary main_v69 main_v82 main_v83 (addf : (⟨S16384x32, .f32⟩ : BufTy).Contents (Elt F) → (⟨S16384x32, .f32⟩ : BufTy).Contents (Elt F) → (⟨S16384x32, .f32⟩ : BufTy).Contents (Elt F)),
    StableHlo.unary main_cst_0 main_v84 ((extractStridedSlice S1 ![6] · slices_S9_S1_6) : (⟨S9, .f32⟩ : BufTy).Contents (Elt F) → (⟨S1, .f32⟩ : BufTy).Contents (Elt F)),
    StableHlo.reshape main_v84 main_v85 rfl shapeCasts_S1_S_,
    StableHlo.unary main_v85 main_v86 (broadcastInDim S16384x32 ![] bcast_S_S16384x32 : (⟨S_, .f32⟩ : BufTy).Contents (Elt F) → (⟨S16384x32, .f32⟩ : BufTy).Contents (Elt F)),
    StableHlo.binary main_v86 main_v78 main_v87 (mulf : (⟨S16384x32, .f32⟩ : BufTy).Contents (Elt F) → (⟨S16384x32, .f32⟩ : BufTy).Contents (Elt F) → (⟨S16384x32, .f32⟩ : BufTy).Contents (Elt F)),
    StableHlo.binary main_v74 main_v87 main_v88 (addf : (⟨S16384x32, .f32⟩ : BufTy).Contents (Elt F) → (⟨S16384x32, .f32⟩ : BufTy).Contents (Elt F) → (⟨S16384x32, .f32⟩ : BufTy).Contents (Elt F)) ]

/-- Operations 97 … 111: the recurrence step `T_7 = 2·(L·T_6) − T_5` and the two running sums through `k = 7`. -/
abbrev k7 : List (HloOp τ sig (Elt F)) :=
  [
    StableHlo.binary main_arg1 main_v78 main_v89 ((fun l r => Host.dotGeneral dot_S16384x16384_S16384x32_S16384x32_1_0_0_1_n_n none l r) : (⟨S16384x16384, .f32⟩ : BufTy).Contents (Elt F) → (⟨S16384x32, .f32⟩ : BufTy).Contents (Elt F) → (⟨S16384x32, .f32⟩ : BufTy).Contents (Elt F)),
    StableHlo.nullary main_cst_6 (constant S_ .f32 0x40000000#32),
    StableHlo.unary main_cst_6 main_v90 (broadcastInDim S16384x32 ![] bcast_S_S16384x32 : (⟨S_, .f32⟩ : BufTy).Contents (Elt F) → (⟨S16384x32, .f32⟩ : BufTy).Contents (Elt F)),
    StableHlo.binary main_v90 main_v89 main_v91 (mulf : (⟨S16384x32, .f32⟩ : BufTy).Contents (Elt F) → (⟨S16384x32, .f32⟩ : BufTy).Contents (Elt F) → (⟨S16384x32, .f32⟩ : BufTy).Contents (Elt F)),
    StableHlo.binary main_v91 main_v64 main_v92 (subf : (⟨S16384x32, .f32⟩ : BufTy).Contents (Elt F) → (⟨S16384x32, .f32⟩ : BufTy).Contents (Elt F) → (⟨S16384x32, .f32⟩ : BufTy).Contents (Elt F)),
    StableHlo.unary main_cst main_v93 ((extractStridedSlice S1 ![7] · slices_S9_S1_7) : (⟨S9, .f32⟩ : BufTy).Contents (Elt F) → (⟨S1, .f32⟩ : BufTy).Contents (Elt F)),
    StableHlo.reshape main_v93 main_v94 rfl shapeCasts_S1_S_,
    StableHlo.unary main_v94 main_v95 (broadcastInDim S16384x32 ![] bcast_S_S16384x32 : (⟨S_, .f32⟩ : BufTy).Contents (Elt F) → (⟨S16384x32, .f32⟩ : BufTy).Contents (Elt F)),
    StableHlo.binary main_v95 main_v92 main_v96 (mulf : (⟨S16384x32, .f32⟩ : BufTy).Contents (Elt F) → (⟨S16384x32, .f32⟩ : BufTy).Contents (Elt F) → (⟨S16384x32, .f32⟩ : BufTy).Contents (Elt F)),
    StableHlo.binary main_v83 main_v96 main_v97 (addf : (⟨S16384x32, .f32⟩ : BufTy).Contents (Elt F) → (⟨S16384x32, .f32⟩ : BufTy).Contents (Elt F) → (⟨S16384x32, .f32⟩ : BufTy).Contents (Elt F)),
    StableHlo.unary main_cst_0 main_v98 ((extractStridedSlice S1 ![7] · slices_S9_S1_7) : (⟨S9, .f32⟩ : BufTy).Contents (Elt F) → (⟨S1, .f32⟩ : BufTy).Contents (Elt F)),
    StableHlo.reshape main_v98 main_v99 rfl shapeCasts_S1_S_,
    StableHlo.unary main_v99 main_v100 (broadcastInDim S16384x32 ![] bcast_S_S16384x32 : (⟨S_, .f32⟩ : BufTy).Contents (Elt F) → (⟨S16384x32, .f32⟩ : BufTy).Contents (Elt F)),
    StableHlo.binary main_v100 main_v92 main_v101 (mulf : (⟨S16384x32, .f32⟩ : BufTy).Contents (Elt F) → (⟨S16384x32, .f32⟩ : BufTy).Contents (Elt F) → (⟨S16384x32, .f32⟩ : BufTy).Contents (Elt F)),
    StableHlo.binary main_v88 main_v101 main_v102 (addf : (⟨S16384x32, .f32⟩ : BufTy).Contents (Elt F) → (⟨S16384x32, .f32⟩ : BufTy).Contents (Elt F) → (⟨S16384x32, .f32⟩ : BufTy).Contents (Elt F)) ]

/-- Operations 112 … 126: the recurrence step `T_8 = 2·(L·T_7) − T_6` and the two running sums through `k = 8`. -/
abbrev k8 : List (HloOp τ sig (Elt F)) :=
  [
    StableHlo.binary main_arg1 main_v92 main_v103 ((fun l r => Host.dotGeneral dot_S16384x16384_S16384x32_S16384x32_1_0_0_1_n_n none l r) : (⟨S16384x16384, .f32⟩ : BufTy).Contents (Elt F) → (⟨S16384x32, .f32⟩ : BufTy).Contents (Elt F) → (⟨S16384x32, .f32⟩ : BufTy).Contents (Elt F)),
    StableHlo.nullary main_cst_7 (constant S_ .f32 0x40000000#32),
    StableHlo.unary main_cst_7 main_v104 (broadcastInDim S16384x32 ![] bcast_S_S16384x32 : (⟨S_, .f32⟩ : BufTy).Contents (Elt F) → (⟨S16384x32, .f32⟩ : BufTy).Contents (Elt F)),
    StableHlo.binary main_v104 main_v103 main_v105 (mulf : (⟨S16384x32, .f32⟩ : BufTy).Contents (Elt F) → (⟨S16384x32, .f32⟩ : BufTy).Contents (Elt F) → (⟨S16384x32, .f32⟩ : BufTy).Contents (Elt F)),
    StableHlo.binary main_v105 main_v78 main_v106 (subf : (⟨S16384x32, .f32⟩ : BufTy).Contents (Elt F) → (⟨S16384x32, .f32⟩ : BufTy).Contents (Elt F) → (⟨S16384x32, .f32⟩ : BufTy).Contents (Elt F)),
    StableHlo.unary main_cst main_v107 ((extractStridedSlice S1 ![8] · slices_S9_S1_8) : (⟨S9, .f32⟩ : BufTy).Contents (Elt F) → (⟨S1, .f32⟩ : BufTy).Contents (Elt F)),
    StableHlo.reshape main_v107 main_v108 rfl shapeCasts_S1_S_,
    StableHlo.unary main_v108 main_v109 (broadcastInDim S16384x32 ![] bcast_S_S16384x32 : (⟨S_, .f32⟩ : BufTy).Contents (Elt F) → (⟨S16384x32, .f32⟩ : BufTy).Contents (Elt F)),
    StableHlo.binary main_v109 main_v106 main_v110 (mulf : (⟨S16384x32, .f32⟩ : BufTy).Contents (Elt F) → (⟨S16384x32, .f32⟩ : BufTy).Contents (Elt F) → (⟨S16384x32, .f32⟩ : BufTy).Contents (Elt F)),
    StableHlo.binary main_v97 main_v110 main_v111 (addf : (⟨S16384x32, .f32⟩ : BufTy).Contents (Elt F) → (⟨S16384x32, .f32⟩ : BufTy).Contents (Elt F) → (⟨S16384x32, .f32⟩ : BufTy).Contents (Elt F)),
    StableHlo.unary main_cst_0 main_v112 ((extractStridedSlice S1 ![8] · slices_S9_S1_8) : (⟨S9, .f32⟩ : BufTy).Contents (Elt F) → (⟨S1, .f32⟩ : BufTy).Contents (Elt F)),
    StableHlo.reshape main_v112 main_v113 rfl shapeCasts_S1_S_,
    StableHlo.unary main_v113 main_v114 (broadcastInDim S16384x32 ![] bcast_S_S16384x32 : (⟨S_, .f32⟩ : BufTy).Contents (Elt F) → (⟨S16384x32, .f32⟩ : BufTy).Contents (Elt F)),
    StableHlo.binary main_v114 main_v106 main_v115 (mulf : (⟨S16384x32, .f32⟩ : BufTy).Contents (Elt F) → (⟨S16384x32, .f32⟩ : BufTy).Contents (Elt F) → (⟨S16384x32, .f32⟩ : BufTy).Contents (Elt F)),
    StableHlo.binary main_v102 main_v115 main_v116 (addf : (⟨S16384x32, .f32⟩ : BufTy).Contents (Elt F) → (⟨S16384x32, .f32⟩ : BufTy).Contents (Elt F) → (⟨S16384x32, .f32⟩ : BufTy).Contents (Elt F)) ]

/-- Operations 127 … 146: the tail: `HP = X − HPc`, the two dense layers with their rectifiers, the concatenation and the fusing layer. -/
abbrev tl : List (HloOp τ sig (Elt F)) :=
  [
    StableHlo.binary main_arg0 main_v116 main_v117 (subf : (⟨S16384x32, .f32⟩ : BufTy).Contents (Elt F) → (⟨S16384x32, .f32⟩ : BufTy).Contents (Elt F) → (⟨S16384x32, .f32⟩ : BufTy).Contents (Elt F)),
    StableHlo.binary main_v111 main_arg2 main_v118 ((fun l r => Host.dotGeneral dot_S16384x32_S32x32_S16384x32_1_0_0_1_n_n none l r) : (⟨S16384x32, .f32⟩ : BufTy).Contents (Elt F) → (⟨S32x32, .f32⟩ : BufTy).Contents (Elt F) → (⟨S16384x32, .f32⟩ : BufTy).Contents (Elt F)),
    StableHlo.unary main_arg3 main_v119 (broadcastInDim S1x32 ![1] bcast_S32_S1x32_1 : (⟨S32, .f32⟩ : BufTy).Contents (Elt F) → (⟨S1x32, .f32⟩ : BufTy).Contents (Elt F)),
    StableHlo.unary main_v119 main_v120 (broadcastInDim S16384x32 ![0, 1] bcast_S1x32_S16384x32_0_1 : (⟨S1x32, .f32⟩ : BufTy).Contents (Elt F) → (⟨S16384x32, .f32⟩ : BufTy).Contents (Elt F)),
    StableHlo.binary main_v118 main_v120 main_v121 (addf : (⟨S16384x32, .f32⟩ : BufTy).Contents (Elt F) → (⟨S16384x32, .f32⟩ : BufTy).Contents (Elt F) → (⟨S16384x32, .f32⟩ : BufTy).Contents (Elt F)),
    StableHlo.TRef.nullary main_call0.cst (constant S_ .f32 0x00000000#32),
    StableHlo.TRef.unary main_call0.cst main_call0.v0 (broadcastInDim S16384x32 ![] bcast_S_S16384x32),
    StableHlo.TRef.binary (.of main_v121) main_call0.v0 main_call0.v1 maximumf,
    StableHlo.binary main_v117 main_arg4 main_v123 ((fun l r => Host.dotGeneral dot_S16384x32_S32x32_S16384x32_1_0_0_1_n_n none l r) : (⟨S16384x32, .f32⟩ : BufTy).Contents (Elt F) → (⟨S32x32, .f32⟩ : BufTy).Contents (Elt F) → (⟨S16384x32, .f32⟩ : BufTy).Contents (Elt F)),
    StableHlo.unary main_arg5 main_v124 (broadcastInDim S1x32 ![1] bcast_S32_S1x32_1 : (⟨S32, .f32⟩ : BufTy).Contents (Elt F) → (⟨S1x32, .f32⟩ : BufTy).Contents (Elt F)),
    StableHlo.unary main_v124 main_v125 (broadcastInDim S16384x32 ![0, 1] bcast_S1x32_S16384x32_0_1 : (⟨S1x32, .f32⟩ : BufTy).Contents (Elt F) → (⟨S16384x32, .f32⟩ : BufTy).Contents (Elt F)),
    StableHlo.binary main_v123 main_v125 main_v126 (addf : (⟨S16384x32, .f32⟩ : BufTy).Contents (Elt F) → (⟨S16384x32, .f32⟩ : BufTy).Contents (Elt F) → (⟨S16384x32, .f32⟩ : BufTy).Contents (Elt F)),
    StableHlo.TRef.nullary main_call1.cst (constant S_ .f32 0x00000000#32),
    StableHlo.TRef.unary main_call1.cst main_call1.v0 (broadcastInDim S16384x32 ![] bcast_S_S16384x32),
    StableHlo.TRef.binary (.of main_v126) main_call1.v0 main_call1.v1 maximumf,
    StableHlo.nary ![main_v122, main_v127, main_arg0] main_v128 (fun u => concatenate S16384x96 1 [⟨S16384x32, u 0⟩, ⟨S16384x32, u 1⟩, ⟨S16384x32, u 2⟩] concatenates_S16384x32_S16384x32_S16384x32_S16384x96_d1),
    StableHlo.binary main_v128 main_arg6 main_v129 ((fun l r => Host.dotGeneral dot_S16384x96_S96x32_S16384x32_1_0_0_1_n_n none l r) : (⟨S16384x96, .f32⟩ : BufTy).Contents (Elt F) → (⟨S96x32, .f32⟩ : BufTy).Contents (Elt F) → (⟨S16384x32, .f32⟩ : BufTy).Contents (Elt F)),
    StableHlo.unary main_arg7 main_v130 (broadcastInDim S1x32 ![1] bcast_S32_S1x32_1 : (⟨S32, .f32⟩ : BufTy).Contents (Elt F) → (⟨S1x32, .f32⟩ : BufTy).Contents (Elt F)),
    StableHlo.unary main_v130 main_v131 (broadcastInDim S16384x32 ![0, 1] bcast_S1x32_S16384x32_0_1 : (⟨S1x32, .f32⟩ : BufTy).Contents (Elt F) → (⟨S16384x32, .f32⟩ : BufTy).Contents (Elt F)),
    StableHlo.binary main_v129 main_v131 main_v132 (addf : (⟨S16384x32, .f32⟩ : BufTy).Contents (Elt F) → (⟨S16384x32, .f32⟩ : BufTy).Contents (Elt F) → (⟨S16384x32, .f32⟩ : BufTy).Contents (Elt F)) ]

/-- @main's operations in order (each call of the rectifier inlined as its three operations). -/
abbrev ops : List (HloOp τ sig (Elt F)) := s1 ++ k2 ++ k3 ++ k4 ++ k5 ++ k6 ++ k7 ++ k8 ++ tl

/-! ## @main is that straight line

Each printed window of @main is the line of the corresponding sixty operations (the last window: the remaining
twenty-six, the rectifier's body unfolded at its two calls); sequencing the three is the line of their concatenation. -/

set_option maxRecDepth 16384 in
theorem part0_eq (c : Dev nD) : main_part0 (F := F) c = seq ((ops (F := F)).take 60) := rfl
set_option maxRecDepth 16384 in
theorem part1_eq (c : Dev nD) : main_part1 (F := F) c = seq (((ops (F := F)).drop 60).take 60) := rfl
set_option maxRecDepth 16384 in
theorem part2_eq (c : Dev nD) : main_part2 (F := F) c = seq (((ops (F := F)).drop 60).drop 60) := rfl

theorem main_eq (c : Dev nD) : main (F := F) c = seq ops := by
  have h : (ops (F := F)) = (ops (F := F)).take 60 ++ (((ops (F := F)).drop 60).take 60 ++ ((ops (F := F)).drop 60).drop 60) := by
    rw [List.take_append_drop, List.take_append_drop]
  conv_rhs => rw [h]
  rw [seq_append, seq_append, ← part0_eq c, ← part1_eq c, ← part2_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

private theorem forall_append {α : Type} {p : α → Prop} {l₁ l₂ : List α} (h₁ : l₁.Forall p) (h₂ : l₂.Forall p) :
    (l₁ ++ l₂).Forall p :=
  List.forall_iff_forall_mem.2 fun a ha =>
    (List.mem_append.1 ha).elim (List.forall_iff_forall_mem.1 h₁ a) (List.forall_iff_forall_mem.1 h₂ a)

/-- Every buffer an operation of the line writes, in order. -/
abbrev written : List (Ref sig .tc) :=
  [ main_cst, main_cst_0, main_v0, main_v1, main_v2, main_v3, main_v4, main_v5, main_v6, main_v7, main_v8, main_v9,
    main_v10, main_v11, main_v12, main_v13, main_v14, main_v15, main_v16, main_v17, main_v18, main_v19, main_cst_1, main_v20,
    main_v21, main_v22, main_v23, main_v24, main_v25, main_v26, main_v27, main_v28, main_v29, main_v30, main_v31, main_v32,
    main_v33, main_cst_2, main_v34, main_v35, main_v36, main_v37, main_v38, main_v39, main_v40, main_v41, main_v42, main_v43,
    main_v44, main_v45, main_v46, main_v47, main_cst_3, main_v48, main_v49, main_v50, main_v51, main_v52, main_v53, main_v54,
    main_v55, main_v56, main_v57, main_v58, main_v59, main_v60, main_v61, main_cst_4, main_v62, main_v63, main_v64, main_v65,
    main_v66, main_v67, main_v68, main_v69, main_v70, main_v71, main_v72, main_v73, main_v74, main_v75, main_cst_5, main_v76,
    main_v77, main_v78, main_v79, main_v80, main_v81, main_v82, main_v83, main_v84, main_v85, main_v86, main_v87, main_v88,
    main_v89, main_cst_6, main_v90, main_v91, main_v92, main_v93, main_v94, main_v95, main_v96, main_v97, main_v98, main_v99,
    main_v100, main_v101, main_v102, main_v103, main_cst_7, main_v104, main_v105, main_v106, main_v107, main_v108, main_v109, main_v110,
    main_v111, main_v112, main_v113, main_v114, main_v115, main_v116, main_v117, main_v118, main_v119, main_v120, main_v121, main_call0_cst,
    main_call0_v0, main_v122, main_v123, main_v124, main_v125, main_v126, main_call1_cst, main_call1_v0, main_v127, main_v128, main_v129, main_v130,
    main_v131, main_v132 ]

private theorem wr {op : HloOp τ sig (Elt F)} {y : Ref sig .tc} (hw : op.writes = {Proc.devRef .tc y}) (hy : y ∈ written) :
    op.writes ⊆ ((written.map (Proc.devRef (τ := τ) .tc)).toFinset : Finset (DevRef τ sig)) := by
  rw [hw]; exact Finset.singleton_subset_iff.2 (List.mem_toFinset.2 (List.mem_map_of_mem hy))

theorem s1_sub : (s1 : List (HloOp τ sig (Elt F))).Forall fun op => op.bufs ⊆ tcRefs τ sig :=
  ⟨nullary_bufs_sub .., nullary_bufs_sub .., binary_bufs_sub .., unary_bufs_sub .., reshape_bufs_sub .., unary_bufs_sub ..,
    binary_bufs_sub .., unary_bufs_sub .., reshape_bufs_sub .., unary_bufs_sub .., binary_bufs_sub .., binary_bufs_sub ..,
    unary_bufs_sub .., reshape_bufs_sub .., unary_bufs_sub .., binary_bufs_sub .., unary_bufs_sub .., reshape_bufs_sub ..,
    unary_bufs_sub .., binary_bufs_sub .., binary_bufs_sub ..⟩
theorem s1_fresh : (s1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem s1_writes : (s1 : List (HloOp τ sig (Elt F))).Forall fun op => op.writes ⊆ ((written.map (Proc.devRef (τ := τ) .tc)).toFinset : Finset (DevRef τ sig)) :=
  ⟨wr (y := main_cst) rfl (by decide), wr (y := main_cst_0) rfl (by decide), wr (y := main_v0) rfl (by decide),
    wr (y := main_v1) rfl (by decide), wr (y := main_v2) rfl (by decide), wr (y := main_v3) rfl (by decide),
    wr (y := main_v4) rfl (by decide), wr (y := main_v5) rfl (by decide), wr (y := main_v6) rfl (by decide),
    wr (y := main_v7) rfl (by decide), wr (y := main_v8) rfl (by decide), wr (y := main_v9) rfl (by decide),
    wr (y := main_v10) rfl (by decide), wr (y := main_v11) rfl (by decide), wr (y := main_v12) rfl (by decide),
    wr (y := main_v13) rfl (by decide), wr (y := main_v14) rfl (by decide), wr (y := main_v15) rfl (by decide),
    wr (y := main_v16) rfl (by decide), wr (y := main_v17) rfl (by decide), wr (y := main_v18) rfl (by decide)⟩

theorem k2_sub : (k2 : List (HloOp τ sig (Elt F))).Forall fun op => op.bufs ⊆ tcRefs τ sig :=
  ⟨binary_bufs_sub .., nullary_bufs_sub .., unary_bufs_sub .., binary_bufs_sub .., binary_bufs_sub .., unary_bufs_sub ..,
    reshape_bufs_sub .., unary_bufs_sub .., binary_bufs_sub .., binary_bufs_sub .., unary_bufs_sub .., reshape_bufs_sub ..,
    unary_bufs_sub .., binary_bufs_sub .., binary_bufs_sub ..⟩
theorem k2_fresh : (k2 : List (HloOp τ sig (Elt F))).Forall fun op => op.fresh = ∅ :=
  ⟨rfl, rfl, rfl, rfl, rfl, rfl, rfl, rfl, rfl, rfl, rfl, rfl, rfl, rfl, rfl⟩
theorem k2_writes : (k2 : List (HloOp τ sig (Elt F))).Forall fun op => op.writes ⊆ ((written.map (Proc.devRef (τ := τ) .tc)).toFinset : Finset (DevRef τ sig)) :=
  ⟨wr (y := main_v19) rfl (by decide), wr (y := main_cst_1) rfl (by decide), wr (y := main_v20) rfl (by decide),
    wr (y := main_v21) rfl (by decide), wr (y := main_v22) rfl (by decide), wr (y := main_v23) rfl (by decide),
    wr (y := main_v24) rfl (by decide), wr (y := main_v25) rfl (by decide), wr (y := main_v26) rfl (by decide),
    wr (y := main_v27) rfl (by decide), wr (y := main_v28) rfl (by decide), wr (y := main_v29) rfl (by decide),
    wr (y := main_v30) rfl (by decide), wr (y := main_v31) rfl (by decide), wr (y := main_v32) rfl (by decide)⟩

theorem k3_sub : (k3 : List (HloOp τ sig (Elt F))).Forall fun op => op.bufs ⊆ tcRefs τ sig :=
  ⟨binary_bufs_sub .., nullary_bufs_sub .., unary_bufs_sub .., binary_bufs_sub .., binary_bufs_sub .., unary_bufs_sub ..,
    reshape_bufs_sub .., unary_bufs_sub .., binary_bufs_sub .., binary_bufs_sub .., unary_bufs_sub .., reshape_bufs_sub ..,
    unary_bufs_sub .., binary_bufs_sub .., binary_bufs_sub ..⟩
theorem k3_fresh : (k3 : List (HloOp τ sig (Elt F))).Forall fun op => op.fresh = ∅ :=
  ⟨rfl, rfl, rfl, rfl, rfl, rfl, rfl, rfl, rfl, rfl, rfl, rfl, rfl, rfl, rfl⟩
theorem k3_writes : (k3 : List (HloOp τ sig (Elt F))).Forall fun op => op.writes ⊆ ((written.map (Proc.devRef (τ := τ) .tc)).toFinset : Finset (DevRef τ sig)) :=
  ⟨wr (y := main_v33) rfl (by decide), wr (y := main_cst_2) rfl (by decide), wr (y := main_v34) rfl (by decide),
    wr (y := main_v35) rfl (by decide), wr (y := main_v36) rfl (by decide), wr (y := main_v37) rfl (by decide),
    wr (y := main_v38) rfl (by decide), wr (y := main_v39) rfl (by decide), wr (y := main_v40) rfl (by decide),
    wr (y := main_v41) rfl (by decide), wr (y := main_v42) rfl (by decide), wr (y := main_v43) rfl (by decide),
    wr (y := main_v44) rfl (by decide), wr (y := main_v45) rfl (by decide), wr (y := main_v46) rfl (by decide)⟩

theorem k4_sub : (k4 : List (HloOp τ sig (Elt F))).Forall fun op => op.bufs ⊆ tcRefs τ sig :=
  ⟨binary_bufs_sub .., nullary_bufs_sub .., unary_bufs_sub .., binary_bufs_sub .., binary_bufs_sub .., unary_bufs_sub ..,
    reshape_bufs_sub .., unary_bufs_sub .., binary_bufs_sub .., binary_bufs_sub .., unary_bufs_sub .., reshape_bufs_sub ..,
    unary_bufs_sub .., binary_bufs_sub .., binary_bufs_sub ..⟩
theorem k4_fresh : (k4 : List (HloOp τ sig (Elt F))).Forall fun op => op.fresh = ∅ :=
  ⟨rfl, rfl, rfl, rfl, rfl, rfl, rfl, rfl, rfl, rfl, rfl, rfl, rfl, rfl, rfl⟩
theorem k4_writes : (k4 : List (HloOp τ sig (Elt F))).Forall fun op => op.writes ⊆ ((written.map (Proc.devRef (τ := τ) .tc)).toFinset : Finset (DevRef τ sig)) :=
  ⟨wr (y := main_v47) rfl (by decide), wr (y := main_cst_3) rfl (by decide), wr (y := main_v48) rfl (by decide),
    wr (y := main_v49) rfl (by decide), wr (y := main_v50) rfl (by decide), wr (y := main_v51) rfl (by decide),
    wr (y := main_v52) rfl (by decide), wr (y := main_v53) rfl (by decide), wr (y := main_v54) rfl (by decide),
    wr (y := main_v55) rfl (by decide), wr (y := main_v56) rfl (by decide), wr (y := main_v57) rfl (by decide),
    wr (y := main_v58) rfl (by decide), wr (y := main_v59) rfl (by decide), wr (y := main_v60) rfl (by decide)⟩

theorem k5_sub : (k5 : List (HloOp τ sig (Elt F))).Forall fun op => op.bufs ⊆ tcRefs τ sig :=
  ⟨binary_bufs_sub .., nullary_bufs_sub .., unary_bufs_sub .., binary_bufs_sub .., binary_bufs_sub .., unary_bufs_sub ..,
    reshape_bufs_sub .., unary_bufs_sub .., binary_bufs_sub .., binary_bufs_sub .., unary_bufs_sub .., reshape_bufs_sub ..,
    unary_bufs_sub .., binary_bufs_sub .., binary_bufs_sub ..⟩
theorem k5_fresh : (k5 : List (HloOp τ sig (Elt F))).Forall fun op => op.fresh = ∅ :=
  ⟨rfl, rfl, rfl, rfl, rfl, rfl, rfl, rfl, rfl, rfl, rfl, rfl, rfl, rfl, rfl⟩
theorem k5_writes : (k5 : List (HloOp τ sig (Elt F))).Forall fun op => op.writes ⊆ ((written.map (Proc.devRef (τ := τ) .tc)).toFinset : Finset (DevRef τ sig)) :=
  ⟨wr (y := main_v61) rfl (by decide), wr (y := main_cst_4) rfl (by decide), wr (y := main_v62) rfl (by decide),
    wr (y := main_v63) rfl (by decide), wr (y := main_v64) rfl (by decide), wr (y := main_v65) rfl (by decide),
    wr (y := main_v66) rfl (by decide), wr (y := main_v67) rfl (by decide), wr (y := main_v68) rfl (by decide),
    wr (y := main_v69) rfl (by decide), wr (y := main_v70) rfl (by decide), wr (y := main_v71) rfl (by decide),
    wr (y := main_v72) rfl (by decide), wr (y := main_v73) rfl (by decide), wr (y := main_v74) rfl (by decide)⟩

theorem k6_sub : (k6 : List (HloOp τ sig (Elt F))).Forall fun op => op.bufs ⊆ tcRefs τ sig :=
  ⟨binary_bufs_sub .., nullary_bufs_sub .., unary_bufs_sub .., binary_bufs_sub .., binary_bufs_sub .., unary_bufs_sub ..,
    reshape_bufs_sub .., unary_bufs_sub .., binary_bufs_sub .., binary_bufs_sub .., unary_bufs_sub .., reshape_bufs_sub ..,
    unary_bufs_sub .., binary_bufs_sub .., binary_bufs_sub ..⟩
theorem k6_fresh : (k6 : List (HloOp τ sig (Elt F))).Forall fun op => op.fresh = ∅ :=
  ⟨rfl, rfl, rfl, rfl, rfl, rfl, rfl, rfl, rfl, rfl, rfl, rfl, rfl, rfl, rfl⟩
theorem k6_writes : (k6 : List (HloOp τ sig (Elt F))).Forall fun op => op.writes ⊆ ((written.map (Proc.devRef (τ := τ) .tc)).toFinset : Finset (DevRef τ sig)) :=
  ⟨wr (y := main_v75) rfl (by decide), wr (y := main_cst_5) rfl (by decide), wr (y := main_v76) rfl (by decide),
    wr (y := main_v77) rfl (by decide), wr (y := main_v78) rfl (by decide), wr (y := main_v79) rfl (by decide),
    wr (y := main_v80) rfl (by decide), wr (y := main_v81) rfl (by decide), wr (y := main_v82) rfl (by decide),
    wr (y := main_v83) rfl (by decide), wr (y := main_v84) rfl (by decide), wr (y := main_v85) rfl (by decide),
    wr (y := main_v86) rfl (by decide), wr (y := main_v87) rfl (by decide), wr (y := main_v88) rfl (by decide)⟩

theorem k7_sub : (k7 : List (HloOp τ sig (Elt F))).Forall fun op => op.bufs ⊆ tcRefs τ sig :=
  ⟨binary_bufs_sub .., nullary_bufs_sub .., unary_bufs_sub .., binary_bufs_sub .., binary_bufs_sub .., unary_bufs_sub ..,
    reshape_bufs_sub .., unary_bufs_sub .., binary_bufs_sub .., binary_bufs_sub .., unary_bufs_sub .., reshape_bufs_sub ..,
    unary_bufs_sub .., binary_bufs_sub .., binary_bufs_sub ..⟩
theorem k7_fresh : (k7 : List (HloOp τ sig (Elt F))).Forall fun op => op.fresh = ∅ :=
  ⟨rfl, rfl, rfl, rfl, rfl, rfl, rfl, rfl, rfl, rfl, rfl, rfl, rfl, rfl, rfl⟩
theorem k7_writes : (k7 : List (HloOp τ sig (Elt F))).Forall fun op => op.writes ⊆ ((written.map (Proc.devRef (τ := τ) .tc)).toFinset : Finset (DevRef τ sig)) :=
  ⟨wr (y := main_v89) rfl (by decide), wr (y := main_cst_6) rfl (by decide), wr (y := main_v90) rfl (by decide),
    wr (y := main_v91) rfl (by decide), wr (y := main_v92) rfl (by decide), wr (y := main_v93) rfl (by decide),
    wr (y := main_v94) rfl (by decide), wr (y := main_v95) rfl (by decide), wr (y := main_v96) rfl (by decide),
    wr (y := main_v97) rfl (by decide), wr (y := main_v98) rfl (by decide), wr (y := main_v99) rfl (by decide),
    wr (y := main_v100) rfl (by decide), wr (y := main_v101) rfl (by decide), wr (y := main_v102) rfl (by decide)⟩

theorem k8_sub : (k8 : List (HloOp τ sig (Elt F))).Forall fun op => op.bufs ⊆ tcRefs τ sig :=
  ⟨binary_bufs_sub .., nullary_bufs_sub .., unary_bufs_sub .., binary_bufs_sub .., binary_bufs_sub .., unary_bufs_sub ..,
    reshape_bufs_sub .., unary_bufs_sub .., binary_bufs_sub .., binary_bufs_sub .., unary_bufs_sub .., reshape_bufs_sub ..,
    unary_bufs_sub .., binary_bufs_sub .., binary_bufs_sub ..⟩
theorem k8_fresh : (k8 : List (HloOp τ sig (Elt F))).Forall fun op => op.fresh = ∅ :=
  ⟨rfl, rfl, rfl, rfl, rfl, rfl, rfl, rfl, rfl, rfl, rfl, rfl, rfl, rfl, rfl⟩
theorem k8_writes : (k8 : List (HloOp τ sig (Elt F))).Forall fun op => op.writes ⊆ ((written.map (Proc.devRef (τ := τ) .tc)).toFinset : Finset (DevRef τ sig)) :=
  ⟨wr (y := main_v103) rfl (by decide), wr (y := main_cst_7) rfl (by decide), wr (y := main_v104) rfl (by decide),
    wr (y := main_v105) rfl (by decide), wr (y := main_v106) rfl (by decide), wr (y := main_v107) rfl (by decide),
    wr (y := main_v108) rfl (by decide), wr (y := main_v109) rfl (by decide), wr (y := main_v110) rfl (by decide),
    wr (y := main_v111) rfl (by decide), wr (y := main_v112) rfl (by decide), wr (y := main_v113) rfl (by decide),
    wr (y := main_v114) rfl (by decide), wr (y := main_v115) rfl (by decide), wr (y := main_v116) rfl (by decide)⟩

theorem tl_sub : (tl : List (HloOp τ sig (Elt F))).Forall fun op => op.bufs ⊆ tcRefs τ sig :=
  ⟨binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., nary_bufs_sub .., binary_bufs_sub .., unary_bufs_sub ..,
    unary_bufs_sub .., binary_bufs_sub ..⟩
theorem tl_fresh : (tl : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem tl_writes : (tl : List (HloOp τ sig (Elt F))).Forall fun op => op.writes ⊆ ((written.map (Proc.devRef (τ := τ) .tc)).toFinset : Finset (DevRef τ sig)) :=
  ⟨wr (y := main_v117) rfl (by decide), wr (y := main_v118) rfl (by decide), wr (y := main_v119) rfl (by decide),
    wr (y := main_v120) rfl (by decide), wr (y := main_v121) rfl (by decide), wr (y := main_call0_cst) rfl (by decide),
    wr (y := main_call0_v0) rfl (by decide), wr (y := main_v122) rfl (by decide), wr (y := main_v123) rfl (by decide),
    wr (y := main_v124) rfl (by decide), wr (y := main_v125) rfl (by decide), wr (y := main_v126) rfl (by decide),
    wr (y := main_call1_cst) rfl (by decide), wr (y := main_call1_v0) rfl (by decide), wr (y := main_v127) rfl (by decide),
    wr (y := main_v128) rfl (by decide), wr (y := main_v129) rfl (by decide), wr (y := main_v130) rfl (by decide),
    wr (y := main_v131) rfl (by decide), wr (y := main_v132) rfl (by decide)⟩

theorem ops_sub : (ops : List (HloOp τ sig (Elt F))).Forall fun op => op.bufs ⊆ tcRefs τ sig :=
  forall_append (forall_append (forall_append (forall_append (forall_append (forall_append (forall_append (forall_append (s1_sub) k2_sub) k3_sub) k4_sub) k5_sub) k6_sub) k7_sub) k8_sub) tl_sub
theorem ops_fresh : (ops : List (HloOp τ sig (Elt F))).Forall fun op => op.fresh = ∅ :=
  forall_append (forall_append (forall_append (forall_append (forall_append (forall_append (forall_append (forall_append (s1_fresh) k2_fresh) k3_fresh) k4_fresh) k5_fresh) k6_fresh) k7_fresh) k8_fresh) tl_fresh
theorem ops_writes : (ops : List (HloOp τ sig (Elt F))).Forall fun op => op.writes ⊆ ((written.map (Proc.devRef (τ := τ) .tc)).toFinset : Finset (DevRef τ sig)) :=
  forall_append (forall_append (forall_append (forall_append (forall_append (forall_append (forall_append (forall_append (s1_writes) k2_writes) k3_writes) k4_writes) k5_writes) k6_writes) k7_writes) k8_writes) tl_writes

/-- A buffer the line does not write keeps its contents. -/
theorem after_unwritten (V : Valuation τ sig (Elt F)) {r : Ref sig .tc} (hr : r ∉ written) :
    after ops V (Proc.devRef .tc r) = V (Proc.devRef .tc r) :=
  after_of_writes_sub ops V ops_writes hr

/-! ## The run -/

/-- On every device, for any float values, from any memory with zero counters: every weakly fair execution of @main
    terminates with the result buffer at the operations' fold over the launch contents and the eight arguments
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v132) = after ops (fun b => m (c, b)) (Proc.devRef .tc main_v132)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨h c main_v132,
      (h c main_arg0).trans (after_unwritten _ (by decide)), (h c main_arg1).trans (after_unwritten _ (by decide)),
      (h c main_arg2).trans (after_unwritten _ (by decide)), (h c main_arg3).trans (after_unwritten _ (by decide)),
      (h c main_arg4).trans (after_unwritten _ (by decide)), (h c main_arg5).trans (after_unwritten _ (by decide)),
      (h c main_arg6).trans (after_unwritten _ (by decide)), (h c main_arg7).trans (after_unwritten _ (by decide))⟩)
    (run_seq scopedRefs_eq scopedSems_eq defs main (fun _ => ops) main_eq (fun _ => ops_sub) m ρ
      (fun _ => List.forall_iff_forall_mem.1 ops_fresh))

end Cert.ReferenceIdeal.Hand

end
-- ==== Proof.ReferenceIdeal.Value.lean ====
import proofs.«117973_j38328288150260_2_alg».proof.Proof.ReferenceIdeal.Run
import proofs.«117973_j38328288150260_2_alg».proof.Proof.Spec

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec

/-! ## Reading the fold stretch by stretch -/

/-- The fold over two lines in a row. -/
private theorem after_append : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_append l₁ l₂]

/-- The two coefficient tables as the host holds them: entry `i` is the float with the `i`-th bit pattern. -/
abbrev tab0 : FVec Ideal S9 .f32 := fun i => FloatOps.ofBits .f32 (lit0 (S9.rowMajor i))
abbrev tab1 : FVec Ideal S9 .f32 := fun i => FloatOps.ofBits .f32 (lit1 (S9.rowMajor i))

/-- The row-major position of the one-axis index `k + z`, `z` the only index of a one-element axis, is `k`. -/
private theorem rowMajor_slice (k : ℕ) (hk : k < 9) (hs : S9.Slices ![k] S1) (z : S1.Idx) :
    S9.rowMajor (fun a => ⟨![k] a + (z (a.cast hs.1.symm)).val,
        Nat.lt_of_lt_of_le (Nat.add_lt_add_left (z _).isLt _) (hs.2 a)⟩) = Fin.ofNat 9 k := by
  apply Fin.ext
  have hz : (z 0).val = 0 := Nat.lt_one_iff.1 (z 0).isLt
  show (k + (z 0).val) * 1 + 0 = k % 9
  rw [Nat.mod_eq_of_lt hk, hz]; omega

/-- A table entry read by a one-element slice at `k`, reshaped to a scalar and broadcast, is the scalar with the
    `k`-th bit pattern at every entry: at every index both sides are the float with that pattern. -/
theorem coef_read (tab : Fin 9 → BitVec 32) (k : ℕ) (hk : k < 9) (hs : S9.Slices ![k] S1) :
    broadcastInDim S16384x32 ![] bcast_S_S16384x32
        (fun i => shapeCast S_ (extractStridedSlice S1 ![k] (fun i => (FloatOps.ofBits .f32 (tab (S9.rowMajor i)) : Ideal .f32)) hs)
          shapeCasts_S1_S_ i)
      = coef (tab (Fin.ofNat 9 k)) := by
  funext j
  simp only [coef, broadcastInDim, shapeCast, extractStridedSlice, constant]
  rw [rowMajor_slice k hk hs]

/-- A three-operand operation's result with each operand's contents at its own buffer. -/
private theorem nary3_result' {x a b y : Ref sig .tc}
    (f : ((k : Fin 3) → ((![x, a, b] : Fin 3 → Ref sig .tc) k).ty.Contents (Elt Ideal)) → y.ty.Contents (Elt Ideal)) (hxs hy)
    (V : Valuation τ sig (Elt Ideal)) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [nary_result]; congr 1; funext k; fin_cases k <;> rfl

/-- What every stage of the fold keeps: the eight arguments and the two coefficient tables. -/
structure Base (W : Valuation τ sig (Elt Ideal)) (X : Arr) (L : Op) (Wlp : Wt) (blp : Bias) (Whp : Wt) (bhp : Bias) (Wf : Wt3) (bf : Bias) : Prop where
  a0 : W (Proc.devRef .tc main_arg0) = X
  a1 : W (Proc.devRef .tc main_arg1) = L
  a2 : W (Proc.devRef .tc main_arg2) = Wlp
  a3 : W (Proc.devRef .tc main_arg3) = blp
  a4 : W (Proc.devRef .tc main_arg4) = Whp
  a5 : W (Proc.devRef .tc main_arg5) = bhp
  a6 : W (Proc.devRef .tc main_arg6) = Wf
  a7 : W (Proc.devRef .tc main_arg7) = bf
  c0 : W (Proc.devRef .tc main_cst) = tab0
  c1 : W (Proc.devRef .tc main_cst_0) = tab1

set_option maxHeartbeats 1000000 in
/-- The start: from the launch contents the first stretch leaves the two tables, `T 1 = L · X` and the two running sums
    through `1`, and keeps the arguments. -/
theorem s1_spec (V : Valuation τ sig (Elt Ideal)) (X : Arr) (L : Op) (Wlp : Wt) (blp : Bias) (Whp : Wt) (bhp : Bias) (Wf : Wt3) (bf : Bias)
    (h0 : V (Proc.devRef .tc main_arg0) = X)
    (h1 : V (Proc.devRef .tc main_arg1) = L)
    (h2 : V (Proc.devRef .tc main_arg2) = Wlp)
    (h3 : V (Proc.devRef .tc main_arg3) = blp)
    (h4 : V (Proc.devRef .tc main_arg4) = Whp)
    (h5 : V (Proc.devRef .tc main_arg5) = bhp)
    (h6 : V (Proc.devRef .tc main_arg6) = Wf)
    (h7 : V (Proc.devRef .tc main_arg7) = bf) :
    Base (after (s1 (F := Ideal)) V) X L Wlp blp Whp bhp Wf bf
      ∧ after (s1 (F := Ideal)) V (Proc.devRef .tc main_v0) = T L X 1
      ∧ after (s1 (F := Ideal)) V (Proc.devRef .tc main_v9) = acc aLP L X 1
      ∧ after (s1 (F := Ideal)) V (Proc.devRef .tc main_v18) = acc aHP L X 1 := by
  refine ⟨?_, ?_, ?_, ?_⟩
  · exact
    { a0 := (by after_results_simp : after (s1 (F := Ideal)) V (Proc.devRef .tc main_arg0) = V (Proc.devRef .tc main_arg0)).trans h0
      a1 := (by after_results_simp : after (s1 (F := Ideal)) V (Proc.devRef .tc main_arg1) = V (Proc.devRef .tc main_arg1)).trans h1
      a2 := (by after_results_simp : after (s1 (F := Ideal)) V (Proc.devRef .tc main_arg2) = V (Proc.devRef .tc main_arg2)).trans h2
      a3 := (by after_results_simp : after (s1 (F := Ideal)) V (Proc.devRef .tc main_arg3) = V (Proc.devRef .tc main_arg3)).trans h3
      a4 := (by after_results_simp : after (s1 (F := Ideal)) V (Proc.devRef .tc main_arg4) = V (Proc.devRef .tc main_arg4)).trans h4
      a5 := (by after_results_simp : after (s1 (F := Ideal)) V (Proc.devRef .tc main_arg5) = V (Proc.devRef .tc main_arg5)).trans h5
      a6 := (by after_results_simp : after (s1 (F := Ideal)) V (Proc.devRef .tc main_arg6) = V (Proc.devRef .tc main_arg6)).trans h6
      a7 := (by after_results_simp : after (s1 (F := Ideal)) V (Proc.devRef .tc main_arg7) = V (Proc.devRef .tc main_arg7)).trans h7
      c0 := by after_results_simp <;> rfl
      c1 := by after_results_simp <;> rfl }
  · after_results_simp
    rw [h1, h0]
    rfl
  · after_results_simp
    rw [h1, h0]
    exact congr (congrArg addf (congr (congrArg mulf (coef_read lit0 0 (by decide) _)) rfl))
      (congr (congrArg mulf (coef_read lit0 1 (by decide) _)) rfl)
  · after_results_simp
    rw [h1, h0]
    exact congr (congrArg addf (congr (congrArg mulf (coef_read lit1 0 (by decide) _)) rfl))
      (congr (congrArg mulf (coef_read lit1 1 (by decide) _)) rfl)

set_option maxHeartbeats 1000000 in
/-- The recurrence step to `T 2`: from a state holding `T 1`, `T 0` and the running sums through `1`, the stretch
    leaves `T 2` and the running sums through `2`, and keeps `T 1`, the arguments and the tables. -/
theorem k2_spec (W : Valuation τ sig (Elt Ideal)) (X : Arr) (L : Op) (Wlp : Wt) (blp : Bias) (Whp : Wt) (bhp : Bias) (Wf : Wt3) (bf : Bias)
    (hB : Base W X L Wlp blp Whp bhp Wf bf) (hT1 : W (Proc.devRef .tc main_v0) = T L X 1)
    (hLP : W (Proc.devRef .tc main_v9) = acc aLP L X 1) (hHP : W (Proc.devRef .tc main_v18) = acc aHP L X 1) :
    Base (after (k2 (F := Ideal)) W) X L Wlp blp Whp bhp Wf bf
      ∧ after (k2 (F := Ideal)) W (Proc.devRef .tc main_v22) = T L X 2
      ∧ after (k2 (F := Ideal)) W (Proc.devRef .tc main_v0) = T L X 1
      ∧ after (k2 (F := Ideal)) W (Proc.devRef .tc main_v27) = acc aLP L X 2
      ∧ after (k2 (F := Ideal)) W (Proc.devRef .tc main_v32) = acc aHP L X 2 := by
  refine ⟨?_, ?_, ?_, ?_, ?_⟩
  · exact
    { a0 := (by after_results_simp : after (k2 (F := Ideal)) W (Proc.devRef .tc main_arg0) = W (Proc.devRef .tc main_arg0)).trans hB.a0
      a1 := (by after_results_simp : after (k2 (F := Ideal)) W (Proc.devRef .tc main_arg1) = W (Proc.devRef .tc main_arg1)).trans hB.a1
      a2 := (by after_results_simp : after (k2 (F := Ideal)) W (Proc.devRef .tc main_arg2) = W (Proc.devRef .tc main_arg2)).trans hB.a2
      a3 := (by after_results_simp : after (k2 (F := Ideal)) W (Proc.devRef .tc main_arg3) = W (Proc.devRef .tc main_arg3)).trans hB.a3
      a4 := (by after_results_simp : after (k2 (F := Ideal)) W (Proc.devRef .tc main_arg4) = W (Proc.devRef .tc main_arg4)).trans hB.a4
      a5 := (by after_results_simp : after (k2 (F := Ideal)) W (Proc.devRef .tc main_arg5) = W (Proc.devRef .tc main_arg5)).trans hB.a5
      a6 := (by after_results_simp : after (k2 (F := Ideal)) W (Proc.devRef .tc main_arg6) = W (Proc.devRef .tc main_arg6)).trans hB.a6
      a7 := (by after_results_simp : after (k2 (F := Ideal)) W (Proc.devRef .tc main_arg7) = W (Proc.devRef .tc main_arg7)).trans hB.a7
      c0 := (by after_results_simp : after (k2 (F := Ideal)) W (Proc.devRef .tc main_cst) = W (Proc.devRef .tc main_cst)).trans hB.c0
      c1 := (by after_results_simp : after (k2 (F := Ideal)) W (Proc.devRef .tc main_cst_0) = W (Proc.devRef .tc main_cst_0)).trans hB.c1 }
  · after_results_simp
    rw [hB.a1, hT1, hB.a0]
    rfl
  · exact (by after_results_simp : after (k2 (F := Ideal)) W (Proc.devRef .tc main_v0) = W (Proc.devRef .tc main_v0)).trans hT1
  · after_results_simp
    rw [hB.c0, hB.a1, hT1, hB.a0, hLP]
    exact congrArg (addf (acc aLP L X 1)) (congr (congrArg mulf (coef_read lit0 2 (by decide) _)) rfl)
  · after_results_simp
    rw [hB.c1, hB.a1, hT1, hB.a0, hHP]
    exact congrArg (addf (acc aHP L X 1)) (congr (congrArg mulf (coef_read lit1 2 (by decide) _)) rfl)

set_option maxHeartbeats 1000000 in
/-- The recurrence step to `T 3`: from a state holding `T 2`, `T 1` and the running sums through `2`, the stretch
    leaves `T 3` and the running sums through `3`, and keeps `T 2`, the arguments and the tables. -/
theorem k3_spec (W : Valuation τ sig (Elt Ideal)) (X : Arr) (L : Op) (Wlp : Wt) (blp : Bias) (Whp : Wt) (bhp : Bias) (Wf : Wt3) (bf : Bias)
    (hB : Base W X L Wlp blp Whp bhp Wf bf) (hT1 : W (Proc.devRef .tc main_v22) = T L X 2) (hT2 : W (Proc.devRef .tc main_v0) = T L X 1)
    (hLP : W (Proc.devRef .tc main_v27) = acc aLP L X 2) (hHP : W (Proc.devRef .tc main_v32) = acc aHP L X 2) :
    Base (after (k3 (F := Ideal)) W) X L Wlp blp Whp bhp Wf bf
      ∧ after (k3 (F := Ideal)) W (Proc.devRef .tc main_v36) = T L X 3
      ∧ after (k3 (F := Ideal)) W (Proc.devRef .tc main_v22) = T L X 2
      ∧ after (k3 (F := Ideal)) W (Proc.devRef .tc main_v41) = acc aLP L X 3
      ∧ after (k3 (F := Ideal)) W (Proc.devRef .tc main_v46) = acc aHP L X 3 := by
  refine ⟨?_, ?_, ?_, ?_, ?_⟩
  · exact
    { a0 := (by after_results_simp : after (k3 (F := Ideal)) W (Proc.devRef .tc main_arg0) = W (Proc.devRef .tc main_arg0)).trans hB.a0
      a1 := (by after_results_simp : after (k3 (F := Ideal)) W (Proc.devRef .tc main_arg1) = W (Proc.devRef .tc main_arg1)).trans hB.a1
      a2 := (by after_results_simp : after (k3 (F := Ideal)) W (Proc.devRef .tc main_arg2) = W (Proc.devRef .tc main_arg2)).trans hB.a2
      a3 := (by after_results_simp : after (k3 (F := Ideal)) W (Proc.devRef .tc main_arg3) = W (Proc.devRef .tc main_arg3)).trans hB.a3
      a4 := (by after_results_simp : after (k3 (F := Ideal)) W (Proc.devRef .tc main_arg4) = W (Proc.devRef .tc main_arg4)).trans hB.a4
      a5 := (by after_results_simp : after (k3 (F := Ideal)) W (Proc.devRef .tc main_arg5) = W (Proc.devRef .tc main_arg5)).trans hB.a5
      a6 := (by after_results_simp : after (k3 (F := Ideal)) W (Proc.devRef .tc main_arg6) = W (Proc.devRef .tc main_arg6)).trans hB.a6
      a7 := (by after_results_simp : after (k3 (F := Ideal)) W (Proc.devRef .tc main_arg7) = W (Proc.devRef .tc main_arg7)).trans hB.a7
      c0 := (by after_results_simp : after (k3 (F := Ideal)) W (Proc.devRef .tc main_cst) = W (Proc.devRef .tc main_cst)).trans hB.c0
      c1 := (by after_results_simp : after (k3 (F := Ideal)) W (Proc.devRef .tc main_cst_0) = W (Proc.devRef .tc main_cst_0)).trans hB.c1 }
  · after_results_simp
    rw [hB.a1, hT1, hT2]
    rfl
  · exact (by after_results_simp : after (k3 (F := Ideal)) W (Proc.devRef .tc main_v22) = W (Proc.devRef .tc main_v22)).trans hT1
  · after_results_simp
    rw [hB.c0, hB.a1, hT1, hT2, hLP]
    exact congrArg (addf (acc aLP L X 2)) (congr (congrArg mulf (coef_read lit0 3 (by decide) _)) rfl)
  · after_results_simp
    rw [hB.c1, hB.a1, hT1, hT2, hHP]
    exact congrArg (addf (acc aHP L X 2)) (congr (congrArg mulf (coef_read lit1 3 (by decide) _)) rfl)

set_option maxHeartbeats 1000000 in
/-- The recurrence step to `T 4`: from a state holding `T 3`, `T 2` and the running sums through `3`, the stretch
    leaves `T 4` and the running sums through `4`, and keeps `T 3`, the arguments and the tables. -/
theorem k4_spec (W : Valuation τ sig (Elt Ideal)) (X : Arr) (L : Op) (Wlp : Wt) (blp : Bias) (Whp : Wt) (bhp : Bias) (Wf : Wt3) (bf : Bias)
    (hB : Base W X L Wlp blp Whp bhp Wf bf) (hT1 : W (Proc.devRef .tc main_v36) = T L X 3) (hT2 : W (Proc.devRef .tc main_v22) = T L X 2)
    (hLP : W (Proc.devRef .tc main_v41) = acc aLP L X 3) (hHP : W (Proc.devRef .tc main_v46) = acc aHP L X 3) :
    Base (after (k4 (F := Ideal)) W) X L Wlp blp Whp bhp Wf bf
      ∧ after (k4 (F := Ideal)) W (Proc.devRef .tc main_v50) = T L X 4
      ∧ after (k4 (F := Ideal)) W (Proc.devRef .tc main_v36) = T L X 3
      ∧ after (k4 (F := Ideal)) W (Proc.devRef .tc main_v55) = acc aLP L X 4
      ∧ after (k4 (F := Ideal)) W (Proc.devRef .tc main_v60) = acc aHP L X 4 := by
  refine ⟨?_, ?_, ?_, ?_, ?_⟩
  · exact
    { a0 := (by after_results_simp : after (k4 (F := Ideal)) W (Proc.devRef .tc main_arg0) = W (Proc.devRef .tc main_arg0)).trans hB.a0
      a1 := (by after_results_simp : after (k4 (F := Ideal)) W (Proc.devRef .tc main_arg1) = W (Proc.devRef .tc main_arg1)).trans hB.a1
      a2 := (by after_results_simp : after (k4 (F := Ideal)) W (Proc.devRef .tc main_arg2) = W (Proc.devRef .tc main_arg2)).trans hB.a2
      a3 := (by after_results_simp : after (k4 (F := Ideal)) W (Proc.devRef .tc main_arg3) = W (Proc.devRef .tc main_arg3)).trans hB.a3
      a4 := (by after_results_simp : after (k4 (F := Ideal)) W (Proc.devRef .tc main_arg4) = W (Proc.devRef .tc main_arg4)).trans hB.a4
      a5 := (by after_results_simp : after (k4 (F := Ideal)) W (Proc.devRef .tc main_arg5) = W (Proc.devRef .tc main_arg5)).trans hB.a5
      a6 := (by after_results_simp : after (k4 (F := Ideal)) W (Proc.devRef .tc main_arg6) = W (Proc.devRef .tc main_arg6)).trans hB.a6
      a7 := (by after_results_simp : after (k4 (F := Ideal)) W (Proc.devRef .tc main_arg7) = W (Proc.devRef .tc main_arg7)).trans hB.a7
      c0 := (by after_results_simp : after (k4 (F := Ideal)) W (Proc.devRef .tc main_cst) = W (Proc.devRef .tc main_cst)).trans hB.c0
      c1 := (by after_results_simp : after (k4 (F := Ideal)) W (Proc.devRef .tc main_cst_0) = W (Proc.devRef .tc main_cst_0)).trans hB.c1 }
  · after_results_simp
    rw [hB.a1, hT1, hT2]
    rfl
  · exact (by after_results_simp : after (k4 (F := Ideal)) W (Proc.devRef .tc main_v36) = W (Proc.devRef .tc main_v36)).trans hT1
  · after_results_simp
    rw [hB.c0, hB.a1, hT1, hT2, hLP]
    exact congrArg (addf (acc aLP L X 3)) (congr (congrArg mulf (coef_read lit0 4 (by decide) _)) rfl)
  · after_results_simp
    rw [hB.c1, hB.a1, hT1, hT2, hHP]
    exact congrArg (addf (acc aHP L X 3)) (congr (congrArg mulf (coef_read lit1 4 (by decide) _)) rfl)

set_option maxHeartbeats 1000000 in
/-- The recurrence step to `T 5`: from a state holding `T 4`, `T 3` and the running sums through `4`, the stretch
    leaves `T 5` and the running sums through `5`, and keeps `T 4`, the arguments and the tables. -/
theorem k5_spec (W : Valuation τ sig (Elt Ideal)) (X : Arr) (L : Op) (Wlp : Wt) (blp : Bias) (Whp : Wt) (bhp : Bias) (Wf : Wt3) (bf : Bias)
    (hB : Base W X L Wlp blp Whp bhp Wf bf) (hT1 : W (Proc.devRef .tc main_v50) = T L X 4) (hT2 : W (Proc.devRef .tc main_v36) = T L X 3)
    (hLP : W (Proc.devRef .tc main_v55) = acc aLP L X 4) (hHP : W (Proc.devRef .tc main_v60) = acc aHP L X 4) :
    Base (after (k5 (F := Ideal)) W) X L Wlp blp Whp bhp Wf bf
      ∧ after (k5 (F := Ideal)) W (Proc.devRef .tc main_v64) = T L X 5
      ∧ after (k5 (F := Ideal)) W (Proc.devRef .tc main_v50) = T L X 4
      ∧ after (k5 (F := Ideal)) W (Proc.devRef .tc main_v69) = acc aLP L X 5
      ∧ after (k5 (F := Ideal)) W (Proc.devRef .tc main_v74) = acc aHP L X 5 := by
  refine ⟨?_, ?_, ?_, ?_, ?_⟩
  · exact
    { a0 := (by after_results_simp : after (k5 (F := Ideal)) W (Proc.devRef .tc main_arg0) = W (Proc.devRef .tc main_arg0)).trans hB.a0
      a1 := (by after_results_simp : after (k5 (F := Ideal)) W (Proc.devRef .tc main_arg1) = W (Proc.devRef .tc main_arg1)).trans hB.a1
      a2 := (by after_results_simp : after (k5 (F := Ideal)) W (Proc.devRef .tc main_arg2) = W (Proc.devRef .tc main_arg2)).trans hB.a2
      a3 := (by after_results_simp : after (k5 (F := Ideal)) W (Proc.devRef .tc main_arg3) = W (Proc.devRef .tc main_arg3)).trans hB.a3
      a4 := (by after_results_simp : after (k5 (F := Ideal)) W (Proc.devRef .tc main_arg4) = W (Proc.devRef .tc main_arg4)).trans hB.a4
      a5 := (by after_results_simp : after (k5 (F := Ideal)) W (Proc.devRef .tc main_arg5) = W (Proc.devRef .tc main_arg5)).trans hB.a5
      a6 := (by after_results_simp : after (k5 (F := Ideal)) W (Proc.devRef .tc main_arg6) = W (Proc.devRef .tc main_arg6)).trans hB.a6
      a7 := (by after_results_simp : after (k5 (F := Ideal)) W (Proc.devRef .tc main_arg7) = W (Proc.devRef .tc main_arg7)).trans hB.a7
      c0 := (by after_results_simp : after (k5 (F := Ideal)) W (Proc.devRef .tc main_cst) = W (Proc.devRef .tc main_cst)).trans hB.c0
      c1 := (by after_results_simp : after (k5 (F := Ideal)) W (Proc.devRef .tc main_cst_0) = W (Proc.devRef .tc main_cst_0)).trans hB.c1 }
  · after_results_simp
    rw [hB.a1, hT1, hT2]
    rfl
  · exact (by after_results_simp : after (k5 (F := Ideal)) W (Proc.devRef .tc main_v50) = W (Proc.devRef .tc main_v50)).trans hT1
  · after_results_simp
    rw [hB.c0, hB.a1, hT1, hT2, hLP]
    exact congrArg (addf (acc aLP L X 4)) (congr (congrArg mulf (coef_read lit0 5 (by decide) _)) rfl)
  · after_results_simp
    rw [hB.c1, hB.a1, hT1, hT2, hHP]
    exact congrArg (addf (acc aHP L X 4)) (congr (congrArg mulf (coef_read lit1 5 (by decide) _)) rfl)

set_option maxHeartbeats 1000000 in
/-- The recurrence step to `T 6`: from a state holding `T 5`, `T 4` and the running sums through `5`, the stretch
    leaves `T 6` and the running sums through `6`, and keeps `T 5`, the arguments and the tables. -/
theorem k6_spec (W : Valuation τ sig (Elt Ideal)) (X : Arr) (L : Op) (Wlp : Wt) (blp : Bias) (Whp : Wt) (bhp : Bias) (Wf : Wt3) (bf : Bias)
    (hB : Base W X L Wlp blp Whp bhp Wf bf) (hT1 : W (Proc.devRef .tc main_v64) = T L X 5) (hT2 : W (Proc.devRef .tc main_v50) = T L X 4)
    (hLP : W (Proc.devRef .tc main_v69) = acc aLP L X 5) (hHP : W (Proc.devRef .tc main_v74) = acc aHP L X 5) :
    Base (after (k6 (F := Ideal)) W) X L Wlp blp Whp bhp Wf bf
      ∧ after (k6 (F := Ideal)) W (Proc.devRef .tc main_v78) = T L X 6
      ∧ after (k6 (F := Ideal)) W (Proc.devRef .tc main_v64) = T L X 5
      ∧ after (k6 (F := Ideal)) W (Proc.devRef .tc main_v83) = acc aLP L X 6
      ∧ after (k6 (F := Ideal)) W (Proc.devRef .tc main_v88) = acc aHP L X 6 := by
  refine ⟨?_, ?_, ?_, ?_, ?_⟩
  · exact
    { a0 := (by after_results_simp : after (k6 (F := Ideal)) W (Proc.devRef .tc main_arg0) = W (Proc.devRef .tc main_arg0)).trans hB.a0
      a1 := (by after_results_simp : after (k6 (F := Ideal)) W (Proc.devRef .tc main_arg1) = W (Proc.devRef .tc main_arg1)).trans hB.a1
      a2 := (by after_results_simp : after (k6 (F := Ideal)) W (Proc.devRef .tc main_arg2) = W (Proc.devRef .tc main_arg2)).trans hB.a2
      a3 := (by after_results_simp : after (k6 (F := Ideal)) W (Proc.devRef .tc main_arg3) = W (Proc.devRef .tc main_arg3)).trans hB.a3
      a4 := (by after_results_simp : after (k6 (F := Ideal)) W (Proc.devRef .tc main_arg4) = W (Proc.devRef .tc main_arg4)).trans hB.a4
      a5 := (by after_results_simp : after (k6 (F := Ideal)) W (Proc.devRef .tc main_arg5) = W (Proc.devRef .tc main_arg5)).trans hB.a5
      a6 := (by after_results_simp : after (k6 (F := Ideal)) W (Proc.devRef .tc main_arg6) = W (Proc.devRef .tc main_arg6)).trans hB.a6
      a7 := (by after_results_simp : after (k6 (F := Ideal)) W (Proc.devRef .tc main_arg7) = W (Proc.devRef .tc main_arg7)).trans hB.a7
      c0 := (by after_results_simp : after (k6 (F := Ideal)) W (Proc.devRef .tc main_cst) = W (Proc.devRef .tc main_cst)).trans hB.c0
      c1 := (by after_results_simp : after (k6 (F := Ideal)) W (Proc.devRef .tc main_cst_0) = W (Proc.devRef .tc main_cst_0)).trans hB.c1 }
  · after_results_simp
    rw [hB.a1, hT1, hT2]
    rfl
  · exact (by after_results_simp : after (k6 (F := Ideal)) W (Proc.devRef .tc main_v64) = W (Proc.devRef .tc main_v64)).trans hT1
  · after_results_simp
    rw [hB.c0, hB.a1, hT1, hT2, hLP]
    exact congrArg (addf (acc aLP L X 5)) (congr (congrArg mulf (coef_read lit0 6 (by decide) _)) rfl)
  · after_results_simp
    rw [hB.c1, hB.a1, hT1, hT2, hHP]
    exact congrArg (addf (acc aHP L X 5)) (congr (congrArg mulf (coef_read lit1 6 (by decide) _)) rfl)

set_option maxHeartbeats 1000000 in
/-- The recurrence step to `T 7`: from a state holding `T 6`, `T 5` and the running sums through `6`, the stretch
    leaves `T 7` and the running sums through `7`, and keeps `T 6`, the arguments and the tables. -/
theorem k7_spec (W : Valuation τ sig (Elt Ideal)) (X : Arr) (L : Op) (Wlp : Wt) (blp : Bias) (Whp : Wt) (bhp : Bias) (Wf : Wt3) (bf : Bias)
    (hB : Base W X L Wlp blp Whp bhp Wf bf) (hT1 : W (Proc.devRef .tc main_v78) = T L X 6) (hT2 : W (Proc.devRef .tc main_v64) = T L X 5)
    (hLP : W (Proc.devRef .tc main_v83) = acc aLP L X 6) (hHP : W (Proc.devRef .tc main_v88) = acc aHP L X 6) :
    Base (after (k7 (F := Ideal)) W) X L Wlp blp Whp bhp Wf bf
      ∧ after (k7 (F := Ideal)) W (Proc.devRef .tc main_v92) = T L X 7
      ∧ after (k7 (F := Ideal)) W (Proc.devRef .tc main_v78) = T L X 6
      ∧ after (k7 (F := Ideal)) W (Proc.devRef .tc main_v97) = acc aLP L X 7
      ∧ after (k7 (F := Ideal)) W (Proc.devRef .tc main_v102) = acc aHP L X 7 := by
  refine ⟨?_, ?_, ?_, ?_, ?_⟩
  · exact
    { a0 := (by after_results_simp : after (k7 (F := Ideal)) W (Proc.devRef .tc main_arg0) = W (Proc.devRef .tc main_arg0)).trans hB.a0
      a1 := (by after_results_simp : after (k7 (F := Ideal)) W (Proc.devRef .tc main_arg1) = W (Proc.devRef .tc main_arg1)).trans hB.a1
      a2 := (by after_results_simp : after (k7 (F := Ideal)) W (Proc.devRef .tc main_arg2) = W (Proc.devRef .tc main_arg2)).trans hB.a2
      a3 := (by after_results_simp : after (k7 (F := Ideal)) W (Proc.devRef .tc main_arg3) = W (Proc.devRef .tc main_arg3)).trans hB.a3
      a4 := (by after_results_simp : after (k7 (F := Ideal)) W (Proc.devRef .tc main_arg4) = W (Proc.devRef .tc main_arg4)).trans hB.a4
      a5 := (by after_results_simp : after (k7 (F := Ideal)) W (Proc.devRef .tc main_arg5) = W (Proc.devRef .tc main_arg5)).trans hB.a5
      a6 := (by after_results_simp : after (k7 (F := Ideal)) W (Proc.devRef .tc main_arg6) = W (Proc.devRef .tc main_arg6)).trans hB.a6
      a7 := (by after_results_simp : after (k7 (F := Ideal)) W (Proc.devRef .tc main_arg7) = W (Proc.devRef .tc main_arg7)).trans hB.a7
      c0 := (by after_results_simp : after (k7 (F := Ideal)) W (Proc.devRef .tc main_cst) = W (Proc.devRef .tc main_cst)).trans hB.c0
      c1 := (by after_results_simp : after (k7 (F := Ideal)) W (Proc.devRef .tc main_cst_0) = W (Proc.devRef .tc main_cst_0)).trans hB.c1 }
  · after_results_simp
    rw [hB.a1, hT1, hT2]
    rfl
  · exact (by after_results_simp : after (k7 (F := Ideal)) W (Proc.devRef .tc main_v78) = W (Proc.devRef .tc main_v78)).trans hT1
  · after_results_simp
    rw [hB.c0, hB.a1, hT1, hT2, hLP]
    exact congrArg (addf (acc aLP L X 6)) (congr (congrArg mulf (coef_read lit0 7 (by decide) _)) rfl)
  · after_results_simp
    rw [hB.c1, hB.a1, hT1, hT2, hHP]
    exact congrArg (addf (acc aHP L X 6)) (congr (congrArg mulf (coef_read lit1 7 (by decide) _)) rfl)

set_option maxHeartbeats 1000000 in
/-- The recurrence step to `T 8`: from a state holding `T 7`, `T 6` and the running sums through `7`, the stretch
    leaves `T 8` and the running sums through `8`, and keeps `T 7`, the arguments and the tables. -/
theorem k8_spec (W : Valuation τ sig (Elt Ideal)) (X : Arr) (L : Op) (Wlp : Wt) (blp : Bias) (Whp : Wt) (bhp : Bias) (Wf : Wt3) (bf : Bias)
    (hB : Base W X L Wlp blp Whp bhp Wf bf) (hT1 : W (Proc.devRef .tc main_v92) = T L X 7) (hT2 : W (Proc.devRef .tc main_v78) = T L X 6)
    (hLP : W (Proc.devRef .tc main_v97) = acc aLP L X 7) (hHP : W (Proc.devRef .tc main_v102) = acc aHP L X 7) :
    Base (after (k8 (F := Ideal)) W) X L Wlp blp Whp bhp Wf bf
      ∧ after (k8 (F := Ideal)) W (Proc.devRef .tc main_v106) = T L X 8
      ∧ after (k8 (F := Ideal)) W (Proc.devRef .tc main_v92) = T L X 7
      ∧ after (k8 (F := Ideal)) W (Proc.devRef .tc main_v111) = acc aLP L X 8
      ∧ after (k8 (F := Ideal)) W (Proc.devRef .tc main_v116) = acc aHP L X 8 := by
  refine ⟨?_, ?_, ?_, ?_, ?_⟩
  · exact
    { a0 := (by after_results_simp : after (k8 (F := Ideal)) W (Proc.devRef .tc main_arg0) = W (Proc.devRef .tc main_arg0)).trans hB.a0
      a1 := (by after_results_simp : after (k8 (F := Ideal)) W (Proc.devRef .tc main_arg1) = W (Proc.devRef .tc main_arg1)).trans hB.a1
      a2 := (by after_results_simp : after (k8 (F := Ideal)) W (Proc.devRef .tc main_arg2) = W (Proc.devRef .tc main_arg2)).trans hB.a2
      a3 := (by after_results_simp : after (k8 (F := Ideal)) W (Proc.devRef .tc main_arg3) = W (Proc.devRef .tc main_arg3)).trans hB.a3
      a4 := (by after_results_simp : after (k8 (F := Ideal)) W (Proc.devRef .tc main_arg4) = W (Proc.devRef .tc main_arg4)).trans hB.a4
      a5 := (by after_results_simp : after (k8 (F := Ideal)) W (Proc.devRef .tc main_arg5) = W (Proc.devRef .tc main_arg5)).trans hB.a5
      a6 := (by after_results_simp : after (k8 (F := Ideal)) W (Proc.devRef .tc main_arg6) = W (Proc.devRef .tc main_arg6)).trans hB.a6
      a7 := (by after_results_simp : after (k8 (F := Ideal)) W (Proc.devRef .tc main_arg7) = W (Proc.devRef .tc main_arg7)).trans hB.a7
      c0 := (by after_results_simp : after (k8 (F := Ideal)) W (Proc.devRef .tc main_cst) = W (Proc.devRef .tc main_cst)).trans hB.c0
      c1 := (by after_results_simp : after (k8 (F := Ideal)) W (Proc.devRef .tc main_cst_0) = W (Proc.devRef .tc main_cst_0)).trans hB.c1 }
  · after_results_simp
    rw [hB.a1, hT1, hT2]
    rfl
  · exact (by after_results_simp : after (k8 (F := Ideal)) W (Proc.devRef .tc main_v92) = W (Proc.devRef .tc main_v92)).trans hT1
  · after_results_simp
    rw [hB.c0, hB.a1, hT1, hT2, hLP]
    exact congrArg (addf (acc aLP L X 7)) (congr (congrArg mulf (coef_read lit0 8 (by decide) _)) rfl)
  · after_results_simp
    rw [hB.c1, hB.a1, hT1, hT2, hHP]
    exact congrArg (addf (acc aHP L X 7)) (congr (congrArg mulf (coef_read lit1 8 (by decide) _)) rfl)

section
variable {F : FTy → Type} [FloatOps F]

/-- The tail in two halves: the high-pass difference and the two dense layers with their rectifiers; then the
    concatenation and the fusing layer. -/
abbrev tlA : List (HloOp τ sig (Elt F)) :=
  [
    StableHlo.binary main_arg0 main_v116 main_v117 (subf : (⟨S16384x32, .f32⟩ : BufTy).Contents (Elt F) → (⟨S16384x32, .f32⟩ : BufTy).Contents (Elt F) → (⟨S16384x32, .f32⟩ : BufTy).Contents (Elt F)),
    StableHlo.binary main_v111 main_arg2 main_v118 ((fun l r => Host.dotGeneral dot_S16384x32_S32x32_S16384x32_1_0_0_1_n_n none l r) : (⟨S16384x32, .f32⟩ : BufTy).Contents (Elt F) → (⟨S32x32, .f32⟩ : BufTy).Contents (Elt F) → (⟨S16384x32, .f32⟩ : BufTy).Contents (Elt F)),
    StableHlo.unary main_arg3 main_v119 (broadcastInDim S1x32 ![1] bcast_S32_S1x32_1 : (⟨S32, .f32⟩ : BufTy).Contents (Elt F) → (⟨S1x32, .f32⟩ : BufTy).Contents (Elt F)),
    StableHlo.unary main_v119 main_v120 (broadcastInDim S16384x32 ![0, 1] bcast_S1x32_S16384x32_0_1 : (⟨S1x32, .f32⟩ : BufTy).Contents (Elt F) → (⟨S16384x32, .f32⟩ : BufTy).Contents (Elt F)),
    StableHlo.binary main_v118 main_v120 main_v121 (addf : (⟨S16384x32, .f32⟩ : BufTy).Contents (Elt F) → (⟨S16384x32, .f32⟩ : BufTy).Contents (Elt F) → (⟨S16384x32, .f32⟩ : BufTy).Contents (Elt F)),
    StableHlo.TRef.nullary main_call0.cst (constant S_ .f32 0x00000000#32),
    StableHlo.TRef.unary main_call0.cst main_call0.v0 (broadcastInDim S16384x32 ![] bcast_S_S16384x32),
    StableHlo.TRef.binary (.of main_v121) main_call0.v0 main_call0.v1 maximumf,
    StableHlo.binary main_v117 main_arg4 main_v123 ((fun l r => Host.dotGeneral dot_S16384x32_S32x32_S16384x32_1_0_0_1_n_n none l r) : (⟨S16384x32, .f32⟩ : BufTy).Contents (Elt F) → (⟨S32x32, .f32⟩ : BufTy).Contents (Elt F) → (⟨S16384x32, .f32⟩ : BufTy).Contents (Elt F)),
    StableHlo.unary main_arg5 main_v124 (broadcastInDim S1x32 ![1] bcast_S32_S1x32_1 : (⟨S32, .f32⟩ : BufTy).Contents (Elt F) → (⟨S1x32, .f32⟩ : BufTy).Contents (Elt F)),
    StableHlo.unary main_v124 main_v125 (broadcastInDim S16384x32 ![0, 1] bcast_S1x32_S16384x32_0_1 : (⟨S1x32, .f32⟩ : BufTy).Contents (Elt F) → (⟨S16384x32, .f32⟩ : BufTy).Contents (Elt F)),
    StableHlo.binary main_v123 main_v125 main_v126 (addf : (⟨S16384x32, .f32⟩ : BufTy).Contents (Elt F) → (⟨S16384x32, .f32⟩ : BufTy).Contents (Elt F) → (⟨S16384x32, .f32⟩ : BufTy).Contents (Elt F)),
    StableHlo.TRef.nullary main_call1.cst (constant S_ .f32 0x00000000#32),
    StableHlo.TRef.unary main_call1.cst main_call1.v0 (broadcastInDim S16384x32 ![] bcast_S_S16384x32),
    StableHlo.TRef.binary (.of main_v126) main_call1.v0 main_call1.v1 maximumf ]
abbrev tlB : List (HloOp τ sig (Elt F)) :=
  [
    StableHlo.nary ![main_v122, main_v127, main_arg0] main_v128 (fun u => concatenate S16384x96 1 [⟨S16384x32, u 0⟩, ⟨S16384x32, u 1⟩, ⟨S16384x32, u 2⟩] concatenates_S16384x32_S16384x32_S16384x32_S16384x96_d1),
    StableHlo.binary main_v128 main_arg6 main_v129 ((fun l r => Host.dotGeneral dot_S16384x96_S96x32_S16384x32_1_0_0_1_n_n none l r) : (⟨S16384x96, .f32⟩ : BufTy).Contents (Elt F) → (⟨S96x32, .f32⟩ : BufTy).Contents (Elt F) → (⟨S16384x32, .f32⟩ : BufTy).Contents (Elt F)),
    StableHlo.unary main_arg7 main_v130 (broadcastInDim S1x32 ![1] bcast_S32_S1x32_1 : (⟨S32, .f32⟩ : BufTy).Contents (Elt F) → (⟨S1x32, .f32⟩ : BufTy).Contents (Elt F)),
    StableHlo.unary main_v130 main_v131 (broadcastInDim S16384x32 ![0, 1] bcast_S1x32_S16384x32_0_1 : (⟨S1x32, .f32⟩ : BufTy).Contents (Elt F) → (⟨S16384x32, .f32⟩ : BufTy).Contents (Elt F)),
    StableHlo.binary main_v129 main_v131 main_v132 (addf : (⟨S16384x32, .f32⟩ : BufTy).Contents (Elt F) → (⟨S16384x32, .f32⟩ : BufTy).Contents (Elt F) → (⟨S16384x32, .f32⟩ : BufTy).Contents (Elt F)) ]

theorem tl_split : (tl (F := F)) = tlA ++ tlB := rfl

end

set_option maxHeartbeats 1000000 in
/-- The tail: from a state holding the two running sums through `8`, the last stretch leaves the result at the
    tail of the function, read at that state's arguments. -/
theorem tl_spec (W : Valuation τ sig (Elt Ideal)) :
    after (tl (F := Ideal)) W (Proc.devRef .tc main_v132)
      = tail (W (Proc.devRef .tc main_v111)) (W (Proc.devRef .tc main_v116)) (W (Proc.devRef .tc main_arg0)) (W (Proc.devRef .tc main_arg2)) (W (Proc.devRef .tc main_arg3))
          (W (Proc.devRef .tc main_arg4)) (W (Proc.devRef .tc main_arg5)) (W (Proc.devRef .tc main_arg6)) (W (Proc.devRef .tc main_arg7)) := by
  rw [tl_split, after_append]
  have e122 : after (tlA (F := Ideal)) W (Proc.devRef .tc main_v122) = relu (dense (W (Proc.devRef .tc main_v111)) (W (Proc.devRef .tc main_arg2)) (W (Proc.devRef .tc main_arg3))) := by
    after_results_simp
    rfl
  have e127 : after (tlA (F := Ideal)) W (Proc.devRef .tc main_v127)
      = relu (dense (subf (W (Proc.devRef .tc main_arg0)) (W (Proc.devRef .tc main_v116))) (W (Proc.devRef .tc main_arg4)) (W (Proc.devRef .tc main_arg5))) := by
    after_results_simp
    rfl
  have e0 : after (tlA (F := Ideal)) W (Proc.devRef .tc main_arg0) = W (Proc.devRef .tc main_arg0) := by after_results_simp
  have e6 : after (tlA (F := Ideal)) W (Proc.devRef .tc main_arg6) = W (Proc.devRef .tc main_arg6) := by after_results_simp
  have e7 : after (tlA (F := Ideal)) W (Proc.devRef .tc main_arg7) = W (Proc.devRef .tc main_arg7) := by after_results_simp
  generalize after (tlA (F := Ideal)) W = W' at e122 e127 e0 e6 e7 ⊢
  simp (disch := decide) only [after_cons, after_nil, nullary_result', unary_result', binary_result', nary3_result',
    nullary_result_ne', unary_result_ne', binary_result_ne', nary_result_ne']
  rw [e122, e127, e0, e6, e7]
  rfl

/-- The fold at the result buffer is the function of the eight arguments: the stretches in order, each read from the
    state the one before left, the states never opened. -/
theorem value_of (V : Valuation τ sig (Elt Ideal)) :
    after (ops (F := Ideal)) V (Proc.devRef .tc main_v132)
      = out (V (Proc.devRef .tc main_arg0)) (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) := by
  show after (s1 ++ k2 ++ k3 ++ k4 ++ k5 ++ k6 ++ k7 ++ k8 ++ tl) V _ = _
  simp only [after_append]
  obtain ⟨hB1, hT1, hLP1, hHP1⟩ := s1_spec V _ _ _ _ _ _ _ _ rfl rfl rfl rfl rfl rfl rfl rfl
  generalize after (s1 (F := Ideal)) V = W1 at hB1 hT1 hLP1 hHP1 ⊢
  obtain ⟨hB2, hT2, hK2, hLP2, hHP2⟩ := k2_spec W1 _ _ _ _ _ _ _ _ hB1 hT1 hLP1 hHP1
  generalize after (k2 (F := Ideal)) W1 = W2 at hB2 hT2 hK2 hLP2 hHP2 ⊢
  obtain ⟨hB3, hT3, hK3, hLP3, hHP3⟩ := k3_spec W2 _ _ _ _ _ _ _ _ hB2 hT2 hK2 hLP2 hHP2
  generalize after (k3 (F := Ideal)) W2 = W3 at hB3 hT3 hK3 hLP3 hHP3 ⊢
  obtain ⟨hB4, hT4, hK4, hLP4, hHP4⟩ := k4_spec W3 _ _ _ _ _ _ _ _ hB3 hT3 hK3 hLP3 hHP3
  generalize after (k4 (F := Ideal)) W3 = W4 at hB4 hT4 hK4 hLP4 hHP4 ⊢
  obtain ⟨hB5, hT5, hK5, hLP5, hHP5⟩ := k5_spec W4 _ _ _ _ _ _ _ _ hB4 hT4 hK4 hLP4 hHP4
  generalize after (k5 (F := Ideal)) W4 = W5 at hB5 hT5 hK5 hLP5 hHP5 ⊢
  obtain ⟨hB6, hT6, hK6, hLP6, hHP6⟩ := k6_spec W5 _ _ _ _ _ _ _ _ hB5 hT5 hK5 hLP5 hHP5
  generalize after (k6 (F := Ideal)) W5 = W6 at hB6 hT6 hK6 hLP6 hHP6 ⊢
  obtain ⟨hB7, hT7, hK7, hLP7, hHP7⟩ := k7_spec W6 _ _ _ _ _ _ _ _ hB6 hT6 hK6 hLP6 hHP6
  generalize after (k7 (F := Ideal)) W6 = W7 at hB7 hT7 hK7 hLP7 hHP7 ⊢
  obtain ⟨hB8, hT8, hK8, hLP8, hHP8⟩ := k8_spec W7 _ _ _ _ _ _ _ _ hB7 hT7 hK7 hLP7 hHP7
  generalize after (k8 (F := Ideal)) W7 = W8 at hB8 hT8 hK8 hLP8 hHP8 ⊢
  rw [tl_spec W8, hB8.a0, hB8.a2, hB8.a3, hB8.a4, hB8.a5, hB8.a6, hB8.a7, hLP8, hHP8]
  rfl

variable [Cert.ReferenceIdeal.Facts]

/-- The reference's result, read back: on every device the fold of @main's operations over the launch contents is, at
    the result buffer, the function of the eight arguments' launch contents. -/
theorem value (m : (ℓ : Loc nD τ sig) → Buf (Elt Ideal) ℓ) (c : Dev nD) :
    after (ops (F := Ideal)) (fun b => m (c, b)) (Proc.devRef .tc main_v132)
      = Cert.Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  value_of (fun b => m (c, b))

end Cert.ReferenceIdeal.Hand

end
-- ==== Proof.lean ====
/- The five claims about the tiled Chebyshev filter.

   From an [N, N] operator L and an [N, d] signal X (N = 16384, d = 32) both programs compute the Chebyshev terms
   T 0 = X, T 1 = L · X, T (k+2) = 2 · (L · T (k+1)) − T k through k = 8, two running sums of coefficient times term
   (a low-pass and a high-pass table of nine coefficients each), a dense layer with bias and a rectifier on the low-pass
   sum and on X minus the high-pass sum, and one last dense layer of the three blocks [low | high | X] side by side.

   The reference does all of it with whole-array host operations.  The tiled program does the products L · T k on the
   TensorCore: a first region casts L to sixteen bits tile by tile while it forms L · X, each [1024, 32] block of rows
   as the sum of eight [1024, 2048] × [2048, 32] block products added into a zeroed accumulator; seven further regions
   form 2 · (L · T k) − T (k−1), 512 rows at a time, from the cast copy of L; host operations do the rest.

   Frames.  The tiled program is run item by item — its stretches of host operations and its eight regions — from any
   launch memory; every unscoped buffer ends at the contents the last item leaves, and no item writes an argument, so the
   eight arguments end as launched.  That is stated once for any float instance and read at the bit patterns and at the
   extended reals.  The reference is a straight line of host operations that writes no argument.

   Idealization.  The ideal pass rewrote nothing: the claim is `True`.

   Equality over the extended reals.  There a narrowing cast is the identity, a sum over 16384 contracted coordinates is
   the sum over eight blocks of the sums over each block's 2048 coordinates (addition of extended reals is commutative
   and associative, with zero neutral), and a block of rows of a product depends on that block of rows of the left factor
   only.  So every tiled product is the host's whole product of the same operands, every stage of the tiled program is
   the corresponding stage of one function `Cert.Spec.out` of the eight arguments, and the reference's operations unfold
   to the same function; from launch memories that agree on the arguments both results are that function of them. -/
import proofs.«117973_j38328288150260_2_alg».proof.Defs
import proofs.«117973_j38328288150260_2_alg».proof.Proof.Gen.Kernel
import proofs.«117973_j38328288150260_2_alg».proof.Proof.Gen.KernelIdeal
import proofs.«117973_j38328288150260_2_alg».proof.Proof.Gen.ReferenceIdeal
import proofs.«117973_j38328288150260_2_alg».proof.Proof.Gen.Pre_finite_inputs
import proofs.«117973_j38328288150260_2_alg».proof.Proof.Kernel.Run
import proofs.«117973_j38328288150260_2_alg».proof.Proof.Kernel.Kept
import proofs.«117973_j38328288150260_2_alg».proof.Proof.KernelIdeal.Run
import proofs.«117973_j38328288150260_2_alg».proof.Proof.KernelIdeal.Kept
import proofs.«117973_j38328288150260_2_alg».proof.Proof.KernelIdeal.Result
import proofs.«117973_j38328288150260_2_alg».proof.Proof.ReferenceIdeal.Value
import Idealize.ShloMosaic.Adequacy
import Idealize.ShloMosaic.Init

noncomputable section

namespace Cert.Proof

open Idealize.ShloMosaic Idealize.ShloMosaic.TcCoe Idealize.SL.Sem

/-- The program read at the ideal values runs, and every argument ends as launched: each argument is an unscoped buffer,
    so it ends at the last boundary's contents, and no item of the main program writes an argument. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W21_main_arg0 m c),
      (h c _ (Cert.KernelIdeal.Hand.mem_uc Cert.KernelIdeal.main_arg1 (by decide))).trans (Cert.KernelIdeal.Hand.W21_main_arg1 m c),
      (h c _ (Cert.KernelIdeal.Hand.mem_uc Cert.KernelIdeal.main_arg2 (by decide))).trans (Cert.KernelIdeal.Hand.W21_main_arg2 m c),
      (h c _ (Cert.KernelIdeal.Hand.mem_uc Cert.KernelIdeal.main_arg3 (by decide))).trans (Cert.KernelIdeal.Hand.W21_main_arg3 m c),
      (h c _ (Cert.KernelIdeal.Hand.mem_uc Cert.KernelIdeal.main_arg4 (by decide))).trans (Cert.KernelIdeal.Hand.W21_main_arg4 m c),
      (h c _ (Cert.KernelIdeal.Hand.mem_uc Cert.KernelIdeal.main_arg5 (by decide))).trans (Cert.KernelIdeal.Hand.W21_main_arg5 m c),
      (h c _ (Cert.KernelIdeal.Hand.mem_uc Cert.KernelIdeal.main_arg6 (by decide))).trans (Cert.KernelIdeal.Hand.W21_main_arg6 m c),
      (h c _ (Cert.KernelIdeal.Hand.mem_uc Cert.KernelIdeal.main_arg7 (by decide))).trans (Cert.KernelIdeal.Hand.W21_main_arg7 m c)⟩)
    (Cert.KernelIdeal.Hand.run_all (F := Ideal) m ρ)

/-- The same program read at the bit patterns: the run and the kept arguments are stated for any float instance. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W21_main_arg0 m c),
      (h c _ (Cert.Kernel.Hand.mem_uc Cert.Kernel.main_arg1 (by decide))).trans (Cert.Kernel.Hand.W21_main_arg1 m c),
      (h c _ (Cert.Kernel.Hand.mem_uc Cert.Kernel.main_arg2 (by decide))).trans (Cert.Kernel.Hand.W21_main_arg2 m c),
      (h c _ (Cert.Kernel.Hand.mem_uc Cert.Kernel.main_arg3 (by decide))).trans (Cert.Kernel.Hand.W21_main_arg3 m c),
      (h c _ (Cert.Kernel.Hand.mem_uc Cert.Kernel.main_arg4 (by decide))).trans (Cert.Kernel.Hand.W21_main_arg4 m c),
      (h c _ (Cert.Kernel.Hand.mem_uc Cert.Kernel.main_arg5 (by decide))).trans (Cert.Kernel.Hand.W21_main_arg5 m c),
      (h c _ (Cert.Kernel.Hand.mem_uc Cert.Kernel.main_arg6 (by decide))).trans (Cert.Kernel.Hand.W21_main_arg6 m c),
      (h c _ (Cert.Kernel.Hand.mem_uc Cert.Kernel.main_arg7 (by decide))).trans (Cert.Kernel.Hand.W21_main_arg7 m c)⟩)
    (Cert.Kernel.Hand.run_all (F := Bits) m ρ)

/-- The reference is a straight line of host operations: it runs, and writes no argument. -/
theorem frame_ri : Cert.frame_ReferenceIdeal := fun m ρ _ =>
  (θ_run Cert.ReferenceIdeal.defs _ _).mono (fun _ h c => (h c).2) (Cert.ReferenceIdeal.Hand.run (F := Ideal) m ρ)

/-- Over the extended reals both programs end with the one function of the eight arguments at their result: the
    reference by unfolding its operations, the tiled program because each tiled product is the whole product. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c _ (Cert.KernelIdeal.Hand.mem_uc Cert.KernelIdeal.main_v83 (by decide))).trans (Cert.KernelIdeal.Hand.result_eq m c),
      (h c _ (Cert.KernelIdeal.Hand.mem_uc Cert.KernelIdeal.main_arg0 (by decide))).trans (Cert.KernelIdeal.Hand.W21_main_arg0 m c),
      (h c _ (Cert.KernelIdeal.Hand.mem_uc Cert.KernelIdeal.main_arg1 (by decide))).trans (Cert.KernelIdeal.Hand.W21_main_arg1 m c),
      (h c _ (Cert.KernelIdeal.Hand.mem_uc Cert.KernelIdeal.main_arg2 (by decide))).trans (Cert.KernelIdeal.Hand.W21_main_arg2 m c),
      (h c _ (Cert.KernelIdeal.Hand.mem_uc Cert.KernelIdeal.main_arg3 (by decide))).trans (Cert.KernelIdeal.Hand.W21_main_arg3 m c),
      (h c _ (Cert.KernelIdeal.Hand.mem_uc Cert.KernelIdeal.main_arg4 (by decide))).trans (Cert.KernelIdeal.Hand.W21_main_arg4 m c),
      (h c _ (Cert.KernelIdeal.Hand.mem_uc Cert.KernelIdeal.main_arg5 (by decide))).trans (Cert.KernelIdeal.Hand.W21_main_arg5 m c),
      (h c _ (Cert.KernelIdeal.Hand.mem_uc Cert.KernelIdeal.main_arg6 (by decide))).trans (Cert.KernelIdeal.Hand.W21_main_arg6 m c),
      (h c _ (Cert.KernelIdeal.Hand.mem_uc Cert.KernelIdeal.main_arg7 (by decide))).trans (Cert.KernelIdeal.Hand.W21_main_arg7 m c)⟩)
      (Cert.KernelIdeal.Hand.run_all (F := Ideal) m ρ)
  · refine (θ_run Cert.ReferenceIdeal.defs _ _).mono (fun r h c => ⟨(h c).1.trans ?_, (h c).2⟩) (Cert.ReferenceIdeal.Hand.run (F := Ideal) m' ρ')
    rw [Cert.ReferenceIdeal.Hand.value m' c, (hagree c).1, (hagree c).2.1, (hagree c).2.2.1, (hagree c).2.2.2.1, (hagree c).2.2.2.2.1, (hagree c).2.2.2.2.2.1, (hagree c).2.2.2.2.2.2.1, (hagree c).2.2.2.2.2.2.2]

/-- The certificate: the programs' stated side conditions hold, and with them the five claims. -/
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
